-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2x2x128 : Shape := ⟨4, ![256, 2, 2, 128]⟩
abbrev S128 : Shape := ⟨1, ![128]⟩
abbrev S3x3x256x256 : Shape := ⟨4, ![3, 3, 256, 256]⟩
abbrev S256 : Shape := ⟨1, ![256]⟩
abbrev S8x256x32x32 : Shape := ⟨4, ![8, 256, 32, 32]⟩
abbrev S8x128x64x64 : Shape := ⟨4, ![8, 128, 64, 64]⟩
abbrev S_ : Shape := ⟨0, ![]⟩

class Facts : Prop where
  bcast_S_S256x2x2x128 : S_.BroadcastsInDim S256x2x2x128 (![] : Fin 0 → Fin S256x2x2x128.rank)
  reducesTo_S256x2x2x128_S_d0_1_2_3 : S256x2x2x128.ReducesTo [0, 1, 2, 3] S_
  h_S_ : 0 < S_.numel
  bcast_S_S128 : S_.BroadcastsInDim S128 (![] : Fin 0 → Fin S128.rank)
  reducesTo_S128_S_d0 : S128.ReducesTo [0] S_
  bcast_S_S3x3x256x256 : S_.BroadcastsInDim S3x3x256x256 (![] : Fin 0 → Fin S3x3x256x256.rank)
  reducesTo_S3x3x256x256_S_d0_1_2_3 : S3x3x256x256.ReducesTo [0, 1, 2, 3] S_
  bcast_S_S256 : S_.BroadcastsInDim S256 (![] : Fin 0 → Fin S256.rank)
  reducesTo_S256_S_d0 : S256.ReducesTo [0] S_
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  bcast_S_S8x128x64x64 : S_.BroadcastsInDim S8x128x64x64 (![] : Fin 0 → Fin S8x128x64x64.rank)
  reducesTo_S8x128x64x64_S_d0_1_2_3 : S8x128x64x64.ReducesTo [0, 1, 2, 3] S_

variable [Facts]

def fn_part4 {F : FTy → Type} [FloatOps F] (main_arg14 : FVec F S8x256x32x32 .f32) (main_arg15 : FVec F S8x128x64x64 .f32) (main_v63 : IVec S_ 1) (main_v67 : IVec S_ 1) : IVec S_ 1 :=
  let main_v68 : IVec S_ 1 := andi main_v63 main_v67
  let main_v69 : FVec F S8x256x32x32 .f32 := Host.absf main_arg14
  let main_cst_26 : FVec F S_ .f32 := constant S_ .f32 0x7F800000#32
  let main_v70 : FVec F S8x256x32x32 .f32 := broadcastInDim S8x256x32x32 ![] bcast_S_S8x256x32x32 main_cst_26
  let main_v71 : IVec S8x256x32x32 1 := cmpf .olt main_v69 main_v70
  let main_c_27 : IVec S_ 1 := constantI S_ 1 1#1
  let main_v72 : IVec S_ 1 := (fun x v => Host.reduce IntOp.andi x v reducesTo_S8x256x32x32_S_d0_1_2_3 h_S_) main_v71 main_c_27
  let main_v73 : IVec S_ 1 := andi main_v68 main_v72
  let main_v74 : FVec F S8x128x64x64 .f32 := Host.absf main_arg15
  let main_cst_28 : FVec F S_ .f32 := constant S_ .f32 0x7F800000#32
  let main_v75 : FVec F S8x128x64x64 .f32 := broadcastInDim S8x128x64x64 ![] bcast_S_S8x128x64x64 main_cst_28
  let main_v76 : IVec S8x128x64x64 1 := cmpf .olt main_v74 main_v75
  let main_c_29 : IVec S_ 1 := constantI S_ 1 1#1
  let main_v77 : IVec S_ 1 := (fun x v => Host.reduce IntOp.andi x v reducesTo_S8x128x64x64_S_d0_1_2_3 h_S_) main_v76 main_c_29
  let main_v78 : IVec S_ 1 := andi main_v73 main_v77
  main_v78

def fn_part3 {F : FTy → Type} [FloatOps F] (main_arg11 : FVec F S256 .f32) (main_arg12 : FVec F S256 .f32) (main_arg13 : FVec F S256 .f32) (main_arg14 : FVec F S8x256x32x32 .f32) (main_arg15 : FVec F S8x128x64x64 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S256 .f32) (main_arg8 : FVec F S3x3x256x256 .f32) (main_arg9 : FVec F S256 .f32) (main_arg10 : FVec F S256 .f32) (main_arg11 : FVec F S256 .f32) (main_arg12 : FVec F S256 .f32) (main_arg13 : FVec F S256 .f32) (main_arg14 : FVec F S8x256x32x32 .f32) (main_arg15 : FVec F S8x128x64x64 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S3x3x256x256 .f32 := Host.absf main_arg8
  let main_cst_14 : FVec F S_ .f32 := constant S_ .f32 0x7F800000#32
  let main_v40 : FVec F S3x3x256x256 .f32 := broadcastInDim S3x3x256x256 ![] bcast_S_S3x3x256x256 main_cst_14
  let main_v41 : IVec S3x3x256x256 1 := cmpf .olt main_v39 main_v40
  let main_c_15 : IVec S_ 1 := constantI S_ 1 1#1
  let main_v42 : IVec S_ 1 := (fun x v => Host.reduce IntOp.andi x v reducesTo_S3x3x256x256_S_d0_1_2_3 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_v48 main_v49 main_v50

def fn_part1 {F : FTy → Type} [FloatOps F] (main_arg4 : FVec F S256 .f32) (main_arg5 : FVec F S256 .f32) (main_arg6 : FVec F S256 .f32) (main_arg7 : FVec F S256 .f32) (main_arg8 : FVec F S3x3x256x256 .f32) (main_arg9 : FVec F S256 .f32) (main_arg10 : FVec F S256 .f32) (main_arg11 : FVec F S256 .f32) (main_arg12 : FVec F S256 .f32) (main_arg13 : FVec F S256 .f32) (main_arg14 : FVec F S8x256x32x32 .f32) (main_arg15 : FVec F S8x128x64x64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S256x2x2x128 .f32) (main_arg1 : FVec F S128 .f32) (main_arg2 : FVec F S3x3x256x256 .f32) (main_arg3 : FVec F S256 .f32) (main_arg4 : FVec F S256 .f32) (main_arg5 : FVec F S256 .f32) (main_arg6 : FVec F S256 .f32) (main_arg7 : FVec F S256 .f32) (main_arg8 : FVec F S3x3x256x256 .f32) (main_arg9 : FVec F S256 .f32) (main_arg10 : FVec F S256 .f32) (main_arg11 : FVec F S256 .f32) (main_arg12 : FVec F S256 .f32) (main_arg13 : FVec F S256 .f32) (main_arg14 : FVec F S8x256x32x32 .f32) (main_arg15 : FVec F S8x128x64x64 .f32) : IVec S_ 1 :=
  let main_v0 : FVec F S256x2x2x128 .f32 := Host.absf main_arg0
  let main_cst : FVec F S_ .f32 := constant S_ .f32 0x7F800000#32
  let main_v1 : FVec F S256x2x2x128 .f32 := broadcastInDim S256x2x2x128 ![] bcast_S_S256x2x2x128 main_cst
  let main_v2 : IVec S256x2x2x128 1 := cmpf .olt main_v0 main_v1
  let main_c : IVec S_ 1 := constantI S_ 1 1#1
  let main_v3 : IVec S_ 1 := (fun x v => Host.reduce IntOp.andi x v reducesTo_S256x2x2x128_S_d0_1_2_3 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S3x3x256x256 .f32 := Host.absf main_arg2
  let main_cst_2 : FVec F S_ .f32 := constant S_ .f32 0x7F800000#32
  let main_v10 : FVec F S3x3x256x256 .f32 := broadcastInDim S3x3x256x256 ![] bcast_S_S3x3x256x256 main_cst_2
  let main_v11 : IVec S3x3x256x256 1 := cmpf .olt main_v9 main_v10
  let main_c_3 : IVec S_ 1 := constantI S_ 1 1#1
  let main_v12 : IVec S_ 1 := (fun x v => Host.reduce IntOp.andi x v reducesTo_S3x3x256x256_S_d0_1_2_3 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S256x2x2x128 : Shape := ⟨4, ![256, 2, 2, 128]⟩
abbrev S128 : Shape := ⟨1, ![128]⟩
abbrev S3x3x256x256 : Shape := ⟨4, ![3, 3, 256, 256]⟩
abbrev S256 : Shape := ⟨1, ![256]⟩
abbrev S8x256x32x32 : Shape := ⟨4, ![8, 256, 32, 32]⟩
abbrev S8x128x64x64 : Shape := ⟨4, ![8, 128, 64, 64]⟩
abbrev S8x256x1024 : Shape := ⟨3, ![8, 256, 1024]⟩
abbrev S8x64x64x128 : Shape := ⟨4, ![8, 64, 64, 128]⟩
abbrev S8x32x2x64x128 : Shape := ⟨5, ![8, 32, 2, 64, 128]⟩
abbrev S256x512 : Shape := ⟨2, ![256, 512]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S9x256x256 : Shape := ⟨3, ![9, 256, 256]⟩
abbrev S_ : Shape := ⟨0, ![]⟩
abbrev S1x256 : Shape := ⟨2, ![1, 256]⟩
abbrev S8x64x64x256 : Shape := ⟨4, ![8, 64, 64, 256]⟩
abbrev S1x256x1024 : Shape := ⟨3, ![1, 256, 1024]⟩
abbrev S1x32x2x64x128 : Shape := ⟨5, ![1, 32, 2, 64, 128]⟩
abbrev S1x64x64x256 : Shape := ⟨4, ![1, 64, 64, 256]⟩
abbrev S34x2x66x256 : Shape := ⟨4, ![34, 2, 66, 256]⟩
abbrev S68x66x256 : Shape := ⟨3, ![68, 66, 256]⟩
abbrev S1x32x1x64x128 : Shape := ⟨5, ![1, 32, 1, 64, 128]⟩
abbrev S32x64x128 : Shape := ⟨3, ![32, 64, 128]⟩
abbrev S32x1x64x128 : Shape := ⟨4, ![32, 1, 64, 128]⟩
abbrev S32x1x66x128 : Shape := ⟨4, ![32, 1, 66, 128]⟩
abbrev S256x1024 : Shape := ⟨2, ![256, 1024]⟩
abbrev S1024x512 : Shape := ⟨2, ![1024, 512]⟩
abbrev S1024x256 : Shape := ⟨2, ![1024, 256]⟩
abbrev S4488x256 : Shape := ⟨2, ![4488, 256]⟩
abbrev S4224x256 : Shape := ⟨2, ![4224, 256]⟩
abbrev S1x256x256 : Shape := ⟨3, ![1, 256, 256]⟩
abbrev S256x256 : Shape := ⟨2, ![256, 256]⟩
abbrev S64x66x256 : Shape := ⟨3, ![64, 66, 256]⟩
abbrev S64x64x256 : Shape := ⟨3, ![64, 64, 256]⟩
abbrev S8x256x64x64 : Shape := ⟨4, ![8, 256, 64, 64]⟩

abbrev nBuf : Space → Nat
  | .hbm => 53
  | .vmem => 16
  | .smem => 0
  | _ => 0

abbrev bufTy : (tb : Table) → Fin (tcTables nBuf tb) → BufTy
  | .hbm, ⟨0, _⟩ => ⟨S256x2x2x128, .f32⟩
  | .hbm, ⟨1, _⟩ => ⟨S128, .f32⟩
  | .hbm, ⟨2, _⟩ => ⟨S3x3x256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S3x3x256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S8x256x32x32, .f32⟩
  | .hbm, ⟨15, _⟩ => ⟨S8x128x64x64, .f32⟩
  | .hbm, ⟨16, _⟩ => ⟨S8x256x32x32, .bf16⟩
  | .hbm, ⟨17, _⟩ => ⟨S8x256x1024, .bf16⟩
  | .hbm, ⟨18, _⟩ => ⟨S8x64x64x128, .f32⟩
  | .hbm, ⟨19, _⟩ => ⟨S8x64x64x128, .bf16⟩
  | .hbm, ⟨20, _⟩ => ⟨S8x32x2x64x128, .bf16⟩
  | .hbm, ⟨21, _⟩ => ⟨S256x2x2x128, .bf16⟩
  | .hbm, ⟨22, _⟩ => ⟨S256x512, .bf16⟩
  | .hbm, ⟨23, _⟩ => ⟨S1x128, .f32⟩
  | .hbm, ⟨24, _⟩ => ⟨S4x128, .f32⟩
  | .hbm, ⟨25, _⟩ => ⟨S512, .f32⟩
  | .hbm, ⟨26, _⟩ => ⟨S1x512, .f32⟩
  | .hbm, ⟨27, _⟩ => ⟨S3x3x256x256, .bf16⟩
  | .hbm, ⟨28, _⟩ => ⟨S9x256x256, .bf16⟩
  | .hbm, ⟨29, _⟩ => ⟨S3x3x256x256, .bf16⟩
  | .hbm, ⟨30, _⟩ => ⟨S9x256x256, .bf16⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S1x256, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S1x256, .f32⟩
  | .hbm, ⟨41, _⟩ => ⟨S_, .f32⟩
  | .hbm, ⟨42, _⟩ => ⟨S256, .f32⟩
  | .hbm, ⟨43, _⟩ => ⟨S256, .f32⟩
  | .hbm, ⟨44, _⟩ => ⟨S256, .f32⟩
  | .hbm, ⟨45, _⟩ => ⟨S256, .f32⟩
  | .hbm, ⟨46, _⟩ => ⟨S1x256, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S8x64x64x256, .f32⟩
  | .hbm, ⟨52, _⟩ => ⟨S8x256x64x64, .f32⟩
  | .local _ .vmem, ⟨0, _⟩ => ⟨S1x256x1024, .bf16⟩
  | .local _ .vmem, ⟨1, _⟩ => ⟨S1x256x1024, .bf16⟩
  | .local _ .vmem, ⟨2, _⟩ => ⟨S1x32x2x64x128, .bf16⟩
  | .local _ .vmem, ⟨3, _⟩ => ⟨S1x32x2x64x128, .bf16⟩
  | .local _ .vmem, ⟨4, _⟩ => ⟨S256x512, .bf16⟩
  | .local _ .vmem, ⟨5, _⟩ => ⟨S1x512, .f32⟩
  | .local _ .vmem, ⟨6, _⟩ => ⟨S9x256x256, .bf16⟩
  | .local _ .vmem, ⟨7, _⟩ => ⟨S1x256, .f32⟩
  | .local _ .vmem, ⟨8, _⟩ => ⟨S1x256, .f32⟩
  | .local _ .vmem, ⟨9, _⟩ => ⟨S9x256x256, .bf16⟩
  | .local _ .vmem, ⟨10, _⟩ => ⟨S1x256, .f32⟩
  | .local _ .vmem, ⟨11, _⟩ => ⟨S1x256, .f32⟩
  | .local _ .vmem, ⟨12, _⟩ => ⟨S1x64x64x256, .f32⟩
  | .local _ .vmem, ⟨13, _⟩ => ⟨S1x64x64x256, .f32⟩
  | .local _ .vmem, ⟨14, _⟩ => ⟨S34x2x66x256, .bf16⟩
  | .local _ .vmem, ⟨15, _⟩ => ⟨S68x66x256, .bf16⟩
  | _, _ => ⟨S256x2x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x2x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S9x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S8x256x32x32_S8x256x1024 : S8x256x32x32.ShapeCasts S8x256x1024
  transposes_S8x128x64x64_S8x64x64x128_0_2_3_1 : S8x128x64x64.Transposes [0, 2, 3, 1] S8x64x64x128
  shapeCasts_S8x64x64x128_S8x32x2x64x128 : S8x64x64x128.ShapeCasts S8x32x2x64x128
  shapeCasts_S256x2x2x128_S256x512 : S256x2x2x128.ShapeCasts S256x512
  shapeCasts_S128_S1x128 : S128.ShapeCasts S1x128
  bcast_S1x128_S4x128_0_1 : S1x128.BroadcastsInDim S4x128 (![0, 1] : Fin 2 → Fin S4x128.rank)
  shapeCasts_S4x128_S512 : S4x128.ShapeCasts S512
  shapeCasts_S512_S1x512 : S512.ShapeCasts S1x512
  shapeCasts_S3x3x256x256_S9x256x256 : S3x3x256x256.ShapeCasts S9x256x256
  bcast_S_S256 : S_.BroadcastsInDim S256 (![] : Fin 0 → Fin S256.rank)
  shapeCasts_S256_S1x256 : S256.ShapeCasts S1x256
  inb_S34x2x66x256_S34x2x66x256_0_0_0_0 : ∀ a, (![0, 0, 0, 0] : Fin 4 → Nat) a + S34x2x66x256.size a ≤ S34x2x66x256.size a
  h_S34x2x66x256 : 0 < S34x2x66x256.numel
  shapeCasts_S34x2x66x256_S34x2x66x256 : S34x2x66x256.ShapeCasts S34x2x66x256
  packedbf16_S34x2x66x256_S34x2x66x256_0_0_0_0 : (Rect.unit (s := S34x2x66x256) ![0, 0, 0, 0] S34x2x66x256.size inb_S34x2x66x256_S34x2x66x256_0_0_0_0).PackedRows (EltTy.packing .bf16)
  inb_S1x32x2x64x128_S1x32x1x64x128_0_0_0_0_0 : ∀ a, (![0, 0, 0, 0, 0] : Fin 5 → Nat) a + S1x32x1x64x128.size a ≤ S1x32x2x64x128.size a
  h_S1x32x1x64x128 : 0 < S1x32x1x64x128.numel
  shapeCasts_S1x32x1x64x128_S32x64x128 : S1x32x1x64x128.ShapeCasts S32x64x128
  inb_S34x2x66x256_S32x1x64x128_0_1_1_0 : ∀ a, (![0, 1, 1, 0] : Fin 4 → Nat) a + S32x1x64x128.size a ≤ S34x2x66x256.size a
  h_S32x1x64x128 : 0 < S32x1x64x128.numel
  shapeCasts_S32x1x64x128_S32x64x128 : S32x1x64x128.ShapeCasts S32x64x128
  shapeCasts_S32x64x128_S32x1x64x128 : S32x64x128.ShapeCasts S32x1x64x128
  inb_S34x2x66x256_S32x1x66x128_0_1_0_0 : ∀ a, (![0, 1, 0, 0] : Fin 4 → Nat) a + S32x1x66x128.size a ≤ S34x2x66x256.size a
  h_S32x1x66x128 : 0 < S32x1x66x128.numel
  slices_S32x1x66x128_S32x1x64x128_0_0_1_0 : S32x1x66x128.Slices ![0, 0, 1, 0] S32x1x64x128
  packedbf16_S34x2x66x256_S32x1x66x128_0_1_0_0 : (Rect.unit (s := S34x2x66x256) ![0, 1, 0, 0] S32x1x66x128.size inb_S34x2x66x256_S32x1x66x128_0_1_0_0).PackedRows (EltTy.packing .bf16)
  inb_S1x32x2x64x128_S1x32x1x64x128_0_0_1_0_0 : ∀ a, (![0, 0, 1, 0, 0] : Fin 5 → Nat) a + S1x32x1x64x128.size a ≤ S1x32x2x64x128.size a
  inb_S34x2x66x256_S32x1x64x128_1_0_1_0 : ∀ a, (![1, 0, 1, 0] : Fin 4 → Nat) a + S32x1x64x128.size a ≤ S34x2x66x256.size a
  inb_S34x2x66x256_S32x1x66x128_1_0_0_0 : ∀ a, (![1, 0, 0, 0] : Fin 4 → Nat) a + S32x1x66x128.size a ≤ S34x2x66x256.size a
  packedbf16_S34x2x66x256_S32x1x66x128_1_0_0_0 : (Rect.unit (s := S34x2x66x256) ![1, 0, 0, 0] S32x1x66x128.size inb_S34x2x66x256_S32x1x66x128_1_0_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x256 : S1024x512.Slices ![0, 0] S1024x256
  shapeCasts_S1024x256_S32x64x128 : S1024x256.ShapeCasts S32x64x128
  inb_S34x2x66x256_S32x1x64x128_0_1_1_128 : ∀ a, (![0, 1, 1, 128] : Fin 4 → Nat) a + S32x1x64x128.size a ≤ S34x2x66x256.size a
  inb_S34x2x66x256_S32x1x66x128_0_1_0_128 : ∀ a, (![0, 1, 0, 128] : Fin 4 → Nat) a + S32x1x66x128.size a ≤ S34x2x66x256.size a
  packedbf16_S34x2x66x256_S32x1x66x128_0_1_0_128 : (Rect.unit (s := S34x2x66x256) ![0, 1, 0, 128] S32x1x66x128.size inb_S34x2x66x256_S32x1x66x128_0_1_0_128).PackedRows (EltTy.packing .bf16)
  slices_S1024x512_o0_256_S1024x256 : S1024x512.Slices ![0, 256] S1024x256
  inb_S34x2x66x256_S32x1x64x128_1_0_1_128 : ∀ a, (![1, 0, 1, 128] : Fin 4 → Nat) a + S32x1x64x128.size a ≤ S34x2x66x256.size a
  inb_S34x2x66x256_S32x1x66x128_1_0_0_128 : ∀ a, (![1, 0, 0, 128] : Fin 4 → Nat) a + S32x1x66x128.size a ≤ S34x2x66x256.size a
  packedbf16_S34x2x66x256_S32x1x66x128_1_0_0_128 : (Rect.unit (s := S34x2x66x256) ![1, 0, 0, 128] S32x1x66x128.size inb_S34x2x66x256_S32x1x66x128_1_0_0_128).PackedRows (EltTy.packing .bf16)
  shapeCasts_S34x2x66x256_S4488x256 : S34x2x66x256.ShapeCasts S4488x256
  slices_S4488x256_o0_0_S4224x256 : S4488x256.Slices ![0, 0] S4224x256
  inb_S9x256x256_S1x256x256_0_0_0 : ∀ a, (![0, 0, 0] : Fin 3 → Nat) a + S1x256x256.size a ≤ S9x256x256.size a
  h_S1x256x256 : 0 < S1x256x256.numel
  shapeCasts_S1x256x256_S256x256 : S1x256x256.ShapeCasts S256x256
  slices_S4488x256_o1_0_S4224x256 : S4488x256.Slices ![1, 0] S4224x256
  inb_S9x256x256_S1x256x256_1_0_0 : ∀ a, (![1, 0, 0] : Fin 3 → Nat) a + S1x256x256.size a ≤ S9x256x256.size a
  slices_S4488x256_o2_0_S4224x256 : S4488x256.Slices ![2, 0] S4224x256
  inb_S9x256x256_S1x256x256_2_0_0 : ∀ a, (![2, 0, 0] : Fin 3 → Nat) a + S1x256x256.size a ≤ S9x256x256.size a
  slices_S4488x256_o66_0_S4224x256 : S4488x256.Slices ![66, 0] S4224x256
  inb_S9x256x256_S1x256x256_3_0_0 : ∀ a, (![3, 0, 0] : Fin 3 → Nat) a + S1x256x256.size a ≤ S9x256x256.size a
  slices_S4488x256_o67_0_S4224x256 : S4488x256.Slices ![67, 0] S4224x256
  inb_S9x256x256_S1x256x256_4_0_0 : ∀ a, (![4, 0, 0] : Fin 3 → Nat) a + S1x256x256.size a ≤ S9x256x256.size a
  slices_S4488x256_o68_0_S4224x256 : S4488x256.Slices ![68, 0] S4224x256
  inb_S9x256x256_S1x256x256_5_0_0 : ∀ a, (![5, 0, 0] : Fin 3 → Nat) a + S1x256x256.size a ≤ S9x256x256.size a
  slices_S4488x256_o132_0_S4224x256 : S4488x256.Slices ![132, 0] S4224x256
  inb_S9x256x256_S1x256x256_6_0_0 : ∀ a, (![6, 0, 0] : Fin 3 → Nat) a + S1x256x256.size a ≤ S9x256x256.size a
  slices_S4488x256_o133_0_S4224x256 : S4488x256.Slices ![133, 0] S4224x256
  inb_S9x256x256_S1x256x256_7_0_0 : ∀ a, (![7, 0, 0] : Fin 3 → Nat) a + S1x256x256.size a ≤ S9x256x256.size a
  slices_S4488x256_o134_0_S4224x256 : S4488x256.Slices ![134, 0] S4224x256
  inb_S9x256x256_S1x256x256_8_0_0 : ∀ a, (![8, 0, 0] : Fin 3 → Nat) a + S1x256x256.size a ≤ S9x256x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4224x256 : S1x256.Broadcasts S4224x256
  inb_S68x66x256_S68x66x256_0_0_0 : ∀ a, (![0, 0, 0] : Fin 3 → Nat) a + S68x66x256.size a ≤ S68x66x256.size a
  h_S68x66x256 : 0 < S68x66x256.numel
  shapeCasts_S68x66x256_S68x66x256 : S68x66x256.ShapeCasts S68x66x256
  packedbf16_S68x66x256_S68x66x256_0_0_0 : (Rect.unit (s := S68x66x256) ![0, 0, 0] S68x66x256.size inb_S68x66x256_S68x66x256_0_0_0).PackedRows (EltTy.packing .bf16)
  shapeCasts_S4224x256_S64x66x256 : S4224x256.ShapeCasts S64x66x256
  slices_S64x66x256_o0_0_0_S64x64x256 : S64x66x256.Slices ![0, 0, 0] S64x64x256
  inb_S68x66x256_S64x64x256_1_1_0 : ∀ a, (![1, 1, 0] : Fin 3 → Nat) a + S64x64x256.size a ≤ S68x66x256.size a
  h_S64x64x256 : 0 < S64x64x256.numel
  shapeCasts_S64x64x256_S64x64x256 : S64x64x256.ShapeCasts S64x64x256
  inb_S68x66x256_S64x66x256_1_0_0 : ∀ a, (![1, 0, 0] : Fin 3 → Nat) a + S64x66x256.size a ≤ S68x66x256.size a
  h_S64x66x256 : 0 < S64x66x256.numel
  slices_S64x66x256_S64x64x256_0_1_0 : S64x66x256.Slices ![0, 1, 0] S64x64x256
  packedbf16_S68x66x256_S64x66x256_1_0_0 : (Rect.unit (s := S68x66x256) ![1, 0, 0] S64x66x256.size inb_S68x66x256_S64x66x256_1_0_0).PackedRows (EltTy.packing .bf16)
  shapeCasts_S68x66x256_S4488x256 : S68x66x256.ShapeCasts S4488x256
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S1x64x64x256 : S64x64x256.ShapeCasts S1x64x64x256
  transposes_S8x64x64x256_S8x256x64x64_0_3_1_2 : S8x64x64x256.Transposes [0, 3, 1, 2] S8x256x64x64
  dot_S256x1024_S256x512_S1024x512_0_0_1_1_n_n_wf : DotDims.WF S256x1024 S256x512 S1024x512 [0] [0] [1] [1] [] []
  dot_S4224x256_S256x256_S4224x256_1_0_0_1_n_n_wf : DotDims.WF S4224x256 S256x256 S4224x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x256x1024.size a
  hwx0_0 : ∀ i : grid0.Coords, EltTy.bits .bf16 = 32 ∨ (Rect.block (s := S8x256x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x2x64x128.size a ≤ S8x32x2x64x128.size a
  hwx0_1 : ∀ i : grid0.Coords, EltTy.bits .bf16 = 32 ∨ (Rect.block (s := S8x32x2x64x128) S1x32x2x64x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x256x256.size a ≤ S9x256x256.size a
  hwx0_4 : ∀ i : grid0.Coords, EltTy.bits .bf16 = 32 ∨ (Rect.block (s := S9x256x256) S9x256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S9x256x256.size a ≤ S9x256x256.size a
  hwx0_7 : ∀ i : grid0.Coords, EltTy.bits .bf16 = 32 ∨ (Rect.block (s := S9x256x256) S9x256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x64x256.size a ≤ S8x64x64x256.size a
  hwx0_10 : ∀ i : grid0.Coords, EltTy.bits .f32 = 32 ∨ (Rect.block (s := S8x64x64x256) S1x64x64x256.size (cc0_transform_10 i) (hinb0_10 i)).WholeWords (EltTy.packing .f32)

variable [Facts₀]

def dot_S256x1024_S256x512_S1024x512_0_0_1_1_n_n : DotDims S256x1024 S256x512 S1024x512 where
  lhsContracting := [0]
  rhsContracting := [0]
  lhsNonContracting := [1]
  rhsNonContracting := [1]
  lhsBatch := []
  rhsBatch := []
  wf := dot_S256x1024_S256x512_S1024x512_0_0_1_1_n_n_wf
def dot_S4224x256_S256x256_S4224x256_1_0_0_1_n_n : DotDims S4224x256 S256x256 S4224x256 where
  lhsContracting := [1]
  rhsContracting := [0]
  lhsNonContracting := [0]
  rhsNonContracting := [1]
  lhsBatch := []
  rhsBatch := []
  wf := dot_S4224x256_S256x256_S4224x256_1_0_0_1_n_n_wf

abbrev win0_0 : Pipeline.Window sig grid0 :=
  Pipeline.Window.ofSpec (Memref.whole main_v1) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x32x2x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S9x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S9x256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S1x64x64x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S256x2x2x128 : Shape := ⟨4, ![256, 2, 2, 128]⟩
abbrev S128 : Shape := ⟨1, ![128]⟩
abbrev S3x3x256x256 : Shape := ⟨4, ![3, 3, 256, 256]⟩
abbrev S256 : Shape := ⟨1, ![256]⟩
abbrev S8x256x32x32 : Shape := ⟨4, ![8, 256, 32, 32]⟩
abbrev S8x128x64x64 : Shape := ⟨4, ![8, 128, 64, 64]⟩
abbrev S8x32x32x256 : Shape := ⟨4, ![8, 32, 32, 256]⟩
abbrev S8x64x64x128 : Shape := ⟨4, ![8, 64, 64, 128]⟩
abbrev S256x512 : Shape := ⟨2, ![256, 512]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S8x32x2x32x256 : Shape := ⟨5, ![8, 32, 2, 32, 256]⟩
abbrev S1x32x32x256 : Shape := ⟨4, ![1, 32, 32, 256]⟩
abbrev S1x32x2x32x256 : Shape := ⟨5, ![1, 32, 2, 32, 256]⟩
abbrev S32x32x256 : Shape := ⟨3, ![32, 32, 256]⟩
abbrev S1024x256 : Shape := ⟨2, ![1024, 256]⟩
abbrev S1024x512 : Shape := ⟨2, ![1024, 512]⟩
abbrev S1x32x1x32x256 : Shape := ⟨5, ![1, 32, 1, 32, 256]⟩
abbrev S_ : Shape := ⟨0, ![]⟩
abbrev S3x3x128x256 : Shape := ⟨4, ![3, 3, 128, 256]⟩
abbrev S9x128x256 : Shape := ⟨3, ![9, 128, 256]⟩
abbrev S9x256x256 : Shape := ⟨3, ![9, 256, 256]⟩
abbrev S1x256 : Shape := ⟨2, ![1, 256]⟩
abbrev S8x64x64x256 : Shape := ⟨4, ![8, 64, 64, 256]⟩
abbrev S1x64x64x128 : Shape := ⟨4, ![1, 64, 64, 128]⟩
abbrev S1x64x64x256 : Shape := ⟨4, ![1, 64, 64, 256]⟩
abbrev S66x80x128 : Shape := ⟨3, ![66, 80, 128]⟩
abbrev S66x80x256 : Shape := ⟨3, ![66, 80, 256]⟩
abbrev S64x64x128 : Shape := ⟨3, ![64, 64, 128]⟩
abbrev S4096x256 : Shape := ⟨2, ![4096, 256]⟩
abbrev S4096x128 : Shape := ⟨2, ![4096, 128]⟩
abbrev S1x128x256 : Shape := ⟨3, ![1, 128, 256]⟩
abbrev S128x256 : Shape := ⟨2, ![128, 256]⟩
abbrev S64x64x256 : Shape := ⟨3, ![64, 64, 256]⟩
abbrev S1x256x256 : Shape := ⟨3, ![1, 256, 256]⟩
abbrev S256x256 : Shape := ⟨2, ![256, 256]⟩
abbrev S8x256x64x64 : Shape := ⟨4, ![8, 256, 64, 64]⟩

abbrev nBuf : Space → Nat
  | .hbm => 52
  | .vmem => 22
  | .smem => 0
  | _ => 0

abbrev bufTy : (tb : Table) → Fin (tcTables nBuf tb) → BufTy
  | .hbm, ⟨0, _⟩ => ⟨S256x2x2x128, .f32⟩
  | .hbm, ⟨1, _⟩ => ⟨S128, .f32⟩
  | .hbm, ⟨2, _⟩ => ⟨S3x3x256x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S3x3x256x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S8x256x32x32, .f32⟩
  | .hbm, ⟨15, _⟩ => ⟨S8x128x64x64, .f32⟩
  | .hbm, ⟨16, _⟩ => ⟨S8x32x32x256, .f32⟩
  | .hbm, ⟨17, _⟩ => ⟨S8x64x64x128, .f32⟩
  | .hbm, ⟨18, _⟩ => ⟨S256x512, .f32⟩
  | .hbm, ⟨19, _⟩ => ⟨S1x128, .f32⟩
  | .hbm, ⟨20, _⟩ => ⟨S4x128, .f32⟩
  | .hbm, ⟨21, _⟩ => ⟨S512, .f32⟩
  | .hbm, ⟨22, _⟩ => ⟨S1x512, .f32⟩
  | .hbm, ⟨23, _⟩ => ⟨S8x32x2x32x256, .f32⟩
  | .hbm, ⟨24, _⟩ => ⟨S8x64x64x128, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S3x3x128x256, .f32⟩
  | .hbm, ⟨42, _⟩ => ⟨S9x128x256, .f32⟩
  | .hbm, ⟨43, _⟩ => ⟨S3x3x128x256, .f32⟩
  | .hbm, ⟨44, _⟩ => ⟨S9x128x256, .f32⟩
  | .hbm, ⟨45, _⟩ => ⟨S9x256x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S8x64x64x256, .f32⟩
  | .hbm, ⟨51, _⟩ => ⟨S8x256x64x64, .f32⟩
  | .local _ .vmem, ⟨0, _⟩ => ⟨S1x32x32x256, .f32⟩
  | .local _ .vmem, ⟨1, _⟩ => ⟨S1x32x32x256, .f32⟩
  | .local _ .vmem, ⟨2, _⟩ => ⟨S256x512, .f32⟩
  | .local _ .vmem, ⟨3, _⟩ => ⟨S1x512, .f32⟩
  | .local _ .vmem, ⟨4, _⟩ => ⟨S1x32x2x32x256, .f32⟩
  | .local _ .vmem, ⟨5, _⟩ => ⟨S1x32x2x32x256, .f32⟩
  | .local _ .vmem, ⟨6, _⟩ => ⟨S1x64x64x128, .f32⟩
  | .local _ .vmem, ⟨7, _⟩ => ⟨S1x64x64x128, .f32⟩
  | .local _ .vmem, ⟨8, _⟩ => ⟨S1x64x64x128, .f32⟩
  | .local _ .vmem, ⟨9, _⟩ => ⟨S1x64x64x128, .f32⟩
  | .local _ .vmem, ⟨10, _⟩ => ⟨S9x128x256, .f32⟩
  | .local _ .vmem, ⟨11, _⟩ => ⟨S9x128x256, .f32⟩
  | .local _ .vmem, ⟨12, _⟩ => ⟨S1x256, .f32⟩
  | .local _ .vmem, ⟨13, _⟩ => ⟨S1x256, .f32⟩
  | .local _ .vmem, ⟨14, _⟩ => ⟨S9x256x256, .f32⟩
  | .local _ .vmem, ⟨15, _⟩ => ⟨S1x256, .f32⟩
  | .local _ .vmem, ⟨16, _⟩ => ⟨S1x256, .f32⟩
  | .local _ .vmem, ⟨17, _⟩ => ⟨S1x64x64x256, .f32⟩
  | .local _ .vmem, ⟨18, _⟩ => ⟨S1x64x64x256, .f32⟩
  | .local _ .vmem, ⟨19, _⟩ => ⟨S66x80x128, .f32⟩
  | .local _ .vmem, ⟨20, _⟩ => ⟨S66x80x128, .f32⟩
  | .local _ .vmem, ⟨21, _⟩ => ⟨S66x80x256, .f32⟩
  | _, _ => ⟨S256x2x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := ⟨2, ![8, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x32x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x2x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9x128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S9x256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x64x64x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  transposes_S8x256x32x32_S8x32x32x256_0_2_3_1 : S8x256x32x32.Transposes [0, 2, 3, 1] S8x32x32x256
  transposes_S8x128x64x64_S8x64x64x128_0_2_3_1 : S8x128x64x64.Transposes [0, 2, 3, 1] S8x64x64x128
  shapeCasts_S256x2x2x128_S256x512 : S256x2x2x128.ShapeCasts S256x512
  shapeCasts_S128_S1x128 : S128.ShapeCasts S1x128
  bcast_S1x128_S4x128_0_1 : S1x128.BroadcastsInDim S4x128 (![0, 1] : Fin 2 → Fin S4x128.rank)
  shapeCasts_S4x128_S512 : S4x128.ShapeCasts S512
  shapeCasts_S512_S1x512 : S512.ShapeCasts S1x512
  inb_S1x32x32x256_S1x32x32x256_0_0_0_0 : ∀ a, (![0, 0, 0, 0] : Fin 4 → Nat) a + S1x32x32x256.size a ≤ S1x32x32x256.size a
  h_S1x32x32x256 : 0 < S1x32x32x256.numel
  shapeCasts_S1x32x32x256_S32x32x256 : S1x32x32x256.ShapeCasts S32x32x256
  shapeCasts_S32x32x256_S1024x256 : S32x32x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x256 : S1024x512.Slices ![0, 0] S1024x256
  shapeCasts_S1024x256_S32x32x256 : S1024x256.ShapeCasts S32x32x256
  inb_S1x32x2x32x256_S1x32x1x32x256_0_0_0_0_0 : ∀ a, (![0, 0, 0, 0, 0] : Fin 5 → Nat) a + S1x32x1x32x256.size a ≤ S1x32x2x32x256.size a
  h_S1x32x1x32x256 : 0 < S1x32x1x32x256.numel
  shapeCasts_S1x32x1x32x256_S32x32x256 : S1x32x1x32x256.ShapeCasts S32x32x256
  shapeCasts_S32x32x256_S1x32x1x32x256 : S32x32x256.ShapeCasts S1x32x1x32x256
  slices_S1024x512_o0_256_S1024x256 : S1024x512.Slices ![0, 256] S1024x256
  inb_S1x32x2x32x256_S1x32x1x32x256_0_0_1_0_0 : ∀ a, (![0, 0, 1, 0, 0] : Fin 5 → Nat) a + S1x32x1x32x256.size a ≤ S1x32x2x32x256.size a
  shapeCasts_S8x32x2x32x256_S8x64x64x128 : S8x32x2x32x256.ShapeCasts S8x64x64x128
  bcast_S_S256 : S_.BroadcastsInDim S256 (![] : Fin 0 → Fin S256.rank)
  slices_S3x3x256x256_S3x3x128x256_0_0_0_0 : S3x3x256x256.Slices ![0, 0, 0, 0] S3x3x128x256
  shapeCasts_S3x3x128x256_S9x128x256 : S3x3x128x256.ShapeCasts S9x128x256
  slices_S3x3x256x256_S3x3x128x256_0_0_128_0 : S3x3x256x256.Slices ![0, 0, 128, 0] S3x3x128x256
  shapeCasts_S3x3x256x256_S9x256x256 : S3x3x256x256.ShapeCasts S9x256x256
  shapeCasts_S256_S1x256 : S256.ShapeCasts S1x256
  inb_S66x80x128_S66x80x128_0_0_0 : ∀ a, (![0, 0, 0] : Fin 3 → Nat) a + S66x80x128.size a ≤ S66x80x128.size a
  h_S66x80x128 : 0 < S66x80x128.numel
  shapeCasts_S66x80x128_S66x80x128 : S66x80x128.ShapeCasts S66x80x128
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  inb_S66x80x128_S64x64x128_1_8_0 : ∀ a, (![1, 8, 0] : Fin 3 → Nat) a + S64x64x128.size a ≤ S66x80x128.size a
  h_S64x64x128 : 0 < S64x64x128.numel
  shapeCasts_S64x64x128_S64x64x128 : S64x64x128.ShapeCasts S64x64x128
  slices_S66x80x128_o0_7_0_S64x64x128 : S66x80x128.Slices ![0, 7, 0] S64x64x128
  shapeCasts_S64x64x128_S4096x128 : S64x64x128.ShapeCasts S4096x128
  inb_S9x128x256_S1x128x256_0_0_0 : ∀ a, (![0, 0, 0] : Fin 3 → Nat) a + S1x128x256.size a ≤ S9x128x256.size a
  h_S1x128x256 : 0 < S1x128x256.numel
  shapeCasts_S1x128x256_S128x256 : S1x128x256.ShapeCasts S128x256
  slices_S66x80x128_o0_8_0_S64x64x128 : S66x80x128.Slices ![0, 8, 0] S64x64x128
  inb_S9x128x256_S1x128x256_1_0_0 : ∀ a, (![1, 0, 0] : Fin 3 → Nat) a + S1x128x256.size a ≤ S9x128x256.size a
  slices_S66x80x128_o0_9_0_S64x64x128 : S66x80x128.Slices ![0, 9, 0] S64x64x128
  inb_S9x128x256_S1x128x256_2_0_0 : ∀ a, (![2, 0, 0] : Fin 3 → Nat) a + S1x128x256.size a ≤ S9x128x256.size a
  slices_S66x80x128_o1_7_0_S64x64x128 : S66x80x128.Slices ![1, 7, 0] S64x64x128
  inb_S9x128x256_S1x128x256_3_0_0 : ∀ a, (![3, 0, 0] : Fin 3 → Nat) a + S1x128x256.size a ≤ S9x128x256.size a
  slices_S66x80x128_o1_8_0_S64x64x128 : S66x80x128.Slices ![1, 8, 0] S64x64x128
  inb_S9x128x256_S1x128x256_4_0_0 : ∀ a, (![4, 0, 0] : Fin 3 → Nat) a + S1x128x256.size a ≤ S9x128x256.size a
  slices_S66x80x128_o1_9_0_S64x64x128 : S66x80x128.Slices ![1, 9, 0] S64x64x128
  inb_S9x128x256_S1x128x256_5_0_0 : ∀ a, (![5, 0, 0] : Fin 3 → Nat) a + S1x128x256.size a ≤ S9x128x256.size a
  slices_S66x80x128_o2_7_0_S64x64x128 : S66x80x128.Slices ![2, 7, 0] S64x64x128
  inb_S9x128x256_S1x128x256_6_0_0 : ∀ a, (![6, 0, 0] : Fin 3 → Nat) a + S1x128x256.size a ≤ S9x128x256.size a
  slices_S66x80x128_o2_8_0_S64x64x128 : S66x80x128.Slices ![2, 8, 0] S64x64x128
  inb_S9x128x256_S1x128x256_7_0_0 : ∀ a, (![7, 0, 0] : Fin 3 → Nat) a + S1x128x256.size a ≤ S9x128x256.size a
  slices_S66x80x128_o2_9_0_S64x64x128 : S66x80x128.Slices ![2, 9, 0] S64x64x128
  inb_S9x128x256_S1x128x256_8_0_0 : ∀ a, (![8, 0, 0] : Fin 3 → Nat) a + S1x128x256.size a ≤ S9x128x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S66x80x256_S66x80x256_0_0_0 : ∀ a, (![0, 0, 0] : Fin 3 → Nat) a + S66x80x256.size a ≤ S66x80x256.size a
  h_S66x80x256 : 0 < S66x80x256.numel
  shapeCasts_S66x80x256_S66x80x256 : S66x80x256.ShapeCasts S66x80x256
  shapeCasts_S4096x256_S64x64x256 : S4096x256.ShapeCasts S64x64x256
  inb_S66x80x256_S64x64x256_1_8_0 : ∀ a, (![1, 8, 0] : Fin 3 → Nat) a + S64x64x256.size a ≤ S66x80x256.size a
  h_S64x64x256 : 0 < S64x64x256.numel
  shapeCasts_S64x64x256_S64x64x256 : S64x64x256.ShapeCasts S64x64x256
  slices_S66x80x256_o0_7_0_S64x64x256 : S66x80x256.Slices ![0, 7, 0] S64x64x256
  shapeCasts_S64x64x256_S4096x256 : S64x64x256.ShapeCasts S4096x256
  inb_S9x256x256_S1x256x256_0_0_0 : ∀ a, (![0, 0, 0] : Fin 3 → Nat) a + S1x256x256.size a ≤ S9x256x256.size a
  h_S1x256x256 : 0 < S1x256x256.numel
  shapeCasts_S1x256x256_S256x256 : S1x256x256.ShapeCasts S256x256
  slices_S66x80x256_o0_8_0_S64x64x256 : S66x80x256.Slices ![0, 8, 0] S64x64x256
  inb_S9x256x256_S1x256x256_1_0_0 : ∀ a, (![1, 0, 0] : Fin 3 → Nat) a + S1x256x256.size a ≤ S9x256x256.size a
  slices_S66x80x256_o0_9_0_S64x64x256 : S66x80x256.Slices ![0, 9, 0] S64x64x256
  inb_S9x256x256_S1x256x256_2_0_0 : ∀ a, (![2, 0, 0] : Fin 3 → Nat) a + S1x256x256.size a ≤ S9x256x256.size a
  slices_S66x80x256_o1_7_0_S64x64x256 : S66x80x256.Slices ![1, 7, 0] S64x64x256
  inb_S9x256x256_S1x256x256_3_0_0 : ∀ a, (![3, 0, 0] : Fin 3 → Nat) a + S1x256x256.size a ≤ S9x256x256.size a
  slices_S66x80x256_o1_8_0_S64x64x256 : S66x80x256.Slices ![1, 8, 0] S64x64x256
  inb_S9x256x256_S1x256x256_4_0_0 : ∀ a, (![4, 0, 0] : Fin 3 → Nat) a + S1x256x256.size a ≤ S9x256x256.size a
  slices_S66x80x256_o1_9_0_S64x64x256 : S66x80x256.Slices ![1, 9, 0] S64x64x256
  inb_S9x256x256_S1x256x256_5_0_0 : ∀ a, (![5, 0, 0] : Fin 3 → Nat) a + S1x256x256.size a ≤ S9x256x256.size a
  slices_S66x80x256_o2_7_0_S64x64x256 : S66x80x256.Slices ![2, 7, 0] S64x64x256
  inb_S9x256x256_S1x256x256_6_0_0 : ∀ a, (![6, 0, 0] : Fin 3 → Nat) a + S1x256x256.size a ≤ S9x256x256.size a
  slices_S66x80x256_o2_8_0_S64x64x256 : S66x80x256.Slices ![2, 8, 0] S64x64x256
  inb_S9x256x256_S1x256x256_7_0_0 : ∀ a, (![7, 0, 0] : Fin 3 → Nat) a + S1x256x256.size a ≤ S9x256x256.size a
  slices_S66x80x256_o2_9_0_S64x64x256 : S66x80x256.Slices ![2, 9, 0] S64x64x256
  inb_S9x256x256_S1x256x256_8_0_0 : ∀ a, (![8, 0, 0] : Fin 3 → Nat) a + S1x256x256.size a ≤ S9x256x256.size a
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S1x64x64x256 : S64x64x256.ShapeCasts S1x64x64x256
  transposes_S8x64x64x256_S8x256x64x64_0_3_1_2 : S8x64x64x256.Transposes [0, 3, 1, 2] S8x256x64x64
  dot_S1024x256_S256x512_S1024x512_1_0_0_1_n_n_wf : DotDims.WF S1024x256 S256x512 S1024x512 [1] [0] [0] [1] [] []
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x256.size a ≤ S8x32x32x256.size a
  hwx0_0 : ∀ i : grid0.Coords, EltTy.bits .f32 = 32 ∨ (Rect.block (s := S8x32x32x256) S1x32x32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x2x32x256.size a ≤ S8x32x2x32x256.size a
  hwx0_3 : ∀ i : grid0.Coords, EltTy.bits .f32 = 32 ∨ (Rect.block (s := S8x32x2x32x256) S1x32x2x32x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x64x128.size a ≤ S8x64x64x128.size a
  hwx1_0 : ∀ i : grid1.Coords, EltTy.bits .f32 = 32 ∨ (Rect.block (s := S8x64x64x128) S1x64x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64x128.size a ≤ S8x64x64x128.size a
  hwx1_1 : ∀ i : grid1.Coords, EltTy.bits .f32 = 32 ∨ (Rect.block (s := S8x64x64x128) S1x64x64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S9x128x256.size a ≤ S9x128x256.size a
  hwx1_2 : ∀ i : grid1.Coords, EltTy.bits .f32 = 32 ∨ (Rect.block (s := S9x128x256) S9x128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x128x256.size a ≤ S9x128x256.size a
  hwx1_3 : ∀ i : grid1.Coords, EltTy.bits .f32 = 32 ∨ (Rect.block (s := S9x128x256) S9x128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S9x256x256.size a ≤ S9x256x256.size a
  hwx1_6 : ∀ i : grid1.Coords, EltTy.bits .f32 = 32 ∨ (Rect.block (s := S9x256x256) S9x256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x64x64x256.size a ≤ S8x64x64x256.size a
  hwx1_9 : ∀ i : grid1.Coords, EltTy.bits .f32 = 32 ∨ (Rect.block (s := S8x64x64x256) S1x64x64x256.size (cc1_transform_9 i) (hinb1_9 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_v0) S1x32x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x32x2x32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1x64x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x64x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S9x128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S9x128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S9x256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v32) S1x64x64x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== Proof.KernelBody.lean ====
/-
  The body of the fused up-sampling block on one batch element, run once at symbolic operands.

  At a grid point the kernel is handed ten input blocks (the transposed-convolution operand, the skip
  connection split into even and odd rows, the transposed-convolution weight and its tiled bias, the two
  3×3 weight stacks and their folded scales and shifts), one output block and two scratch arrays. It zeroes
  the first scratch array, writes the skip connection and the up-sampled image side by side into its
  interior, reads the whole padded array back, accumulates the nine taps of the first convolution, zeroes
  the second scratch array, writes the rectified result into its interior, accumulates the nine taps of the
  second convolution and stores the rectified result into the output block.

  What the output block holds afterwards is a list of stored pieces that covers the block; the scratch
  arrays end at some contents, and every input block is handed back as it was found. From this the
  pipeline's proof data, the obligation of the body at every grid point, the run of the whole program and
  the frame follow: every weakly fair execution terminates without a fault and leaves the sixteen argument
  arrays as they were.
-/
import proofs.«149310_g2000303838873713_pallasbulk_17_2_alg».proof.Proof.Gen.Kernel.Skeleton
import proofs.«149310_g2000303838873713_pallasbulk_17_2_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole view of the output block's shape, over which the stored pieces are read back. -/
abbrev VO0_10 : View sig .tc .vmem S1x64x64x256 .f32 := (Memref.whole cc0_stg10_0 : Memref sig .tc .vmem S1x64x64x256 .f32).view

abbrev ms0_0 (t : Fin cfg0.N) : Memref sig .tc .vmem S1x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x2x64x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S9x256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S9x256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64x64x256 .f32 := win0_10.stage (cfg0.slots t 10)
abbrev hs0_10 (t : Fin cfg0.N) : (ms0_10 t).IsWhole := hstage0_10 ((cfg0.slots t 10).cast nbuf0_10)

/-- The two scratch arrays: the padded concatenated input and the padded intermediate image. -/
abbrev scM0_0 : Memref sig .tc .vmem S34x2x66x256 .bf16 := Memref.whole cc0_scratch0
abbrev scM0_1 : Memref sig .tc .vmem S68x66x256 .bf16 := Memref.whole cc0_scratch1

/-- Between grid points the two scratch arrays are owned at some contents, and the generator register at
    some state: what the body is lent and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 4000000 in
/-- The pieces the body's stores leave in the output block, last first, with the proof that from the ten
    input blocks at their contents, the output block and the two scratch arrays at anything, the body runs
    to its return, handing back the inputs as they were, the output block with those pieces written, and
    the scratch arrays at some contents. -/
noncomputable def kernelRun (c : Dev nD) (i : grid0.Coords) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S9x256x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x64x64x256 .f32) (harg11 : arg11.IsWhole) (arg12 : Memref sig .tc .vmem S34x2x66x256 .bf16) (harg12 : arg12.IsWhole) (arg13 : Memref sig .tc .vmem S68x66x256 .bf16) (harg13 : arg13.IsWhole)
    (x0 : Vec F S1x256x1024 .bf16) (x1 : Vec F S1x32x2x64x128 .bf16) (x2 : Vec F S256x512 .bf16) (x3 : Vec F S1x512 .f32) (x4 : Vec F S9x256x256 .bf16) (x5 : Vec F S1x256 .f32) (x6 : Vec F S1x256 .f32) (x7 : Vec F S9x256x256 .bf16) (x8 : Vec F S1x256 .f32) (x9 : Vec F S1x256 .f32) :
    { L10 : List (View.Piece (Elt F) S1x64x64x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ d, owns (c : Thread nD τ) arg12 fullShare d) ∗ (∃ d, owns (c : Thread nD τ) arg13 fullShare d)) -∗ K ⟨⟩))
          ⊢ wp frame (wpE (defs₀ (F := F)) Variants.none c none) E (cc0__up_dc_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__up_dc_kernel_eq_skeleton]; unfold cc0__up_dc_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]
    · iexists _, _; isplitr; swap; · iexact HS0
      ipureintro; rfl
    iexists _, _; isplitr; swap; · iexact HS1
    ipureintro; rfl

/-- The stored pieces tile the output block, so every index of it lies in one of them. -/
theorem cover10 (c : Dev nD) (i : grid0.Coords) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S9x256x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x64x64x256 .f32) (harg11 : arg11.IsWhole) (arg12 : Memref sig .tc .vmem S34x2x66x256 .bf16) (harg12 : arg12.IsWhole) (arg13 : Memref sig .tc .vmem S68x66x256 .bf16) (harg13 : arg13.IsWhole)
    (x0 : Vec F S1x256x1024 .bf16) (x1 : Vec F S1x32x2x64x128 .bf16) (x2 : Vec F S256x512 .bf16) (x3 : Vec F S1x512 .f32) (x4 : Vec F S9x256x256 .bf16) (x5 : Vec F S1x256 .f32) (x6 : Vec F S1x256 .f32) (x7 : Vec F S9x256x256 .bf16) (x8 : Vec F S1x256 .f32) (x9 : Vec F S1x256 .f32) (y : S1x64x64x256.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 S1x64x64x256.size (by sl_kernel_rfl) y

/-- What the body leaves in the output block: its pieces read back. -/
def out10 (c : Dev nD) (i : grid0.Coords) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S9x256x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x64x64x256 .f32) (harg11 : arg11.IsWhole) (arg12 : Memref sig .tc .vmem S34x2x66x256 .bf16) (harg12 : arg12.IsWhole) (arg13 : Memref sig .tc .vmem S68x66x256 .bf16) (harg13 : arg13.IsWhole)
    (x0 : Vec F S1x256x1024 .bf16) (x1 : Vec F S1x32x2x64x128 .bf16) (x2 : Vec F S256x512 .bf16) (x3 : Vec F S1x512 .f32) (x4 : Vec F S9x256x256 .bf16) (x5 : Vec F S1x256 .f32) (x6 : Vec F S1x256 .f32) (x7 : Vec F S9x256x256 .bf16) (x8 : Vec F S1x256 .f32) (x9 : Vec F S1x256 .f32) : Vec F S1x64x64x256 .f32 :=
  VO0_10.read (Elt F) (VO0_10.writes (Elt F) VO0_10.junk (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1)

variable (m : (ℓ : Loc nD τ sig) → Buf (Elt F) ℓ) (ρ : Dev nD → PrngReg)

/-- The output block after the body at grid point `t`: the run's pieces at the point's input blocks. -/
def outAt (c : Dev nD) (t : Fin cfg0.N) : Vec F S1x64x64x256 .f32 :=
  out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)

/-- The pipeline's proof data on one core: the arrays as the region finds them; after the body every input
    block as fetched and the output block at `outAt`; between points the scratch arrays and the generator
    register at something; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2000000 in
/-- The body at any grid point: the input blocks are where the proof data say, so the run applies; the
    scratch arrays are lent by the invariant and taken back at whatever they end at. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold outAt
  unfold out10
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  iintro ⟨H0, H1, H2, H3, H4, H5, H6, H7, H8, H9, ⟨%e10, H10⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover10 c _ _ _ _ _ _ _ _ _ _ _ _ _ _ _ _ _ _ _ _ _ _ _ _ _ _ _ _ _ _ _ _ _ _ _ _ _)

/-- The body's obligation at every grid point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero semaphore counters every weakly fair execution of the program terminates without a
    fault; every array the pipeline stages ends at what its write-backs leave, every other buffer as the host
    operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Kernel.Body

end
-- ==== Proof.KernelIdealBody.lean ====
/-
  The body of the fused up-sampling block on one batch element, run once at symbolic operands.

  At a grid point the kernel is handed ten input blocks (the transposed-convolution operand, the skip
  connection split into even and odd rows, the transposed-convolution weight and its tiled bias, the two
  3×3 weight stacks and their folded scales and shifts), one output block and two scratch arrays. It zeroes
  the first scratch array, writes the skip connection and the up-sampled image side by side into its
  interior, reads the whole padded array back, accumulates the nine taps of the first convolution, zeroes
  the second scratch array, writes the rectified result into its interior, accumulates the nine taps of the
  second convolution and stores the rectified result into the output block.

  What the output block holds afterwards is a list of stored pieces that covers the block; the scratch
  arrays end at some contents, and every input block is handed back as it was found. From this the
  pipeline's proof data, the obligation of the body at every grid point, the run of the whole program and
  the frame follow: every weakly fair execution terminates without a fault and leaves the sixteen argument
  arrays as they were.
-/
import proofs.«149310_g2000303838873713_pallasbulk_17_2_alg».proof.Proof.Gen.KernelIdeal.Skeleton
import proofs.«149310_g2000303838873713_pallasbulk_17_2_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole view of the output block's shape, over which the stored pieces are read back. -/
abbrev VO0_10 : View sig .tc .vmem S1x64x64x256 .f32 := (Memref.whole cc0_stg10_0 : Memref sig .tc .vmem S1x64x64x256 .f32).view

abbrev ms0_0 (t : Fin cfg0.N) : Memref sig .tc .vmem S1x256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x2x64x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S9x256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S9x256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x64x64x256 .f32 := win0_10.stage (cfg0.slots t 10)
abbrev hs0_10 (t : Fin cfg0.N) : (ms0_10 t).IsWhole := hstage0_10 ((cfg0.slots t 10).cast nbuf0_10)

/-- The two scratch arrays: the padded concatenated input and the padded intermediate image. -/
abbrev scM0_0 : Memref sig .tc .vmem S34x2x66x256 .bf16 := Memref.whole cc0_scratch0
abbrev scM0_1 : Memref sig .tc .vmem S68x66x256 .bf16 := Memref.whole cc0_scratch1

/-- Between grid points the two scratch arrays are owned at some contents, and the generator register at
    some state: what the body is lent and gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 4000000 in
/-- The pieces the body's stores leave in the output block, last first, with the proof that from the ten
    input blocks at their contents, the output block and the two scratch arrays at anything, the body runs
    to its return, handing back the inputs as they were, the output block with those pieces written, and
    the scratch arrays at some contents. -/
noncomputable def kernelRun (c : Dev nD) (i : grid0.Coords) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S9x256x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x64x64x256 .f32) (harg11 : arg11.IsWhole) (arg12 : Memref sig .tc .vmem S34x2x66x256 .bf16) (harg12 : arg12.IsWhole) (arg13 : Memref sig .tc .vmem S68x66x256 .bf16) (harg13 : arg13.IsWhole)
    (x0 : Vec F S1x256x1024 .bf16) (x1 : Vec F S1x32x2x64x128 .bf16) (x2 : Vec F S256x512 .bf16) (x3 : Vec F S1x512 .f32) (x4 : Vec F S9x256x256 .bf16) (x5 : Vec F S1x256 .f32) (x6 : Vec F S1x256 .f32) (x7 : Vec F S9x256x256 .bf16) (x8 : Vec F S1x256 .f32) (x9 : Vec F S1x256 .f32) :
    { L10 : List (View.Piece (Elt F) S1x64x64x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ d, owns (c : Thread nD τ) arg12 fullShare d) ∗ (∃ d, owns (c : Thread nD τ) arg13 fullShare d)) -∗ K ⟨⟩))
          ⊢ wp frame (wpE (defs₀ (F := F)) Variants.none c none) E (cc0__up_dc_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__up_dc_kernel_eq_skeleton]; unfold cc0__up_dc_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]
    · iexists _, _; isplitr; swap; · iexact HS0
      ipureintro; rfl
    iexists _, _; isplitr; swap; · iexact HS1
    ipureintro; rfl

/-- The stored pieces tile the output block, so every index of it lies in one of them. -/
theorem cover10 (c : Dev nD) (i : grid0.Coords) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S9x256x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x64x64x256 .f32) (harg11 : arg11.IsWhole) (arg12 : Memref sig .tc .vmem S34x2x66x256 .bf16) (harg12 : arg12.IsWhole) (arg13 : Memref sig .tc .vmem S68x66x256 .bf16) (harg13 : arg13.IsWhole)
    (x0 : Vec F S1x256x1024 .bf16) (x1 : Vec F S1x32x2x64x128 .bf16) (x2 : Vec F S256x512 .bf16) (x3 : Vec F S1x512 .f32) (x4 : Vec F S9x256x256 .bf16) (x5 : Vec F S1x256 .f32) (x6 : Vec F S1x256 .f32) (x7 : Vec F S9x256x256 .bf16) (x8 : Vec F S1x256 .f32) (x9 : Vec F S1x256 .f32) (y : S1x64x64x256.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1 S1x64x64x256.size (by sl_kernel_rfl) y

/-- What the body leaves in the output block: its pieces read back. -/
def out10 (c : Dev nD) (i : grid0.Coords) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S9x256x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x64x64x256 .f32) (harg11 : arg11.IsWhole) (arg12 : Memref sig .tc .vmem S34x2x66x256 .bf16) (harg12 : arg12.IsWhole) (arg13 : Memref sig .tc .vmem S68x66x256 .bf16) (harg13 : arg13.IsWhole)
    (x0 : Vec F S1x256x1024 .bf16) (x1 : Vec F S1x32x2x64x128 .bf16) (x2 : Vec F S256x512 .bf16) (x3 : Vec F S1x512 .f32) (x4 : Vec F S9x256x256 .bf16) (x5 : Vec F S1x256 .f32) (x6 : Vec F S1x256 .f32) (x7 : Vec F S9x256x256 .bf16) (x8 : Vec F S1x256 .f32) (x9 : Vec F S1x256 .f32) : Vec F S1x64x64x256 .f32 :=
  VO0_10.read (Elt F) (VO0_10.writes (Elt F) VO0_10.junk (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9).1)

variable (m : (ℓ : Loc nD τ sig) → Buf (Elt F) ℓ) (ρ : Dev nD → PrngReg)

/-- The output block after the body at grid point `t`: the run's pieces at the point's input blocks. -/
def outAt (c : Dev nD) (t : Fin cfg0.N) : Vec F S1x64x64x256 .f32 :=
  out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t)

/-- The pipeline's proof data on one core: the arrays as the region finds them; after the body every input
    block as fetched and the output block at `outAt`; between points the scratch arrays and the generator
    register at something; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2000000 in
/-- The body at any grid point: the input blocks are where the proof data say, so the run applies; the
    scratch arrays are lent by the invariant and taken back at whatever they end at. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold outAt
  unfold out10
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  iintro ⟨H0, H1, H2, H3, H4, H5, H6, H7, H8, H9, ⟨%e10, H10⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover10 c _ _ _ _ _ _ _ _ _ _ _ _ _ _ _ _ _ _ _ _ _ _ _ _ _ _ _ _ _ _ _ _ _ _ _ _ _)

/-- The body's obligation at every grid point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- From any memory with zero semaphore counters every weakly fair execution of the program terminates without a
    fault; every array the pipeline stages ends at what its write-backs leave, every other buffer as the host
    operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Body

end
-- ==== Proof.RefRun.lean ====
/-
  The reference program's run with its result named.

  The reference is a chain of host operations, the transposed-convolution region, host operations, the
  double-convolution region and a final transposition. Its generated frame holds every buffer of the
  TensorCore, after the last host operation, at the contents obtained by folding those five stretches over
  the launch memory. Read at the result buffer instead of only at the arguments, the same run says: every
  weakly fair execution terminates without a fault, the result buffer ends at that fold's value, and the
  sixteen argument arrays end as they were.
-/
import proofs.«149310_g2000303838873713_pallasbulk_17_2_alg».proof.Proof.Gen.ReferenceIdeal.Frame

set_option maxRecDepth 16384

noncomputable section

namespace Cert.ReferenceIdeal.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates without a fault; the result buffer ends at the value the
    fold of its host stretches and regions gives it, and the argument arrays end as launched. -/
theorem run_result : θ_run defs (onTc (τ := τ) (main (F := F))) ⟨m, fun _ => 0, ρ⟩ (fun r => ∀ c : Dev nD,
      r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)

end Cert.ReferenceIdeal.RefRun

end
-- ==== Proof.KRun.lean ====
import proofs.«149310_g2000303838873713_pallasbulk_17_2_alg».proof.Proof.KernelIdealBody
import Idealize.ShloMosaic.PureOps.Ideal
set_option maxRecDepth 16384
noncomputable section
namespace Cert.KernelIdeal.KRun
open Cert.KernelIdeal Cert.KernelIdeal.Gen
open Idealize.ShloMosaic Idealize.ShloMosaic.TcCoe Idealize.SL.Sem

/-!
  The fused kernel's run with its result named.

  The run of the whole program leaves every buffer that is no array of the pipeline at what the host operation
  after the region — the transposition to channel-major layout — makes of the pipeline's final arrays. Read at the
  result buffer and at the sixteen arguments: the result is that transposition, the arguments are as launched.
-/

variable (m : (ℓ : Loc nD τ sig) → Buf (Elt Ideal) ℓ) (ρ : Dev nD → PrngReg)

theorem run_result : θ_run defs (onTc (τ := τ) (main (F := Ideal))) ⟨m, fun _ => 0, ρ⟩ (fun r => ∀ c : Dev nD,
      r.2.mem ((c.tc : Thread nD τ).loc main_v34)
        = Pipeline.afterTail₀ cfgs (Cert.KernelIdeal.Body.dats m) 0 (V0 m) [hostOps1] c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c).2 main_v34 (Pipeline.mem_restRefs_of main_v34 (by decide) (by decide)),
      (((h c).2 main_arg0 (Pipeline.mem_restRefs_of main_arg0 (by decide) (by decide))).trans (W_main_arg0 m (Cert.KernelIdeal.Body.dats m) c)),
      (((h c).2 main_arg1 (Pipeline.mem_restRefs_of main_arg1 (by decide) (by decide))).trans (W_main_arg1 m (Cert.KernelIdeal.Body.dats m) c)),
      (((h c).2 main_arg2 (Pipeline.mem_restRefs_of main_arg2 (by decide) (by decide))).trans (W_main_arg2 m (Cert.KernelIdeal.Body.dats m) c)),
      (((h c).2 main_arg3 (Pipeline.mem_restRefs_of main_arg3 (by decide) (by decide))).trans (W_main_arg3 m (Cert.KernelIdeal.Body.dats m) c)),
      (((h c).2 main_arg4 (Pipeline.mem_restRefs_of main_arg4 (by decide) (by decide))).trans (W_main_arg4 m (Cert.KernelIdeal.Body.dats m) c)),
      (((h c).2 main_arg5 (Pipeline.mem_restRefs_of main_arg5 (by decide) (by decide))).trans (W_main_arg5 m (Cert.KernelIdeal.Body.dats m) c)),
      (((h c).2 main_arg6 (Pipeline.mem_restRefs_of main_arg6 (by decide) (by decide))).trans (W_main_arg6 m (Cert.KernelIdeal.Body.dats m) c)),
      (((h c).2 main_arg7 (Pipeline.mem_restRefs_of main_arg7 (by decide) (by decide))).trans (W_main_arg7 m (Cert.KernelIdeal.Body.dats m) c)),
      (((h c).2 main_arg8 (Pipeline.mem_restRefs_of main_arg8 (by decide) (by decide))).trans (W_main_arg8 m (Cert.KernelIdeal.Body.dats m) c)),
      (((h c).2 main_arg9 (Pipeline.mem_restRefs_of main_arg9 (by decide) (by decide))).trans (W_main_arg9 m (Cert.KernelIdeal.Body.dats m) c)),
      (((h c).2 main_arg10 (Pipeline.mem_restRefs_of main_arg10 (by decide) (by decide))).trans (W_main_arg10 m (Cert.KernelIdeal.Body.dats m) c)),
      (((h c).2 main_arg11 (Pipeline.mem_restRefs_of main_arg11 (by decide) (by decide))).trans (W_main_arg11 m (Cert.KernelIdeal.Body.dats m) c)),
      (((h c).2 main_arg12 (Pipeline.mem_restRefs_of main_arg12 (by decide) (by decide))).trans (W_main_arg12 m (Cert.KernelIdeal.Body.dats m) c)),
      (((h c).2 main_arg13 (Pipeline.mem_restRefs_of main_arg13 (by decide) (by decide))).trans (W_main_arg13 m (Cert.KernelIdeal.Body.dats m) c)),
      (((h c).2 main_arg14 (Pipeline.mem_restRefs_of main_arg14 (by decide) (by decide))).trans (W_main_arg14 m (Cert.KernelIdeal.Body.dats m) c)),
      (((h c).2 main_arg15 (Pipeline.mem_restRefs_of main_arg15 (by decide) (by decide))).trans (W_main_arg15 m (Cert.KernelIdeal.Body.dats m) c))⟩)
    (Cert.KernelIdeal.Body.run_main (F := Ideal) m ρ)

end Cert.KernelIdeal.KRun
end
-- ==== Proof.Spec.lean ====
/-
  What the up-sampling block computes, index by index, on the extended reals.

  For image `n`, output row `y`, output column `x`:
  * the transposed convolution of stride two sends input pixel `(y / 2, x / 2)` to output pixel `(y, x)`
    through the weight slice `(y % 2, x % 2)`, summed over the 256 input channels, plus the bias;
  * the skip connection fills channels 0 … 127 and the up-sampled image channels 128 … 255;
  * a 3×3 convolution with zero padding reads the padded image, whose entry at padded row `r` and padded
    column `cc` is the image at `(r - 1, cc - 1)` when both lie in 1 … 64 and zero otherwise, and adds its
    nine taps in row-major order, each tap a sum over the input channels;
  * each convolution is followed by a per-channel scale `γ / sqrt (σ² + ε)`, a shift
    `(b - μ) · scale + β`, and a maximum with zero.
-/
import Idealize.ShloMosaic.PureOps.Ideal
import Idealize.ShloMosaic.Lib.ValueIdx

noncomputable section

open scoped BigOperators

namespace Cert.Spec

open Idealize.ShloMosaic Idealize.ShloMosaic.ValueIdx

/-- The variance offset, as the single-precision pattern both programs carry. -/
def eps : EReal := Ideal.ofBits .f32 0x3727C5AC#32

/-- The folded scale of channel `o`. -/
def scale (g var : (⟨1, ![256]⟩ : Shape).Idx → EReal) (o : Fin 256) : EReal :=
  Ideal.div (g (ix1 o)) (Ideal.sqrt (var (ix1 o) + eps))

/-- The folded shift of channel `o`. -/
def shift (b g bt mu var : (⟨1, ![256]⟩ : Shape).Idx → EReal) (o : Fin 256) : EReal :=
  (b (ix1 o) - mu (ix1 o)) * scale g var o + bt (ix1 o)

/-- An image of 64 × 64 pixels padded by one pixel of zeros on every side, read at natural coordinates. -/
def pad {C : Nat} (f : Fin 64 → Fin 64 → Fin C → EReal) (r cc : Nat) (c : Fin C) : EReal :=
  if h : 1 ≤ r ∧ r ≤ 64 ∧ 1 ≤ cc ∧ cc ≤ 64 then f ⟨r - 1, by omega⟩ ⟨cc - 1, by omega⟩ c else 0

/-- One tap of a 3×3 convolution at output pixel `(y, x)` and output channel `o`. -/
def tap {C : Nat} (P : Nat → Nat → Fin C → EReal) (w : Fin 3 → Fin 3 → Fin C → Fin 256 → EReal)
    (y x : Nat) (o : Fin 256) (dy dx : Fin 3) : EReal :=
  ∑ c : Fin C, P (y + dy.val) (x + dx.val) c * w dy dx c o

/-- The nine taps, added in row-major order. -/
def conv {C : Nat} (P : Nat → Nat → Fin C → EReal) (w : Fin 3 → Fin 3 → Fin C → Fin 256 → EReal)
    (y x : Nat) (o : Fin 256) : EReal :=
  tap P w y x o 0 0 + tap P w y x o 0 1 + tap P w y x o 0 2
    + tap P w y x o 1 0 + tap P w y x o 1 1 + tap P w y x o 1 2
    + tap P w y x o 2 0 + tap P w y x o 2 1 + tap P w y x o 2 2

section

variable (upw : (⟨4, ![256, 2, 2, 128]⟩ : Shape).Idx → EReal) (upb : (⟨1, ![128]⟩ : Shape).Idx → EReal)
  (w1 : (⟨4, ![3, 3, 256, 256]⟩ : Shape).Idx → EReal) (b1 g1 bt1 mu1 var1 : (⟨1, ![256]⟩ : Shape).Idx → EReal)
  (w2 : (⟨4, ![3, 3, 256, 256]⟩ : Shape).Idx → EReal) (b2 g2 bt2 mu2 var2 : (⟨1, ![256]⟩ : Shape).Idx → EReal)
  (x1 : (⟨4, ![8, 256, 32, 32]⟩ : Shape).Idx → EReal) (x2 : (⟨4, ![8, 128, 64, 64]⟩ : Shape).Idx → EReal)

/-- The transposed convolution at image `n`, pixel `(y, x)`, channel `oc`. -/
def up (n : Fin 8) (y x : Fin 64) (oc : Fin 128) : EReal :=
  (∑ ci : Fin 256, x1 (ix4 n ci ⟨y.val / 2, by omega⟩ ⟨x.val / 2, by omega⟩)
      * upw (ix4 ci ⟨y.val % 2, by omega⟩ ⟨x.val % 2, by omega⟩ oc)) + upb (ix1 oc)

/-- The concatenation: the skip connection's 128 channels, then the up-sampled image's. -/
def cat (n : Fin 8) (y x : Fin 64) (c : Fin 256) : EReal :=
  if h : c.val < 128 then x2 (ix4 n ⟨c.val, h⟩ y x) else up upw upb x1 n y x ⟨c.val - 128, by omega⟩

/-- The first convolution's weights by tap. -/
def wt (w : (⟨4, ![3, 3, 256, 256]⟩ : Shape).Idx → EReal) (dy dx : Fin 3) (c o : Fin 256) : EReal := w (ix4 dy dx c o)

/-- The image after the first convolution, scale, shift and maximum with zero. -/
def mid (n : Fin 8) (y x : Fin 64) (o : Fin 256) : EReal :=
  max (conv (pad (cat upw upb x1 x2 n)) (wt w1) y.val x.val o * scale g1 var1 o + shift b1 g1 bt1 mu1 var1 o) 0

/-- The result after the second convolution, scale, shift and maximum with zero. -/
def fin (n : Fin 8) (y x : Fin 64) (o : Fin 256) : EReal :=
  max (conv (pad (mid upw upb w1 b1 g1 bt1 mu1 var1 x1 x2 n)) (wt w2) y.val x.val o * scale g2 var2 o
    + shift b2 g2 bt2 mu2 var2 o) 0

/-- The whole result, in the channel-major layout both programs return. -/
def result : (⟨4, ![8, 256, 64, 64]⟩ : Shape).Idx → EReal :=
  fun j => fin upw upb w1 b1 g1 bt1 mu1 var1 w2 b2 g2 bt2 mu2 var2 x1 x2 (j 0) (j 2) (j 3) (j 1)

end

end Cert.Spec

end
-- ==== Proof.KHostArgs.lean ====
import proofs.«149310_g2000303838873713_pallasbulk_17_2_alg».proof.Proof.KernelIdealBody
import proofs.«149310_g2000303838873713_pallasbulk_17_2_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

open scoped BigOperators

namespace Cert.KernelIdeal.KHost

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window)

variable (m : (ℓ : Loc nD τ sig) → Buf (Elt Ideal) ℓ)

/-! ## The argument arrays as launched, as functions on their index types -/

/-- Argument 0 as launched, on core `c`. -/
abbrev A0 (c : Dev nD) : S256x2x2x128.Idx → EReal := m ((c : Thread nD τ).loc main_arg0)
/-- Argument 1 as launched, on core `c`. -/
abbrev A1 (c : Dev nD) : S128.Idx → EReal := m ((c : Thread nD τ).loc main_arg1)
/-- Argument 2 as launched, on core `c`. -/
abbrev A2 (c : Dev nD) : S3x3x256x256.Idx → EReal := m ((c : Thread nD τ).loc main_arg2)
/-- Argument 3 as launched, on core `c`. -/
abbrev A3 (c : Dev nD) : S256.Idx → EReal := m ((c : Thread nD τ).loc main_arg3)
/-- Argument 4 as launched, on core `c`. -/
abbrev A4 (c : Dev nD) : S256.Idx → EReal := m ((c : Thread nD τ).loc main_arg4)
/-- Argument 5 as launched, on core `c`. -/
abbrev A5 (c : Dev nD) : S256.Idx → EReal := m ((c : Thread nD τ).loc main_arg5)
/-- Argument 6 as launched, on core `c`. -/
abbrev A6 (c : Dev nD) : S256.Idx → EReal := m ((c : Thread nD τ).loc main_arg6)
/-- Argument 7 as launched, on core `c`. -/
abbrev A7 (c : Dev nD) : S256.Idx → EReal := m ((c : Thread nD τ).loc main_arg7)
/-- Argument 8 as launched, on core `c`. -/
abbrev A8 (c : Dev nD) : S3x3x256x256.Idx → EReal := m ((c : Thread nD τ).loc main_arg8)
/-- Argument 9 as launched, on core `c`. -/
abbrev A9 (c : Dev nD) : S256.Idx → EReal := m ((c : Thread nD τ).loc main_arg9)
/-- Argument 10 as launched, on core `c`. -/
abbrev A10 (c : Dev nD) : S256.Idx → EReal := m ((c : Thread nD τ).loc main_arg10)
/-- Argument 11 as launched, on core `c`. -/
abbrev A11 (c : Dev nD) : S256.Idx → EReal := m ((c : Thread nD τ).loc main_arg11)
/-- Argument 12 as launched, on core `c`. -/
abbrev A12 (c : Dev nD) : S256.Idx → EReal := m ((c : Thread nD τ).loc main_arg12)
/-- Argument 13 as launched, on core `c`. -/
abbrev A13 (c : Dev nD) : S256.Idx → EReal := m ((c : Thread nD τ).loc main_arg13)
/-- Argument 14 as launched, on core `c`. -/
abbrev A14 (c : Dev nD) : S8x256x32x32.Idx → EReal := m ((c : Thread nD τ).loc main_arg14)
/-- Argument 15 as launched, on core `c`. -/
abbrev A15 (c : Dev nD) : S8x128x64x64.Idx → EReal := m ((c : Thread nD τ).loc main_arg15)

/-! ## What the region is entered with

The host prepares ten arrays from the sixteen arguments: re-layouts (merged or split axes, one transposition to
channels-last, the bias tiled four times) and the two batch-norm folds. Narrowing to a shorter float format is the
identity on the extended reals, so each array is an argument, or the folded scale or shift, read at a re-arranged
index. -/

/-- The transposed convolution's operand: the input image with its two pixel axes merged, pixel `p = 32 i + j`. -/
theorem v1_apply (c : Dev nD) (n : Fin 8) (ci : Fin 256) (p : Fin 1024) :
    (V m c main_v1 : S8x256x1024.Idx → EReal) (ix3 n ci p)
      = A14 m c (ix4 n ci (⟨p.val / 32, by have := p.isLt; omega⟩ : Fin 32) (⟨p.val % 32, by omega⟩ : Fin 32)) := by
  have e : (V m c main_v1 : S8x256x1024.Idx → EReal)
      = shapeCast S8x256x1024 (A14 m c) shapeCasts_S8x256x32x32_S8x256x1024 := by
    show StableHlo.after hostOps0 (fun b => m (c, b)) (Proc.devRef .tc main_v1) = _
    after_results
    rfl
  rw [e]
  exact shapeCast_apply _ _ _ _
    (by rw [Shape.rowMajor_val_four, Shape.rowMajor_val_three]
        show ((n.val * 256 + ci.val) * 32 + p.val / 32) * 32 + p.val % 32 = (n.val * 256 + ci.val) * 1024 + p.val
        omega)

/-- The skip connection, channels last, its 64 rows split into 32 pairs: pair `i`, parity `par` is row `2 i + par`. -/
theorem v4_apply (c : Dev nD) (n : Fin 8) (i : Fin 32) (par : Fin 2) (x : Fin 64) (ch : Fin 128) :
    (V m c main_v4 : S8x32x2x64x128.Idx → EReal) (ix5 n i par x ch)
      = A15 m c (ix4 n ch (⟨2 * i.val + par.val, by have := i.isLt; have := par.isLt; omega⟩ : Fin 64) x) := by
  have e : (V m c main_v4 : S8x32x2x64x128.Idx → EReal)
      = shapeCast S8x32x2x64x128 (transpose S8x64x64x128 [0, 2, 3, 1] (A15 m c) transposes_S8x128x64x64_S8x64x64x128_0_2_3_1)
          shapeCasts_S8x64x64x128_S8x32x2x64x128 := by
    show StableHlo.after hostOps0 (fun b => m (c, b)) (Proc.devRef .tc main_v4) = _
    after_results
    rfl
  rw [e]
  refine (shapeCast_apply _ _ _
    (ix4 n (⟨2 * i.val + par.val, by have := i.isLt; have := par.isLt; omega⟩ : Fin 64) x ch)
    (by rw [Shape.rowMajor_val_four, Shape.rowMajor_val_five]
        show ((n.val * 64 + (2 * i.val + par.val)) * 64 + x.val) * 128 + ch.val
          = (((n.val * 32 + i.val) * 2 + par.val) * 64 + x.val) * 128 + ch.val
        omega)).trans ?_
  exact transpose_apply _ _ _ _ _ (fun b => match b with | ⟨0, _⟩ => rfl | ⟨1, _⟩ => rfl | ⟨2, _⟩ => rfl | ⟨3, _⟩ => rfl)

/-- The transposed convolution's weight with its last three axes merged: column `col = 256 dy + 128 dx + oc`. -/
theorem v6_apply (c : Dev nD) (ci : Fin 256) (col : Fin 512) :
    (V m c main_v6 : S256x512.Idx → EReal) (ix2 ci col)
      = A0 m c (ix4 ci (⟨col.val / 256, by have := col.isLt; omega⟩ : Fin 2) (⟨(col.val / 128) % 2, by omega⟩ : Fin 2)
          (⟨col.val % 128, by omega⟩ : Fin 128)) := by
  have e : (V m c main_v6 : S256x512.Idx → EReal) = shapeCast S256x512 (A0 m c) shapeCasts_S256x2x2x128_S256x512 := by
    show StableHlo.after hostOps0 (fun b => m (c, b)) (Proc.devRef .tc main_v6) = _
    after_results
    rfl
  rw [e]
  exact shapeCast_apply _ _ _ _
    (by rw [Shape.rowMajor_val_four, Shape.rowMajor_val_two]
        show ((ci.val * 2 + col.val / 256) * 2 + (col.val / 128) % 2) * 128 + col.val % 128 = ci.val * 512 + col.val
        have := col.isLt
        omega)

/-- The transposed convolution's bias tiled over the four `(dy, dx)`: column `col` holds the bias of channel `col % 128`. -/
theorem v10_apply (c : Dev nD) (col : Fin 512) :
    (V m c main_v10 : S1x512.Idx → EReal) (ix2 (0 : Fin 1) col) = A1 m c (ix1 (⟨col.val % 128, by omega⟩ : Fin 128)) := by
  have e : (V m c main_v10 : S1x512.Idx → EReal)
      = shapeCast S1x512 (shapeCast S512 (broadcastInDim S4x128 ![0, 1] bcast_S1x128_S4x128_0_1
          (shapeCast S1x128 (A1 m c) shapeCasts_S128_S1x128)) shapeCasts_S4x128_S512) shapeCasts_S512_S1x512 := by
    show StableHlo.after hostOps0 (fun b => m (c, b)) (Proc.devRef .tc main_v10) = _
    after_results
    rfl
  rw [e]
  refine (shapeCast_apply _ _ _ (ix1 col)
    (by rw [Shape.rowMajor_val_one, Shape.rowMajor_val_two]; show col.val = 0 * 512 + col.val; omega)).trans ?_
  refine (shapeCast_apply _ _ _ (ix2 (⟨col.val / 128, by have := col.isLt; omega⟩ : Fin 4) (⟨col.val % 128, by omega⟩ : Fin 128))
    (by rw [Shape.rowMajor_val_two, Shape.rowMajor_val_one]; show col.val / 128 * 128 + col.val % 128 = col.val; omega)).trans ?_
  refine (broadcastInDim_apply _ _ _ _ (ix2 (0 : Fin 1) (⟨col.val % 128, by omega⟩ : Fin 128))
    (fun a => match a with | ⟨0, _⟩ => rfl | ⟨1, _⟩ => rfl)).trans ?_
  exact shapeCast_apply _ _ _ (ix1 (⟨col.val % 128, by omega⟩ : Fin 128))
    (by rw [Shape.rowMajor_val_one, Shape.rowMajor_val_two]; show col.val % 128 = 0 * 128 + col.val % 128; omega)

/-- The first convolution's weights with their two tap axes merged: tap `t = 3 dy + dx`. -/
theorem v12_apply (c : Dev nD) (t : Fin 9) (ci o : Fin 256) :
    (V m c main_v12 : S9x256x256.Idx → EReal) (ix3 t ci o)
      = A2 m c (ix4 (⟨t.val / 3, by have := t.isLt; omega⟩ : Fin 3) (⟨t.val % 3, by omega⟩ : Fin 3) ci o) := by
  have e : (V m c main_v12 : S9x256x256.Idx → EReal)
      = shapeCast S9x256x256 (A2 m c) shapeCasts_S3x3x256x256_S9x256x256 := by
    show StableHlo.after hostOps0 (fun b => m (c, b)) (Proc.devRef .tc main_v12) = _
    after_results
    rfl
  rw [e]
  exact shapeCast_apply _ _ _ _
    (by rw [Shape.rowMajor_val_four, Shape.rowMajor_val_three]
        show ((t.val / 3 * 3 + t.val % 3) * 256 + ci.val) * 256 + o.val = (t.val * 256 + ci.val) * 256 + o.val
        omega)

/-- The second convolution's weights with their two tap axes merged: tap `t = 3 dy + dx`. -/
theorem v14_apply (c : Dev nD) (t : Fin 9) (ci o : Fin 256) :
    (V m c main_v14 : S9x256x256.Idx → EReal) (ix3 t ci o)
      = A8 m c (ix4 (⟨t.val / 3, by have := t.isLt; omega⟩ : Fin 3) (⟨t.val % 3, by omega⟩ : Fin 3) ci o) := by
  have e : (V m c main_v14 : S9x256x256.Idx → EReal)
      = shapeCast S9x256x256 (A8 m c) shapeCasts_S3x3x256x256_S9x256x256 := by
    show StableHlo.after hostOps0 (fun b => m (c, b)) (Proc.devRef .tc main_v14) = _
    after_results
    rfl
  rw [e]
  exact shapeCast_apply _ _ _ _
    (by rw [Shape.rowMajor_val_four, Shape.rowMajor_val_three]
        show ((t.val / 3 * 3 + t.val % 3) * 256 + ci.val) * 256 + o.val = (t.val * 256 + ci.val) * 256 + o.val
        omega)

/-! ## The folded scales and shifts -/

/-- The first convolution's folded scale. -/
theorem v19_apply (c : Dev nD) (o : Fin 256) :
    (V m c main_v19 : S1x256.Idx → EReal) (ix2 (0 : Fin 1) o) = Cert.Spec.scale (A4 m c) (A7 m c) o := by
  have e : (V m c main_v19 : S1x256.Idx → EReal)
      = shapeCast S1x256 (Host.divf (A4 m c) (Host.sqrt (addf (A7 m c)
          (broadcastInDim S256 ![] bcast_S_S256 (constant (F := Ideal) S_ .f32 0x3727C5AC#32))))) shapeCasts_S256_S1x256 := by
    show StableHlo.after hostOps0 (fun b => m (c, b)) (Proc.devRef .tc main_v19) = _
    after_results_simp
    rfl
  rw [e]
  refine (shapeCast_apply _ _ _ (ix1 o) (by rw [Shape.rowMajor_val_one, Shape.rowMajor_val_two]; show o.val = 0 * 256 + o.val; omega)).trans ?_
  rfl

/-- The first convolution's folded shift. -/
theorem v23_apply (c : Dev nD) (o : Fin 256) :
    (V m c main_v23 : S1x256.Idx → EReal) (ix2 (0 : Fin 1) o)
      = Cert.Spec.shift (A3 m c) (A4 m c) (A5 m c) (A6 m c) (A7 m c) o := by
  have e : (V m c main_v23 : S1x256.Idx → EReal)
      = shapeCast S1x256 (addf (mulf (subf (A3 m c) (A6 m c)) (Host.divf (A4 m c) (Host.sqrt (addf (A7 m c)
          (broadcastInDim S256 ![] bcast_S_S256 (constant (F := Ideal) S_ .f32 0x3727C5AC#32)))))) (A5 m c)) shapeCasts_S256_S1x256 := by
    show StableHlo.after hostOps0 (fun b => m (c, b)) (Proc.devRef .tc main_v23) = _
    after_results_simp
    rfl
  rw [e]
  refine (shapeCast_apply _ _ _ (ix1 o) (by rw [Shape.rowMajor_val_one, Shape.rowMajor_val_two]; show o.val = 0 * 256 + o.val; omega)).trans ?_
  rfl

/-- The second convolution's folded scale. -/
theorem v28_apply (c : Dev nD) (o : Fin 256) :
    (V m c main_v28 : S1x256.Idx → EReal) (ix2 (0 : Fin 1) o) = Cert.Spec.scale (A10 m c) (A13 m c) o := by
  have e : (V m c main_v28 : S1x256.Idx → EReal)
      = shapeCast S1x256 (Host.divf (A10 m c) (Host.sqrt (addf (A13 m c)
          (broadcastInDim S256 ![] bcast_S_S256 (constant (F := Ideal) S_ .f32 0x3727C5AC#32))))) shapeCasts_S256_S1x256 := by
    show StableHlo.after hostOps0 (fun b => m (c, b)) (Proc.devRef .tc main_v28) = _
    after_results_simp
    rfl
  rw [e]
  refine (shapeCast_apply _ _ _ (ix1 o) (by rw [Shape.rowMajor_val_one, Shape.rowMajor_val_two]; show o.val = 0 * 256 + o.val; omega)).trans ?_
  rfl

/-- The second convolution's folded shift. -/
theorem v32_apply (c : Dev nD) (o : Fin 256) :
    (V m c main_v32 : S1x256.Idx → EReal) (ix2 (0 : Fin 1) o)
      = Cert.Spec.shift (A9 m c) (A10 m c) (A11 m c) (A12 m c) (A13 m c) o := by
  have e : (V m c main_v32 : S1x256.Idx → EReal)
      = shapeCast S1x256 (addf (mulf (subf (A9 m c) (A12 m c)) (Host.divf (A10 m c) (Host.sqrt (addf (A13 m c)
          (broadcastInDim S256 ![] bcast_S_S256 (constant (F := Ideal) S_ .f32 0x3727C5AC#32)))))) (A11 m c)) shapeCasts_S256_S1x256 := by
    show StableHlo.after hostOps0 (fun b => m (c, b)) (Proc.devRef .tc main_v32) = _
    after_results_simp
    rfl
  rw [e]
  refine (shapeCast_apply _ _ _ (ix1 o) (by rw [Shape.rowMajor_val_one, Shape.rowMajor_val_two]; show o.val = 0 * 256 + o.val; omega)).trans ?_
  rfl

end Cert.KernelIdeal.KHost

end
-- ==== Proof.KHostBlocks.lean ====
/-
  What each input window hands a grid point of the fused kernel.

  The kernel runs once per image. Its two image windows move with the grid: the point of image `n` sees image
  `n` of the flattened input image and of the skip connection. Every other window — the transposed
  convolution's weight matrix and tiled bias, the two convolutions' weights, and the four scale and shift rows — is
  its whole array at every point.
-/
import proofs.«149310_g2000303838873713_pallasbulk_17_2_alg».proof.Proof.KernelIdealBody
import Idealize.ShloMosaic.PureOps.Ideal
import Idealize.ShloMosaic.Lib.ValueIdx

set_option maxRecDepth 16384

noncomputable section

namespace Cert.KernelIdeal.KHost

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The grid point that handles image `n`. -/
def pt (n : Fin 8) : Fin cfg0.N := ⟨n.val, by have := N_0; show n.val < grid0.N; omega⟩

/-! ## The two image windows -/

theorem blkIdx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The input image's block at the point of image `n` is image `n` of its array. -/
theorem iblk0_apply (c : Dev nD) (n : Fin 8) (ci : Fin 256) (p : Fin 1024) :
    (iblk m c 0 (pt n) : S1x256x1024.Idx → EReal) (ix3 (0 : Fin 1) ci p)
      = (V m c main_v1 : S8x256x1024.Idx → EReal) (ix3 n ci p) := by
  obtain ⟨e0, e1, e2⟩ := blkIdx0 (pt n)
  have hp : (pt n).val = n.val := rfl
  show (V m c main_v1 : S8x256x1024.Idx → EReal) (((cfg0.win 0).blk (pt n)).view.emb (ix3 (0 : Fin 1) ci p)) = _
  refine congrArg _ (funext fun a => Fin.ext ?_)
  match a with
  | ⟨0, _⟩ => show win0_0.index (pt n) (0 : Fin 3) * 1 + 1 * 0 = n.val; omega
  | ⟨1, _⟩ => show win0_0.index (pt n) (1 : Fin 3) * 256 + 1 * ci.val = ci.val; omega
  | ⟨2, _⟩ => show win0_0.index (pt n) (2 : Fin 3) * 1024 + 1 * p.val = p.val; omega

theorem blkIdx1 : ∀ t : Fin cfg0.N, win0_1.index t (0 : Fin 5) = t.val ∧ win0_1.index t (1 : Fin 5) = 0 ∧ win0_1.index t (2 : Fin 5) = 0
    ∧ win0_1.index t (3 : Fin 5) = 0 ∧ win0_1.index t (4 : Fin 5) = 0 :=
  (by decide +kernel : ∀ t : Fin grid0.N, _)

/-- The skip connection's block at the point of image `n` is image `n` of its array. -/
theorem iblk1_apply (c : Dev nD) (n : Fin 8) (i : Fin 32) (par : Fin 2) (x : Fin 64) (ch : Fin 128) :
    (iblk m c 1 (pt n) : S1x32x2x64x128.Idx → EReal) (ix5 (0 : Fin 1) i par x ch)
      = (V m c main_v4 : S8x32x2x64x128.Idx → EReal) (ix5 n i par x ch) := by
  obtain ⟨e0, e1, e2, e3, e4⟩ := blkIdx1 (pt n)
  have hp : (pt n).val = n.val := rfl
  show (V m c main_v4 : S8x32x2x64x128.Idx → EReal) (((cfg0.win 1).blk (pt n)).view.emb (ix5 (0 : Fin 1) i par x ch)) = _
  refine congrArg _ (funext fun a => Fin.ext ?_)
  match a with
  | ⟨0, _⟩ => show win0_1.index (pt n) (0 : Fin 5) * 1 + 1 * 0 = n.val; omega
  | ⟨1, _⟩ => show win0_1.index (pt n) (1 : Fin 5) * 32 + 1 * i.val = i.val; omega
  | ⟨2, _⟩ => show win0_1.index (pt n) (2 : Fin 5) * 2 + 1 * par.val = par.val; omega
  | ⟨3, _⟩ => show win0_1.index (pt n) (3 : Fin 5) * 64 + 1 * x.val = x.val; omega
  | ⟨4, _⟩ => show win0_1.index (pt n) (4 : Fin 5) * 128 + 1 * ch.val = ch.val; omega

/-! ## The windows that do not move -/

theorem blkIdx2 : ∀ t : Fin cfg0.N, win0_2.index t (0 : Fin 2) = 0 ∧ win0_2.index t (1 : Fin 2) = 0 :=
  (by decide +kernel : ∀ t : Fin grid0.N, _)

/-- The transposed convolution's weight matrix: its block at every point is the whole array. -/
theorem iblk2_eq (c : Dev nD) (t : Fin cfg0.N) : (iblk m c 2 t : S256x512.Idx → EReal) = V m c main_v6 := by
  obtain ⟨e0, e1⟩ := blkIdx2 t
  funext j
  show (V m c main_v6 : S256x512.Idx → EReal) (((cfg0.win 2).blk t).view.emb j) = _
  refine congrArg _ (funext fun a => Fin.ext ?_)
  match a with
  | ⟨0, _⟩ => show win0_2.index t (0 : Fin 2) * 256 + 1 * (j 0).val = (j 0).val; omega
  | ⟨1, _⟩ => show win0_2.index t (1 : Fin 2) * 512 + 1 * (j 1).val = (j 1).val; omega

theorem blkIdx3 : ∀ t : Fin cfg0.N, win0_3.index t (0 : Fin 2) = 0 ∧ win0_3.index t (1 : Fin 2) = 0 :=
  (by decide +kernel : ∀ t : Fin grid0.N, _)

/-- The tiled bias: its block at every point is the whole array. -/
theorem iblk3_eq (c : Dev nD) (t : Fin cfg0.N) : (iblk m c 3 t : S1x512.Idx → EReal) = V m c main_v10 := by
  obtain ⟨e0, e1⟩ := blkIdx3 t
  funext j
  show (V m c main_v10 : S1x512.Idx → EReal) (((cfg0.win 3).blk t).view.emb j) = _
  refine congrArg _ (funext fun a => Fin.ext ?_)
  match a with
  | ⟨0, _⟩ => show win0_3.index t (0 : Fin 2) * 1 + 1 * (j 0).val = (j 0).val; omega
  | ⟨1, _⟩ => show win0_3.index t (1 : Fin 2) * 512 + 1 * (j 1).val = (j 1).val; omega

theorem blkIdx4 : ∀ t : Fin cfg0.N, win0_4.index t (0 : Fin 3) = 0 ∧ win0_4.index t (1 : Fin 3) = 0 ∧ win0_4.index t (2 : Fin 3) = 0 :=
  (by decide +kernel : ∀ t : Fin grid0.N, _)

/-- The first convolution's weights: its block at every point is the whole array. -/
theorem iblk4_eq (c : Dev nD) (t : Fin cfg0.N) : (iblk m c 4 t : S9x256x256.Idx → EReal) = V m c main_v12 := by
  obtain ⟨e0, e1, e2⟩ := blkIdx4 t
  funext j
  show (V m c main_v12 : S9x256x256.Idx → EReal) (((cfg0.win 4).blk t).view.emb j) = _
  refine congrArg _ (funext fun a => Fin.ext ?_)
  match a with
  | ⟨0, _⟩ => show win0_4.index t (0 : Fin 3) * 9 + 1 * (j 0).val = (j 0).val; omega
  | ⟨1, _⟩ => show win0_4.index t (1 : Fin 3) * 256 + 1 * (j 1).val = (j 1).val; omega
  | ⟨2, _⟩ => show win0_4.index t (2 : Fin 3) * 256 + 1 * (j 2).val = (j 2).val; omega

theorem blkIdx5 : ∀ t : Fin cfg0.N, win0_5.index t (0 : Fin 2) = 0 ∧ win0_5.index t (1 : Fin 2) = 0 :=
  (by decide +kernel : ∀ t : Fin grid0.N, _)

/-- The first scale: its block at every point is the whole array. -/
theorem iblk5_eq (c : Dev nD) (t : Fin cfg0.N) : (iblk m c 5 t : S1x256.Idx → EReal) = V m c main_v19 := by
  obtain ⟨e0, e1⟩ := blkIdx5 t
  funext j
  show (V m c main_v19 : S1x256.Idx → EReal) (((cfg0.win 5).blk t).view.emb j) = _
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 256 + 1 * (j 1).val = (j 1).val; omega

theorem blkIdx6 : ∀ t : Fin cfg0.N, win0_6.index t (0 : Fin 2) = 0 ∧ win0_6.index t (1 : Fin 2) = 0 :=
  (by decide +kernel : ∀ t : Fin grid0.N, _)

/-- The first shift: its block at every point is the whole array. -/
theorem iblk6_eq (c : Dev nD) (t : Fin cfg0.N) : (iblk m c 6 t : S1x256.Idx → EReal) = V m c main_v23 := by
  obtain ⟨e0, e1⟩ := blkIdx6 t
  funext j
  show (V m c main_v23 : S1x256.Idx → EReal) (((cfg0.win 6).blk t).view.emb j) = _
  refine congrArg _ (funext fun a => Fin.ext ?_)
  match a with
  | ⟨0, _⟩ => show win0_6.index t (0 : Fin 2) * 1 + 1 * (j 0).val = (j 0).val; omega
  | ⟨1, _⟩ => show win0_6.index t (1 : Fin 2) * 256 + 1 * (j 1).val = (j 1).val; omega

theorem blkIdx7 : ∀ t : Fin cfg0.N, win0_7.index t (0 : Fin 3) = 0 ∧ win0_7.index t (1 : Fin 3) = 0 ∧ win0_7.index t (2 : Fin 3) = 0 :=
  (by decide +kernel : ∀ t : Fin grid0.N, _)

/-- The second convolution's weights: its block at every point is the whole array. -/
theorem iblk7_eq (c : Dev nD) (t : Fin cfg0.N) : (iblk m c 7 t : S9x256x256.Idx → EReal) = V m c main_v14 := by
  obtain ⟨e0, e1, e2⟩ := blkIdx7 t
  funext j
  show (V m c main_v14 : S9x256x256.Idx → EReal) (((cfg0.win 7).blk t).view.emb j) = _
  refine congrArg _ (funext fun a => Fin.ext ?_)
  match a with
  | ⟨0, _⟩ => show win0_7.index t (0 : Fin 3) * 9 + 1 * (j 0).val = (j 0).val; omega
  | ⟨1, _⟩ => show win0_7.index t (1 : Fin 3) * 256 + 1 * (j 1).val = (j 1).val; omega
  | ⟨2, _⟩ => show win0_7.index t (2 : Fin 3) * 256 + 1 * (j 2).val = (j 2).val; omega

theorem blkIdx8 : ∀ t : Fin cfg0.N, win0_8.index t (0 : Fin 2) = 0 ∧ win0_8.index t (1 : Fin 2) = 0 :=
  (by decide +kernel : ∀ t : Fin grid0.N, _)

/-- The second scale: its block at every point is the whole array. -/
theorem iblk8_eq (c : Dev nD) (t : Fin cfg0.N) : (iblk m c 8 t : S1x256.Idx → EReal) = V m c main_v28 := by
  obtain ⟨e0, e1⟩ := blkIdx8 t
  funext j
  show (V m c main_v28 : S1x256.Idx → EReal) (((cfg0.win 8).blk t).view.emb j) = _
  refine congrArg _ (funext fun a => Fin.ext ?_)
  match a with
  | ⟨0, _⟩ => show win0_8.index t (0 : Fin 2) * 1 + 1 * (j 0).val = (j 0).val; omega
  | ⟨1, _⟩ => show win0_8.index t (1 : Fin 2) * 256 + 1 * (j 1).val = (j 1).val; omega

theorem blkIdx9 : ∀ t : Fin cfg0.N, win0_9.index t (0 : Fin 2) = 0 ∧ win0_9.index t (1 : Fin 2) = 0 :=
  (by decide +kernel : ∀ t : Fin grid0.N, _)

/-- The second shift: its block at every point is the whole array. -/
theorem iblk9_eq (c : Dev nD) (t : Fin cfg0.N) : (iblk m c 9 t : S1x256.Idx → EReal) = V m c main_v32 := by
  obtain ⟨e0, e1⟩ := blkIdx9 t
  funext j
  show (V m c main_v32 : S1x256.Idx → EReal) (((cfg0.win 9).blk t).view.emb j) = _
  refine congrArg _ (funext fun a => Fin.ext ?_)
  match a with
  | ⟨0, _⟩ => show win0_9.index t (0 : Fin 2) * 1 + 1 * (j 0).val = (j 0).val; omega
  | ⟨1, _⟩ => show win0_9.index t (1 : Fin 2) * 256 + 1 * (j 1).val = (j 1).val; omega

end Cert.KernelIdeal.KHost

end
-- ==== Proof.KHostTail.lean ====
import proofs.«149310_g2000303838873713_pallasbulk_17_2_alg».proof.Proof.KernelIdealBody
import proofs.«149310_g2000303838873713_pallasbulk_17_2_alg».proof.Proof.KHostBlocks
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

open scoped BigOperators

namespace Cert.KernelIdeal.KHost

open Cert.KernelIdeal Cert.KernelIdeal.Gen
open Idealize.ShloMosaic Idealize.ShloMosaic.TcCoe Idealize.ShloMosaic.Tactic Idealize.ShloMosaic.ValueIdx
open Idealize.ShloMosaic.Pipeline (Dat Cfg Window)

variable (m : (ℓ : Loc nD τ sig) → Buf (Elt Ideal) ℓ)

/-! ## The output array after the region, and the result after the last host operation

The one output window hands grid point `t` the block of image `t`: one image of 64 × 64 pixels of 256 channels. The
eight blocks tile the array, so after the run image `n` of the array is what point `n` left in its block. The host
then moves the channel axis in front of the two pixel axes. -/

/-- What the output array ends holding: image `n` is the block grid point `n` leaves. -/
def G10 (c : Dev nD) : S8x64x64x256.Idx → EReal :=
  fun i => Body.outAt m c (pt (i 0)) (ix4 (0 : Fin 1) (i 1) (i 2) (i 3))

/-- The output window's index map, decided over the grid: point `t` is handed block `t` along the images, the whole of
    every other axis. -/
theorem idx_facts10 : ∀ t : Fin cfg0.N, win0_10.index t (0 : Fin 4) = t.val ∧ win0_10.index t (1 : Fin 4) = 0
    ∧ win0_10.index t (2 : Fin 4) = 0 ∧ win0_10.index t (3 : Fin 4) = 0 :=
  (by decide +kernel : ∀ t : Fin grid0.N, _)

/-- The window's blocks are not cut: the write-back moves the whole block. -/
theorem cut10 (t : Fin cfg0.N) (X : Vec Ideal S1x64x64x256 .f32) : (cfg0.win 10).cut (grid0.coords t) X = X := rfl

/-- A block read off an array, at a block index, is the array at the embedded index. -/
theorem read10 (t : Fin cfg0.N) (G : S8x64x64x256.Idx → EReal) (j : ((cfg0.win 10).xblock (grid0.coords t)).Idx) :
    ((cfg0.win 10).blk t).view.read (Elt Ideal) G j = G (((cfg0.win 10).blk t).view.emb j) := rfl

/-- The embedding of block indices, coordinate by coordinate: block index times block extent plus the coordinate. -/
theorem emb10_0 (t : Fin cfg0.N) (j : ((cfg0.win 10).xblock (grid0.coords t)).Idx) :
    (((cfg0.win 10).blk t).view.emb j 0).val = win0_10.index t (0 : Fin 4) * 1 + 1 * (j 0).val := rfl
theorem emb10_1 (t : Fin cfg0.N) (j : ((cfg0.win 10).xblock (grid0.coords t)).Idx) :
    (((cfg0.win 10).blk t).view.emb j 1).val = win0_10.index t (1 : Fin 4) * 64 + 1 * (j 1).val := rfl
theorem emb10_2 (t : Fin cfg0.N) (j : ((cfg0.win 10).xblock (grid0.coords t)).Idx) :
    (((cfg0.win 10).blk t).view.emb j 2).val = win0_10.index t (2 : Fin 4) * 64 + 1 * (j 2).val := rfl
theorem emb10_3 (t : Fin cfg0.N) (j : ((cfg0.win 10).xblock (grid0.coords t)).Idx) :
    (((cfg0.win 10).blk t).view.emb j 3).val = win0_10.index t (3 : Fin 4) * 256 + 1 * (j 3).val := rfl

/-- What point `t` writes back is block `t` of `G10`. -/
theorem flushed10_eq (c : Dev nD) (t : Fin cfg0.N) :
    (Body.dats m 0 c).flushed 10 t = ((cfg0.win 10).blk t).view.read (Elt Ideal) (G10 m c) := by
  show (cfg0.win 10).cut (grid0.coords t) ((Body.dats m 0 c).after 10 t) = _
  rw [Body.after0_10]
  refine (cut10 t (Body.outAt m c t)).trans ?_
  obtain ⟨e0, e1, e2, e3⟩ := idx_facts10 t
  funext j
  refine Eq.trans ?_ (read10 t (G10 m c) j).symm
  have hj0 : (j 0).val < 1 := (j 0).isLt
  have h0 : (((cfg0.win 10).blk t).view.emb j 0).val = t.val := by rw [emb10_0]; omega
  have h1 : (((cfg0.win 10).blk t).view.emb j 1).val = (j 1).val := by rw [emb10_1]; omega
  have h2 : (((cfg0.win 10).blk t).view.emb j 2).val = (j 2).val := by rw [emb10_2]; omega
  have h3 : (((cfg0.win 10).blk t).view.emb j 3).val = (j 3).val := by rw [emb10_3]; omega
  have ht : pt (((cfg0.win 10).blk t).view.emb j 0) = t := Fin.ext h0
  have hj : ix4 (0 : Fin 1) (((cfg0.win 10).blk t).view.emb j 1) (((cfg0.win 10).blk t).view.emb j 2)
      (((cfg0.win 10).blk t).view.emb j 3) = j := funext fun a => Fin.ext (by
    match a with
    | ⟨0, _⟩ => show 0 = (j 0).val; omega
    | ⟨1, _⟩ => exact h1
    | ⟨2, _⟩ => exact h2
    | ⟨3, _⟩ => exact h3)
  unfold G10
  rw [ht]
  exact (congrArg (Body.outAt m c t) hj).symm

/-- An index of the array is in point `t`'s block iff each coordinate is in the block's range on its axis. -/
theorem mem_blk10 (t : Fin cfg0.N) (i : S8x64x64x256.Idx) :
    i ∈ ((cfg0.win 10).blk t).view.set ↔ ∀ a : Fin 4, win0_10.index t a * S1x64x64x256.size a ≤ (i a).val
      ∧ (i a).val < win0_10.index t a * S1x64x64x256.size a + S1x64x64x256.size a := by
  show i ∈ ((View.whole main_v33).slice (win0_10.rect t)).set ↔ _
  rw [View.set_slice_whole, Rect.mem_set_unit]
  exact Iff.rfl

/-- Every index of the array lies in the block of the point of its image. -/
theorem cover10 (i : S8x64x64x256.Idx) :
    ∃ t : Fin cfg0.N, (cfg0.win 10).flush t = true ∧ i ∈ ((cfg0.win 10).blk t).view.set := by
  refine ⟨pt (i 0), flush0_10 _, ?_⟩
  rw [mem_blk10]
  obtain ⟨e0, e1, e2, e3⟩ := idx_facts10 (pt (i 0))
  have e0' : win0_10.index (pt (i 0)) (0 : Fin 4) = (i 0).val := e0
  intro a
  match a with
  | ⟨0, _⟩ => show win0_10.index (pt (i 0)) (0 : Fin 4) * 1 ≤ (i 0).val ∧ (i 0).val < win0_10.index (pt (i 0)) (0 : Fin 4) * 1 + 1; omega
  | ⟨1, _⟩ => show win0_10.index (pt (i 0)) (1 : Fin 4) * 64 ≤ (i 1).val ∧ (i 1).val < win0_10.index (pt (i 0)) (1 : Fin 4) * 64 + 64; have h1 : (i 1).val < 64 := (i 1).isLt; omega
  | ⟨2, _⟩ => show win0_10.index (pt (i 0)) (2 : Fin 4) * 64 ≤ (i 2).val ∧ (i 2).val < win0_10.index (pt (i 0)) (2 : Fin 4) * 64 + 64; have h2 : (i 2).val < 64 := (i 2).isLt; omega
  | ⟨3, _⟩ => show win0_10.index (pt (i 0)) (3 : Fin 4) * 256 ≤ (i 3).val ∧ (i 3).val < win0_10.index (pt (i 0)) (3 : Fin 4) * 256 + 256; have h3 : (i 3).val < 256 := (i 3).isLt; omega

/-- The output array after the run. -/
theorem final10 (c : Dev nD) : (Body.dats m 0 c).arrAt 10 cfg0.N = G10 m c :=
  (Body.dats m 0 c).arrAt_eq_of_cover 10 (G10 m c) (fun t _ => flushed10_eq m c t) cover10

/-- The output array after the run, index by index: image `n` is what grid point `n` left in its block. -/
theorem arr10_apply (c : Dev nD) (n : Fin 8) (y x : Fin 64) (o : Fin 256) :
    ((Body.dats m 0 c).arrAt 10 cfg0.N : S8x64x64x256.Idx → EReal) (ix4 n y x o)
      = Body.outAt m c (pt n) (ix4 (0 : Fin 1) y x o) := by
  rw [final10]
  rfl

/-- The program's result: the output array with the channel axis moved in front of the pixel axes. -/
theorem result_apply (c : Dev nD) (n : Fin 8) (o : Fin 256) (y x : Fin 64) :
    (Pipeline.afterTail₀ cfgs (Body.dats m) 0 (V0 m) [hostOps1] c main_v34 : S8x256x64x64.Idx → EReal) (ix4 n o y x)
      = ((Body.dats m 0 c).arrAt 10 cfg0.N : S8x64x64x256.Idx → EReal) (ix4 n y x o) := by
  have e : (Pipeline.afterTail₀ cfgs (Body.dats m) 0 (V0 m) [hostOps1] c main_v34 : S8x256x64x64.Idx → EReal)
      = transpose S8x256x64x64 [0, 3, 1, 2] ((Body.dats m 0 c).arrAt 10 cfg0.N : S8x64x64x256.Idx → EReal)
          transposes_S8x64x64x256_S8x256x64x64_0_3_1_2 := by
    unfold Pipeline.afterTail₀
    show StableHlo.after hostOps1 _ (Proc.devRef .tc main_v34) = _
    after_results
    exact congrArg (fun z => transpose S8x256x64x64 [0, 3, 1, 2] z transposes_S8x64x64x256_S8x256x64x64_0_3_1_2)
      (Pipeline.withArrays_arr spec0 launch0.win.arr_inj c _ _ 10)
  rw [e]
  exact transpose_apply _ _ _ _ _ (fun b => match b with | ⟨0, _⟩ => rfl | ⟨1, _⟩ => rfl | ⟨2, _⟩ => rfl | ⟨3, _⟩ => rfl)

end Cert.KernelIdeal.KHost

end
-- ==== Proof.LibWritesBlend.lean ====
/-
  Reading a list of writes whose newest piece is a blend.

  A store of rows that are only part of their memory words is modelled as a read-modify-write: the words'
  rectangle is read, the stored rows are put at their offset inside it, and the rectangle is written back.
  In the list of writes this is a newest piece whose payload is the old contents of the rectangle, as the
  rest of the list leaves them, with the stored block substituted at its offset. Read at any index of the
  array, such a list gives the stored block on the sub-rectangle it occupies — the rectangle's offset plus
  the block's offset inside it — and whatever the rest of the list gives everywhere else.
-/
import Idealize.ShloMosaic.Lib.WritesUnit
import Idealize.ShloMosaic.Lib.Exec.Geometry
import Idealize.ShloMosaic.PureOps.ShapeOps

namespace Cert.LibWritesBlend

open Idealize.ShloMosaic

variable {sig : RefSig} {κ : Kind} {sp : Space} {s : Shape} {e : EltTy} {Val : EltTy → Type} [∀ e, Nonempty (Val e)]

/-- A covered read through a unit-stride rectangle, at a position `x` of the rectangle, is the list's value at the
    array index `x` is placed at. -/
theorem readCov_unit_apply (v : View sig κ sp s e) (L : List (View.Piece Val s e)) {off size : Fin s.rank → ℕ}
    (inb : ∀ a, off a + size a ≤ s.size a) (x : (Rect.unit off size inb).shape.Idx) :
    v.readCov L (Rect.unit off size inb).toLoadRect x
      = v.read Val (v.writes Val v.junk L) ((Rect.unit off size inb).emb x) := rfl

/-- The newest piece a blend of the block `upd` at offset `start` into the old contents of the rectangle at `off`:
    on the box `off + start ≤ y < off + start + (extent of upd)` the list reads `upd` at `y - (off + start)`, and
    elsewhere what the rest of the list reads. -/
theorem read_cons_blend (v : View sig κ sp s e) (L : List (View.Piece Val s e)) {off size : Fin s.rank → ℕ}
    (inb : ∀ a, off a + size a ≤ s.size a) {u : Shape} (upd : u.Idx → Val e) (start : Fin s.rank → ℕ)
    (h : (Rect.unit off size inb).shape.Slices start u) (y : s.Idx) :
    v.read Val (v.writes Val v.junk
        ((⟨Rect.unit off size inb, updateSlice (v.readCov L (Rect.unit off size inb).toLoadRect) upd start h⟩ :
          View.Piece Val s e) :: L)) y
      = if hin : ∀ a : Fin s.rank, off a + start a ≤ (y a).val ∧ (y a).val < off a + start a + u.size (a.cast h.1.symm) then
          upd (fun b => ⟨(y (b.cast h.1)).val - (off (b.cast h.1) + start (b.cast h.1)), by
            have hb := hin (b.cast h.1)
            have e : (b.cast h.1).cast h.1.symm = b := rfl
            rw [e] at hb
            omega⟩)
        else v.read Val (v.writes Val v.junk L) y := by
  have hsl : ∀ a : Fin s.rank, start a + u.size (a.cast h.1.symm) ≤ size a := h.2
  rw [View.read_writes_cons_unit v v.junk inb _ L y rfl]
  by_cases hr : ∀ a, off a ≤ (y a).val ∧ (y a).val < off a + size a
  · rw [dif_pos hr]
    unfold updateSlice
    by_cases hs : ∀ a : Fin s.rank, start a ≤ (Rect.unitLocal (s := s) (off := off) (size := size) y hr a).val
        ∧ (Rect.unitLocal (s := s) (off := off) (size := size) y hr a).val < start a + u.size (a.cast h.1.symm)
    · have hin : ∀ a : Fin s.rank, off a + start a ≤ (y a).val ∧ (y a).val < off a + start a + u.size (a.cast h.1.symm) := fun a => by
        have h1 := hr a; have h2 := hs a; rw [Rect.unitLocal_val] at h2; omega
      rw [dif_pos hin]
      refine (dif_pos hs).trans ?_
      refine congrArg upd (funext fun b => Fin.ext ?_)
      show (Rect.unitLocal (s := s) (off := off) (size := size) y hr (b.cast h.1)).val - start (b.cast h.1)
        = (y (b.cast h.1)).val - (off (b.cast h.1) + start (b.cast h.1))
      rw [Rect.unitLocal_val]; omega
    · have hin : ¬ ∀ a : Fin s.rank, off a + start a ≤ (y a).val ∧ (y a).val < off a + start a + u.size (a.cast h.1.symm) := fun hall =>
        hs fun a => by have h1 := hr a; have h2 := hall a; rw [Rect.unitLocal_val]; omega
      rw [dif_neg hin]
      refine (dif_neg hs).trans ?_
      rw [readCov_unit_apply]
      refine congrArg (v.read Val (v.writes Val v.junk L)) (funext fun a => Fin.ext ?_)
      show off a + 1 * (Rect.unitLocal (s := s) (off := off) (size := size) y hr a).val = (y a).val
      have h1 := hr a
      rw [Rect.unitLocal_val]; omega
  · rw [dif_neg hr]
    have hin : ¬ ∀ a : Fin s.rank, off a + start a ≤ (y a).val ∧ (y a).val < off a + start a + u.size (a.cast h.1.symm) := fun hall =>
      hr fun a => by have h2 := hall a; have h3 := hsl a; omega
    rw [dif_neg hin]

/-- The oldest piece the whole array: the list reads its payload everywhere. -/
theorem read_whole (v : View sig κ sp s e) (inb : ∀ a, (fun _ => 0 : Fin s.rank → ℕ) a + s.size a ≤ s.size a) (w : s.Idx → Val e) (y : s.Idx) :
    v.read Val (v.writes Val v.junk [(⟨Rect.unit (fun _ => 0) s.size inb, w⟩ : View.Piece Val s e)]) y = w y := by
  refine (View.read_writes_cons_unit_of_mem v v.junk inb w [] y y rfl fun a => ?_)
  exact (Nat.zero_add _).symm

end Cert.LibWritesBlend
-- ==== Proof.KScratch.lean ====
import proofs.«149310_g2000303838873713_pallasbulk_17_2_alg».proof.Proof.KernelIdealBody
import proofs.«149310_g2000303838873713_pallasbulk_17_2_alg».proof.Proof.LibWritesBlend
import Idealize.ShloMosaic.Lib.ValueIdx
import Idealize.ShloMosaic.Lib.Pipeline.Value
set_option maxRecDepth 16384
noncomputable section
namespace Cert.KernelIdeal.KScratch
open Cert.KernelIdeal Cert.KernelIdeal.Gen Cert.KernelIdeal.Body
open Idealize.ShloMosaic Idealize.ShloMosaic.ValueIdx Idealize.ShloMosaic.Pipeline
variable {F : FTy → Type} [FloatOps F]

/-!
  The first scratch array after the body's stores.

  The array has 34 × 2 × 66 × 256 entries: padded row `2·s0 + s1`, padded column `cc`, channel `ch`. It is
  filled with zeros; then four blocks are blended into its interior (padded columns 1 … 64): the even rows of
  the skip connection (odd padded rows, channels below 128), its odd rows (even padded rows from 2 on), and the
  two row parities of the up-sampled image (channels from 128 on). Read back whole, the array is, entry by
  entry, the newest block that covers the entry and zero where none does.
-/

/-- What the list of writes `L` to the first scratch array gives at index `y`. -/
abbrev rd0 (arg12 : Memref sig .tc .vmem S34x2x66x256 .bf16) (L : List (View.Piece (Elt F) S34x2x66x256 .bf16)) (y : S34x2x66x256.Idx) : Elt F .bf16 :=
  arg12.view.read (Elt F) (arg12.view.writes (Elt F) arg12.view.junk L) y

theorem rd5_hit (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg12 : Memref sig .tc .vmem S34x2x66x256 .bf16) (x0 : Vec F S1x256x1024 .bf16) (x1 : Vec F S1x32x2x64x128 .bf16) (x2 : Vec F S256x512 .bf16) (x3 : Vec F S1x512 .f32) (s0 : Fin 34) (s1 : Fin 2) (cc : Fin 66) (ch : Fin 256)
    (h0 : 1 ≤ s0.val ∧ s0.val < 33) (h1 : s1 = 0) (h2 : 1 ≤ cc.val ∧ cc.val < 65) (h3 : 128 ≤ ch.val ∧ ch.val < 256) :
    rd0 arg12 (kernelRun.sl.HS0_5 c arg1 harg1 arg2 harg2 arg3 harg3 arg4 harg4 arg12 x0 x1 x2 x3) (ix4 s0 s1 cc ch) = k0_pay8 (kernelRun.sl.r c arg1 harg1 arg3 harg3 arg4 harg4 x0 x2 x3) (ix4 (⟨s0.val - 1, by omega⟩ : Fin 32) (0 : Fin 1) (⟨cc.val - 1, by omega⟩ : Fin 64) (⟨ch.val - 128, by omega⟩ : Fin 128)) := by
  subst h1
  unfold kernelRun.sl.HS0_5 kernelRun.sl.old_3
  dsimp only
  refine (Cert.LibWritesBlend.read_cons_blend _ _ _ _ _ _ _).trans ?_
  rw [dif_pos (fun a => by
    match a with
    | ⟨0, _⟩ => exact ⟨by show 1 + 0 ≤ s0.val; omega, by show s0.val < 1 + 0 + 32; omega⟩
    | ⟨1, _⟩ => exact ⟨by show 0 + 0 ≤ (0 : Fin 2).val; decide, by show (0 : Fin 2).val < 0 + 0 + 1; decide⟩
    | ⟨2, _⟩ => exact ⟨by show 0 + 1 ≤ cc.val; omega, by show cc.val < 0 + 1 + 64; omega⟩
    | ⟨3, _⟩ => exact ⟨by show 128 + 0 ≤ ch.val; omega, by show ch.val < 128 + 0 + 128; omega⟩)]
  refine congrArg _ (funext fun b => ?_)
  match b with
  | ⟨0, _⟩ => exact Fin.ext (by show s0.val - (1 + 0) = s0.val - 1; omega)
  | ⟨1, _⟩ => exact Fin.ext (by show (0 : Fin 2).val - (0 + 0) = 0; decide)
  | ⟨2, _⟩ => exact Fin.ext (by show cc.val - (0 + 1) = cc.val - 1; omega)
  | ⟨3, _⟩ => exact Fin.ext (by show ch.val - (128 + 0) = ch.val - 128; omega)

theorem rd5_miss (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg12 : Memref sig .tc .vmem S34x2x66x256 .bf16) (x0 : Vec F S1x256x1024 .bf16) (x1 : Vec F S1x32x2x64x128 .bf16) (x2 : Vec F S256x512 .bf16) (x3 : Vec F S1x512 .f32) (s0 : Fin 34) (s1 : Fin 2) (cc : Fin 66) (ch : Fin 256)
    (hne : ¬ (1 ≤ s0.val ∧ s0.val < 33 ∧ s1.val = 0 ∧ 1 ≤ cc.val ∧ cc.val < 65 ∧ 128 ≤ ch.val ∧ ch.val < 256)) :
    rd0 arg12 (kernelRun.sl.HS0_5 c arg1 harg1 arg2 harg2 arg3 harg3 arg4 harg4 arg12 x0 x1 x2 x3) (ix4 s0 s1 cc ch) = rd0 arg12 (kernelRun.sl.HS0_4 c arg1 harg1 arg2 harg2 arg3 harg3 arg4 harg4 arg12 x0 x1 x2 x3) (ix4 s0 s1 cc ch) := by
  unfold kernelRun.sl.HS0_5 kernelRun.sl.old_3
  dsimp only
  refine (Cert.LibWritesBlend.read_cons_blend _ _ _ _ _ _ _).trans ?_
  rw [dif_neg (fun hall => hne (by
    have b0 := hall ⟨0, by decide⟩
    have a0 : 1 + 0 ≤ s0.val ∧ s0.val < 1 + 0 + 32 := b0
    have b1 := hall ⟨1, by decide⟩
    have a1 : 0 + 0 ≤ s1.val ∧ s1.val < 0 + 0 + 1 := b1
    have b2 := hall ⟨2, by decide⟩
    have a2 : 0 + 1 ≤ cc.val ∧ cc.val < 0 + 1 + 64 := b2
    have b3 := hall ⟨3, by decide⟩
    have a3 : 128 + 0 ≤ ch.val ∧ ch.val < 128 + 0 + 128 := b3
    omega))]

theorem rd4_hit (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg12 : Memref sig .tc .vmem S34x2x66x256 .bf16) (x0 : Vec F S1x256x1024 .bf16) (x1 : Vec F S1x32x2x64x128 .bf16) (x2 : Vec F S256x512 .bf16) (x3 : Vec F S1x512 .f32) (s0 : Fin 34) (s1 : Fin 2) (cc : Fin 66) (ch : Fin 256)
    (h0 : 0 ≤ s0.val ∧ s0.val < 32) (h1 : s1 = 1) (h2 : 1 ≤ cc.val ∧ cc.val < 65) (h3 : 128 ≤ ch.val ∧ ch.val < 256) :
    rd0 arg12 (kernelRun.sl.HS0_4 c arg1 harg1 arg2 harg2 arg3 harg3 arg4 harg4 arg12 x0 x1 x2 x3) (ix4 s0 s1 cc ch) = k0_pay7 (kernelRun.sl.r_1 c arg1 harg1 arg3 harg3 arg4 harg4 x0 x2 x3) (ix4 (⟨s0.val - 0, by omega⟩ : Fin 32) (0 : Fin 1) (⟨cc.val - 1, by omega⟩ : Fin 64) (⟨ch.val - 128, by omega⟩ : Fin 128)) := by
  subst h1
  unfold kernelRun.sl.HS0_4 kernelRun.sl.old_2
  dsimp only
  refine (Cert.LibWritesBlend.read_cons_blend _ _ _ _ _ _ _).trans ?_
  rw [dif_pos (fun a => by
    match a with
    | ⟨0, _⟩ => exact ⟨by show 0 + 0 ≤ s0.val; omega, by show s0.val < 0 + 0 + 32; omega⟩
    | ⟨1, _⟩ => exact ⟨by show 1 + 0 ≤ (1 : Fin 2).val; decide, by show (1 : Fin 2).val < 1 + 0 + 1; decide⟩
    | ⟨2, _⟩ => exact ⟨by show 0 + 1 ≤ cc.val; omega, by show cc.val < 0 + 1 + 64; omega⟩
    | ⟨3, _⟩ => exact ⟨by show 128 + 0 ≤ ch.val; omega, by show ch.val < 128 + 0 + 128; omega⟩)]
  refine congrArg _ (funext fun b => ?_)
  match b with
  | ⟨0, _⟩ => exact Fin.ext (by show s0.val - (0 + 0) = s0.val - 0; omega)
  | ⟨1, _⟩ => exact Fin.ext (by show (1 : Fin 2).val - (1 + 0) = 0; decide)
  | ⟨2, _⟩ => exact Fin.ext (by show cc.val - (0 + 1) = cc.val - 1; omega)
  | ⟨3, _⟩ => exact Fin.ext (by show ch.val - (128 + 0) = ch.val - 128; omega)

theorem rd4_miss (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg12 : Memref sig .tc .vmem S34x2x66x256 .bf16) (x0 : Vec F S1x256x1024 .bf16) (x1 : Vec F S1x32x2x64x128 .bf16) (x2 : Vec F S256x512 .bf16) (x3 : Vec F S1x512 .f32) (s0 : Fin 34) (s1 : Fin 2) (cc : Fin 66) (ch : Fin 256)
    (hne : ¬ (0 ≤ s0.val ∧ s0.val < 32 ∧ s1.val = 1 ∧ 1 ≤ cc.val ∧ cc.val < 65 ∧ 128 ≤ ch.val ∧ ch.val < 256)) :
    rd0 arg12 (kernelRun.sl.HS0_4 c arg1 harg1 arg2 harg2 arg3 harg3 arg4 harg4 arg12 x0 x1 x2 x3) (ix4 s0 s1 cc ch) = rd0 arg12 (kernelRun.sl.HS0_3 c arg2 harg2 arg12 x1) (ix4 s0 s1 cc ch) := by
  unfold kernelRun.sl.HS0_4 kernelRun.sl.old_2
  dsimp only
  refine (Cert.LibWritesBlend.read_cons_blend _ _ _ _ _ _ _).trans ?_
  rw [dif_neg (fun hall => hne (by
    have b0 := hall ⟨0, by decide⟩
    have a0 : 0 + 0 ≤ s0.val ∧ s0.val < 0 + 0 + 32 := b0
    have b1 := hall ⟨1, by decide⟩
    have a1 : 1 + 0 ≤ s1.val ∧ s1.val < 1 + 0 + 1 := b1
    have b2 := hall ⟨2, by decide⟩
    have a2 : 0 + 1 ≤ cc.val ∧ cc.val < 0 + 1 + 64 := b2
    have b3 := hall ⟨3, by decide⟩
    have a3 : 128 + 0 ≤ ch.val ∧ ch.val < 128 + 0 + 128 := b3
    omega))]

theorem rd3_hit (c : Dev nD) (arg2 : Memref sig .tc .vmem S1x32x2x64x128 .bf16) (harg2 : arg2.IsWhole) (arg12 : Memref sig .tc .vmem S34x2x66x256 .bf16) (x1 : Vec F S1x32x2x64x128 .bf16) (s0 : Fin 34) (s1 : Fin 2) (cc : Fin 66) (ch : Fin 256)
    (h0 : 1 ≤ s0.val ∧ s0.val < 33) (h1 : s1 = 0) (h2 : 1 ≤ cc.val ∧ cc.val < 65) (h3 : 0 ≤ ch.val ∧ ch.val < 128) :
    rd0 arg12 (kernelRun.sl.HS0_3 c arg2 harg2 arg12 x1) (ix4 s0 s1 cc ch) = k0_pay4 (View.readAt (Elt F) arg2.view (Rect.unit (s := S1x32x2x64x128) ![0, 0, 1, 0, 0] S1x32x1x64x128.size inb_S1x32x2x64x128_S1x32x1x64x128_0_0_1_0_0).toLoadRect (harg2.unread x1)) (ix4 (⟨s0.val - 1, by omega⟩ : Fin 32) (0 : Fin 1) (⟨cc.val - 1, by omega⟩ : Fin 64) (⟨ch.val - 0, by omega⟩ : Fin 128)) := by
  subst h1
  unfold kernelRun.sl.HS0_3 kernelRun.sl.old_1
  dsimp only
  refine (Cert.LibWritesBlend.read_cons_blend _ _ _ _ _ _ _).trans ?_
  rw [dif_pos (fun a => by
    match a with
    | ⟨0, _⟩ => exact ⟨by show 1 + 0 ≤ s0.val; omega, by show s0.val < 1 + 0 + 32; omega⟩
    | ⟨1, _⟩ => exact ⟨by show 0 + 0 ≤ (0 : Fin 2).val; decide, by show (0 : Fin 2).val < 0 + 0 + 1; decide⟩
    | ⟨2, _⟩ => exact ⟨by show 0 + 1 ≤ cc.val; omega, by show cc.val < 0 + 1 + 64; omega⟩
    | ⟨3, _⟩ => exact ⟨by show 0 + 0 ≤ ch.val; omega, by show ch.val < 0 + 0 + 128; omega⟩)]
  refine congrArg _ (funext fun b => ?_)
  match b with
  | ⟨0, _⟩ => exact Fin.ext (by show s0.val - (1 + 0) = s0.val - 1; omega)
  | ⟨1, _⟩ => exact Fin.ext (by show (0 : Fin 2).val - (0 + 0) = 0; decide)
  | ⟨2, _⟩ => exact Fin.ext (by show cc.val - (0 + 1) = cc.val - 1; omega)
  | ⟨3, _⟩ => exact Fin.ext (by show ch.val - (0 + 0) = ch.val - 0; omega)

theorem rd3_miss (c : Dev nD) (arg2 : Memref sig .tc .vmem S1x32x2x64x128 .bf16) (harg2 : arg2.IsWhole) (arg12 : Memref sig .tc .vmem S34x2x66x256 .bf16) (x1 : Vec F S1x32x2x64x128 .bf16) (s0 : Fin 34) (s1 : Fin 2) (cc : Fin 66) (ch : Fin 256)
    (hne : ¬ (1 ≤ s0.val ∧ s0.val < 33 ∧ s1.val = 0 ∧ 1 ≤ cc.val ∧ cc.val < 65 ∧ 0 ≤ ch.val ∧ ch.val < 128)) :
    rd0 arg12 (kernelRun.sl.HS0_3 c arg2 harg2 arg12 x1) (ix4 s0 s1 cc ch) = rd0 arg12 (kernelRun.sl.HS0_2 c arg2 harg2 arg12 x1) (ix4 s0 s1 cc ch) := by
  unfold kernelRun.sl.HS0_3 kernelRun.sl.old_1
  dsimp only
  refine (Cert.LibWritesBlend.read_cons_blend _ _ _ _ _ _ _).trans ?_
  rw [dif_neg (fun hall => hne (by
    have b0 := hall ⟨0, by decide⟩
    have a0 : 1 + 0 ≤ s0.val ∧ s0.val < 1 + 0 + 32 := b0
    have b1 := hall ⟨1, by decide⟩
    have a1 : 0 + 0 ≤ s1.val ∧ s1.val < 0 + 0 + 1 := b1
    have b2 := hall ⟨2, by decide⟩
    have a2 : 0 + 1 ≤ cc.val ∧ cc.val < 0 + 1 + 64 := b2
    have b3 := hall ⟨3, by decide⟩
    have a3 : 0 + 0 ≤ ch.val ∧ ch.val < 0 + 0 + 128 := b3
    omega))]

theorem rd2_hit (c : Dev nD) (arg2 : Memref sig .tc .vmem S1x32x2x64x128 .bf16) (harg2 : arg2.IsWhole) (arg12 : Memref sig .tc .vmem S34x2x66x256 .bf16) (x1 : Vec F S1x32x2x64x128 .bf16) (s0 : Fin 34) (s1 : Fin 2) (cc : Fin 66) (ch : Fin 256)
    (h0 : 0 ≤ s0.val ∧ s0.val < 32) (h1 : s1 = 1) (h2 : 1 ≤ cc.val ∧ cc.val < 65) (h3 : 0 ≤ ch.val ∧ ch.val < 128) :
    rd0 arg12 (kernelRun.sl.HS0_2 c arg2 harg2 arg12 x1) (ix4 s0 s1 cc ch) = k0_pay3 (View.readAt (Elt F) arg2.view (Rect.unit (s := S1x32x2x64x128) ![0, 0, 0, 0, 0] S1x32x1x64x128.size inb_S1x32x2x64x128_S1x32x1x64x128_0_0_0_0_0).toLoadRect (harg2.unread x1)) (ix4 (⟨s0.val - 0, by omega⟩ : Fin 32) (0 : Fin 1) (⟨cc.val - 1, by omega⟩ : Fin 64) (⟨ch.val - 0, by omega⟩ : Fin 128)) := by
  subst h1
  unfold kernelRun.sl.HS0_2 kernelRun.sl.old
  dsimp only
  refine (Cert.LibWritesBlend.read_cons_blend _ _ _ _ _ _ _).trans ?_
  rw [dif_pos (fun a => by
    match a with
    | ⟨0, _⟩ => exact ⟨by show 0 + 0 ≤ s0.val; omega, by show s0.val < 0 + 0 + 32; omega⟩
    | ⟨1, _⟩ => exact ⟨by show 1 + 0 ≤ (1 : Fin 2).val; decide, by show (1 : Fin 2).val < 1 + 0 + 1; decide⟩
    | ⟨2, _⟩ => exact ⟨by show 0 + 1 ≤ cc.val; omega, by show cc.val < 0 + 1 + 64; omega⟩
    | ⟨3, _⟩ => exact ⟨by show 0 + 0 ≤ ch.val; omega, by show ch.val < 0 + 0 + 128; omega⟩)]
  refine congrArg _ (funext fun b => ?_)
  match b with
  | ⟨0, _⟩ => exact Fin.ext (by show s0.val - (0 + 0) = s0.val - 0; omega)
  | ⟨1, _⟩ => exact Fin.ext (by show (1 : Fin 2).val - (1 + 0) = 0; decide)
  | ⟨2, _⟩ => exact Fin.ext (by show cc.val - (0 + 1) = cc.val - 1; omega)
  | ⟨3, _⟩ => exact Fin.ext (by show ch.val - (0 + 0) = ch.val - 0; omega)

theorem rd2_miss (c : Dev nD) (arg2 : Memref sig .tc .vmem S1x32x2x64x128 .bf16) (harg2 : arg2.IsWhole) (arg12 : Memref sig .tc .vmem S34x2x66x256 .bf16) (x1 : Vec F S1x32x2x64x128 .bf16) (s0 : Fin 34) (s1 : Fin 2) (cc : Fin 66) (ch : Fin 256)
    (hne : ¬ (0 ≤ s0.val ∧ s0.val < 32 ∧ s1.val = 1 ∧ 1 ≤ cc.val ∧ cc.val < 65 ∧ 0 ≤ ch.val ∧ ch.val < 128)) :
    rd0 arg12 (kernelRun.sl.HS0_2 c arg2 harg2 arg12 x1) (ix4 s0 s1 cc ch) = rd0 arg12 (kernelRun.sl.HS0_1) (ix4 s0 s1 cc ch) := by
  unfold kernelRun.sl.HS0_2 kernelRun.sl.old
  dsimp only
  refine (Cert.LibWritesBlend.read_cons_blend _ _ _ _ _ _ _).trans ?_
  rw [dif_neg (fun hall => hne (by
    have b0 := hall ⟨0, by decide⟩
    have a0 : 0 + 0 ≤ s0.val ∧ s0.val < 0 + 0 + 32 := b0
    have b1 := hall ⟨1, by decide⟩
    have a1 : 1 + 0 ≤ s1.val ∧ s1.val < 1 + 0 + 1 := b1
    have b2 := hall ⟨2, by decide⟩
    have a2 : 0 + 1 ≤ cc.val ∧ cc.val < 0 + 1 + 64 := b2
    have b3 := hall ⟨3, by decide⟩
    have a3 : 0 + 0 ≤ ch.val ∧ ch.val < 0 + 0 + 128 := b3
    omega))]

/-- Under the zero fill alone every entry is the fill's. -/
theorem rd1 (arg12 : Memref sig .tc .vmem S34x2x66x256 .bf16) (y : S34x2x66x256.Idx) :
    rd0 (F := F) arg12 kernelRun.sl.HS0_1 y = k0_pay2 y := by
  unfold kernelRun.sl.HS0_1
  refine View.read_writes_cons_unit_of_mem _ _ _ _ [] y y rfl fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- The whole read of the array is the last list read entry by entry. -/
theorem v34_rd (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg12 : Memref sig .tc .vmem S34x2x66x256 .bf16) (x0 : Vec F S1x256x1024 .bf16) (x1 : Vec F S1x32x2x64x128 .bf16) (x2 : Vec F S256x512 .bf16) (x3 : Vec F S1x512 .f32) (y : S34x2x66x256.Idx) :
    kernelRun.sl.v34 c arg1 harg1 arg2 harg2 arg3 harg3 arg4 harg4 arg12 x0 x1 x2 x3 y = rd0 arg12 (kernelRun.sl.HS0_5 c arg1 harg1 arg2 harg2 arg3 harg3 arg4 harg4 arg12 x0 x1 x2 x3) y := by
  unfold kernelRun.sl.v34
  rw [Cert.LibWritesBlend.readCov_unit_apply]
  refine congrArg _ (funext fun a => Fin.ext ?_)
  match a with
  | ⟨0, _⟩ => show 0 + 1 * (y ⟨0, _⟩).val = _; omega
  | ⟨1, _⟩ => show 0 + 1 * (y ⟨1, _⟩).val = _; omega
  | ⟨2, _⟩ => show 0 + 1 * (y ⟨2, _⟩).val = _; omega
  | ⟨3, _⟩ => show 0 + 1 * (y ⟨3, _⟩).val = _; omega

end Cert.KernelIdeal.KScratch
end
-- ==== Proof.KArithUp.lean ====
import proofs.«149310_g2000303838873713_pallasbulk_17_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KArith

open Cert.KernelIdeal Cert.KernelIdeal.Gen
open Idealize.ShloMosaic Idealize.ShloMosaic.ValueIdx

/-! The transposed convolution of stride two is one product: the input image, 256 channels by 32 · 32 pixels,
    contracted over its channels against the weight, 256 channels by 2 · 2 · 128 columns ordered
    `(dy, dx, oc)`, plus the bias tiled over the four `(dy, dx)`. Row `p = 32 i + j` of the product is input pixel
    `(i, j)`; its columns `0 … 255` (`dy = 0`) and `256 … 511` (`dy = 1`) are regrouped to 32 rows of 64 pixels of
    128 channels, pixel `x = 2 j + dx`. -/

/-- The product's dimension numbers: both operands are contracted over their rows. -/
abbrev DUp : DotDims S256x1024 S256x512 S1024x512 := dot_S256x1024_S256x512_S1024x512_0_0_1_1_n_n

/-- The left operand is read in the contracted row. -/
theorem up_lhs_row (i : S1024x512.Idx) (k : DUp.contr.Idx) : (DUp.lhsIdx i k 0).val = (k ⟨0, by decide⟩).val :=
  DUp.lhsIdx_val_of_single rfl i k

/-- The left operand's column is the result's row. -/
theorem up_lhs_col (i : S1024x512.Idx) (k : DUp.contr.Idx) : (DUp.lhsIdx i k 1).val = (i 0).val := by
  unfold DotDims.lhsIdx
  rw [dif_neg (show ¬(1 : Fin S256x1024.rank) ∈ DUp.lhsBatch by decide),
    dif_pos (show (1 : Fin S256x1024.rank) ∈ DUp.lhsNonContracting by decide)]
  rfl

/-- The right operand is read in the contracted row. -/
theorem up_rhs_row (i : S1024x512.Idx) (k : DUp.contr.Idx) : (DUp.rhsIdx i k 0).val = (k ⟨0, by decide⟩).val :=
  DUp.rhsIdx_val_of_single rfl i k

/-- The right operand's column is the result's column. -/
theorem up_rhs_col (i : S1024x512.Idx) (k : DUp.contr.Idx) : (DUp.rhsIdx i k 1).val = (i 1).val := by
  unfold DotDims.rhsIdx
  rw [dif_neg (show ¬(1 : Fin S256x512.rank) ∈ DUp.rhsBatch by decide),
    dif_pos (show (1 : Fin S256x512.rank) ∈ DUp.rhsNonContracting by decide)]
  rfl

/-- The transposed convolution before regrouping, at pixel row `p` and column `col`: the sum over the 256 input
    channels plus the tiled bias. -/
theorem up_apply (v14 : Vec Ideal S1x256x1024 .bf16) (v16 : Vec Ideal S256x512 .bf16) (v19 : Vec Ideal S1x512 .f32)
    (p : Fin 1024) (col : Fin 512) :
    k0_pay5 v14 v16 v19 (ix2 p col)
      = (∑ ci : Fin 256, v14 (ix3 (0 : Fin 1) ci p) * v16 (ix2 ci col)) + v19 (ix2 (0 : Fin 1) col) := by
  show matmul DUp none (shapeCast S256x1024 v14 shapeCasts_S1x256x1024_S256x1024 : FVec Ideal S256x1024 .bf16)
        (shapeCast S256x512 v16 shapeCasts_S256x512_S256x512 : FVec Ideal S256x512 .bf16)
        (constant (F := Ideal) S1024x512 .f32 0x00000000#32) (ix2 p col)
      + broadcastTo S1024x512 (shapeCast S1x512 v19 shapeCasts_S1x512_S1x512) broadcasts_S1x512_S1024x512 (ix2 p col) = _
  rw [broadcastTo_1b_ab_apply, shapeCast_self, shapeCast_self]
  refine congrArg (· + v19 (ix2 (0 : Fin 1) col)) ?_
  simp only [matmul]
  rw [Ideal.matmul_constant_zero_apply, ← Equiv.sum_comp (contrEquiv1 DUp 256 rfl rfl).symm]
  refine Finset.sum_congr rfl fun ci _ => ?_
  have hc := contrEquiv1_symm_val DUp 256 rfl rfl ci
  have el : DUp.lhsIdx (ix2 p col) ((contrEquiv1 DUp 256 rfl rfl).symm ci) = ix2 ci p := funext fun a => Fin.ext (by
    match a with
    | ⟨0, _⟩ => exact (up_lhs_row _ _).trans hc
    | ⟨1, _⟩ => exact up_lhs_col _ _)
  have er : DUp.rhsIdx (ix2 p col) ((contrEquiv1 DUp 256 rfl rfl).symm ci) = ix2 ci col := funext fun a => Fin.ext (by
    match a with
    | ⟨0, _⟩ => exact (up_rhs_row _ _).trans hc
    | ⟨1, _⟩ => exact up_rhs_col _ _)
  rw [el, er, shapeCast_1ab_ab_apply]

/-- The half with `dy = 0`: the first 256 columns. -/
theorem up_lo_apply (v14 : Vec Ideal S1x256x1024 .bf16) (v16 : Vec Ideal S256x512 .bf16) (v19 : Vec Ideal S1x512 .f32)
    (p : Fin 1024) (col : Fin 256) :
    k0_pay6 v14 v16 v19 (ix2 p col)
      = k0_pay5 v14 v16 v19 (ix2 p (⟨col.val, by have := col.isLt; omega⟩ : Fin 512)) := by
  unfold k0_pay6
  exact slice2_axis1_apply 0 _ _ p col (⟨col.val, by have := col.isLt; omega⟩ : Fin 512) (Nat.zero_add _).symm

/-- 1024 rows of 256 columns regrouped to 32 rows of 64 pixels of 128 channels (with a unit axis): row `i`, pixel
    `x`, channel `oc` is row `32 i + x / 2`, column `128 (x % 2) + oc`. -/
theorem regroup_apply {α : Type} (Z : S1024x256.Idx → α) (i : Fin 32) (u : Fin 1) (x : Fin 64) (oc : Fin 128) :
    shapeCast S32x1x64x128 (shapeCast S32x64x128 Z shapeCasts_S1024x256_S32x64x128) shapeCasts_S32x64x128_S32x1x64x128
        (ix4 i u x oc)
      = Z (ix2 (⟨32 * i.val + x.val / 2, by have := i.isLt; have := x.isLt; omega⟩ : Fin 1024)
          (⟨128 * (x.val % 2) + oc.val, by have := oc.isLt; omega⟩ : Fin 256)) := by
  refine (shapeCast_apply _ _ _ (ix3 i x oc) ?_).trans (shapeCast_apply _ _ _ _ ?_)
  · have hu : u.val = 0 := by omega
    rw [Shape.rowMajor_val_three, Shape.rowMajor_val_four]
    show (i.val * 64 + x.val) * 128 + oc.val = ((i.val * 1 + u.val) * 64 + x.val) * 128 + oc.val
    rw [hu]; omega
  · rw [Shape.rowMajor_val_two, Shape.rowMajor_val_three]
    show (32 * i.val + x.val / 2) * 256 + (128 * (x.val % 2) + oc.val) = (i.val * 64 + x.val) * 128 + oc.val
    omega

/-- The half with `dy = 0` as it is stored: regrouped. -/
theorem up_lo_store_apply (v24 : FVec Ideal S1024x256 .bf16) (i : Fin 32) (u : Fin 1) (x : Fin 64) (oc : Fin 128) :
    k0_pay7 v24 (ix4 i u x oc)
      = v24 (ix2 (⟨32 * i.val + x.val / 2, by have := i.isLt; have := x.isLt; omega⟩ : Fin 1024)
          (⟨128 * (x.val % 2) + oc.val, by have := oc.isLt; omega⟩ : Fin 256)) := by
  unfold k0_pay7
  exact regroup_apply _ i u x oc

/-- The half with `dy = 1` as it is stored: the columns from 256 on, regrouped. -/
theorem up_hi_store_apply (v23 : FVec Ideal S1024x512 .bf16) (i : Fin 32) (u : Fin 1) (x : Fin 64) (oc : Fin 128) :
    k0_pay8 v23 (ix4 i u x oc)
      = v23 (ix2 (⟨32 * i.val + x.val / 2, by have := i.isLt; have := x.isLt; omega⟩ : Fin 1024)
          (⟨256 + (128 * (x.val % 2) + oc.val), by have := oc.isLt; omega⟩ : Fin 512)) := by
  unfold k0_pay8
  refine (regroup_apply _ i u x oc).trans ?_
  exact slice2_axis1_apply 256 _ _ _ _ _ rfl

/-- The columns from 256 on, by themselves: the cut inside the stored half with `dy = 1`. -/
theorem up_hi_apply (v23 : FVec Ideal S1024x512 .bf16) (p : Fin 1024) (col : Fin 256) :
    extractStridedSlice S1024x256 ![0, 256] v23 slices_S1024x512_o0_256_S1024x256 (ix2 p col)
      = v23 (ix2 p (⟨256 + col.val, by have := col.isLt; omega⟩ : Fin 512)) :=
  slice2_axis1_apply 256 _ _ p col _ rfl

end Cert.KernelIdeal.KArith

end
-- ==== Proof.KScratchPad.lean ====
import proofs.«149310_g2000303838873713_pallasbulk_17_2_alg».proof.Proof.KScratch
import proofs.«149310_g2000303838873713_pallasbulk_17_2_alg».proof.Proof.KArithUp
import proofs.«149310_g2000303838873713_pallasbulk_17_2_alg».proof.Proof.Spec
import Idealize.ShloMosaic.Lib.IdealHost
import Idealize.ShloMosaic.Lib.Pipeline.FrameBody
set_option maxRecDepth 16384
noncomputable section
namespace Cert.KernelIdeal.KScratch
open Cert.KernelIdeal Cert.KernelIdeal.Gen Cert.KernelIdeal.Body
open Idealize.ShloMosaic Idealize.ShloMosaic.ValueIdx Idealize.ShloMosaic.Pipeline

/-!
  The first scratch array as a padded image.

  Padded row `r = 2·s0 + s1` and padded column `cc` of the array hold, for `1 ≤ r, cc ≤ 64`, pixel `(r - 1, cc - 1)`
  of the concatenated image — the skip connection on channels below 128 (its rows come split by parity) and the
  up-sampled image on the others (row `32·(y / 2) + x / 2` of the matrix product, column block by the parities of
  `y` and `x`) — and zero elsewhere.
-/

section Skip
variable {F : FTy → Type} [FloatOps F]

/-- The two reshapes of a parity's rows of the skip connection keep every entry in place. -/
theorem skip_even_apply (v4 : Vec F S1x32x1x64x128 .bf16) (i : Fin 32) (xx : Fin 64) (oc : Fin 128) :
    k0_pay3 v4 (ix4 i (0 : Fin 1) xx oc) = v4 (ix5 (0 : Fin 1) i (0 : Fin 1) xx oc) := by
  unfold k0_pay3
  refine (shapeCast_apply _ _ (ix4 i (0 : Fin 1) xx oc) (ix3 i xx oc)
    (by rw [Shape.rowMajor_val_three, Shape.rowMajor_val_four]
        show (i.val * 64 + xx.val) * 128 + oc.val = ((i.val * 1 + 0) * 64 + xx.val) * 128 + oc.val
        omega)).trans ?_
  exact shapeCast_apply _ _ _ (ix5 (0 : Fin 1) i (0 : Fin 1) xx oc)
    (by rw [Shape.rowMajor_val_five, Shape.rowMajor_val_three]
        show ((((0 : Nat) * 32 + i.val) * 1 + 0) * 64 + xx.val) * 128 + oc.val = (i.val * 64 + xx.val) * 128 + oc.val
        omega)

theorem skip_odd_apply (v9 : Vec F S1x32x1x64x128 .bf16) (i : Fin 32) (xx : Fin 64) (oc : Fin 128) :
    k0_pay4 v9 (ix4 i (0 : Fin 1) xx oc) = v9 (ix5 (0 : Fin 1) i (0 : Fin 1) xx oc) := by
  unfold k0_pay4
  refine (shapeCast_apply _ _ (ix4 i (0 : Fin 1) xx oc) (ix3 i xx oc)
    (by rw [Shape.rowMajor_val_three, Shape.rowMajor_val_four]
        show (i.val * 64 + xx.val) * 128 + oc.val = ((i.val * 1 + 0) * 64 + xx.val) * 128 + oc.val
        omega)).trans ?_
  exact shapeCast_apply _ _ _ (ix5 (0 : Fin 1) i (0 : Fin 1) xx oc)
    (by rw [Shape.rowMajor_val_five, Shape.rowMajor_val_three]
        show ((((0 : Nat) * 32 + i.val) * 1 + 0) * 64 + xx.val) * 128 + oc.val = (i.val * 64 + xx.val) * 128 + oc.val
        omega)

/-- The load of one row parity of the skip connection's block reads the block at that parity. -/
theorem ld_parity (arg2 : Memref sig .tc .vmem S1x32x2x64x128 .bf16) (harg2 : arg2.IsWhole) (x1 : Vec F S1x32x2x64x128 .bf16)
    (par : Fin 2) (inb : ∀ a, (![0, 0, par.val, 0, 0] : Fin 5 → Nat) a + S1x32x1x64x128.size a ≤ S1x32x2x64x128.size a)
    (i : Fin 32) (xx : Fin 64) (oc : Fin 128) :
    View.readAt (Elt F) arg2.view (Rect.unit (s := S1x32x2x64x128) ![0, 0, par.val, 0, 0] S1x32x1x64x128.size inb).toLoadRect (harg2.unread x1)
        (ix5 (0 : Fin 1) i (0 : Fin 1) xx oc)
      = x1 (ix5 (0 : Fin 1) i par xx oc) := by
  rw [View.readAt_apply, harg2.read_unread]
  refine congrArg x1 (funext fun a => Fin.ext ?_)
  match a with
  | ⟨0, _⟩ => show 0 + 1 * 0 = 0; rfl
  | ⟨1, _⟩ => show 0 + 1 * i.val = i.val; omega
  | ⟨2, _⟩ => show par.val + 1 * 0 = par.val; omega
  | ⟨3, _⟩ => show 0 + 1 * xx.val = xx.val; omega
  | ⟨4, _⟩ => show 0 + 1 * oc.val = oc.val; omega

end Skip

/-- The concatenated image of one batch element: the skip connection's block `x1` (rows split by parity) on channels
    below 128, the matrix product `U` of the transposed convolution on the others. -/
def catB (x1 : Vec Ideal S1x32x2x64x128 .bf16) (U : FVec Ideal S1024x512 .bf16) (y x : Fin 64) (c : Fin 256) : EReal :=
  if h : c.val < 128 then
    x1 (ix5 (0 : Fin 1) (⟨y.val / 2, by omega⟩ : Fin 32) (⟨y.val % 2, by omega⟩ : Fin 2) x (⟨c.val, h⟩ : Fin 128))
  else
    U (ix2 (⟨32 * (y.val / 2) + x.val / 2, by omega⟩ : Fin 1024)
      (⟨256 * (y.val % 2) + (128 * (x.val % 2) + (c.val - 128)), by omega⟩ : Fin 512))

theorem ix5_congr {n0 n1 n2 n3 n4 : Nat} {a a' : Fin n0} {b b' : Fin n1} {c c' : Fin n2} {d d' : Fin n3} {e e' : Fin n4}
    (ha : a = a') (hb : b = b') (hc : c = c') (hd : d = d') (he : e = e') : ix5 a b c d e = ix5 a' b' c' d' e' := by
  subst ha hb hc hd he; rfl

theorem ix2_congr {n0 n1 : Nat} {a a' : Fin n0} {b b' : Fin n1} (ha : a = a') (hb : b = b') : ix2 a b = ix2 a' b' := by
  subst ha hb; rfl

/-- The zero fill at the exact level is zero. -/
theorem fill0_apply (y : S34x2x66x256.Idx) : k0_pay2 (F := Ideal) y = 0 := by
  unfold k0_pay2
  rw [shapeCast_self]
  exact Ideal.ofBits_zero_bf16

/-- The lower column half of the transposed convolution's product is the product at the same column. -/
theorem r1_apply (c : Dev nD) (arg1 : Memref sig .tc .vmem S1x256x1024 .bf16) (harg1 : arg1.IsWhole) (arg3 : Memref sig .tc .vmem S256x512 .bf16) (harg3 : arg3.IsWhole) (arg4 : Memref sig .tc .vmem S1x512 .f32) (harg4 : arg4.IsWhole)
    (x0 : Vec Ideal S1x256x1024 .bf16) (x2 : Vec Ideal S256x512 .bf16) (x3 : Vec Ideal S1x512 .f32) (p : Fin 1024) (col : Fin 256) :
    (kernelRun.sl.r_1 (F := Ideal) c arg1 harg1 arg3 harg3 arg4 harg4 x0 x2 x3) (ix2 p col) = (kernelRun.sl.r (F := Ideal) c arg1 harg1 arg3 harg3 arg4 harg4 x0 x2 x3) (ix2 p (⟨col.val, by have := col.isLt; omega⟩ : Fin 512)) := by
  unfold kernelRun.sl.r_1 kernelRun.sl.r
  exact Cert.KernelIdeal.KArith.up_lo_apply _ _ _ p col

/-- Every entry of the first scratch array, read back whole after the body's stores: the concatenated image padded
    with zeros, at padded row `2·s0 + s1` and padded column `cc`. -/
theorem v34_pad (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg12 : Memref sig .tc .vmem S34x2x66x256 .bf16) (x0 : Vec Ideal S1x256x1024 .bf16) (x1 : Vec Ideal S1x32x2x64x128 .bf16) (x2 : Vec Ideal S256x512 .bf16) (x3 : Vec Ideal S1x512 .f32) (s0 : Fin 34) (s1 : Fin 2) (cc : Fin 66) (ch : Fin 256) :
    kernelRun.sl.v34 (F := Ideal) c arg1 harg1 arg2 harg2 arg3 harg3 arg4 harg4 arg12 x0 x1 x2 x3 (ix4 s0 s1 cc ch)
      = Cert.Spec.pad (catB x1 (kernelRun.sl.r (F := Ideal) c arg1 harg1 arg3 harg3 arg4 harg4 x0 x2 x3)) (2 * s0.val + s1.val) cc.val ch := by
  rw [v34_rd]
  have hs1 : s1 = 0 ∨ s1 = 1 := by
    rcases s1 with ⟨v, hv⟩
    rcases v with _ | _ | v
    · left; rfl
    · right; rfl
    · omega
  have hs0 := s0.isLt
  have hcc := cc.isLt
  have hch := ch.isLt
  unfold Cert.Spec.pad
  by_cases hin : 1 ≤ 2 * s0.val + s1.val ∧ 2 * s0.val + s1.val ≤ 64 ∧ 1 ≤ cc.val ∧ cc.val ≤ 64
  · rw [dif_pos hin]
    unfold catB
    rcases hs1 with h1 | h1
    · have hv : s1.val = 0 := by rw [h1]; rfl
      by_cases hc : ch.val < 128
      · rw [dif_pos hc, rd5_miss _ _ _ _ _ _ _ _ _ _ _ _ _ _ _ _ _ _ (by omega), rd4_miss _ _ _ _ _ _ _ _ _ _ _ _ _ _ _ _ _ _ (by omega),
          rd3_hit _ _ _ _ _ s0 s1 cc ch (by omega) h1 (by omega) (by omega)]
        refine (skip_odd_apply _ _ _ _).trans ((ld_parity arg2 harg2 x1 1 _ _ _ _).trans ?_)
        exact congrArg x1 (ix5_congr rfl (Fin.ext (by show s0.val - 1 = (2 * s0.val + s1.val - 1) / 2; omega))
          (Fin.ext (by show 1 = (2 * s0.val + s1.val - 1) % 2; omega)) rfl (Fin.ext (by show ch.val - 0 = ch.val; omega)))
      · rw [dif_neg hc, rd5_hit _ _ _ _ _ _ _ _ _ _ _ _ _ _ s0 s1 cc ch (by omega) h1 (by omega) (by omega)]
        refine (Cert.KernelIdeal.KArith.up_hi_store_apply _ _ _ _ _).trans ?_
        exact congrArg _ (ix2_congr (Fin.ext (by show 32 * (s0.val - 1) + (cc.val - 1) / 2 = 32 * ((2 * s0.val + s1.val - 1) / 2) + (cc.val - 1) / 2; omega))
          (Fin.ext (by show 256 + (128 * ((cc.val - 1) % 2) + (ch.val - 128)) = 256 * ((2 * s0.val + s1.val - 1) % 2) + (128 * ((cc.val - 1) % 2) + (ch.val - 128)); omega)))
    · have hv : s1.val = 1 := by rw [h1]; rfl
      by_cases hc : ch.val < 128
      · rw [dif_pos hc, rd5_miss _ _ _ _ _ _ _ _ _ _ _ _ _ _ _ _ _ _ (by omega), rd4_miss _ _ _ _ _ _ _ _ _ _ _ _ _ _ _ _ _ _ (by omega),
          rd3_miss _ _ _ _ _ _ _ _ _ (by omega), rd2_hit _ _ _ _ _ s0 s1 cc ch (by omega) h1 (by omega) (by omega)]
        refine (skip_even_apply _ _ _ _).trans ((ld_parity arg2 harg2 x1 0 _ _ _ _).trans ?_)
        exact congrArg x1 (ix5_congr rfl (Fin.ext (by show s0.val - 0 = (2 * s0.val + s1.val - 1) / 2; omega))
          (Fin.ext (by show 0 = (2 * s0.val + s1.val - 1) % 2; omega)) rfl (Fin.ext (by show ch.val - 0 = ch.val; omega)))
      · rw [dif_neg hc, rd5_miss _ _ _ _ _ _ _ _ _ _ _ _ _ _ _ _ _ _ (by omega),
          rd4_hit _ _ _ _ _ _ _ _ _ _ _ _ _ _ s0 s1 cc ch (by omega) h1 (by omega) (by omega)]
        refine (Cert.KernelIdeal.KArith.up_lo_store_apply _ _ _ _ _).trans ((r1_apply _ _ _ _ _ _ _ _ _ _ _ _).trans ?_)
        exact congrArg _ (ix2_congr (Fin.ext (by show 32 * (s0.val - 0) + (cc.val - 1) / 2 = 32 * ((2 * s0.val + s1.val - 1) / 2) + (cc.val - 1) / 2; omega))
          (Fin.ext (by show 128 * ((cc.val - 1) % 2) + (ch.val - 128) = 256 * ((2 * s0.val + s1.val - 1) % 2) + (128 * ((cc.val - 1) % 2) + (ch.val - 128)); omega)))
  · rw [dif_neg hin]
    have hv : s1.val = 0 ∨ s1.val = 1 := by rcases hs1 with h1 | h1 <;> rw [h1] <;> simp
    rw [rd5_miss _ _ _ _ _ _ _ _ _ _ _ _ _ _ _ _ _ _ (by omega), rd4_miss _ _ _ _ _ _ _ _ _ _ _ _ _ _ _ _ _ _ (by omega),
      rd3_miss _ _ _ _ _ _ _ _ _ (by omega), rd2_miss _ _ _ _ _ _ _ _ _ (by omega), rd1]
    exact fill0_apply _

end Cert.KernelIdeal.KScratch
end
-- ==== Proof.KArithTap.lean ====
import proofs.«149310_g2000303838873713_pallasbulk_17_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KArith

open Cert.KernelIdeal Cert.KernelIdeal.Gen
open Idealize.ShloMosaic Idealize.ShloMosaic.ValueIdx

/-! The 3×3 convolutions are nine products of a window of 4224 consecutive rows of the flattened padded
    image (4488 rows of 256 channels) with a 256 × 256 weight slice. This module reads one such product,
    and one window, at an index. -/

/-- The product's dimension numbers: rows of the left operand against columns of the right one. -/
abbrev D256 : DotDims S4224x256 S256x256 S4224x256 := dot_S4224x256_S256x256_S4224x256_1_0_0_1_n_n

/-- The left operand is read in the result's row. -/
theorem lhs_row (i : S4224x256.Idx) (k : D256.contr.Idx) : (D256.lhsIdx i k 0).val = (i 0).val := by
  unfold DotDims.lhsIdx
  rw [dif_neg (show ¬(0 : Fin S4224x256.rank) ∈ D256.lhsBatch by decide),
    dif_pos (show (0 : Fin S4224x256.rank) ∈ D256.lhsNonContracting by decide)]
  rfl

/-- The left operand is read in the contracted column. -/
theorem lhs_col (i : S4224x256.Idx) (k : D256.contr.Idx) : (D256.lhsIdx i k 1).val = (k ⟨0, by decide⟩).val :=
  D256.lhsIdx_val_of_single rfl i k

/-- The right operand is read in the contracted row. -/
theorem rhs_row (i : S4224x256.Idx) (k : D256.contr.Idx) : (D256.rhsIdx i k 0).val = (k ⟨0, by decide⟩).val :=
  D256.rhsIdx_val_of_single rfl i k

/-- The right operand is read in the result's column. -/
theorem rhs_col (i : S4224x256.Idx) (k : D256.contr.Idx) : (D256.rhsIdx i k 1).val = (i 1).val := by
  unfold DotDims.rhsIdx
  rw [dif_neg (show ¬(1 : Fin S256x256.rank) ∈ D256.rhsBatch by decide),
    dif_pos (show (1 : Fin S256x256.rank) ∈ D256.rhsNonContracting by decide)]
  rfl

/-- One tap: the product of a window `A` with the weight slice `w`, into a zero accumulator, at row `q` and output
    channel `o`, is the sum over the 256 input channels. -/
theorem tap_apply (A : FVec Ideal S4224x256 .bf16) (w : Vec Ideal S1x256x256 .bf16) (q : Fin 4224) (o : Fin 256) :
    matmul D256 none A (shapeCast S256x256 w shapeCasts_S1x256x256_S256x256 : FVec Ideal S256x256 .bf16)
        (constant (F := Ideal) S4224x256 .f32 0x00000000#32) (ix2 q o)
      = ∑ c : Fin 256, A (ix2 q c) * w (ix3 (0 : Fin 1) c o) := by
  simp only [matmul]
  rw [Ideal.matmul_constant_zero_apply, ← Equiv.sum_comp (contrEquiv1 D256 256 rfl rfl).symm]
  refine Finset.sum_congr rfl fun c _ => ?_
  have hc := contrEquiv1_symm_val D256 256 rfl rfl c
  have el : D256.lhsIdx (ix2 q o) ((contrEquiv1 D256 256 rfl rfl).symm c) = ix2 q c := funext fun a => Fin.ext (by
    match a with
    | ⟨0, _⟩ => exact lhs_row _ _
    | ⟨1, _⟩ => exact (lhs_col _ _).trans hc)
  have er : D256.rhsIdx (ix2 q o) ((contrEquiv1 D256 256 rfl rfl).symm c) = ix2 c o := funext fun a => Fin.ext (by
    match a with
    | ⟨0, _⟩ => exact (rhs_row _ _).trans hc
    | ⟨1, _⟩ => exact rhs_col _ _)
  rw [el, er, shapeCast_1ab_ab_apply]

/-- A window of the flattened image that starts at row `off`, at row `q`, is the image's row `q + off`. -/
theorem window_apply (off : Nat) (X : FVec Ideal S4488x256 .bf16) (h : S4488x256.Slices ![off, 0] S4224x256)
    (q : Fin 4224) (c : Fin 256) (hq : q.val + off < 4488) :
    extractStridedSlice S4224x256 ![off, 0] X h (ix2 q c) = X (ix2 ⟨q.val + off, hq⟩ c) :=
  slice2_axis0_apply off X h q c ⟨q.val + off, hq⟩ (Nat.add_comm _ _)

end Cert.KernelIdeal.KArith

end
-- ==== Proof.KArithConv1.lean ====
import proofs.«149310_g2000303838873713_pallasbulk_17_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«149310_g2000303838873713_pallasbulk_17_2_alg».proof.Proof.KArithTap

set_option maxRecDepth 16384

noncomputable section

open scoped BigOperators

namespace Cert.KernelIdeal.KArith

open Cert.KernelIdeal Cert.KernelIdeal.Gen
open Idealize.ShloMosaic Idealize.ShloMosaic.ValueIdx

/-! The first 3×3 convolution on the flattened padded image: 68 · 66 = 4488 rows of 256 channels (the
    skip connection's 128, then the up-sampled image's), row `r` being padded row `r / 66` and padded column
    `r % 66`. Output row `q` of the 64 · 66 = 4224 computed rows adds, for the tap `(dy, dx)`, the product of
    image row `q + 66 dy + dx` with that tap's weight slice. -/

/-- The flattened image is the padded scratch array read row-major: flat row `r` is the array at pair
    `r / 132`, parity `(r / 66) % 2`, column `r % 66`. -/
theorem flat_apply (v34 : Vec Ideal S34x2x66x256 .bf16) (r : Fin 4488) (c : Fin 256) :
    k0_pay9 v34 (ix2 r c)
      = v34 (ix4 (⟨r.val / 132, by have := r.isLt; omega⟩ : Fin 34) (⟨(r.val / 66) % 2, by omega⟩ : Fin 2)
          (⟨r.val % 66, by omega⟩ : Fin 66) c) := by
  unfold k0_pay9
  refine shapeCast_apply _ _ _ _ ?_
  rw [Shape.rowMajor_val_four, Shape.rowMajor_val_two]
  show ((r.val / 132 * 2 + (r.val / 66) % 2) * 66 + r.val % 66) * 256 + c.val = r.val * 256 + c.val
  have := r.isLt
  omega

/-- One tap's value at output row `q` and output channel `o`: the image row `q + off` against the weight slice, summed
    over the 256 input channels. -/
def tapSum (X : FVec Ideal S4488x256 .bf16) (w : Vec Ideal S1x256x256 .bf16) (q : Fin 4224) (o : Fin 256) (off : Nat)
    (hoff : off ≤ 264 := by decide) : EReal :=
  ∑ c : Fin 256, X (ix2 (⟨q.val + off, by have := q.isLt; omega⟩ : Fin 4488) c) * w (ix3 (0 : Fin 1) c o)

/-- One tap as the kernel computes it: the window at row offset `off` times the weight slice, into zeros. -/
abbrev tapK (X : FVec Ideal S4488x256 .bf16) (off : Nat) (h : S4488x256.Slices ![off, 0] S4224x256)
    (w : Vec Ideal S1x256x256 .bf16) : FVec Ideal S4224x256 .f32 :=
  matmul D256 none (extractStridedSlice S4224x256 ![off, 0] X h)
    (shapeCast S256x256 w shapeCasts_S1x256x256_S256x256 : FVec Ideal S256x256 .bf16)
    (constant (F := Ideal) S4224x256 .f32 0x00000000#32)

/-- The kernel's tap is the tap's sum. -/
theorem tapK_apply (X : FVec Ideal S4488x256 .bf16) (off : Nat) (h : S4488x256.Slices ![off, 0] S4224x256)
    (w : Vec Ideal S1x256x256 .bf16) (hoff : off ≤ 264) (q : Fin 4224) (o : Fin 256) :
    tapK X off h w (ix2 q o) = tapSum X w q o off hoff := by
  refine (tap_apply _ w q o).trans ?_
  unfold tapSum
  refine Finset.sum_congr rfl fun c _ => ?_
  rw [window_apply off X h q c (by have := q.isLt; omega)]

/-- The first four taps, added left to right. -/
theorem head1_apply (v34 : Vec Ideal S34x2x66x256 .bf16) (w0 w1 w2 w3 : Vec Ideal S1x256x256 .bf16)
    (q : Fin 4224) (o : Fin 256) :
    k0_pay10 v34 w0 w1 w2 w3 (ix2 q o)
      = tapSum (k0_pay9 v34) w0 q o 0 + tapSum (k0_pay9 v34) w1 q o 1 + tapSum (k0_pay9 v34) w2 q o 2
          + tapSum (k0_pay9 v34) w3 q o 66 := by
  show tapK (k0_pay9 v34) 0 slices_S4488x256_o0_0_S4224x256 w0 (ix2 q o)
      + tapK (k0_pay9 v34) 1 slices_S4488x256_o1_0_S4224x256 w1 (ix2 q o)
      + tapK (k0_pay9 v34) 2 slices_S4488x256_o2_0_S4224x256 w2 (ix2 q o)
      + tapK (k0_pay9 v34) 66 slices_S4488x256_o66_0_S4224x256 w3 (ix2 q o) = _
  rw [tapK_apply _ 0 _ w0 (by decide), tapK_apply _ 1 _ w1 (by decide), tapK_apply _ 2 _ w2 (by decide),
    tapK_apply _ 66 _ w3 (by decide)]

/-- The last five taps on top of an accumulator `acc`, then the per-channel scale `s`, shift `t` and the maximum with
    zero. -/
theorem tail1_apply (X : FVec Ideal S4488x256 .bf16) (acc : FVec Ideal S4224x256 .f32)
    (w4 w5 w6 w7 w8 : Vec Ideal S1x256x256 .bf16) (s t : Vec Ideal S1x256 .f32) (q : Fin 4224) (o : Fin 256) :
    k0_pay11 X acc w4 w5 w6 w7 w8 s t (ix2 q o)
      = max ((acc (ix2 q o) + tapSum X w4 q o 67 + tapSum X w5 q o 68 + tapSum X w6 q o 132 + tapSum X w7 q o 133
            + tapSum X w8 q o 134) * s (ix2 (0 : Fin 1) o) + t (ix2 (0 : Fin 1) o)) 0 := by
  show max ((acc (ix2 q o)
        + tapK X 67 slices_S4488x256_o67_0_S4224x256 w4 (ix2 q o)
        + tapK X 68 slices_S4488x256_o68_0_S4224x256 w5 (ix2 q o)
        + tapK X 132 slices_S4488x256_o132_0_S4224x256 w6 (ix2 q o)
        + tapK X 133 slices_S4488x256_o133_0_S4224x256 w7 (ix2 q o)
        + tapK X 134 slices_S4488x256_o134_0_S4224x256 w8 (ix2 q o))
        * broadcastTo S4224x256 (shapeCast S1x256 s shapeCasts_S1x256_S1x256) broadcasts_S1x256_S4224x256 (ix2 q o)
      + broadcastTo S4224x256 (shapeCast S1x256 t shapeCasts_S1x256_S1x256) broadcasts_S1x256_S4224x256 (ix2 q o))
      (Ideal.ofBits .f32 0x00000000#32) = _
  rw [tapK_apply _ 67 _ w4 (by decide), tapK_apply _ 68 _ w5 (by decide), tapK_apply _ 132 _ w6 (by decide),
    tapK_apply _ 133 _ w7 (by decide), tapK_apply _ 134 _ w8 (by decide), Ideal.ofBits_zero_f32,
    broadcastTo_1b_ab_apply, broadcastTo_1b_ab_apply, shapeCast_self, shapeCast_self]

/-- The first convolution with its scale, shift and maximum with zero, at flattened output row `q` and output
    channel `o`: the nine taps at row offsets `66 dy + dx`, added in row-major order of `(dy, dx)`. -/
theorem conv1_apply (v34 : Vec Ideal S34x2x66x256 .bf16) (w0 w1 w2 w3 w4 w5 w6 w7 w8 : Vec Ideal S1x256x256 .bf16)
    (s t : Vec Ideal S1x256 .f32) (q : Fin 4224) (o : Fin 256) :
    k0_pay11 (k0_pay9 v34) (k0_pay10 v34 w0 w1 w2 w3) w4 w5 w6 w7 w8 s t (ix2 q o)
      = max ((tapSum (k0_pay9 v34) w0 q o 0 + tapSum (k0_pay9 v34) w1 q o 1 + tapSum (k0_pay9 v34) w2 q o 2
            + tapSum (k0_pay9 v34) w3 q o 66 + tapSum (k0_pay9 v34) w4 q o 67 + tapSum (k0_pay9 v34) w5 q o 68
            + tapSum (k0_pay9 v34) w6 q o 132 + tapSum (k0_pay9 v34) w7 q o 133 + tapSum (k0_pay9 v34) w8 q o 134)
          * s (ix2 (0 : Fin 1) o) + t (ix2 (0 : Fin 1) o)) 0 := by
  rw [tail1_apply, head1_apply]

end Cert.KernelIdeal.KArith

end
-- ==== Proof.KArithConv2.lean ====
import proofs.«149310_g2000303838873713_pallasbulk_17_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«149310_g2000303838873713_pallasbulk_17_2_alg».proof.Proof.KArithTap
import proofs.«149310_g2000303838873713_pallasbulk_17_2_alg».proof.Proof.KArithConv1

set_option maxRecDepth 16384

noncomputable section

open scoped BigOperators

namespace Cert.KernelIdeal.KArith

open Cert.KernelIdeal Cert.KernelIdeal.Gen
open Idealize.ShloMosaic Idealize.ShloMosaic.ValueIdx

/-! The second 3×3 convolution reads the second padded scratch array, 68 rows of 66 columns of 256 channels,
    flattened to 4488 rows exactly as the first; its result, 4224 rows, is folded back to 64 rows of 66
    columns, of which the first 64 columns are stored. -/

/-- The flattened second image: flat row `r` is padded row `r / 66`, padded column `r % 66`. -/
theorem flat2_apply (v100 : Vec Ideal S68x66x256 .bf16) (r : Fin 4488) (c : Fin 256) :
    k0_pay14 v100 (ix2 r c)
      = v100 (ix3 (⟨r.val / 66, by have := r.isLt; omega⟩ : Fin 68) (⟨r.val % 66, by omega⟩ : Fin 66) c) := by
  unfold k0_pay14
  refine shapeCast_apply _ _ _ _ ?_
  rw [Shape.rowMajor_val_three, Shape.rowMajor_val_two]
  show (r.val / 66 * 66 + r.val % 66) * 256 + c.val = r.val * 256 + c.val
  have := r.isLt
  omega

/-- The first four taps of the second convolution, added left to right. -/
theorem head2_apply (v100 : Vec Ideal S68x66x256 .bf16) (u0 u1 u2 u3 : Vec Ideal S1x256x256 .bf16)
    (q : Fin 4224) (o : Fin 256) :
    k0_pay15 v100 u0 u1 u2 u3 (ix2 q o)
      = tapSum (k0_pay14 v100) u0 q o 0 + tapSum (k0_pay14 v100) u1 q o 1 + tapSum (k0_pay14 v100) u2 q o 2
          + tapSum (k0_pay14 v100) u3 q o 66 := by
  show tapK (k0_pay14 v100) 0 slices_S4488x256_o0_0_S4224x256 u0 (ix2 q o)
      + tapK (k0_pay14 v100) 1 slices_S4488x256_o1_0_S4224x256 u1 (ix2 q o)
      + tapK (k0_pay14 v100) 2 slices_S4488x256_o2_0_S4224x256 u2 (ix2 q o)
      + tapK (k0_pay14 v100) 66 slices_S4488x256_o66_0_S4224x256 u3 (ix2 q o) = _
  rw [tapK_apply _ 0 _ u0 (by decide), tapK_apply _ 1 _ u1 (by decide), tapK_apply _ 2 _ u2 (by decide),
    tapK_apply _ 66 _ u3 (by decide)]

/-- The centre tap's window is carried between the two halves of the second convolution as a value of its own. -/
theorem centre2_eq (v100 : Vec Ideal S68x66x256 .bf16) :
    k0_pay16 v100 = extractStridedSlice S4224x256 ![67, 0] (k0_pay14 v100) slices_S4488x256_o67_0_S4224x256 := rfl

/-- A 4224-row array folded to 64 rows of 66 columns reads, at `(y, x)`, row `66 y + x`. -/
theorem fold_apply {α : Type} (Z : S4224x256.Idx → α) (y : Fin 64) (x : Fin 66) (o : Fin 256) :
    shapeCast S64x66x256 Z shapeCasts_S4224x256_S64x66x256 (ix3 y x o)
      = Z (ix2 (⟨66 * y.val + x.val, by have := y.isLt; have := x.isLt; omega⟩ : Fin 4224) o) := by
  refine shapeCast_apply _ _ _ _ ?_
  rw [Shape.rowMajor_val_three, Shape.rowMajor_val_two]
  show (66 * y.val + x.val) * 256 + o.val = (y.val * 66 + x.val) * 256 + o.val
  omega

/-- The last five taps of the second convolution on top of an accumulator `acc`, the centre tap's window `A` given
    as a value, then scale, shift, maximum with zero, read at row `y`, column `x` of the folded result. -/
theorem tail2_apply (X : FVec Ideal S4488x256 .bf16) (acc : FVec Ideal S4224x256 .f32) (A : FVec Ideal S4224x256 .bf16)
    (u4 u5 u6 u7 u8 : Vec Ideal S1x256x256 .bf16) (s t : Vec Ideal S1x256 .f32) (y : Fin 64) (x : Fin 66) (o : Fin 256)
    (q : Fin 4224) (hq : q.val = 66 * y.val + x.val) :
    k0_pay17 X acc A u4 u5 u6 u7 u8 s t (ix3 y x o)
      = max ((acc (ix2 q o) + (∑ c : Fin 256, A (ix2 q c) * u4 (ix3 (0 : Fin 1) c o)) + tapSum X u5 q o 68
            + tapSum X u6 q o 132 + tapSum X u7 q o 133 + tapSum X u8 q o 134)
          * s (ix2 (0 : Fin 1) o) + t (ix2 (0 : Fin 1) o)) 0 := by
  obtain ⟨qv, hqv⟩ := q
  have hq' : qv = 66 * y.val + x.val := hq
  subst hq'
  unfold k0_pay17
  refine (fold_apply _ y x o).trans ?_
  show max ((acc (ix2 _ o)
        + matmul D256 none A (shapeCast S256x256 u4 shapeCasts_S1x256x256_S256x256 : FVec Ideal S256x256 .bf16)
            (constant (F := Ideal) S4224x256 .f32 0x00000000#32) (ix2 _ o)
        + tapK X 68 slices_S4488x256_o68_0_S4224x256 u5 (ix2 _ o)
        + tapK X 132 slices_S4488x256_o132_0_S4224x256 u6 (ix2 _ o)
        + tapK X 133 slices_S4488x256_o133_0_S4224x256 u7 (ix2 _ o)
        + tapK X 134 slices_S4488x256_o134_0_S4224x256 u8 (ix2 _ o))
        * broadcastTo S4224x256 (shapeCast S1x256 s shapeCasts_S1x256_S1x256) broadcasts_S1x256_S4224x256 (ix2 _ o)
      + broadcastTo S4224x256 (shapeCast S1x256 t shapeCasts_S1x256_S1x256) broadcasts_S1x256_S4224x256 (ix2 _ o))
      (Ideal.ofBits .f32 0x00000000#32) = _
  rw [tap_apply, tapK_apply _ 68 _ u5 (by decide), tapK_apply _ 132 _ u6 (by decide),
    tapK_apply _ 133 _ u7 (by decide), tapK_apply _ 134 _ u8 (by decide), Ideal.ofBits_zero_f32,
    broadcastTo_1b_ab_apply, broadcastTo_1b_ab_apply, shapeCast_self, shapeCast_self]

/-- The centre tap through its carried window is the tap's sum at row offset 67. -/
theorem centre2_apply (v100 : Vec Ideal S68x66x256 .bf16) (u4 : Vec Ideal S1x256x256 .bf16) (q : Fin 4224) (o : Fin 256) :
    (∑ c : Fin 256, k0_pay16 v100 (ix2 q c) * u4 (ix3 (0 : Fin 1) c o)) = tapSum (k0_pay14 v100) u4 q o 67 := by
  unfold tapSum
  refine Finset.sum_congr rfl fun c _ => ?_
  rw [centre2_eq, window_apply 67 _ _ q c (by have := q.isLt; omega)]

/-- The second convolution with its scale, shift and maximum with zero, at row `y`, column `x` (of 66) and output
    channel `o`: flattened row `q = 66 y + x`, the nine taps at row offsets `66 dy + dx` added in row-major order. -/
theorem conv2_apply (v100 : Vec Ideal S68x66x256 .bf16) (u0 u1 u2 u3 u4 u5 u6 u7 u8 : Vec Ideal S1x256x256 .bf16)
    (s t : Vec Ideal S1x256 .f32) (y : Fin 64) (x : Fin 66) (o : Fin 256) (q : Fin 4224) (hq : q.val = 66 * y.val + x.val) :
    k0_pay17 (k0_pay14 v100) (k0_pay15 v100 u0 u1 u2 u3) (k0_pay16 v100) u4 u5 u6 u7 u8 s t (ix3 y x o)
      = max ((tapSum (k0_pay14 v100) u0 q o 0 + tapSum (k0_pay14 v100) u1 q o 1 + tapSum (k0_pay14 v100) u2 q o 2
            + tapSum (k0_pay14 v100) u3 q o 66 + tapSum (k0_pay14 v100) u4 q o 67 + tapSum (k0_pay14 v100) u5 q o 68
            + tapSum (k0_pay14 v100) u6 q o 132 + tapSum (k0_pay14 v100) u7 q o 133 + tapSum (k0_pay14 v100) u8 q o 134)
          * s (ix2 (0 : Fin 1) o) + t (ix2 (0 : Fin 1) o)) 0 := by
  rw [tail2_apply _ _ _ u4 u5 u6 u7 u8 s t y x o q hq, head2_apply, centre2_apply]

/-- The first convolution's result, narrowed, folded to 64 rows of 66 columns and cut to its first 64 columns, as it
    is written into the interior of the second padded array. -/
theorem mid_apply (v89 : FVec Ideal S4224x256 .f32) (y x : Fin 64) (o : Fin 256) :
    k0_pay13 v89 (ix3 y x o)
      = v89 (ix2 (⟨66 * y.val + x.val, by have := y.isLt; have := x.isLt; omega⟩ : Fin 4224) o) := by
  unfold k0_pay13
  rw [shapeCast_self]
  refine (slice3_axis1_apply 0 _ _ y x o (⟨x.val, by have := x.isLt; omega⟩ : Fin 66) (Nat.zero_add _).symm).trans ?_
  exact fold_apply _ y ⟨x.val, by have := x.isLt; omega⟩ o

/-- The stored result: the second convolution's folded result cut to its first 64 columns, with a leading unit axis. -/
theorem out_apply (v156 : FVec Ideal S64x66x256 .f32) (y x : Fin 64) (o : Fin 256) :
    k0_pay1 v156 (ix4 (0 : Fin 1) y x o) = v156 (ix3 y (⟨x.val, by have := x.isLt; omega⟩ : Fin 66) o) := by
  unfold k0_pay1
  refine (shapeCast_abc_1abc_apply _ _ 0 y x o).trans ?_
  exact slice3_axis1_apply 0 _ _ y x o (⟨x.val, by have := x.isLt; omega⟩ : Fin 66) (Nat.zero_add _).symm

end Cert.KernelIdeal.KArith

end
-- ==== Proof.KConv.lean ====
import proofs.«149310_g2000303838873713_pallasbulk_17_2_alg».proof.Proof.KScratchPad
import proofs.«149310_g2000303838873713_pallasbulk_17_2_alg».proof.Proof.KArithConv1
import proofs.«149310_g2000303838873713_pallasbulk_17_2_alg».proof.Proof.KArithConv2
import proofs.«149310_g2000303838873713_pallasbulk_17_2_alg».proof.Proof.Spec
set_option maxRecDepth 16384
noncomputable section
namespace Cert.KernelIdeal.KConv
open Cert.KernelIdeal Cert.KernelIdeal.Gen Cert.KernelIdeal.Body Cert.KernelIdeal.KScratch
open Idealize.ShloMosaic Idealize.ShloMosaic.ValueIdx Idealize.ShloMosaic.Pipeline

/-!
  A 3×3 convolution over the flattened padded image.

  The padded image of 66 columns is stored row after row, so that entry `(r, cc)` is row `66·r + cc` of a matrix
  with one column per channel. The tap `(dy, dx)` of output pixel `(y, x)` reads padded pixel `(y + dy, x + dx)`,
  which is row `(66·y + x) + (66·dy + dx)`: every tap is the same matrix shifted down by a constant number of rows,
  and no padded row is left as long as `x + dx < 66`.
-/

/-- One shifted-window product is one tap of the padded image. -/
theorem tapSum_pad (X : FVec Ideal S4488x256 .bf16) (P : Nat → Nat → Fin 256 → EReal)
    (hX : ∀ (r : Fin 4488) (c : Fin 256), X (ix2 r c) = P (r.val / 66) (r.val % 66) c)
    (w : Vec Ideal S1x256x256 .bf16) (y x : Fin 64) (o : Fin 256) (q : Fin 4224) (hq : q.val = 66 * y.val + x.val)
    (off : Nat) (hoff : off ≤ 264) (dy dx : Nat) (hd : off = 66 * dy + dx) (hdx : dx ≤ 2) :
    Cert.KernelIdeal.KArith.tapSum X w q o off hoff = ∑ c : Fin 256, P (y.val + dy) (x.val + dx) c * w (ix3 (0 : Fin 1) c o) := by
  unfold Cert.KernelIdeal.KArith.tapSum
  refine Finset.sum_congr rfl fun c _ => ?_
  rw [hX]
  have hx := x.isLt
  have e1 : (q.val + off) / 66 = y.val + dy := by omega
  have e2 : (q.val + off) % 66 = x.val + dx := by omega
  show P ((q.val + off) / 66) ((q.val + off) % 66) c * _ = _
  rw [e1, e2]

/-- The load of tap `k` of a stack of nine weight matrices reads the stack at `k`. -/
theorem ld_tap (arg : Memref sig .tc .vmem S9x256x256 .bf16) (harg : arg.IsWhole) (xw : Vec Ideal S9x256x256 .bf16) (k : Fin 9)
    (inb : ∀ a, (![k.val, 0, 0] : Fin 3 → Nat) a + S1x256x256.size a ≤ S9x256x256.size a) (ci o : Fin 256) :
    View.readAt (Elt Ideal) arg.view (Rect.unit (s := S9x256x256) ![k.val, 0, 0] S1x256x256.size inb).toLoadRect (harg.unread xw)
        (ix3 (0 : Fin 1) ci o) = xw (ix3 k ci o) := by
  rw [View.readAt_apply, harg.read_unread]
  refine congrArg xw (funext fun a => Fin.ext ?_)
  match a with
  | ⟨0, _⟩ => show k.val + 1 * 0 = k.val; omega
  | ⟨1, _⟩ => show 0 + 1 * ci.val = ci.val; omega
  | ⟨2, _⟩ => show 0 + 1 * o.val = o.val; omega

/-- The load of a whole row vector reads it. -/
theorem ld_row (arg : Memref sig .tc .vmem S1x256 .f32) (harg : arg.IsWhole) (xr : Vec Ideal S1x256 .f32)
    (inb : ∀ a, (![0, 0] : Fin 2 → Nat) a + S1x256.size a ≤ S1x256.size a) (o : Fin 256) :
    View.readAt (Elt Ideal) arg.view (Rect.unit (s := S1x256) ![0, 0] S1x256.size inb).toLoadRect (harg.unread xr)
        (ix2 (0 : Fin 1) o) = xr (ix2 (0 : Fin 1) o) := by
  rw [View.readAt_apply, harg.read_unread]
  refine congrArg xr (funext fun a => Fin.ext ?_)
  match a with
  | ⟨0, _⟩ => show 0 + 1 * 0 = 0; rfl
  | ⟨1, _⟩ => show 0 + 1 * o.val = o.val; omega

/-- A stack of nine weight matrices, by tap. -/
def W (xw : Vec Ideal S9x256x256 .bf16) (dy dx : Fin 3) (ci o : Fin 256) : EReal :=
  xw (ix3 (⟨3 * dy.val + dx.val, by omega⟩ : Fin 9) ci o)

/-- The image between the two convolutions: the first convolution of the padded concatenated image, scaled, shifted
    and cut off below at zero. -/
def midB (x1 : Vec Ideal S1x32x2x64x128 .bf16) (U : FVec Ideal S1024x512 .bf16) (x4 : Vec Ideal S9x256x256 .bf16)
    (x5 x6 : Vec Ideal S1x256 .f32) (y x : Fin 64) (o : Fin 256) : EReal :=
  max (Cert.Spec.conv (Cert.Spec.pad (catB x1 U)) (W x4) y.val x.val o * x5 (ix2 (0 : Fin 1) o) + x6 (ix2 (0 : Fin 1) o)) 0

/-- The flattened first scratch array is the padded concatenated image, row `66·r + cc` for padded pixel `(r, cc)`. -/
theorem flat1_pad (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg12 : Memref sig .tc .vmem S34x2x66x256 .bf16) (x0 : Vec Ideal S1x256x1024 .bf16) (x1 : Vec Ideal S1x32x2x64x128 .bf16) (x2 : Vec Ideal S256x512 .bf16) (x3 : Vec Ideal S1x512 .f32) (r : Fin 4488) (ci : Fin 256) :
    k0_pay9 (kernelRun.sl.v34 (F := Ideal) c arg1 harg1 arg2 harg2 arg3 harg3 arg4 harg4 arg12 x0 x1 x2 x3) (ix2 r ci)
      = Cert.Spec.pad (catB x1 (kernelRun.sl.r (F := Ideal) c arg1 harg1 arg3 harg3 arg4 harg4 x0 x2 x3)) (r.val / 66) (r.val % 66) ci := by
  rw [Cert.KernelIdeal.KArith.flat_apply, v34_pad]
  have hr := r.isLt
  have e : 2 * (r.val / 132) + (r.val / 66) % 2 = r.val / 66 := by omega
  show Cert.Spec.pad _ (2 * (r.val / 132) + (r.val / 66) % 2) (r.val % 66) ci = _
  rw [e]

/-- The first convolution's result at the flattened position of pixel `(y, x)`. -/
theorem r4_apply (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg12 : Memref sig .tc .vmem S34x2x66x256 .bf16) (x0 : Vec Ideal S1x256x1024 .bf16) (x1 : Vec Ideal S1x32x2x64x128 .bf16) (x2 : Vec Ideal S256x512 .bf16) (x3 : Vec Ideal S1x512 .f32) (x4 : Vec Ideal S9x256x256 .bf16) (x5 : Vec Ideal S1x256 .f32) (x6 : Vec Ideal S1x256 .f32) (y x : Fin 64) (o : Fin 256) :
    kernelRun.sl.r_4 (F := Ideal) c arg1 harg1 arg2 harg2 arg3 harg3 arg4 harg4 arg5 harg5 arg6 harg6 arg7 harg7 arg12 x0 x1 x2 x3 x4 x5 x6 (ix2 (⟨66 * y.val + x.val, by have := y.isLt; have := x.isLt; omega⟩ : Fin 4224) o)
      = midB x1 (kernelRun.sl.r (F := Ideal) c arg1 harg1 arg3 harg3 arg4 harg4 x0 x2 x3) x4 x5 x6 y x o := by
  unfold kernelRun.sl.r_4 kernelRun.sl.r_2 kernelRun.sl.r_3
  rw [Cert.KernelIdeal.KArith.conv1_apply]
  have hX := flat1_pad c arg1 harg1 arg2 harg2 arg3 harg3 arg4 harg4 arg12 x0 x1 x2 x3
  rw [tapSum_pad _ _ hX _ y x o _ rfl 0 _ 0 0 rfl (by omega),
    tapSum_pad _ _ hX _ y x o _ rfl 1 _ 0 1 rfl (by omega),
    tapSum_pad _ _ hX _ y x o _ rfl 2 _ 0 2 rfl (by omega),
    tapSum_pad _ _ hX _ y x o _ rfl 66 _ 1 0 rfl (by omega),
    tapSum_pad _ _ hX _ y x o _ rfl 67 _ 1 1 rfl (by omega),
    tapSum_pad _ _ hX _ y x o _ rfl 68 _ 1 2 rfl (by omega),
    tapSum_pad _ _ hX _ y x o _ rfl 132 _ 2 0 rfl (by omega),
    tapSum_pad _ _ hX _ y x o _ rfl 133 _ 2 1 rfl (by omega),
    tapSum_pad _ _ hX _ y x o _ rfl 134 _ 2 2 rfl (by omega)]
  unfold midB Cert.Spec.conv Cert.Spec.tap W
  have hT : ∀ (k : Fin 9) (inb : ∀ a, (![k.val, 0, 0] : Fin 3 → Nat) a + S1x256x256.size a ≤ S9x256x256.size a) (a b : Nat),
      (∑ ci : Fin 256, Cert.Spec.pad (catB x1 (kernelRun.sl.r (F := Ideal) c arg1 harg1 arg3 harg3 arg4 harg4 x0 x2 x3)) a b ci
          * View.readAt (Elt Ideal) arg5.view (Rect.unit (s := S9x256x256) ![k.val, 0, 0] S1x256x256.size inb).toLoadRect (harg5.unread x4) (ix3 (0 : Fin 1) ci o))
        = ∑ ci : Fin 256, Cert.Spec.pad (catB x1 (kernelRun.sl.r (F := Ideal) c arg1 harg1 arg3 harg3 arg4 harg4 x0 x2 x3)) a b ci * x4 (ix3 k ci o) :=
    fun k inb a b => Finset.sum_congr rfl fun ci _ => congrArg _ (ld_tap arg5 harg5 x4 k inb ci o)
  refine congrArg₂ max (congrArg₂ (· + ·) (congrArg₂ (· * ·) ?_ (ld_row _ _ _ _ _)) (ld_row _ _ _ _ _)) rfl
  exact congrArg₂ (· + ·) (congrArg₂ (· + ·) (congrArg₂ (· + ·) (congrArg₂ (· + ·) (congrArg₂ (· + ·) (congrArg₂ (· + ·) (congrArg₂ (· + ·) (congrArg₂ (· + ·)
    (hT 0 _ _ _) (hT 1 _ _ _)) (hT 2 _ _ _)) (hT 3 _ _ _)) (hT 4 _ _ _)) (hT 5 _ _ _)) (hT 6 _ _ _)) (hT 7 _ _ _)) (hT 8 _ _ _)

end Cert.KernelIdeal.KConv
end
-- ==== Proof.KScratch2.lean ====
import proofs.«149310_g2000303838873713_pallasbulk_17_2_alg».proof.Proof.KConv
set_option maxRecDepth 16384
noncomputable section
namespace Cert.KernelIdeal.KScratch2
open Cert.KernelIdeal Cert.KernelIdeal.Gen Cert.KernelIdeal.Body Cert.KernelIdeal.KScratch Cert.KernelIdeal.KConv
open Idealize.ShloMosaic Idealize.ShloMosaic.ValueIdx Idealize.ShloMosaic.Pipeline

/-!
  The second scratch array after the body's stores.

  The array has 68 × 66 × 256 entries: padded row, padded column, channel. It is filled with zeros; then the image
  between the two convolutions — the first 64 of every 66 columns of the first convolution's flattened result — is
  blended into rows 1 … 64, columns 1 … 64. Read back whole it is that image padded with zeros.
-/

section
variable {F : FTy → Type} [FloatOps F]

/-- What the list of writes `L` to the second scratch array gives at index `y`. -/
abbrev rdS (arg13 : Memref sig .tc .vmem S68x66x256 .bf16) (L : List (View.Piece (Elt F) S68x66x256 .bf16)) (y : S68x66x256.Idx) : Elt F .bf16 :=
  arg13.view.read (Elt F) (arg13.view.writes (Elt F) arg13.view.junk L) y

theorem rdS2_hit (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg12 : Memref sig .tc .vmem S34x2x66x256 .bf16) (arg13 : Memref sig .tc .vmem S68x66x256 .bf16) (x0 : Vec F S1x256x1024 .bf16) (x1 : Vec F S1x32x2x64x128 .bf16) (x2 : Vec F S256x512 .bf16) (x3 : Vec F S1x512 .f32) (x4 : Vec F S9x256x256 .bf16) (x5 : Vec F S1x256 .f32) (x6 : Vec F S1x256 .f32) (r : Fin 68) (cc : Fin 66) (o : Fin 256)
    (h0 : 1 ≤ r.val ∧ r.val < 65) (h1 : 1 ≤ cc.val ∧ cc.val < 65) :
    rdS arg13 (kernelRun.sl.HS1_2 c arg1 harg1 arg2 harg2 arg3 harg3 arg4 harg4 arg5 harg5 arg6 harg6 arg7 harg7 arg12 arg13 x0 x1 x2 x3 x4 x5 x6) (ix3 r cc o)
      = k0_pay13 (kernelRun.sl.r_4 c arg1 harg1 arg2 harg2 arg3 harg3 arg4 harg4 arg5 harg5 arg6 harg6 arg7 harg7 arg12 x0 x1 x2 x3 x4 x5 x6)
          (ix3 (⟨r.val - 1, by omega⟩ : Fin 64) (⟨cc.val - 1, by omega⟩ : Fin 64) (⟨o.val - 0, by have := o.isLt; omega⟩ : Fin 256)) := by
  have ho := o.isLt
  unfold kernelRun.sl.HS1_2 kernelRun.sl.old_4
  dsimp only
  refine (Cert.LibWritesBlend.read_cons_blend _ _ _ _ _ _ _).trans ?_
  rw [dif_pos (fun a => by
    match a with
    | ⟨0, _⟩ => exact ⟨by show 1 + 0 ≤ r.val; omega, by show r.val < 1 + 0 + 64; omega⟩
    | ⟨1, _⟩ => exact ⟨by show 0 + 1 ≤ cc.val; omega, by show cc.val < 0 + 1 + 64; omega⟩
    | ⟨2, _⟩ => exact ⟨by show 0 + 0 ≤ o.val; omega, by show o.val < 0 + 0 + 256; omega⟩)]
  refine congrArg _ (funext fun b => ?_)
  match b with
  | ⟨0, _⟩ => exact Fin.ext (by show r.val - (1 + 0) = r.val - 1; omega)
  | ⟨1, _⟩ => exact Fin.ext (by show cc.val - (0 + 1) = cc.val - 1; omega)
  | ⟨2, _⟩ => exact Fin.ext (by show o.val - (0 + 0) = o.val - 0; omega)

theorem rdS2_miss (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg12 : Memref sig .tc .vmem S34x2x66x256 .bf16) (arg13 : Memref sig .tc .vmem S68x66x256 .bf16) (x0 : Vec F S1x256x1024 .bf16) (x1 : Vec F S1x32x2x64x128 .bf16) (x2 : Vec F S256x512 .bf16) (x3 : Vec F S1x512 .f32) (x4 : Vec F S9x256x256 .bf16) (x5 : Vec F S1x256 .f32) (x6 : Vec F S1x256 .f32) (r : Fin 68) (cc : Fin 66) (o : Fin 256)
    (hne : ¬ (1 ≤ r.val ∧ r.val < 65 ∧ 1 ≤ cc.val ∧ cc.val < 65)) :
    rdS arg13 (kernelRun.sl.HS1_2 c arg1 harg1 arg2 harg2 arg3 harg3 arg4 harg4 arg5 harg5 arg6 harg6 arg7 harg7 arg12 arg13 x0 x1 x2 x3 x4 x5 x6) (ix3 r cc o) = rdS arg13 kernelRun.sl.HS1_1 (ix3 r cc o) := by
  unfold kernelRun.sl.HS1_2 kernelRun.sl.old_4
  dsimp only
  refine (Cert.LibWritesBlend.read_cons_blend _ _ _ _ _ _ _).trans ?_
  rw [dif_neg (fun hall => hne (by
    have b0 := hall ⟨0, by decide⟩
    have a0 : 1 + 0 ≤ r.val ∧ r.val < 1 + 0 + 64 := b0
    have b1 := hall ⟨1, by decide⟩
    have a1 : 0 + 1 ≤ cc.val ∧ cc.val < 0 + 1 + 64 := b1
    omega))]

theorem rdS1 (arg13 : Memref sig .tc .vmem S68x66x256 .bf16) (y : S68x66x256.Idx) :
    rdS (F := F) arg13 kernelRun.sl.HS1_1 y = k0_pay12 y := by
  unfold kernelRun.sl.HS1_1
  refine View.read_writes_cons_unit_of_mem _ _ _ _ [] y y rfl fun a => ?_
  match a with
  | ⟨0, _⟩ => exact (Nat.zero_add _).symm
  | ⟨1, _⟩ => exact (Nat.zero_add _).symm
  | ⟨2, _⟩ => exact (Nat.zero_add _).symm

theorem v100_rd (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg12 : Memref sig .tc .vmem S34x2x66x256 .bf16) (arg13 : Memref sig .tc .vmem S68x66x256 .bf16) (x0 : Vec F S1x256x1024 .bf16) (x1 : Vec F S1x32x2x64x128 .bf16) (x2 : Vec F S256x512 .bf16) (x3 : Vec F S1x512 .f32) (x4 : Vec F S9x256x256 .bf16) (x5 : Vec F S1x256 .f32) (x6 : Vec F S1x256 .f32) (y : S68x66x256.Idx) :
    kernelRun.sl.v100 c arg1 harg1 arg2 harg2 arg3 harg3 arg4 harg4 arg5 harg5 arg6 harg6 arg7 harg7 arg12 arg13 x0 x1 x2 x3 x4 x5 x6 y = rdS arg13 (kernelRun.sl.HS1_2 c arg1 harg1 arg2 harg2 arg3 harg3 arg4 harg4 arg5 harg5 arg6 harg6 arg7 harg7 arg12 arg13 x0 x1 x2 x3 x4 x5 x6) y := by
  unfold kernelRun.sl.v100
  rw [Cert.LibWritesBlend.readCov_unit_apply]
  refine congrArg _ (funext fun a => Fin.ext ?_)
  match a with
  | ⟨0, _⟩ => show 0 + 1 * (y ⟨0, _⟩).val = _; omega
  | ⟨1, _⟩ => show 0 + 1 * (y ⟨1, _⟩).val = _; omega
  | ⟨2, _⟩ => show 0 + 1 * (y ⟨2, _⟩).val = _; omega

end

theorem fill1_apply (y : S68x66x256.Idx) : k0_pay12 (F := Ideal) y = 0 := by
  unfold k0_pay12
  rw [shapeCast_self]
  exact Ideal.ofBits_zero_bf16

/-- Every entry of the second scratch array, read back whole: the image between the convolutions padded with zeros. -/
theorem v100_pad (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg12 : Memref sig .tc .vmem S34x2x66x256 .bf16) (arg13 : Memref sig .tc .vmem S68x66x256 .bf16) (x0 : Vec Ideal S1x256x1024 .bf16) (x1 : Vec Ideal S1x32x2x64x128 .bf16) (x2 : Vec Ideal S256x512 .bf16) (x3 : Vec Ideal S1x512 .f32) (x4 : Vec Ideal S9x256x256 .bf16) (x5 : Vec Ideal S1x256 .f32) (x6 : Vec Ideal S1x256 .f32) (r : Fin 68) (cc : Fin 66) (o : Fin 256) :
    kernelRun.sl.v100 (F := Ideal) c arg1 harg1 arg2 harg2 arg3 harg3 arg4 harg4 arg5 harg5 arg6 harg6 arg7 harg7 arg12 arg13 x0 x1 x2 x3 x4 x5 x6 (ix3 r cc o)
      = Cert.Spec.pad (midB x1 (kernelRun.sl.r (F := Ideal) c arg1 harg1 arg3 harg3 arg4 harg4 x0 x2 x3) x4 x5 x6) r.val cc.val o := by
  rw [v100_rd]
  have hr := r.isLt
  have hcc := cc.isLt
  unfold Cert.Spec.pad
  by_cases hin : 1 ≤ r.val ∧ r.val ≤ 64 ∧ 1 ≤ cc.val ∧ cc.val ≤ 64
  · rw [dif_pos hin, rdS2_hit _ _ _ _ _ _ _ _ _ _ _ _ _ _ _ _ _ _ _ _ _ _ _ _ r cc o (by omega) (by omega)]
    refine (Cert.KernelIdeal.KArith.mid_apply _ _ _ _).trans ?_
    exact r4_apply c arg1 harg1 arg2 harg2 arg3 harg3 arg4 harg4 arg5 harg5 arg6 harg6 arg7 harg7 arg12 x0 x1 x2 x3 x4 x5 x6 _ _ _
  · rw [dif_neg hin, rdS2_miss _ _ _ _ _ _ _ _ _ _ _ _ _ _ _ _ _ _ _ _ _ _ _ _ r cc o (by omega), rdS1]
    exact fill1_apply _

/-- The flattened second scratch array is the padded intermediate image. -/
theorem flat2_pad (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg12 : Memref sig .tc .vmem S34x2x66x256 .bf16) (arg13 : Memref sig .tc .vmem S68x66x256 .bf16) (x0 : Vec Ideal S1x256x1024 .bf16) (x1 : Vec Ideal S1x32x2x64x128 .bf16) (x2 : Vec Ideal S256x512 .bf16) (x3 : Vec Ideal S1x512 .f32) (x4 : Vec Ideal S9x256x256 .bf16) (x5 : Vec Ideal S1x256 .f32) (x6 : Vec Ideal S1x256 .f32) (r : Fin 4488) (ci : Fin 256) :
    k0_pay14 (kernelRun.sl.v100 (F := Ideal) c arg1 harg1 arg2 harg2 arg3 harg3 arg4 harg4 arg5 harg5 arg6 harg6 arg7 harg7 arg12 arg13 x0 x1 x2 x3 x4 x5 x6) (ix2 r ci)
      = Cert.Spec.pad (midB x1 (kernelRun.sl.r (F := Ideal) c arg1 harg1 arg3 harg3 arg4 harg4 x0 x2 x3) x4 x5 x6) (r.val / 66) (r.val % 66) ci := by
  rw [Cert.KernelIdeal.KArith.flat2_apply, v100_pad]

end Cert.KernelIdeal.KScratch2
end
-- ==== Proof.KOut.lean ====
import proofs.«149310_g2000303838873713_pallasbulk_17_2_alg».proof.Proof.KScratch2
set_option maxRecDepth 16384
noncomputable section
namespace Cert.KernelIdeal.KOut
open Cert.KernelIdeal Cert.KernelIdeal.Gen Cert.KernelIdeal.Body Cert.KernelIdeal.KScratch Cert.KernelIdeal.KConv Cert.KernelIdeal.KScratch2
open Idealize.ShloMosaic Idealize.ShloMosaic.ValueIdx Idealize.ShloMosaic.Pipeline

/-!
  What the body leaves in the output block.

  The second convolution reads the padded intermediate image exactly as the first reads the padded concatenated
  image; its result, scaled, shifted and cut off below at zero, is stored — the first 64 of every 66 columns — as
  the one piece that covers the output block.
-/

/-- The result image of one batch element as a function of the ten input blocks. -/
def finB (x1 : Vec Ideal S1x32x2x64x128 .bf16) (U : FVec Ideal S1024x512 .bf16) (x4 : Vec Ideal S9x256x256 .bf16)
    (x5 x6 : Vec Ideal S1x256 .f32) (x7 : Vec Ideal S9x256x256 .bf16) (x8 x9 : Vec Ideal S1x256 .f32)
    (y x : Fin 64) (o : Fin 256) : EReal :=
  max (Cert.Spec.conv (Cert.Spec.pad (midB x1 U x4 x5 x6)) (W x7) y.val x.val o * x8 (ix2 (0 : Fin 1) o) + x9 (ix2 (0 : Fin 1) o)) 0

/-- The second convolution's result at pixel `(y, x)`. -/
theorem r8_apply (c : Dev nD) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S9x256x256 .bf16) (harg8 : arg8.IsWhole) (arg9 : Memref sig .tc .vmem S1x256 .f32) (harg9 : arg9.IsWhole) (arg10 : Memref sig .tc .vmem S1x256 .f32) (harg10 : arg10.IsWhole) (arg12 : Memref sig .tc .vmem S34x2x66x256 .bf16) (arg13 : Memref sig .tc .vmem S68x66x256 .bf16) (x0 : Vec Ideal S1x256x1024 .bf16) (x1 : Vec Ideal S1x32x2x64x128 .bf16) (x2 : Vec Ideal S256x512 .bf16) (x3 : Vec Ideal S1x512 .f32) (x4 : Vec Ideal S9x256x256 .bf16) (x5 : Vec Ideal S1x256 .f32) (x6 : Vec Ideal S1x256 .f32) (x7 : Vec Ideal S9x256x256 .bf16) (x8 : Vec Ideal S1x256 .f32) (x9 : Vec Ideal S1x256 .f32) (y x : Fin 64) (o : Fin 256) :
    kernelRun.sl.r_8 (F := Ideal) c arg1 harg1 arg2 harg2 arg3 harg3 arg4 harg4 arg5 harg5 arg6 harg6 arg7 harg7 arg8 harg8 arg9 harg9 arg10 harg10 arg12 arg13 x0 x1 x2 x3 x4 x5 x6 x7 x8 x9 (ix3 y (⟨x.val, by have := x.isLt; omega⟩ : Fin 66) o)
      = finB x1 (kernelRun.sl.r (F := Ideal) c arg1 harg1 arg3 harg3 arg4 harg4 x0 x2 x3) x4 x5 x6 x7 x8 x9 y x o := by
  unfold kernelRun.sl.r_8 kernelRun.sl.r_5 kernelRun.sl.r_6 kernelRun.sl.r_7
  rw [Cert.KernelIdeal.KArith.conv2_apply _ _ _ _ _ _ _ _ _ _ _ _ y (⟨x.val, by have := x.isLt; omega⟩ : Fin 66) o
    (⟨66 * y.val + x.val, by have := y.isLt; have := x.isLt; omega⟩ : Fin 4224) rfl]
  have hX := flat2_pad c arg1 harg1 arg2 harg2 arg3 harg3 arg4 harg4 arg5 harg5 arg6 harg6 arg7 harg7 arg12 arg13 x0 x1 x2 x3 x4 x5 x6
  rw [tapSum_pad _ _ hX _ y x o _ rfl 0 _ 0 0 rfl (by omega),
    tapSum_pad _ _ hX _ y x o _ rfl 1 _ 0 1 rfl (by omega),
    tapSum_pad _ _ hX _ y x o _ rfl 2 _ 0 2 rfl (by omega),
    tapSum_pad _ _ hX _ y x o _ rfl 66 _ 1 0 rfl (by omega),
    tapSum_pad _ _ hX _ y x o _ rfl 67 _ 1 1 rfl (by omega),
    tapSum_pad _ _ hX _ y x o _ rfl 68 _ 1 2 rfl (by omega),
    tapSum_pad _ _ hX _ y x o _ rfl 132 _ 2 0 rfl (by omega),
    tapSum_pad _ _ hX _ y x o _ rfl 133 _ 2 1 rfl (by omega),
    tapSum_pad _ _ hX _ y x o _ rfl 134 _ 2 2 rfl (by omega)]
  unfold finB Cert.Spec.conv Cert.Spec.tap W
  have hT : ∀ (k : Fin 9) (inb : ∀ a, (![k.val, 0, 0] : Fin 3 → Nat) a + S1x256x256.size a ≤ S9x256x256.size a) (a b : Nat),
      (∑ ci : Fin 256, Cert.Spec.pad (midB x1 (kernelRun.sl.r (F := Ideal) c arg1 harg1 arg3 harg3 arg4 harg4 x0 x2 x3) x4 x5 x6) a b ci
          * View.readAt (Elt Ideal) arg8.view (Rect.unit (s := S9x256x256) ![k.val, 0, 0] S1x256x256.size inb).toLoadRect (harg8.unread x7) (ix3 (0 : Fin 1) ci o))
        = ∑ ci : Fin 256, Cert.Spec.pad (midB x1 (kernelRun.sl.r (F := Ideal) c arg1 harg1 arg3 harg3 arg4 harg4 x0 x2 x3) x4 x5 x6) a b ci * x7 (ix3 k ci o) :=
    fun k inb a b => Finset.sum_congr rfl fun ci _ => congrArg _ (ld_tap arg8 harg8 x7 k inb ci o)
  refine congrArg₂ max (congrArg₂ (· + ·) (congrArg₂ (· * ·) ?_ (ld_row _ _ _ _ _)) (ld_row _ _ _ _ _)) rfl
  exact congrArg₂ (· + ·) (congrArg₂ (· + ·) (congrArg₂ (· + ·) (congrArg₂ (· + ·) (congrArg₂ (· + ·) (congrArg₂ (· + ·) (congrArg₂ (· + ·) (congrArg₂ (· + ·)
    (hT 0 _ _ _) (hT 1 _ _ _)) (hT 2 _ _ _)) (hT 3 _ _ _)) (hT 4 _ _ _)) (hT 5 _ _ _)) (hT 6 _ _ _)) (hT 7 _ _ _)) (hT 8 _ _ _)

/-- The output block after the body, entry by entry. -/
theorem out10_apply (c : Dev nD) (i : grid0.Coords) (arg1 : Memref sig .tc .vmem S1x256x1024 .bf16) (harg1 : arg1.IsWhole) (arg2 : Memref sig .tc .vmem S1x32x2x64x128 .bf16) (harg2 : arg2.IsWhole) (arg3 : Memref sig .tc .vmem S256x512 .bf16) (harg3 : arg3.IsWhole) (arg4 : Memref sig .tc .vmem S1x512 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S9x256x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x64x64x256 .f32) (harg11 : arg11.IsWhole) (arg12 : Memref sig .tc .vmem S34x2x66x256 .bf16) (harg12 : arg12.IsWhole) (arg13 : Memref sig .tc .vmem S68x66x256 .bf16) (harg13 : arg13.IsWhole) (x0 : Vec Ideal S1x256x1024 .bf16) (x1 : Vec Ideal S1x32x2x64x128 .bf16) (x2 : Vec Ideal S256x512 .bf16) (x3 : Vec Ideal S1x512 .f32) (x4 : Vec Ideal S9x256x256 .bf16) (x5 : Vec Ideal S1x256 .f32) (x6 : Vec Ideal S1x256 .f32) (x7 : Vec Ideal S9x256x256 .bf16) (x8 : Vec Ideal S1x256 .f32) (x9 : Vec Ideal S1x256 .f32) (y x : Fin 64) (o : Fin 256) :
    out10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 (ix4 (0 : Fin 1) y x o)
      = finB x1 (kernelRun.sl.r (F := Ideal) c arg1 harg1 arg3 harg3 arg4 harg4 x0 x2 x3) x4 x5 x6 x7 x8 x9 y x o := by
  unfold out10 kernelRun
  dsimp only
  refine (View.read_writes_cons_unit_of_mem _ _ _ _ [] (ix4 (0 : Fin 1) y x o) (ix4 (0 : Fin 1) y x o) rfl fun a => ?_).trans ?_
  · match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · refine (Cert.KernelIdeal.KArith.out_apply _ y x o).trans ?_
    exact r8_apply c arg1 harg1 arg2 harg2 arg3 harg3 arg4 harg4 arg5 harg5 arg6 harg6 arg7 harg7 arg8 harg8 arg9 harg9 arg10 harg10 arg12 arg13 x0 x1 x2 x3 x4 x5 x6 x7 x8 x9 y x o

/-- The transposed convolution's matrix product, entry by entry, from its three operand blocks. -/
theorem U_apply (c : Dev nD) (arg1 : Memref sig .tc .vmem S1x256x1024 .bf16) (harg1 : arg1.IsWhole) (arg3 : Memref sig .tc .vmem S256x512 .bf16) (harg3 : arg3.IsWhole) (arg4 : Memref sig .tc .vmem S1x512 .f32) (harg4 : arg4.IsWhole)
    (x0 : Vec Ideal S1x256x1024 .bf16) (x2 : Vec Ideal S256x512 .bf16) (x3 : Vec Ideal S1x512 .f32) (p : Fin 1024) (col : Fin 512) :
    (kernelRun.sl.r (F := Ideal) c arg1 harg1 arg3 harg3 arg4 harg4 x0 x2 x3) (ix2 p col) = (∑ ci : Fin 256, x0 (ix3 (0 : Fin 1) ci p) * x2 (ix2 ci col)) + x3 (ix2 (0 : Fin 1) col) := by
  unfold kernelRun.sl.r
  rw [Cert.KernelIdeal.KArith.up_apply]
  have hz3 : (![0, 0, 0] : Fin 3 → Nat) = fun _ => 0 := by funext a; fin_cases a <;> rfl
  have hz2 : (![0, 0] : Fin 2 → Nat) = fun _ => 0 := by funext a; fin_cases a <;> rfl
  simp only [View.readAt_eq_ld, harg1.read_unread, harg3.read_unread, harg4.read_unread]
  rw [View.ld_unit_zero (S := S1x256x1024) hz3, View.ld_unit_zero (S := S256x512) hz2, View.ld_unit_zero (S := S1x512) hz2]

end Cert.KernelIdeal.KOut
end
-- ==== Proof.KBridge.lean ====
import proofs.«149310_g2000303838873713_pallasbulk_17_2_alg».proof.Proof.KOut
set_option maxRecDepth 16384
noncomputable section
namespace Cert.KernelIdeal.KBridge
open Cert.KernelIdeal.KScratch Cert.KernelIdeal.KConv Cert.KernelIdeal.KOut
open Idealize.ShloMosaic Idealize.ShloMosaic.ValueIdx

/-!
  From the blocks to the arguments.

  For batch element `n` the ten input blocks are re-arrangements of the argument arrays: the operand of the
  transposed convolution with its two spatial axes merged, the skip connection with channels last and rows split by
  parity, the transposed convolution's weight with its three trailing axes merged and its bias repeated four times,
  the two 3×3 weight stacks with their two leading axes merged, and the folded scales and shifts. Substituting these
  re-arrangements into the block-level result gives the specification's result at image `n`.
-/

variable (upw : (⟨4, ![256, 2, 2, 128]⟩ : Shape).Idx → EReal) (upb : (⟨1, ![128]⟩ : Shape).Idx → EReal)
  (w1 : (⟨4, ![3, 3, 256, 256]⟩ : Shape).Idx → EReal) (b1 g1 bt1 mu1 var1 : (⟨1, ![256]⟩ : Shape).Idx → EReal)
  (w2 : (⟨4, ![3, 3, 256, 256]⟩ : Shape).Idx → EReal) (b2 g2 bt2 mu2 var2 : (⟨1, ![256]⟩ : Shape).Idx → EReal)
  (a14 : (⟨4, ![8, 256, 32, 32]⟩ : Shape).Idx → EReal) (a15 : (⟨4, ![8, 128, 64, 64]⟩ : Shape).Idx → EReal)

theorem ix4_congr {n0 n1 n2 n3 : Nat} {a a' : Fin n0} {b b' : Fin n1} {c c' : Fin n2} {d d' : Fin n3}
    (ha : a = a') (hb : b = b') (hc : c = c') (hd : d = d') : ix4 a b c d = ix4 a' b' c' d' := by
  subst ha hb hc hd; rfl

theorem ix1_congr {n0 : Nat} {a a' : Fin n0} (ha : a = a') : ix1 a = ix1 a' := by subst ha; rfl

/-- A weight stack with its taps numbered `3·dy + dx` is the four-axis weight array by tap. -/
theorem W_eq (xw : Vec Ideal S9x256x256 .bf16) (w : (⟨4, ![3, 3, 256, 256]⟩ : Shape).Idx → EReal)
    (hw : ∀ (t : Fin 9) (ci o : Fin 256), xw (ix3 t ci o) = w (ix4 (⟨t.val / 3, by omega⟩ : Fin 3) (⟨t.val % 3, by omega⟩ : Fin 3) ci o)) :
    W xw = Cert.Spec.wt w := by
  funext dy dx ci o
  unfold W Cert.Spec.wt
  rw [hw]
  have hdy := dy.isLt
  have hdx := dx.isLt
  exact congrArg w (ix4_congr (Fin.ext (by show (3 * dy.val + dx.val) / 3 = dy.val; omega))
    (Fin.ext (by show (3 * dy.val + dx.val) % 3 = dx.val; omega)) rfl rfl)

/-- The concatenated block is the concatenated image of batch element `n`. -/
theorem catB_eq (n : Fin 8) (x1 : Vec Ideal S1x32x2x64x128 .bf16) (U : FVec Ideal S1024x512 .bf16)
    (hx1 : ∀ (i : Fin 32) (par : Fin 2) (xx : Fin 64) (ch : Fin 128),
      x1 (ix5 (0 : Fin 1) i par xx ch) = a15 (ix4 n ch (⟨2 * i.val + par.val, by omega⟩ : Fin 64) xx))
    (hU : ∀ (p : Fin 1024) (col : Fin 512), U (ix2 p col)
      = (∑ ci : Fin 256, a14 (ix4 n ci (⟨p.val / 32, by omega⟩ : Fin 32) (⟨p.val % 32, by omega⟩ : Fin 32))
          * upw (ix4 ci (⟨col.val / 256, by omega⟩ : Fin 2) (⟨(col.val / 128) % 2, by omega⟩ : Fin 2) (⟨col.val % 128, by omega⟩ : Fin 128)))
        + upb (ix1 (⟨col.val % 128, by omega⟩ : Fin 128))) :
    catB x1 U = Cert.Spec.cat upw upb a14 a15 n := by
  funext y x ch
  have hy := y.isLt
  have hx := x.isLt
  have hch := ch.isLt
  unfold catB Cert.Spec.cat
  by_cases hc : ch.val < 128
  · rw [dif_pos hc, dif_pos hc, hx1]
    exact congrArg a15 (ix4_congr rfl rfl (Fin.ext (by show 2 * (y.val / 2) + y.val % 2 = y.val; omega)) rfl)
  · rw [dif_neg hc, dif_neg hc, hU]
    unfold Cert.Spec.up
    refine congrArg₂ (· + ·) (Finset.sum_congr rfl fun ci _ => congrArg₂ (· * ·) ?_ ?_) ?_
    · exact congrArg a14 (ix4_congr rfl rfl (Fin.ext (by show (32 * (y.val / 2) + x.val / 2) / 32 = y.val / 2; omega))
        (Fin.ext (by show (32 * (y.val / 2) + x.val / 2) % 32 = x.val / 2; omega)))
    · exact congrArg upw (ix4_congr rfl
        (Fin.ext (by show (256 * (y.val % 2) + (128 * (x.val % 2) + (ch.val - 128))) / 256 = y.val % 2; omega))
        (Fin.ext (by show ((256 * (y.val % 2) + (128 * (x.val % 2) + (ch.val - 128))) / 128) % 2 = x.val % 2; omega))
        (Fin.ext (by show (256 * (y.val % 2) + (128 * (x.val % 2) + (ch.val - 128))) % 128 = ch.val - 128; omega)))
    · exact congrArg upb (ix1_congr (Fin.ext (by show (256 * (y.val % 2) + (128 * (x.val % 2) + (ch.val - 128))) % 128 = ch.val - 128; omega)))

/-- The block-level result is the specification's result at image `n`. -/
theorem finB_eq (n : Fin 8) (x1 : Vec Ideal S1x32x2x64x128 .bf16) (U : FVec Ideal S1024x512 .bf16)
    (x4 : Vec Ideal S9x256x256 .bf16) (x5 x6 : Vec Ideal S1x256 .f32) (x7 : Vec Ideal S9x256x256 .bf16) (x8 x9 : Vec Ideal S1x256 .f32)
    (hx1 : ∀ (i : Fin 32) (par : Fin 2) (xx : Fin 64) (ch : Fin 128),
      x1 (ix5 (0 : Fin 1) i par xx ch) = a15 (ix4 n ch (⟨2 * i.val + par.val, by omega⟩ : Fin 64) xx))
    (hU : ∀ (p : Fin 1024) (col : Fin 512), U (ix2 p col)
      = (∑ ci : Fin 256, a14 (ix4 n ci (⟨p.val / 32, by omega⟩ : Fin 32) (⟨p.val % 32, by omega⟩ : Fin 32))
          * upw (ix4 ci (⟨col.val / 256, by omega⟩ : Fin 2) (⟨(col.val / 128) % 2, by omega⟩ : Fin 2) (⟨col.val % 128, by omega⟩ : Fin 128)))
        + upb (ix1 (⟨col.val % 128, by omega⟩ : Fin 128)))
    (hx4 : ∀ (t : Fin 9) (ci o : Fin 256), x4 (ix3 t ci o) = w1 (ix4 (⟨t.val / 3, by omega⟩ : Fin 3) (⟨t.val % 3, by omega⟩ : Fin 3) ci o))
    (hx5 : ∀ o : Fin 256, x5 (ix2 (0 : Fin 1) o) = Cert.Spec.scale g1 var1 o)
    (hx6 : ∀ o : Fin 256, x6 (ix2 (0 : Fin 1) o) = Cert.Spec.shift b1 g1 bt1 mu1 var1 o)
    (hx7 : ∀ (t : Fin 9) (ci o : Fin 256), x7 (ix3 t ci o) = w2 (ix4 (⟨t.val / 3, by omega⟩ : Fin 3) (⟨t.val % 3, by omega⟩ : Fin 3) ci o))
    (hx8 : ∀ o : Fin 256, x8 (ix2 (0 : Fin 1) o) = Cert.Spec.scale g2 var2 o)
    (hx9 : ∀ o : Fin 256, x9 (ix2 (0 : Fin 1) o) = Cert.Spec.shift b2 g2 bt2 mu2 var2 o)
    (y x : Fin 64) (o : Fin 256) :
    finB x1 U x4 x5 x6 x7 x8 x9 y x o
      = Cert.Spec.fin upw upb w1 b1 g1 bt1 mu1 var1 w2 b2 g2 bt2 mu2 var2 a14 a15 n y x o := by
  have hmid : midB x1 U x4 x5 x6 = Cert.Spec.mid upw upb w1 b1 g1 bt1 mu1 var1 a14 a15 n := by
    funext y' x' o'
    unfold midB Cert.Spec.mid
    rw [catB_eq upw upb a14 a15 n x1 U hx1 hU, W_eq x4 w1 hx4, hx5, hx6]
  unfold finB Cert.Spec.fin
  rw [hmid, W_eq x7 w2 hx7, hx8, hx9]

end Cert.KernelIdeal.KBridge
end
-- ==== Proof.KResult.lean ====
import proofs.«149310_g2000303838873713_pallasbulk_17_2_alg».proof.Proof.KHostArgs
import proofs.«149310_g2000303838873713_pallasbulk_17_2_alg».proof.Proof.KHostBlocks
import proofs.«149310_g2000303838873713_pallasbulk_17_2_alg».proof.Proof.KHostTail
import proofs.«149310_g2000303838873713_pallasbulk_17_2_alg».proof.Proof.KBridge
set_option maxRecDepth 16384
noncomputable section
namespace Cert.KernelIdeal.KResult
open Cert.KernelIdeal Cert.KernelIdeal.Gen Cert.KernelIdeal.Body Cert.KernelIdeal.KHost
open Cert.KernelIdeal.KScratch Cert.KernelIdeal.KConv Cert.KernelIdeal.KOut
open Idealize.ShloMosaic Idealize.ShloMosaic.TcCoe Idealize.ShloMosaic.ValueIdx

/-!
  The fused kernel's result is the specification's.

  The returned array is the pipeline's result array transposed to channel-major layout; image `n` of that array is
  what the body leaves at grid point `n`; there its ten input blocks are image `n` of the two moving arrays and the
  eight whole arrays the host prepared — so the block-level result is the specification's result at image `n`.
-/

variable (m : (ℓ : Loc nD τ sig) → Buf (Elt Ideal) ℓ)

theorem kernel_result (c : Dev nD) :
    (Pipeline.afterTail₀ cfgs (Cert.KernelIdeal.Body.dats m) 0 (V0 m) [hostOps1] c main_v34 : S8x256x64x64.Idx → EReal)
      = Cert.Spec.result (A0 m c) (A1 m c) (A2 m c) (A3 m c) (A4 m c) (A5 m c) (A6 m c) (A7 m c) (A8 m c) (A9 m c) (A10 m c) (A11 m c) (A12 m c) (A13 m c) (A14 m c) (A15 m c) := by
  funext j
  obtain ⟨n, o, y, x, rfl⟩ : ∃ (n : Fin 8) (o : Fin 256) (y x : Fin 64), j = ix4 n o y x := ⟨j 0, j 1, j 2, j 3, eq_ix4 j⟩
  rw [result_apply, arr10_apply]
  unfold outAt
  rw [out10_apply]
  refine Cert.KernelIdeal.KBridge.finB_eq (A0 m c) (A1 m c) (A2 m c) (A3 m c) (A4 m c) (A5 m c) (A6 m c) (A7 m c) (A8 m c) (A9 m c) (A10 m c) (A11 m c) (A12 m c) (A13 m c) (A14 m c) (A15 m c) n _ _ _ _ _ _ _ _ ?_ ?_ ?_ ?_ ?_ ?_ ?_ ?_ y x o
  · exact fun i par xx ch => (iblk1_apply m c n i par xx ch).trans (v4_apply m c n i par xx ch)
  · intro p col
    rw [U_apply]
    refine congrArg₂ (· + ·) (Finset.sum_congr rfl fun ci _ => congrArg₂ (· * ·) ?_ ?_) ?_
    · exact (iblk0_apply m c n ci p).trans (v1_apply m c n ci p)
    · exact (congrFun (iblk2_eq m c (pt n)) _).trans (v6_apply m c ci col)
    · exact (congrFun (iblk3_eq m c (pt n)) _).trans (v10_apply m c col)
  · exact fun t ci o' => (congrFun (iblk4_eq m c (pt n)) _).trans (v12_apply m c t ci o')
  · exact fun o' => (congrFun (iblk5_eq m c (pt n)) _).trans (v19_apply m c o')
  · exact fun o' => (congrFun (iblk6_eq m c (pt n)) _).trans (v23_apply m c o')
  · exact fun t ci o' => (congrFun (iblk7_eq m c (pt n)) _).trans (v14_apply m c t ci o')
  · exact fun o' => (congrFun (iblk8_eq m c (pt n)) _).trans (v28_apply m c o')
  · exact fun o' => (congrFun (iblk9_eq m c (pt n)) _).trans (v32_apply m c o')

end Cert.KernelIdeal.KResult
end
-- ==== Proof.RefUpArgs.lean ====
/-
  The reference's argument arrays before its second kernel.

  Neither the host operations in front of the two kernels nor the first kernel's write-back touches an
  argument array, so each is read, at every stage up to the second kernel's entry, as it was launched.
-/
import proofs.«149310_g2000303838873713_pallasbulk_17_2_alg».proof.Proof.Gen.ReferenceIdeal.Frame
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.ReferenceIdeal.RefUp

open Cert.ReferenceIdeal Cert.ReferenceIdeal.Gen
open Idealize.ShloMosaic Idealize.ShloMosaic.TcCoe Idealize.ShloMosaic.Tactic Idealize.ShloMosaic.ValueIdx
open Idealize.ShloMosaic.Pipeline (Dat Cfg Window)

variable (m : (ℓ : Loc nD τ sig) → Buf (Elt Ideal) ℓ) (ρ : Dev nD → PrngReg)

/-! ## The argument arrays, as functions on their index types -/

/-- Argument 0 as launched, on core `c`. -/
abbrev A0 (c : Dev nD) : S256x2x2x128.Idx → EReal := m ((c : Thread nD τ).loc main_arg0)
/-- Argument 1 as launched, on core `c`. -/
abbrev A1 (c : Dev nD) : S128.Idx → EReal := m ((c : Thread nD τ).loc main_arg1)
/-- Argument 2 as launched, on core `c`. -/
abbrev A2 (c : Dev nD) : S3x3x256x256.Idx → EReal := m ((c : Thread nD τ).loc main_arg2)
/-- Argument 3 as launched, on core `c`. -/
abbrev A3 (c : Dev nD) : S256.Idx → EReal := m ((c : Thread nD τ).loc main_arg3)
/-- Argument 4 as launched, on core `c`. -/
abbrev A4 (c : Dev nD) : S256.Idx → EReal := m ((c : Thread nD τ).loc main_arg4)
/-- Argument 5 as launched, on core `c`. -/
abbrev A5 (c : Dev nD) : S256.Idx → EReal := m ((c : Thread nD τ).loc main_arg5)
/-- Argument 6 as launched, on core `c`. -/
abbrev A6 (c : Dev nD) : S256.Idx → EReal := m ((c : Thread nD τ).loc main_arg6)
/-- Argument 7 as launched, on core `c`. -/
abbrev A7 (c : Dev nD) : S256.Idx → EReal := m ((c : Thread nD τ).loc main_arg7)
/-- Argument 8 as launched, on core `c`. -/
abbrev A8 (c : Dev nD) : S3x3x256x256.Idx → EReal := m ((c : Thread nD τ).loc main_arg8)
/-- Argument 9 as launched, on core `c`. -/
abbrev A9 (c : Dev nD) : S256.Idx → EReal := m ((c : Thread nD τ).loc main_arg9)
/-- Argument 10 as launched, on core `c`. -/
abbrev A10 (c : Dev nD) : S256.Idx → EReal := m ((c : Thread nD τ).loc main_arg10)
/-- Argument 11 as launched, on core `c`. -/
abbrev A11 (c : Dev nD) : S256.Idx → EReal := m ((c : Thread nD τ).loc main_arg11)
/-- Argument 12 as launched, on core `c`. -/
abbrev A12 (c : Dev nD) : S256.Idx → EReal := m ((c : Thread nD τ).loc main_arg12)
/-- Argument 13 as launched, on core `c`. -/
abbrev A13 (c : Dev nD) : S256.Idx → EReal := m ((c : Thread nD τ).loc main_arg13)
/-- Argument 14 as launched, on core `c`. -/
abbrev A14 (c : Dev nD) : S8x256x32x32.Idx → EReal := m ((c : Thread nD τ).loc main_arg14)
/-- Argument 15 as launched, on core `c`. -/
abbrev A15 (c : Dev nD) : S8x128x64x64.Idx → EReal := m ((c : Thread nD τ).loc main_arg15)

/-! ## No host operation before the second region and no write-back of the first region touches an argument -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W2_arg0 (c : Dev nD) : W2 m ρ c (Proc.devRef .tc main_arg0) = m ((c : Thread nD τ).loc main_arg0) :=
  (W2_of_ne m ρ c main_arg0 (by decide)).trans (W1_arg0 m ρ c)
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W2_arg1 (c : Dev nD) : W2 m ρ c (Proc.devRef .tc main_arg1) = m ((c : Thread nD τ).loc main_arg1) :=
  (W2_of_ne m ρ c main_arg1 (by decide)).trans (W1_arg1 m ρ c)
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W2_arg2 (c : Dev nD) : W2 m ρ c (Proc.devRef .tc main_arg2) = m ((c : Thread nD τ).loc main_arg2) :=
  (W2_of_ne m ρ c main_arg2 (by decide)).trans (W1_arg2 m ρ c)
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W2_arg3 (c : Dev nD) : W2 m ρ c (Proc.devRef .tc main_arg3) = m ((c : Thread nD τ).loc main_arg3) :=
  (W2_of_ne m ρ c main_arg3 (by decide)).trans (W1_arg3 m ρ c)
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W2_arg4 (c : Dev nD) : W2 m ρ c (Proc.devRef .tc main_arg4) = m ((c : Thread nD τ).loc main_arg4) :=
  (W2_of_ne m ρ c main_arg4 (by decide)).trans (W1_arg4 m ρ c)
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W2_arg5 (c : Dev nD) : W2 m ρ c (Proc.devRef .tc main_arg5) = m ((c : Thread nD τ).loc main_arg5) :=
  (W2_of_ne m ρ c main_arg5 (by decide)).trans (W1_arg5 m ρ c)
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W2_arg6 (c : Dev nD) : W2 m ρ c (Proc.devRef .tc main_arg6) = m ((c : Thread nD τ).loc main_arg6) :=
  (W2_of_ne m ρ c main_arg6 (by decide)).trans (W1_arg6 m ρ c)
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W2_arg7 (c : Dev nD) : W2 m ρ c (Proc.devRef .tc main_arg7) = m ((c : Thread nD τ).loc main_arg7) :=
  (W2_of_ne m ρ c main_arg7 (by decide)).trans (W1_arg7 m ρ c)
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W2_arg8 (c : Dev nD) : W2 m ρ c (Proc.devRef .tc main_arg8) = m ((c : Thread nD τ).loc main_arg8) :=
  (W2_of_ne m ρ c main_arg8 (by decide)).trans (W1_arg8 m ρ c)
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W2_arg9 (c : Dev nD) : W2 m ρ c (Proc.devRef .tc main_arg9) = m ((c : Thread nD τ).loc main_arg9) :=
  (W2_of_ne m ρ c main_arg9 (by decide)).trans (W1_arg9 m ρ c)
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W2_arg10 (c : Dev nD) : W2 m ρ c (Proc.devRef .tc main_arg10) = m ((c : Thread nD τ).loc main_arg10) :=
  (W2_of_ne m ρ c main_arg10 (by decide)).trans (W1_arg10 m ρ c)
theorem W1_arg11 (c : Dev nD) : W1 m ρ c (Proc.devRef .tc main_arg11) = m ((c : Thread nD τ).loc main_arg11) := by
  show StableHlo.after hostOps0 (W0 m ρ c) (Proc.devRef .tc main_arg11) = _
  after_results
theorem W2_arg11 (c : Dev nD) : W2 m ρ c (Proc.devRef .tc main_arg11) = m ((c : Thread nD τ).loc main_arg11) :=
  (W2_of_ne m ρ c main_arg11 (by decide)).trans (W1_arg11 m ρ c)
theorem W1_arg12 (c : Dev nD) : W1 m ρ c (Proc.devRef .tc main_arg12) = m ((c : Thread nD τ).loc main_arg12) := by
  show StableHlo.after hostOps0 (W0 m ρ c) (Proc.devRef .tc main_arg12) = _
  after_results
theorem W2_arg12 (c : Dev nD) : W2 m ρ c (Proc.devRef .tc main_arg12) = m ((c : Thread nD τ).loc main_arg12) :=
  (W2_of_ne m ρ c main_arg12 (by decide)).trans (W1_arg12 m ρ c)
theorem W1_arg13 (c : Dev nD) : W1 m ρ c (Proc.devRef .tc main_arg13) = m ((c : Thread nD τ).loc main_arg13) := by
  show StableHlo.after hostOps0 (W0 m ρ c) (Proc.devRef .tc main_arg13) = _
  after_results
theorem W2_arg13 (c : Dev nD) : W2 m ρ c (Proc.devRef .tc main_arg13) = m ((c : Thread nD τ).loc main_arg13) :=
  (W2_of_ne m ρ c main_arg13 (by decide)).trans (W1_arg13 m ρ c)
theorem W1_arg14 (c : Dev nD) : W1 m ρ c (Proc.devRef .tc main_arg14) = m ((c : Thread nD τ).loc main_arg14) := by
  show StableHlo.after hostOps0 (W0 m ρ c) (Proc.devRef .tc main_arg14) = _
  after_results
theorem W2_arg14 (c : Dev nD) : W2 m ρ c (Proc.devRef .tc main_arg14) = m ((c : Thread nD τ).loc main_arg14) :=
  (W2_of_ne m ρ c main_arg14 (by decide)).trans (W1_arg14 m ρ c)
theorem W1_arg15 (c : Dev nD) : W1 m ρ c (Proc.devRef .tc main_arg15) = m ((c : Thread nD τ).loc main_arg15) := by
  show StableHlo.after hostOps0 (W0 m ρ c) (Proc.devRef .tc main_arg15) = _
  after_results
theorem W2_arg15 (c : Dev nD) : W2 m ρ c (Proc.devRef .tc main_arg15) = m ((c : Thread nD τ).loc main_arg15) :=
  (W2_of_ne m ρ c main_arg15 (by decide)).trans (W1_arg15 m ρ c)

end Cert.ReferenceIdeal.RefUp

end
-- ==== Proof.RefUpTail.lean ====
/-
  The reference's second kernel: from what each grid point leaves to the returned array.

  The second kernel runs once per image; point `n` of its grid writes back image `n` of the result and no other
  point touches that image, so the result array after the run is, image by image, what the image's own
  point left in the output block. The program's last operation returns that array channel-major.
-/
import proofs.«149310_g2000303838873713_pallasbulk_17_2_alg».proof.Proof.Gen.ReferenceIdeal.Frame
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«149310_g2000303838873713_pallasbulk_17_2_alg».proof.Proof.RefUpArgs
set_option maxRecDepth 16384

noncomputable section

namespace Cert.ReferenceIdeal.RefUp

open Cert.ReferenceIdeal Cert.ReferenceIdeal.Gen
open Idealize.ShloMosaic Idealize.ShloMosaic.TcCoe Idealize.ShloMosaic.Tactic Idealize.ShloMosaic.ValueIdx
open Idealize.ShloMosaic.Pipeline (Dat Cfg Window)

variable (m : (ℓ : Loc nD τ sig) → Buf (Elt Ideal) ℓ) (ρ : Dev nD → PrngReg)

variable (V : (c : Dev nD) → (b : Ref sig .tc) → Buf (Elt Ideal) ((c : Thread nD τ).loc b))

/-- The grid point of the second kernel that handles image `n`. -/
def pt1 (n : Fin 8) : Fin cfg1.N := ⟨n.val, by have := N_1; show n.val < grid1.N; omega⟩

/-- The returned array, channel-major, is the second kernel's result array read channels-last. -/
theorem tail_apply (c : Dev nD) (n : Fin 8) (o : Fin 256) (y x : Fin 64) :
    (W5 m ρ c (Proc.devRef .tc main_v33) : S8x256x64x64.Idx → EReal) (ix4 n o y x)
      = ((dat1 (V3 m ρ) c).arrAt 9 cfg1.N : S8x64x64x256.Idx → EReal) (ix4 n y x o) := by
  have e : (W5 m ρ c (Proc.devRef .tc main_v33) : S8x256x64x64.Idx → EReal)
      = transpose S8x256x64x64 [0, 3, 1, 2] ((dat1 (V3 m ρ) c).arrAt 9 cfg1.N : S8x64x64x256.Idx → EReal) transposes_S8x64x64x256_S8x256x64x64_0_3_1_2 := by
    show StableHlo.after hostOps2 (W4 m ρ c) (Proc.devRef .tc main_v33) = _
    after_results
    rw [← W4_arr m ρ c 9]
  rw [e]
  exact transpose_apply _ _ _ _ _ (fun b => match b with | ⟨0, _⟩ => rfl | ⟨1, _⟩ => rfl | ⟨2, _⟩ => rfl | ⟨3, _⟩ => rfl)

/-- The output window's block index at point `t`: image `t`, the whole image. -/
theorem idx1_9 : ∀ t : Fin cfg1.N, win1_9.index t (0 : Fin 4) = t.val ∧ win1_9.index t (1 : Fin 4) = 0
    ∧ win1_9.index t (2 : Fin 4) = 0 ∧ win1_9.index t (3 : Fin 4) = 0 :=
  (by decide +kernel : ∀ t : Fin grid1.N, _)

/-- An array of eight images assembled from what each grid point leaves: image `n` is point `n`'s block. -/
def imgArr (O : Fin cfg1.N → S1x64x64x256.Idx → EReal) : S8x64x64x256.Idx → EReal := fun i =>
  O (pt1 (i 0)) (ix4 (0 : Fin 1) (i 1) (i 2) (i 3))

/-- Point `t`'s block of the assembled array is what point `t` leaves. -/
theorem cut_imgArr (O : Fin cfg1.N → S1x64x64x256.Idx → EReal) (t : Fin cfg1.N) :
    (cfg1.win 9).cut (grid1.coords t) (O t) = ((cfg1.win 9).blk t).view.read (Elt Ideal) (imgArr O) := by
  obtain ⟨e0, e1, e2, e3⟩ := idx1_9 t
  funext j
  show O t j = O (pt1 ((((cfg1.win 9).blk t).view.emb j) 0))
    (ix4 (0 : Fin 1) ((((cfg1.win 9).blk t).view.emb j) 1) ((((cfg1.win 9).blk t).view.emb j) 2) ((((cfg1.win 9).blk t).view.emb j) 3))
  have h0 : (j 0).val < 1 := (j 0).isLt
  have ht : pt1 ((((cfg1.win 9).blk t).view.emb j) 0) = t := Fin.ext (by
    show win1_9.index t (0 : Fin 4) * 1 + 1 * (j 0).val = t.val
    omega)
  have hj : (ix4 (0 : Fin 1) ((((cfg1.win 9).blk t).view.emb j) 1) ((((cfg1.win 9).blk t).view.emb j) 2) ((((cfg1.win 9).blk t).view.emb j) 3) : S1x64x64x256.Idx) = j := by
    funext a; apply Fin.ext
    match a with
    | ⟨0, _⟩ => show 0 = (j 0).val; omega
    | ⟨1, _⟩ => show win1_9.index t (1 : Fin 4) * 64 + 1 * (j 1).val = (j 1).val; omega
    | ⟨2, _⟩ => show win1_9.index t (2 : Fin 4) * 64 + 1 * (j 2).val = (j 2).val; omega
    | ⟨3, _⟩ => show win1_9.index t (3 : Fin 4) * 256 + 1 * (j 3).val = (j 3).val; omega
  rw [ht, hj]

/-- What point `t` writes back is its block of the array assembled from every point's output. -/
theorem out1_flushed (c : Dev nD) (t : Fin cfg1.N) :
    (dat1 V c).flushed 9 t = ((cfg1.win 9).blk t).view.read (Elt Ideal) (imgArr (outsAt1 V c)) := by
  show (cfg1.win 9).cut (grid1.coords t) ((dat1 V c).after 9 t) = _
  rw [after1_9]
  exact cut_imgArr (outsAt1 V c) t

/-- An index of the result array lies in point `t`'s block iff each coordinate lies in the block's range. -/
theorem mem_blk1_9 (t : Fin cfg1.N) (i : S8x64x64x256.Idx) :
    i ∈ ((cfg1.win 9).blk t).view.set ↔ ∀ a : Fin 4, win1_9.index t a * S1x64x64x256.size a ≤ (i a).val ∧ (i a).val < win1_9.index t a * S1x64x64x256.size a + S1x64x64x256.size a := by
  show i ∈ ((View.whole main_v32).slice (win1_9.rect t)).set ↔ _
  rw [View.set_slice_whole, Rect.mem_set_unit]
  exact Iff.rfl

/-- Every index of the result array lies in the block of its image's point. -/
theorem cover1_9 (i : S8x64x64x256.Idx) : ∃ t : Fin cfg1.N, (cfg1.win 9).flush t = true ∧ i ∈ ((cfg1.win 9).blk t).view.set := by
  refine ⟨pt1 (i 0), flush1_9 _, ?_⟩
  rw [mem_blk1_9]
  obtain ⟨e0, e1, e2, e3⟩ := idx1_9 (pt1 (i 0))
  have hp : (pt1 (i 0)).val = (i 0).val := rfl
  have h1 : (i 1).val < 64 := (i 1).isLt
  have h2 : (i 2).val < 64 := (i 2).isLt
  have h3 : (i 3).val < 256 := (i 3).isLt
  intro a
  match a with
  | ⟨0, _⟩ => show win1_9.index (pt1 (i 0)) (0 : Fin 4) * 1 ≤ (i 0).val ∧ (i 0).val < win1_9.index (pt1 (i 0)) (0 : Fin 4) * 1 + 1; omega
  | ⟨1, _⟩ => show win1_9.index (pt1 (i 0)) (1 : Fin 4) * 64 ≤ (i 1).val ∧ (i 1).val < win1_9.index (pt1 (i 0)) (1 : Fin 4) * 64 + 64; omega
  | ⟨2, _⟩ => show win1_9.index (pt1 (i 0)) (2 : Fin 4) * 64 ≤ (i 2).val ∧ (i 2).val < win1_9.index (pt1 (i 0)) (2 : Fin 4) * 64 + 64; omega
  | ⟨3, _⟩ => show win1_9.index (pt1 (i 0)) (3 : Fin 4) * 256 ≤ (i 3).val ∧ (i 3).val < win1_9.index (pt1 (i 0)) (3 : Fin 4) * 256 + 256; omega

/-- The second kernel's result array after its run: image `n` is what the point of image `n` leaves. -/
theorem out1_apply (c : Dev nD) (n : Fin 8) (y x : Fin 64) (o : Fin 256) :
    ((dat1 V c).arrAt 9 cfg1.N : S8x64x64x256.Idx → EReal) (ix4 n y x o) = outsAt1 V c (pt1 n) (ix4 (0 : Fin 1) y x o) :=
  congrFun ((dat1 V c).arrAt_eq_of_cover 9 (imgArr (outsAt1 V c)) (fun t _ => out1_flushed V c t) cover1_9) (ix4 n y x o)

end Cert.ReferenceIdeal.RefUp

end
-- ==== Proof.RefUpBlocks.lean ====
/-
  The reference's second kernel: what each input window hands a grid point.

  The two image windows move with the grid: the point of image `n` sees image `n` of the skip connection
  and of the up-sampled image. Every other window — the three weight arrays and the four scale and shift
  rows — is its whole array at every point.
-/
import proofs.«149310_g2000303838873713_pallasbulk_17_2_alg».proof.Proof.Gen.ReferenceIdeal.Frame
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«149310_g2000303838873713_pallasbulk_17_2_alg».proof.Proof.RefUpTail
set_option maxRecDepth 16384

noncomputable section

namespace Cert.ReferenceIdeal.RefUp

open Cert.ReferenceIdeal Cert.ReferenceIdeal.Gen
open Idealize.ShloMosaic Idealize.ShloMosaic.TcCoe Idealize.ShloMosaic.Tactic Idealize.ShloMosaic.ValueIdx
open Idealize.ShloMosaic.Pipeline (Dat Cfg Window)

variable (m : (ℓ : Loc nD τ sig) → Buf (Elt Ideal) ℓ) (ρ : Dev nD → PrngReg)

variable (V : (c : Dev nD) → (b : Ref sig .tc) → Buf (Elt Ideal) ((c : Thread nD τ).loc b))

theorem idx1_0 : ∀ t : Fin cfg1.N, win1_0.index t (0 : Fin 4) = t.val ∧ win1_0.index t (1 : Fin 4) = 0
    ∧ win1_0.index t (2 : Fin 4) = 0 ∧ win1_0.index t (3 : Fin 4) = 0 :=
  (by decide +kernel : ∀ t : Fin grid1.N, _)

/-- Window 0's block at the point of image `n` is image `n` of its array. -/
theorem iblk1_0_apply (c : Dev nD) (n : Fin 8) (y x : Fin 64) (ch : Fin 128) :
    (iblk1 V c 0 (pt1 n) : S1x64x64x128.Idx → EReal) (ix4 (0 : Fin 1) y x ch)
      = (V c main_v1 : S8x64x64x128.Idx → EReal) (ix4 n y x ch) := by
  obtain ⟨e0, e1, e2, e3⟩ := idx1_0 (pt1 n)
  have hp : (pt1 n).val = n.val := rfl
  show (V c main_v1 : S8x64x64x128.Idx → EReal) (((cfg1.win 0).blk (pt1 n)).view.emb (ix4 (0 : Fin 1) y x ch)) = _
  refine congrArg _ (funext fun a => Fin.ext ?_)
  match a with
  | ⟨0, _⟩ => show win1_0.index (pt1 n) (0 : Fin 4) * 1 + 1 * 0 = n.val; omega
  | ⟨1, _⟩ => show win1_0.index (pt1 n) (1 : Fin 4) * 64 + 1 * y.val = y.val; omega
  | ⟨2, _⟩ => show win1_0.index (pt1 n) (2 : Fin 4) * 64 + 1 * x.val = x.val; omega
  | ⟨3, _⟩ => show win1_0.index (pt1 n) (3 : Fin 4) * 128 + 1 * ch.val = ch.val; omega

theorem idx1_1 : ∀ t : Fin cfg1.N, win1_1.index t (0 : Fin 4) = t.val ∧ win1_1.index t (1 : Fin 4) = 0
    ∧ win1_1.index t (2 : Fin 4) = 0 ∧ win1_1.index t (3 : Fin 4) = 0 :=
  (by decide +kernel : ∀ t : Fin grid1.N, _)

/-- Window 1's block at the point of image `n` is image `n` of its array. -/
theorem iblk1_1_apply (c : Dev nD) (n : Fin 8) (y x : Fin 64) (ch : Fin 128) :
    (iblk1 V c 1 (pt1 n) : S1x64x64x128.Idx → EReal) (ix4 (0 : Fin 1) y x ch)
      = (V c main_v8 : S8x64x64x128.Idx → EReal) (ix4 n y x ch) := by
  obtain ⟨e0, e1, e2, e3⟩ := idx1_1 (pt1 n)
  have hp : (pt1 n).val = n.val := rfl
  show (V c main_v8 : S8x64x64x128.Idx → EReal) (((cfg1.win 1).blk (pt1 n)).view.emb (ix4 (0 : Fin 1) y x ch)) = _
  refine congrArg _ (funext fun a => Fin.ext ?_)
  match a with
  | ⟨0, _⟩ => show win1_1.index (pt1 n) (0 : Fin 4) * 1 + 1 * 0 = n.val; omega
  | ⟨1, _⟩ => show win1_1.index (pt1 n) (1 : Fin 4) * 64 + 1 * y.val = y.val; omega
  | ⟨2, _⟩ => show win1_1.index (pt1 n) (2 : Fin 4) * 64 + 1 * x.val = x.val; omega
  | ⟨3, _⟩ => show win1_1.index (pt1 n) (3 : Fin 4) * 128 + 1 * ch.val = ch.val; omega

theorem idx1_2 : ∀ t : Fin cfg1.N, win1_2.index t (0 : Fin 3) = 0 ∧ win1_2.index t (1 : Fin 3) = 0 ∧ win1_2.index t (2 : Fin 3) = 0 :=
  (by decide +kernel : ∀ t : Fin grid1.N, _)

/-- Window 2's block at every point is its whole array. -/
theorem iblk1_2_eq (c : Dev nD) (t : Fin cfg1.N) : (iblk1 V c 2 t : S9x128x256.Idx → EReal) = V c main_v24 := by
  obtain ⟨e0, e1, e2⟩ := idx1_2 t
  funext j
  show (V c main_v24 : S9x128x256.Idx → EReal) (((cfg1.win 2).blk t).view.emb j) = _
  refine congrArg _ (funext fun a => Fin.ext ?_)
  match a with
  | ⟨0, _⟩ => show win1_2.index t (0 : Fin 3) * 9 + 1 * (j 0).val = (j 0).val; omega
  | ⟨1, _⟩ => show win1_2.index t (1 : Fin 3) * 128 + 1 * (j 1).val = (j 1).val; omega
  | ⟨2, _⟩ => show win1_2.index t (2 : Fin 3) * 256 + 1 * (j 2).val = (j 2).val; omega

theorem idx1_3 : ∀ t : Fin cfg1.N, win1_3.index t (0 : Fin 3) = 0 ∧ win1_3.index t (1 : Fin 3) = 0 ∧ win1_3.index t (2 : Fin 3) = 0 :=
  (by decide +kernel : ∀ t : Fin grid1.N, _)

/-- Window 3's block at every point is its whole array. -/
theorem iblk1_3_eq (c : Dev nD) (t : Fin cfg1.N) : (iblk1 V c 3 t : S9x128x256.Idx → EReal) = V c main_v26 := by
  obtain ⟨e0, e1, e2⟩ := idx1_3 t
  funext j
  show (V c main_v26 : S9x128x256.Idx → EReal) (((cfg1.win 3).blk t).view.emb j) = _
  refine congrArg _ (funext fun a => Fin.ext ?_)
  match a with
  | ⟨0, _⟩ => show win1_3.index t (0 : Fin 3) * 9 + 1 * (j 0).val = (j 0).val; omega
  | ⟨1, _⟩ => show win1_3.index t (1 : Fin 3) * 128 + 1 * (j 1).val = (j 1).val; omega
  | ⟨2, _⟩ => show win1_3.index t (2 : Fin 3) * 256 + 1 * (j 2).val = (j 2).val; omega

theorem idx1_4 : ∀ t : Fin cfg1.N, win1_4.index t (0 : Fin 2) = 0 ∧ win1_4.index t (1 : Fin 2) = 0 :=
  (by decide +kernel : ∀ t : Fin grid1.N, _)

/-- Window 4's block at every point is its whole array. -/
theorem iblk1_4_eq (c : Dev nD) (t : Fin cfg1.N) : (iblk1 V c 4 t : S1x256.Idx → EReal) = V c main_v28 := by
  obtain ⟨e0, e1⟩ := idx1_4 t
  funext j
  show (V c main_v28 : S1x256.Idx → EReal) (((cfg1.win 4).blk t).view.emb j) = _
  refine congrArg _ (funext fun a => Fin.ext ?_)
  match a with
  | ⟨0, _⟩ => show win1_4.index t (0 : Fin 2) * 1 + 1 * (j 0).val = (j 0).val; omega
  | ⟨1, _⟩ => show win1_4.index t (1 : Fin 2) * 256 + 1 * (j 1).val = (j 1).val; omega

theorem idx1_5 : ∀ t : Fin cfg1.N, win1_5.index t (0 : Fin 2) = 0 ∧ win1_5.index t (1 : Fin 2) = 0 :=
  (by decide +kernel : ∀ t : Fin grid1.N, _)

/-- Window 5's block at every point is its whole array. -/
theorem iblk1_5_eq (c : Dev nD) (t : Fin cfg1.N) : (iblk1 V c 5 t : S1x256.Idx → EReal) = V c main_v29 := by
  obtain ⟨e0, e1⟩ := idx1_5 t
  funext j
  show (V c main_v29 : S1x256.Idx → EReal) (((cfg1.win 5).blk t).view.emb j) = _
  refine congrArg _ (funext fun a => Fin.ext ?_)
  match a with
  | ⟨0, _⟩ => show win1_5.index t (0 : Fin 2) * 1 + 1 * (j 0).val = (j 0).val; omega
  | ⟨1, _⟩ => show win1_5.index t (1 : Fin 2) * 256 + 1 * (j 1).val = (j 1).val; omega

theorem idx1_6 : ∀ t : Fin cfg1.N, win1_6.index t (0 : Fin 3) = 0 ∧ win1_6.index t (1 : Fin 3) = 0 ∧ win1_6.index t (2 : Fin 3) = 0 :=
  (by decide +kernel : ∀ t : Fin grid1.N, _)

/-- Window 6's block at every point is its whole array. -/
theorem iblk1_6_eq (c : Dev nD) (t : Fin cfg1.N) : (iblk1 V c 6 t : S9x256x256.Idx → EReal) = V c main_v27 := by
  obtain ⟨e0, e1, e2⟩ := idx1_6 t
  funext j
  show (V c main_v27 : S9x256x256.Idx → EReal) (((cfg1.win 6).blk t).view.emb j) = _
  refine congrArg _ (funext fun a => Fin.ext ?_)
  match a with
  | ⟨0, _⟩ => show win1_6.index t (0 : Fin 3) * 9 + 1 * (j 0).val = (j 0).val; omega
  | ⟨1, _⟩ => show win1_6.index t (1 : Fin 3) * 256 + 1 * (j 1).val = (j 1).val; omega
  | ⟨2, _⟩ => show win1_6.index t (2 : Fin 3) * 256 + 1 * (j 2).val = (j 2).val; omega

theorem idx1_7 : ∀ t : Fin cfg1.N, win1_7.index t (0 : Fin 2) = 0 ∧ win1_7.index t (1 : Fin 2) = 0 :=
  (by decide +kernel : ∀ t : Fin grid1.N, _)

/-- Window 7's block at every point is its whole array. -/
theorem iblk1_7_eq (c : Dev nD) (t : Fin cfg1.N) : (iblk1 V c 7 t : S1x256.Idx → EReal) = V c main_v30 := by
  obtain ⟨e0, e1⟩ := idx1_7 t
  funext j
  show (V c main_v30 : S1x256.Idx → EReal) (((cfg1.win 7).blk t).view.emb j) = _
  refine congrArg _ (funext fun a => Fin.ext ?_)
  match a with
  | ⟨0, _⟩ => show win1_7.index t (0 : Fin 2) * 1 + 1 * (j 0).val = (j 0).val; omega
  | ⟨1, _⟩ => show win1_7.index t (1 : Fin 2) * 256 + 1 * (j 1).val = (j 1).val; omega

theorem idx1_8 : ∀ t : Fin cfg1.N, win1_8.index t (0 : Fin 2) = 0 ∧ win1_8.index t (1 : Fin 2) = 0 :=
  (by decide +kernel : ∀ t : Fin grid1.N, _)

/-- Window 8's block at every point is its whole array. -/
theorem iblk1_8_eq (c : Dev nD) (t : Fin cfg1.N) : (iblk1 V c 8 t : S1x256.Idx → EReal) = V c main_v31 := by
  obtain ⟨e0, e1⟩ := idx1_8 t
  funext j
  show (V c main_v31 : S1x256.Idx → EReal) (((cfg1.win 8).blk t).view.emb j) = _
  refine congrArg _ (funext fun a => Fin.ext ?_)
  match a with
  | ⟨0, _⟩ => show win1_8.index t (0 : Fin 2) * 1 + 1 * (j 0).val = (j 0).val; omega
  | ⟨1, _⟩ => show win1_8.index t (1 : Fin 2) * 256 + 1 * (j 1).val = (j 1).val; omega

end Cert.ReferenceIdeal.RefUp

end
-- ==== Proof.RefUpEntry.lean ====
/-
  What the reference's second kernel is entered with, index by index.

  The skip connection is the channel-major argument read channels-last. The first convolution's weights are cut
  into the halves that meet the skip connection's channels and the up-sampled image's, each with its two
  tap axes merged into one of nine; the second convolution's weights have their tap axes merged likewise.
  The two scales and shifts are the batch-norm statistics folded on the host: the scale is the gain over the
  root of the variance plus a small offset, and the shift is the bias less the mean, times the scale, plus the
  offset parameter.
-/
import proofs.«149310_g2000303838873713_pallasbulk_17_2_alg».proof.Proof.Gen.ReferenceIdeal.Frame
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«149310_g2000303838873713_pallasbulk_17_2_alg».proof.Proof.RefUpArgs
import proofs.«149310_g2000303838873713_pallasbulk_17_2_alg».proof.Proof.Spec
set_option maxRecDepth 16384

noncomputable section

namespace Cert.ReferenceIdeal.RefUp

open Cert.ReferenceIdeal Cert.ReferenceIdeal.Gen
open Idealize.ShloMosaic Idealize.ShloMosaic.TcCoe Idealize.ShloMosaic.Tactic Idealize.ShloMosaic.ValueIdx
open Idealize.ShloMosaic.Pipeline (Dat Cfg Window)

variable (m : (ℓ : Loc nD τ sig) → Buf (Elt Ideal) ℓ) (ρ : Dev nD → PrngReg)

/-! ## The skip connection -/

/-- The skip connection, channels last, is the argument at the channel-major index. -/
theorem v1_apply (c : Dev nD) (n : Fin 8) (y x : Fin 64) (ch : Fin 128) :
    (V3 m ρ c main_v1 : S8x64x64x128.Idx → EReal) (ix4 n y x ch) = A15 m c (ix4 n ch y x) := by
  have e : (V3 m ρ c main_v1 : S8x64x64x128.Idx → EReal)
      = transpose S8x64x64x128 [0, 2, 3, 1] (A15 m c) transposes_S8x128x64x64_S8x64x64x128_0_2_3_1 := by
    show StableHlo.after hostOps1 (W2 m ρ c) (Proc.devRef .tc main_v1) = _
    after_results
    rw [W2_of_ne m ρ c main_v1 (by decide)]
    show StableHlo.after hostOps0 (W0 m ρ c) (Proc.devRef .tc main_v1) = _
    after_results
  rw [e]
  exact transpose_apply _ _ _ _ _ (fun b => match b with | ⟨0, _⟩ => rfl | ⟨1, _⟩ => rfl | ⟨2, _⟩ => rfl | ⟨3, _⟩ => rfl)

/-! ## The convolutions' weights, tap by tap -/

/-- The first convolution's weights against the skip connection's channels. -/
theorem v24_apply (c : Dev nD) (t : Fin 9) (ci : Fin 128) (o : Fin 256) :
    (V3 m ρ c main_v24 : S9x128x256.Idx → EReal) (ix3 t ci o)
      = A2 m c (ix4 (⟨t.val / 3, by omega⟩ : Fin 3) (⟨t.val % 3, by omega⟩ : Fin 3) (⟨ci.val, by omega⟩ : Fin 256) o) := by
  have e : (V3 m ρ c main_v24 : S9x128x256.Idx → EReal)
      = shapeCast S9x128x256 (extractStridedSlice S3x3x128x256 ![0, 0, 0, 0] (A2 m c) slices_S3x3x256x256_S3x3x128x256_0_0_0_0) shapeCasts_S3x3x128x256_S9x128x256 := by
    show StableHlo.after hostOps1 (W2 m ρ c) (Proc.devRef .tc main_v24) = _
    after_results
    rw [W2_arg2]
    rfl
  rw [e]
  refine (shapeCast_apply _ _ _ (ix4 (⟨t.val / 3, by omega⟩ : Fin 3) (⟨t.val % 3, by omega⟩ : Fin 3) ci o)
    (by rw [Shape.rowMajor_val_four, Shape.rowMajor_val_three]
        show ((t.val / 3 * 3 + t.val % 3) * 128 + ci.val) * 256 + o.val = (t.val * 128 + ci.val) * 256 + o.val
        omega)).trans ?_
  exact extractStridedSlice_apply _ _ _ _ _ (fun a => match a with
    | ⟨0, _⟩ => by show t.val / 3 = 0 + t.val / 3; omega
    | ⟨1, _⟩ => by show t.val % 3 = 0 + t.val % 3; omega
    | ⟨2, _⟩ => by show ci.val = 0 + ci.val; omega
    | ⟨3, _⟩ => by show o.val = 0 + o.val; omega)

/-- The first convolution's weights against the up-sampled image's channels. -/
theorem v26_apply (c : Dev nD) (t : Fin 9) (ci : Fin 128) (o : Fin 256) :
    (V3 m ρ c main_v26 : S9x128x256.Idx → EReal) (ix3 t ci o)
      = A2 m c (ix4 (⟨t.val / 3, by omega⟩ : Fin 3) (⟨t.val % 3, by omega⟩ : Fin 3) (⟨ci.val + 128, by omega⟩ : Fin 256) o) := by
  have e : (V3 m ρ c main_v26 : S9x128x256.Idx → EReal)
      = shapeCast S9x128x256 (extractStridedSlice S3x3x128x256 ![0, 0, 128, 0] (A2 m c) slices_S3x3x256x256_S3x3x128x256_0_0_128_0) shapeCasts_S3x3x128x256_S9x128x256 := by
    show StableHlo.after hostOps1 (W2 m ρ c) (Proc.devRef .tc main_v26) = _
    after_results
    rw [W2_arg2]
    rfl
  rw [e]
  refine (shapeCast_apply _ _ _ (ix4 (⟨t.val / 3, by omega⟩ : Fin 3) (⟨t.val % 3, by omega⟩ : Fin 3) ci o)
    (by rw [Shape.rowMajor_val_four, Shape.rowMajor_val_three]
        show ((t.val / 3 * 3 + t.val % 3) * 128 + ci.val) * 256 + o.val = (t.val * 128 + ci.val) * 256 + o.val
        omega)).trans ?_
  exact extractStridedSlice_apply _ _ _ _ _ (fun a => match a with
    | ⟨0, _⟩ => by show t.val / 3 = 0 + t.val / 3; omega
    | ⟨1, _⟩ => by show t.val % 3 = 0 + t.val % 3; omega
    | ⟨2, _⟩ => by show ci.val + 128 = 128 + ci.val; omega
    | ⟨3, _⟩ => by show o.val = 0 + o.val; omega)

/-- The second convolution's weights. -/
theorem v27_apply (c : Dev nD) (t : Fin 9) (ci o : Fin 256) :
    (V3 m ρ c main_v27 : S9x256x256.Idx → EReal) (ix3 t ci o)
      = A8 m c (ix4 (⟨t.val / 3, by omega⟩ : Fin 3) (⟨t.val % 3, by omega⟩ : Fin 3) ci o) := by
  have e : (V3 m ρ c main_v27 : S9x256x256.Idx → EReal)
      = shapeCast S9x256x256 (A8 m c) shapeCasts_S3x3x256x256_S9x256x256 := by
    show StableHlo.after hostOps1 (W2 m ρ c) (Proc.devRef .tc main_v27) = _
    after_results
    rw [W2_arg8]
    rfl
  rw [e]
  exact shapeCast_apply _ _ _ _
    (by rw [Shape.rowMajor_val_four, Shape.rowMajor_val_three]
        show ((t.val / 3 * 3 + t.val % 3) * 256 + ci.val) * 256 + o.val = (t.val * 256 + ci.val) * 256 + o.val
        omega)

/-! ## The folded scales and shifts -/

/-- The folded scale, as the second kernel finds it. -/
theorem v28_apply (c : Dev nD) (o : Fin 256) :
    (V3 m ρ c main_v28 : S1x256.Idx → EReal) (ix2 (0 : Fin 1) o) = Cert.Spec.scale (A4 m c) (A7 m c) o := by
  have e : (V3 m ρ c main_v28 : S1x256.Idx → EReal)
      = shapeCast S1x256 (Host.divf (A4 m c) (Host.sqrt (addf (A7 m c)
          (broadcastInDim S256 ![] bcast_S_S256 (constant (F := Ideal) S_ .f32 0x3727C5AC#32))))) shapeCasts_S256_S1x256 := by
    show StableHlo.after hostOps1 (W2 m ρ c) (Proc.devRef .tc main_v28) = _
    after_results
    rw [W2_arg4, W2_arg7]
    rfl
  rw [e]
  refine (shapeCast_apply _ _ _ (ix1 o) (by rw [Shape.rowMajor_val_one, Shape.rowMajor_val_two]; show o.val = 0 * 256 + o.val; omega)).trans ?_
  rfl

/-- The folded shift, as the second kernel finds it. -/
theorem v29_apply (c : Dev nD) (o : Fin 256) :
    (V3 m ρ c main_v29 : S1x256.Idx → EReal) (ix2 (0 : Fin 1) o)
      = Cert.Spec.shift (A3 m c) (A4 m c) (A5 m c) (A6 m c) (A7 m c) o := by
  have e : (V3 m ρ c main_v29 : S1x256.Idx → EReal)
      = shapeCast S1x256 (addf (mulf (subf (A3 m c) (A6 m c)) (Host.divf (A4 m c) (Host.sqrt (addf (A7 m c)
          (broadcastInDim S256 ![] bcast_S_S256 (constant (F := Ideal) S_ .f32 0x3727C5AC#32)))))) (A5 m c)) shapeCasts_S256_S1x256 := by
    show StableHlo.after hostOps1 (W2 m ρ c) (Proc.devRef .tc main_v29) = _
    after_results
    rw [W2_arg3, W2_arg4, W2_arg5, W2_arg6, W2_arg7]
    rfl
  rw [e]
  refine (shapeCast_apply _ _ _ (ix1 o) (by rw [Shape.rowMajor_val_one, Shape.rowMajor_val_two]; show o.val = 0 * 256 + o.val; omega)).trans ?_
  rfl

/-- The folded scale, as the second kernel finds it. -/
theorem v30_apply (c : Dev nD) (o : Fin 256) :
    (V3 m ρ c main_v30 : S1x256.Idx → EReal) (ix2 (0 : Fin 1) o) = Cert.Spec.scale (A10 m c) (A13 m c) o := by
  have e : (V3 m ρ c main_v30 : S1x256.Idx → EReal)
      = shapeCast S1x256 (Host.divf (A10 m c) (Host.sqrt (addf (A13 m c)
          (broadcastInDim S256 ![] bcast_S_S256 (constant (F := Ideal) S_ .f32 0x3727C5AC#32))))) shapeCasts_S256_S1x256 := by
    show StableHlo.after hostOps1 (W2 m ρ c) (Proc.devRef .tc main_v30) = _
    after_results
    rw [W2_arg10, W2_arg13]
    rfl
  rw [e]
  refine (shapeCast_apply _ _ _ (ix1 o) (by rw [Shape.rowMajor_val_one, Shape.rowMajor_val_two]; show o.val = 0 * 256 + o.val; omega)).trans ?_
  rfl

/-- The folded shift, as the second kernel finds it. -/
theorem v31_apply (c : Dev nD) (o : Fin 256) :
    (V3 m ρ c main_v31 : S1x256.Idx → EReal) (ix2 (0 : Fin 1) o)
      = Cert.Spec.shift (A9 m c) (A10 m c) (A11 m c) (A12 m c) (A13 m c) o := by
  have e : (V3 m ρ c main_v31 : S1x256.Idx → EReal)
      = shapeCast S1x256 (addf (mulf (subf (A9 m c) (A12 m c)) (Host.divf (A10 m c) (Host.sqrt (addf (A13 m c)
          (broadcastInDim S256 ![] bcast_S_S256 (constant (F := Ideal) S_ .f32 0x3727C5AC#32)))))) (A11 m c)) shapeCasts_S256_S1x256 := by
    show StableHlo.after hostOps1 (W2 m ρ c) (Proc.devRef .tc main_v31) = _
    after_results_simp
    rw [W2_arg9, W2_arg10, W2_arg11, W2_arg12, W2_arg13]
    rfl
  rw [e]
  refine (shapeCast_apply _ _ _ (ix1 o) (by rw [Shape.rowMajor_val_one, Shape.rowMajor_val_two]; show o.val = 0 * 256 + o.val; omega)).trans ?_
  rfl

end Cert.ReferenceIdeal.RefUp

end
-- ==== Proof.RefUpPay.lean ====
/-
  The reference's first kernel: its stored blocks at an index.

  The body flattens its image block of 32 × 32 pixels to 1024 rows, multiplies by the 256 × 512 weight matrix
  into a zero accumulator and adds the bias row. The left 256 columns of the product, cast back to 32 × 32
  pixels, are stored as the even output rows and the right 256 columns as the odd ones. At row `r` and column
  `q` the product is the sum over the 256 input channels of pixel `(r / 32, r % 32)` times the weight at
  `(channel, q)`, plus the bias at `q`.
-/
import proofs.«149310_g2000303838873713_pallasbulk_17_2_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.RefUp

open Cert.ReferenceIdeal Cert.ReferenceIdeal.Gen
open Idealize.ShloMosaic Idealize.ShloMosaic.ValueIdx

/-- The matrix product with the bias row added, at row `r` and column `q`. -/
theorem pay1_apply (v0 : Vec Ideal S1x32x32x256 .f32) (v3 : Vec Ideal S256x512 .f32) (v6 : Vec Ideal S1x512 .f32)
    (r : Fin 1024) (q : Fin 512) :
    k0_pay1 (F := Ideal) v0 v3 v6 (ix2 r q)
      = (∑ ci : Fin 256, v0 (ix4 (0 : Fin 1) (⟨r.val / 32, by omega⟩ : Fin 32) (⟨r.val % 32, by omega⟩ : Fin 32) ci) * v3 (ix2 ci q))
        + v6 (ix2 (0 : Fin 1) q) := by
  unfold k0_pay1
  refine congrArg₂ (· + ·) ?_ ?_
  · show FloatOps.matmul dot_S1024x256_S256x512_S1024x512_1_0_0_1_n_n none _ _ (constant S1024x512 .f32 0x00000000#32) (ix2 r q) = _
    rw [Ideal.matmul_constant_zero_apply, ← Equiv.sum_comp (contrEquiv1 dot_S1024x256_S256x512_S1024x512_1_0_0_1_n_n 256 rfl rfl).symm]
    refine Finset.sum_congr rfl fun ci _ => ?_
    have c2 := contrEquiv1_symm_val dot_S1024x256_S256x512_S1024x512_1_0_0_1_n_n 256 rfl rfl ci
    have l2 : (dot_S1024x256_S256x512_S1024x512_1_0_0_1_n_n).lhsIdx (ix2 r q) ((contrEquiv1 _ 256 rfl rfl).symm ci) = ix2 r ci := by
      funext ax; apply Fin.ext
      match ax with
      | ⟨0, _⟩ => simp [DotDims.lhsIdx, dot_S1024x256_S256x512_S1024x512_1_0_0_1_n_n]; rfl
      | ⟨1, _⟩ => simp [DotDims.lhsIdx, dot_S1024x256_S256x512_S1024x512_1_0_0_1_n_n]; exact c2
    have r2 : (dot_S1024x256_S256x512_S1024x512_1_0_0_1_n_n).rhsIdx (ix2 r q) ((contrEquiv1 _ 256 rfl rfl).symm ci) = ix2 ci q := by
      funext ax; apply Fin.ext
      match ax with
      | ⟨0, _⟩ => simp [DotDims.rhsIdx, dot_S1024x256_S256x512_S1024x512_1_0_0_1_n_n]; exact c2
      | ⟨1, _⟩ => simp [DotDims.rhsIdx, dot_S1024x256_S256x512_S1024x512_1_0_0_1_n_n]; rfl
    rw [l2, r2]
    refine congrArg₂ (· * ·) ?_ ?_
    · refine (shapeCast_apply _ _ _ (ix3 (⟨r.val / 32, by omega⟩ : Fin 32) (⟨r.val % 32, by omega⟩ : Fin 32) ci)
        (by rw [Shape.rowMajor_val_three, Shape.rowMajor_val_two]
            show (r.val / 32 * 32 + r.val % 32) * 256 + ci.val = r.val * 256 + ci.val
            omega)).trans ?_
      exact shapeCast_apply _ _ _ _
        (by rw [Shape.rowMajor_val_four, Shape.rowMajor_val_three]
            show ((0 * 32 + r.val / 32) * 32 + r.val % 32) * 256 + ci.val = (r.val / 32 * 32 + r.val % 32) * 256 + ci.val
            omega)
    · exact congrFun (shapeCast_self v3 _) _
  · refine (broadcastTo_1b_ab_apply _ _ r q).trans ?_
    exact congrFun (shapeCast_self v6 _) _

/-- The even output rows: the left half of the product's columns. -/
theorem pay2_apply (v0 : Vec Ideal S1x32x32x256 .f32) (v3 : Vec Ideal S256x512 .f32) (v6 : Vec Ideal S1x512 .f32)
    (i j : Fin 32) (l : Fin 256) :
    k0_pay2 (F := Ideal) v0 v3 v6 (ix5 (0 : Fin 1) i (0 : Fin 1) j l)
      = k0_pay1 (F := Ideal) v0 v3 v6 (ix2 (⟨i.val * 32 + j.val, by omega⟩ : Fin 1024) (⟨l.val, by omega⟩ : Fin 512)) := by
  unfold k0_pay2
  refine (shapeCast_apply _ _ _ (ix3 i j l)
    (by rw [Shape.rowMajor_val_three, Shape.rowMajor_val_five]
        show (i.val * 32 + j.val) * 256 + l.val = (((0 * 32 + i.val) * 1 + 0) * 32 + j.val) * 256 + l.val
        omega)).trans ?_
  refine (shapeCast_apply _ _ _ (ix2 (⟨i.val * 32 + j.val, by omega⟩ : Fin 1024) l)
    (by rw [Shape.rowMajor_val_two, Shape.rowMajor_val_three]
        show (i.val * 32 + j.val) * 256 + l.val = (i.val * 32 + j.val) * 256 + l.val
        rfl)).trans ?_
  exact extractStridedSlice_apply _ _ _ _ _ (fun a => match a with
    | ⟨0, _⟩ => by show i.val * 32 + j.val = 0 + (i.val * 32 + j.val); omega
    | ⟨1, _⟩ => by show l.val = 0 + l.val; omega)

/-- The odd output rows: the right half of the product's columns. -/
theorem pay3_apply (v0 : Vec Ideal S1x32x32x256 .f32) (v3 : Vec Ideal S256x512 .f32) (v6 : Vec Ideal S1x512 .f32)
    (i j : Fin 32) (l : Fin 256) :
    k0_pay3 (F := Ideal) v0 v3 v6 (ix5 (0 : Fin 1) i (0 : Fin 1) j l)
      = k0_pay1 (F := Ideal) v0 v3 v6 (ix2 (⟨i.val * 32 + j.val, by omega⟩ : Fin 1024) (⟨256 + l.val, by omega⟩ : Fin 512)) := by
  unfold k0_pay3
  refine (shapeCast_apply _ _ _ (ix3 i j l)
    (by rw [Shape.rowMajor_val_three, Shape.rowMajor_val_five]
        show (i.val * 32 + j.val) * 256 + l.val = (((0 * 32 + i.val) * 1 + 0) * 32 + j.val) * 256 + l.val
        omega)).trans ?_
  refine (shapeCast_apply _ _ _ (ix2 (⟨i.val * 32 + j.val, by omega⟩ : Fin 1024) l)
    (by rw [Shape.rowMajor_val_two, Shape.rowMajor_val_three]
        show (i.val * 32 + j.val) * 256 + l.val = (i.val * 32 + j.val) * 256 + l.val
        rfl)).trans ?_
  exact extractStridedSlice_apply _ _ _ _ _ (fun a => match a with
    | ⟨0, _⟩ => by show i.val * 32 + j.val = 0 + (i.val * 32 + j.val); omega
    | ⟨1, _⟩ => by show 256 + l.val = 256 + l.val; rfl)

end Cert.ReferenceIdeal.RefUp

end
-- ==== Proof.RefUpFirst.lean ====
/-
  The reference's first kernel: from its blocks to its result array.

  The first kernel runs once per image. Its body leaves, in the output block of shape 1 × 32 × 2 × 32 × 256, at
  pixel `(i, j)`, row parity `dy` and lane `l`, the sum over the 256 input channels of the image block at
  `(i, j)` times the weight matrix at column `dy · 256 + l`, plus the bias at that column: its two stores fill the
  two parities and together cover the block. Point `n` of the grid writes back image `n` of the result and
  nothing else does, so the result array is that same expression of the three input arrays at every index.
-/
import proofs.«149310_g2000303838873713_pallasbulk_17_2_alg».proof.Proof.Gen.ReferenceIdeal.Frame
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«149310_g2000303838873713_pallasbulk_17_2_alg».proof.Proof.RefUpPay
set_option maxRecDepth 16384

noncomputable section

namespace Cert.ReferenceIdeal.RefUp

open Cert.ReferenceIdeal Cert.ReferenceIdeal.Gen
open Idealize.ShloMosaic Idealize.ShloMosaic.TcCoe Idealize.ShloMosaic.Tactic Idealize.ShloMosaic.ValueIdx
open Idealize.ShloMosaic.Pipeline (Dat Cfg Window)

variable (m : (ℓ : Loc nD τ sig) → Buf (Elt Ideal) ℓ) (ρ : Dev nD → PrngReg)

open scoped BigOperators

variable (V : (c : Dev nD) → (b : Ref sig .tc) → Buf (Elt Ideal) ((c : Thread nD τ).loc b))

/-- The column of the 512-wide weight matrix that row parity `dy` and lane `l` read. -/
def col (dy : Fin 2) (l : Fin 256) : Fin 512 := ⟨dy.val * 256 + l.val, by omega⟩

/-- What the body leaves in its output block, as one function of its three input blocks. -/
def upBlk (x0 : S1x32x32x256.Idx → EReal) (x1 : S256x512.Idx → EReal) (x2 : S1x512.Idx → EReal) : S1x32x2x32x256.Idx → EReal :=
  fun y => (∑ ci : Fin 256, x0 (ix4 (0 : Fin 1) (y 1) (y 3) ci) * x1 (ix2 ci (col (y 2) (y 4)))) + x2 (ix2 (0 : Fin 1) (col (y 2) (y 4)))

/-- The same expression over whole arrays: the result array of the first kernel. -/
def upArr (a0 : S8x32x32x256.Idx → EReal) (a2 : S256x512.Idx → EReal) (a6 : S1x512.Idx → EReal) : S8x32x2x32x256.Idx → EReal :=
  fun y => (∑ ci : Fin 256, a0 (ix4 (y 0) (y 1) (y 3) ci) * a2 (ix2 ci (col (y 2) (y 4)))) + a6 (ix2 (0 : Fin 1) (col (y 2) (y 4)))

theorem hz4 : (![0, 0, 0, 0] : Fin 4 → Nat) = fun _ => 0 := funext fun a => by fin_cases a <;> rfl
theorem hz2 : (![0, 0] : Fin 2 → Nat) = fun _ => 0 := funext fun a => by fin_cases a <;> rfl

/-- A local index of a stored piece is its pixel and lane; the two unit coordinates are zero. -/
theorem piece_idx (x : S1x32x1x32x256.Idx) : x = ix5 (0 : Fin 1) (x 1) (0 : Fin 1) (x 3) (x 4) := by
  funext a
  match a with
  | ⟨0, _⟩ => exact Fin.ext (by have h : (x 0).val < 1 := (x 0).isLt; show (x 0).val = 0; omega)
  | ⟨1, _⟩ => rfl
  | ⟨2, _⟩ => exact Fin.ext (by have h : (x 2).val < 1 := (x 2).isLt; show (x 2).val = 0; omega)
  | ⟨3, _⟩ => rfl
  | ⟨4, _⟩ => rfl

/-- The store of the even rows agrees with the block expression under its rectangle. -/
theorem pay2_blk (x0 : S1x32x32x256.Idx → EReal) (x1 : S256x512.Idx → EReal) (x2 : S1x512.Idx → EReal) (x : S1x32x1x32x256.Idx) :
    k0_pay2 (F := Ideal) x0 x1 x2 x = upBlk x0 x1 x2 (r0_3.emb x) := by
  obtain ⟨i, j, l, rfl⟩ : ∃ (i j : Fin 32) (l : Fin 256), x = ix5 (0 : Fin 1) i (0 : Fin 1) j l := ⟨x 1, x 3, x 4, piece_idx x⟩
  have hE : r0_3.emb (ix5 (0 : Fin 1) i (0 : Fin 1) j l) = ix5 (0 : Fin 1) i (0 : Fin 2) j l := by
    funext a; apply Fin.ext
    match a with
    | ⟨0, _⟩ => rfl
    | ⟨1, _⟩ => show 0 + 1 * i.val = i.val; omega
    | ⟨2, _⟩ => rfl
    | ⟨3, _⟩ => show 0 + 1 * j.val = j.val; omega
    | ⟨4, _⟩ => show 0 + 1 * l.val = l.val; omega
  rw [hE, pay2_apply, pay1_apply]
  have h1 : (⟨(i.val * 32 + j.val) / 32, by omega⟩ : Fin 32) = i := Fin.ext (by show (i.val * 32 + j.val) / 32 = i.val; omega)
  have h2 : (⟨(i.val * 32 + j.val) % 32, by omega⟩ : Fin 32) = j := Fin.ext (by show (i.val * 32 + j.val) % 32 = j.val; omega)
  have h3 : (⟨l.val, by omega⟩ : Fin 512) = col 0 l := Fin.ext (by show l.val = 0 * 256 + l.val; omega)
  show (∑ ci : Fin 256, x0 (ix4 (0 : Fin 1) (⟨(i.val * 32 + j.val) / 32, by omega⟩ : Fin 32) (⟨(i.val * 32 + j.val) % 32, by omega⟩ : Fin 32) ci) * x1 (ix2 ci (⟨l.val, by omega⟩ : Fin 512)))
      + x2 (ix2 (0 : Fin 1) (⟨l.val, by omega⟩ : Fin 512))
    = (∑ ci : Fin 256, x0 (ix4 (0 : Fin 1) i j ci) * x1 (ix2 ci (col 0 l))) + x2 (ix2 (0 : Fin 1) (col 0 l))
  rw [h1, h2, h3]

/-- The store of the odd rows agrees with the block expression under its rectangle. -/
theorem pay3_blk (x0 : S1x32x32x256.Idx → EReal) (x1 : S256x512.Idx → EReal) (x2 : S1x512.Idx → EReal) (x : S1x32x1x32x256.Idx) :
    k0_pay3 (F := Ideal) x0 x1 x2 x = upBlk x0 x1 x2 (r0_4.emb x) := by
  obtain ⟨i, j, l, rfl⟩ : ∃ (i j : Fin 32) (l : Fin 256), x = ix5 (0 : Fin 1) i (0 : Fin 1) j l := ⟨x 1, x 3, x 4, piece_idx x⟩
  have hE : r0_4.emb (ix5 (0 : Fin 1) i (0 : Fin 1) j l) = ix5 (0 : Fin 1) i (1 : Fin 2) j l := by
    funext a; apply Fin.ext
    match a with
    | ⟨0, _⟩ => rfl
    | ⟨1, _⟩ => show 0 + 1 * i.val = i.val; omega
    | ⟨2, _⟩ => rfl
    | ⟨3, _⟩ => show 0 + 1 * j.val = j.val; omega
    | ⟨4, _⟩ => show 0 + 1 * l.val = l.val; omega
  rw [hE, pay3_apply, pay1_apply]
  have h1 : (⟨(i.val * 32 + j.val) / 32, by omega⟩ : Fin 32) = i := Fin.ext (by show (i.val * 32 + j.val) / 32 = i.val; omega)
  have h2 : (⟨(i.val * 32 + j.val) % 32, by omega⟩ : Fin 32) = j := Fin.ext (by show (i.val * 32 + j.val) % 32 = j.val; omega)
  have h3 : (⟨256 + l.val, by omega⟩ : Fin 512) = col 1 l := Fin.ext (by show 256 + l.val = 1 * 256 + l.val; omega)
  show (∑ ci : Fin 256, x0 (ix4 (0 : Fin 1) (⟨(i.val * 32 + j.val) / 32, by omega⟩ : Fin 32) (⟨(i.val * 32 + j.val) % 32, by omega⟩ : Fin 32) ci) * x1 (ix2 ci (⟨256 + l.val, by omega⟩ : Fin 512)))
      + x2 (ix2 (0 : Fin 1) (⟨256 + l.val, by omega⟩ : Fin 512))
    = (∑ ci : Fin 256, x0 (ix4 (0 : Fin 1) i j ci) * x1 (ix2 ci (col 1 l))) + x2 (ix2 (0 : Fin 1) (col 1 l))
  rw [h1, h2, h3]

/-- The output block after the body: the two stores cover it and each agrees with the block expression. -/
theorem out0_3_eq (x0 : Vec Ideal S1x32x32x256 .f32) (x1 : Vec Ideal S256x512 .f32) (x2 : Vec Ideal S1x512 .f32) :
    out0_3 (F := Ideal) x0 x1 x2 = upBlk x0 x1 x2 := by
  funext y
  unfold out0_3
  simp only [View.ld_unit_zero (S := S1x32x32x256) hz4, View.ld_unit_zero (S := S256x512) hz2, View.ld_unit_zero (S := S1x512) hz2]
  refine View.canon_apply_of_pieces (Val := Elt Ideal) (upBlk x0 x1 x2) _ ?_ y (cover0_3 _ _ y)
  intro p hp x
  rcases List.mem_cons.mp hp with rfl | hp
  · exact pay3_blk x0 x1 x2 x
  · rcases List.mem_cons.mp hp with rfl | hp
    · exact pay2_blk x0 x1 x2 x
    · exact absurd hp List.not_mem_nil

/-! ## From the blocks to the array -/

/-- The grid point of the first kernel that handles image `n`. -/
def pt0 (n : Fin 8) : Fin cfg0.N := ⟨n.val, by have := N_0; show n.val < grid0.N; omega⟩

/-- The image a grid point of the first kernel handles. -/
def img0 (t : Fin cfg0.N) : Fin 8 := ⟨t.val, by have := N_0; have h : t.val < grid0.N := t.isLt; omega⟩

theorem idx0_0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 5) = t.val ∧ win0_3.index t (1 : Fin 5) = 0
    ∧ win0_3.index t (2 : Fin 5) = 0 ∧ win0_3.index t (3 : Fin 5) = 0 ∧ win0_3.index t (4 : Fin 5) = 0 :=
  (by decide +kernel : ∀ t : Fin grid0.N, _)

/-- The image window's block at point `t` is image `t` of its array. -/
theorem iblk0_0_apply (c : Dev nD) (t : Fin cfg0.N) (i j : Fin 32) (ci : Fin 256) :
    (iblk0 V c 0 t : S1x32x32x256.Idx → EReal) (ix4 (0 : Fin 1) i j ci)
      = (V c main_v0 : S8x32x32x256.Idx → EReal) (ix4 (img0 t) i j ci) := by
  obtain ⟨e0, e1, e2, e3⟩ := idx0_0 t
  show (V c main_v0 : S8x32x32x256.Idx → EReal) (((cfg0.win 0).blk t).view.emb (ix4 (0 : Fin 1) i j ci)) = _
  refine congrArg _ (funext fun a => Fin.ext ?_)
  match a with
  | ⟨0, _⟩ => show win0_0.index t (0 : Fin 4) * 1 + 1 * 0 = t.val; omega
  | ⟨1, _⟩ => show win0_0.index t (1 : Fin 4) * 32 + 1 * i.val = i.val; omega
  | ⟨2, _⟩ => show win0_0.index t (2 : Fin 4) * 32 + 1 * j.val = j.val; omega
  | ⟨3, _⟩ => show win0_0.index t (3 : Fin 4) * 256 + 1 * ci.val = ci.val; omega

/-- The weight window's block at every point is its whole array. -/
theorem iblk0_1_eq (c : Dev nD) (t : Fin cfg0.N) : (iblk0 V c 1 t : S256x512.Idx → EReal) = V c main_v2 := by
  obtain ⟨e0, e1⟩ := idx0_1 t
  funext j
  show (V c main_v2 : S256x512.Idx → EReal) (((cfg0.win 1).blk t).view.emb j) = _
  refine congrArg _ (funext fun a => Fin.ext ?_)
  match a with
  | ⟨0, _⟩ => show win0_1.index t (0 : Fin 2) * 256 + 1 * (j 0).val = (j 0).val; omega
  | ⟨1, _⟩ => show win0_1.index t (1 : Fin 2) * 512 + 1 * (j 1).val = (j 1).val; omega

/-- The bias window's block at every point is its whole array. -/
theorem iblk0_2_eq (c : Dev nD) (t : Fin cfg0.N) : (iblk0 V c 2 t : S1x512.Idx → EReal) = V c main_v6 := by
  obtain ⟨e0, e1⟩ := idx0_2 t
  funext j
  show (V c main_v6 : S1x512.Idx → EReal) (((cfg0.win 2).blk t).view.emb j) = _
  refine congrArg _ (funext fun a => Fin.ext ?_)
  match a with
  | ⟨0, _⟩ => show win0_2.index t (0 : Fin 2) * 1 + 1 * (j 0).val = (j 0).val; omega
  | ⟨1, _⟩ => show win0_2.index t (1 : Fin 2) * 512 + 1 * (j 1).val = (j 1).val; omega

/-- Point `t`'s block of the array expression is the block expression of image `t`. -/
theorem cut_upArr (a0 : S8x32x32x256.Idx → EReal) (a2 : S256x512.Idx → EReal) (a6 : S1x512.Idx → EReal)
    (x0 : S1x32x32x256.Idx → EReal) (t : Fin cfg0.N)
    (h0 : ∀ (i j : Fin 32) (ci : Fin 256), x0 (ix4 (0 : Fin 1) i j ci) = a0 (ix4 (img0 t) i j ci)) :
    (cfg0.win 3).cut (grid0.coords t) (upBlk x0 a2 a6) = ((cfg0.win 3).blk t).view.read (Elt Ideal) (upArr a0 a2 a6) := by
  obtain ⟨e0, e1, e2, e3, e4⟩ := idx0_3 t
  funext j
  have hE : ((cfg0.win 3).blk t).view.emb j = ix5 (img0 t) (j 1) (j 2) (j 3) (j 4) := by
    funext a; apply Fin.ext
    match a with
    | ⟨0, _⟩ => show win0_3.index t (0 : Fin 5) * 1 + 1 * (j 0).val = t.val; have h : (j 0).val < 1 := (j 0).isLt; omega
    | ⟨1, _⟩ => show win0_3.index t (1 : Fin 5) * 32 + 1 * (j 1).val = (j 1).val; omega
    | ⟨2, _⟩ => show win0_3.index t (2 : Fin 5) * 2 + 1 * (j 2).val = (j 2).val; omega
    | ⟨3, _⟩ => show win0_3.index t (3 : Fin 5) * 32 + 1 * (j 3).val = (j 3).val; omega
    | ⟨4, _⟩ => show win0_3.index t (4 : Fin 5) * 256 + 1 * (j 4).val = (j 4).val; omega
  show upBlk x0 a2 a6 j = upArr a0 a2 a6 (((cfg0.win 3).blk t).view.emb j)
  rw [hE]
  exact congrArg₂ (· + ·) (Finset.sum_congr rfl fun ci _ => congrArg₂ (· * ·) (h0 (j 1) (j 3) ci) rfl) rfl

/-- What point `t` writes back is its block of the array expression of the three input arrays. -/
theorem flushed0_3 (c : Dev nD) (t : Fin cfg0.N) :
    (dat0 V c).flushed 3 t = ((cfg0.win 3).blk t).view.read (Elt Ideal) (upArr (V c main_v0) (V c main_v2) (V c main_v6)) := by
  show (cfg0.win 3).cut (grid0.coords t) ((dat0 V c).after 3 t) = _
  rw [after0_3, out0_3_eq, iblk0_1_eq, iblk0_2_eq]
  exact cut_upArr _ _ _ _ t (iblk0_0_apply V c t)

/-- An index of the result array lies in point `t`'s block iff each coordinate lies in the block's range. -/
theorem mem_blk0_3 (t : Fin cfg0.N) (i : S8x32x2x32x256.Idx) :
    i ∈ ((cfg0.win 3).blk t).view.set ↔ ∀ a : Fin 5, win0_3.index t a * S1x32x2x32x256.size a ≤ (i a).val ∧ (i a).val < win0_3.index t a * S1x32x2x32x256.size a + S1x32x2x32x256.size a := by
  show i ∈ ((View.whole main_v7).slice (win0_3.rect t)).set ↔ _
  rw [View.set_slice_whole, Rect.mem_set_unit]
  exact Iff.rfl

/-- Every index of the result array lies in the block of its image's point. -/
theorem cover0_3_arr (i : S8x32x2x32x256.Idx) : ∃ t : Fin cfg0.N, (cfg0.win 3).flush t = true ∧ i ∈ ((cfg0.win 3).blk t).view.set := by
  refine ⟨pt0 (i 0), flush0_3 _, ?_⟩
  rw [mem_blk0_3]
  obtain ⟨e0, e1, e2, e3, e4⟩ := idx0_3 (pt0 (i 0))
  have hp : (pt0 (i 0)).val = (i 0).val := rfl
  have h1 : (i 1).val < 32 := (i 1).isLt
  have h2 : (i 2).val < 2 := (i 2).isLt
  have h3 : (i 3).val < 32 := (i 3).isLt
  have h4 : (i 4).val < 256 := (i 4).isLt
  intro a
  match a with
  | ⟨0, _⟩ => show win0_3.index (pt0 (i 0)) (0 : Fin 5) * 1 ≤ (i 0).val ∧ (i 0).val < win0_3.index (pt0 (i 0)) (0 : Fin 5) * 1 + 1; omega
  | ⟨1, _⟩ => show win0_3.index (pt0 (i 0)) (1 : Fin 5) * 32 ≤ (i 1).val ∧ (i 1).val < win0_3.index (pt0 (i 0)) (1 : Fin 5) * 32 + 32; omega
  | ⟨2, _⟩ => show win0_3.index (pt0 (i 0)) (2 : Fin 5) * 2 ≤ (i 2).val ∧ (i 2).val < win0_3.index (pt0 (i 0)) (2 : Fin 5) * 2 + 2; omega
  | ⟨3, _⟩ => show win0_3.index (pt0 (i 0)) (3 : Fin 5) * 32 ≤ (i 3).val ∧ (i 3).val < win0_3.index (pt0 (i 0)) (3 : Fin 5) * 32 + 32; omega
  | ⟨4, _⟩ => show win0_3.index (pt0 (i 0)) (4 : Fin 5) * 256 ≤ (i 4).val ∧ (i 4).val < win0_3.index (pt0 (i 0)) (4 : Fin 5) * 256 + 256; omega

/-- THE FIRST KERNEL'S RESULT ARRAY after its run: the array expression of its three input arrays. -/
theorem arr0_eq (c : Dev nD) :
    ((dat0 V c).arrAt 3 cfg0.N : S8x32x2x32x256.Idx → EReal) = upArr (V c main_v0) (V c main_v2) (V c main_v6) :=
  (dat0 V c).arrAt_eq_of_cover 3 (upArr (V c main_v0) (V c main_v2) (V c main_v6)) (fun t _ => flushed0_3 V c t) cover0_3_arr

end Cert.ReferenceIdeal.RefUp

end
-- ==== Proof.RefUpUp.lean ====
/-
  The up-sampled image as the reference's second kernel finds it.

  The first kernel's three inputs are host rearrangements of the arguments: the image channels-last, the
  transposed-convolution weight with its two tap axes and its output channel merged into 512 columns, and the bias
  tiled four times along those columns. Its result array, of shape 8 × 32 × 2 × 32 × 256, is reshaped to
  8 × 64 × 64 × 128: output pixel `(y, x)` and channel `oc` sit at input pixel `(y / 2, x / 2)`, row parity `y % 2`
  and lane `(x % 2) · 128 + oc`. Read through these rearrangements the array is the transposed convolution.
-/
import proofs.«149310_g2000303838873713_pallasbulk_17_2_alg».proof.Proof.Gen.ReferenceIdeal.Frame
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«149310_g2000303838873713_pallasbulk_17_2_alg».proof.Proof.RefUpArgs
import proofs.«149310_g2000303838873713_pallasbulk_17_2_alg».proof.Proof.RefUpFirst
import proofs.«149310_g2000303838873713_pallasbulk_17_2_alg».proof.Proof.Spec
set_option maxRecDepth 16384

noncomputable section

namespace Cert.ReferenceIdeal.RefUp

open Cert.ReferenceIdeal Cert.ReferenceIdeal.Gen
open Idealize.ShloMosaic Idealize.ShloMosaic.TcCoe Idealize.ShloMosaic.Tactic Idealize.ShloMosaic.ValueIdx
open Idealize.ShloMosaic.Pipeline (Dat Cfg Window)

variable (m : (ℓ : Loc nD τ sig) → Buf (Elt Ideal) ℓ) (ρ : Dev nD → PrngReg)

open scoped BigOperators

/-! ## The first kernel's inputs -/

/-- The image, channels last, is the argument at the channel-major index. -/
theorem v0_apply (c : Dev nD) (n : Fin 8) (i j : Fin 32) (ci : Fin 256) :
    (V1 m ρ c main_v0 : S8x32x32x256.Idx → EReal) (ix4 n i j ci) = A14 m c (ix4 n ci i j) := by
  have e : (V1 m ρ c main_v0 : S8x32x32x256.Idx → EReal)
      = transpose S8x32x32x256 [0, 2, 3, 1] (A14 m c) transposes_S8x256x32x32_S8x32x32x256_0_2_3_1 := by
    show StableHlo.after hostOps0 (W0 m ρ c) (Proc.devRef .tc main_v0) = _
    after_results
  rw [e]
  exact transpose_apply _ _ _ _ _ (fun b => match b with | ⟨0, _⟩ => rfl | ⟨1, _⟩ => rfl | ⟨2, _⟩ => rfl | ⟨3, _⟩ => rfl)

/-- The weight matrix: column `q` is row tap `q / 256`, column tap `(q / 128) % 2`, output channel `q % 128`. -/
theorem v2_apply (c : Dev nD) (ci : Fin 256) (q : Fin 512) :
    (V1 m ρ c main_v2 : S256x512.Idx → EReal) (ix2 ci q)
      = A0 m c (ix4 ci (⟨q.val / 256, by omega⟩ : Fin 2) (⟨q.val / 128 % 2, by omega⟩ : Fin 2) (⟨q.val % 128, by omega⟩ : Fin 128)) := by
  have e : (V1 m ρ c main_v2 : S256x512.Idx → EReal) = shapeCast S256x512 (A0 m c) shapeCasts_S256x2x2x128_S256x512 := by
    show StableHlo.after hostOps0 (W0 m ρ c) (Proc.devRef .tc main_v2) = _
    after_results
    rfl
  rw [e]
  exact shapeCast_apply _ _ _ _
    (by rw [Shape.rowMajor_val_four, Shape.rowMajor_val_two]
        show ((ci.val * 2 + q.val / 256) * 2 + q.val / 128 % 2) * 128 + q.val % 128 = ci.val * 512 + q.val
        omega)

/-- The tiled bias: column `q` holds the bias of output channel `q % 128`. -/
theorem v6_apply (c : Dev nD) (q : Fin 512) :
    (V1 m ρ c main_v6 : S1x512.Idx → EReal) (ix2 (0 : Fin 1) q) = A1 m c (ix1 (⟨q.val % 128, by omega⟩ : Fin 128)) := by
  have e : (V1 m ρ c main_v6 : S1x512.Idx → EReal)
      = shapeCast S1x512 (shapeCast S512 (broadcastInDim S4x128 ![0, 1] bcast_S1x128_S4x128_0_1
          (shapeCast S1x128 (A1 m c) shapeCasts_S128_S1x128)) shapeCasts_S4x128_S512) shapeCasts_S512_S1x512 := by
    show StableHlo.after hostOps0 (W0 m ρ c) (Proc.devRef .tc main_v6) = _
    after_results
    rfl
  rw [e]
  refine (shapeCast_apply _ _ _ (ix1 q)
    (by rw [Shape.rowMajor_val_one, Shape.rowMajor_val_two]; show q.val = 0 * 512 + q.val; omega)).trans ?_
  refine (shapeCast_apply _ _ _ (ix2 (⟨q.val / 128, by omega⟩ : Fin 4) (⟨q.val % 128, by omega⟩ : Fin 128))
    (by rw [Shape.rowMajor_val_two, Shape.rowMajor_val_one]; show q.val / 128 * 128 + q.val % 128 = q.val; omega)).trans ?_
  refine (broadcastInDim_apply _ _ _ _ (ix2 (0 : Fin 1) (⟨q.val % 128, by omega⟩ : Fin 128)) (fun a => match a with
    | ⟨0, _⟩ => rfl
    | ⟨1, _⟩ => rfl)).trans ?_
  exact shapeCast_apply _ _ _ _
    (by rw [Shape.rowMajor_val_one, Shape.rowMajor_val_two]; show q.val % 128 = 0 * 128 + q.val % 128; omega)

/-! ## The up-sampled image -/

/-- THE UP-SAMPLED IMAGE as the second kernel finds it is the transposed convolution of the arguments. -/
theorem up_eq (c : Dev nD) (n : Fin 8) (y x : Fin 64) (oc : Fin 128) :
    (V3 m ρ c main_v8 : S8x64x64x128.Idx → EReal) (ix4 n y x oc)
      = Cert.Spec.up (A0 m c) (A1 m c) (A14 m c) n y x oc := by
  have e : (V3 m ρ c main_v8 : S8x64x64x128.Idx → EReal)
      = shapeCast S8x64x64x128 ((dat0 (V1 m ρ) c).arrAt 3 cfg0.N : S8x32x2x32x256.Idx → EReal) shapeCasts_S8x32x2x32x256_S8x64x64x128 := by
    show StableHlo.after hostOps1 (W2 m ρ c) (Proc.devRef .tc main_v8) = _
    after_results
    rw [← W2_arr m ρ c 3]
    rfl
  rw [e, arr0_eq]
  refine (shapeCast_apply _ _ _
    (ix5 n (⟨y.val / 2, by omega⟩ : Fin 32) (⟨y.val % 2, by omega⟩ : Fin 2) (⟨x.val / 2, by omega⟩ : Fin 32) (⟨x.val % 2 * 128 + oc.val, by omega⟩ : Fin 256))
    (by rw [Shape.rowMajor_val_five, Shape.rowMajor_val_four]
        show (((n.val * 32 + y.val / 2) * 2 + y.val % 2) * 32 + x.val / 2) * 256 + (x.val % 2 * 128 + oc.val)
          = ((n.val * 64 + y.val) * 64 + x.val) * 128 + oc.val
        omega)).trans ?_
  unfold Cert.Spec.up
  have hq : (col (⟨y.val % 2, by omega⟩ : Fin 2) (⟨x.val % 2 * 128 + oc.val, by omega⟩ : Fin 256)).val = y.val % 2 * 256 + (x.val % 2 * 128 + oc.val) := rfl
  refine congrArg₂ (· + ·) (Finset.sum_congr rfl fun ci _ => congrArg₂ (· * ·) (v0_apply m ρ c n _ _ ci) ((v2_apply m ρ c ci _).trans (congrArg _ ?_))) ((v6_apply m ρ c _).trans (congrArg _ ?_))
  · funext a; apply Fin.ext
    match a with
    | ⟨0, _⟩ => rfl
    | ⟨1, _⟩ => show (col (⟨y.val % 2, by omega⟩ : Fin 2) (⟨x.val % 2 * 128 + oc.val, by omega⟩ : Fin 256)).val / 256 = y.val % 2; omega
    | ⟨2, _⟩ => show (col (⟨y.val % 2, by omega⟩ : Fin 2) (⟨x.val % 2 * 128 + oc.val, by omega⟩ : Fin 256)).val / 128 % 2 = x.val % 2; omega
    | ⟨3, _⟩ => show (col (⟨y.val % 2, by omega⟩ : Fin 2) (⟨x.val % 2 * 128 + oc.val, by omega⟩ : Fin 256)).val % 128 = oc.val; omega
  · funext a; apply Fin.ext
    match a with
    | ⟨0, _⟩ => show (col (⟨y.val % 2, by omega⟩ : Fin 2) (⟨x.val % 2 * 128 + oc.val, by omega⟩ : Fin 256)).val % 128 = oc.val; omega

end Cert.ReferenceIdeal.RefUp

end
-- ==== Proof.RefConvLib.lean ====
/-
  Generic facts used to read the second reference kernel at an index.

  * The canonical contents of a list of stores, one unit-stride rectangle at a time: under the newest
    rectangle its payload at the index minus the offsets, elsewhere the older stores.
  * A scratch image of 66 × 80 pixels, filled with one value everywhere and then with an image of
    64 × 64 pixels at rows 1 … 64, columns 8 … 71: what it holds at row `r`, column `cc`.
  * One tap of a 3×3 convolution written as a matrix product: the slice of the scratch image at offsets
    `(dy, ox)`, flattened to 4096 rows, times one 2-dimensional weight slab, read at row `64·y + x`.
  * Shape casts and broadcasts read at an index.
  * The padded image with the interior at column 8 is the padded image with the interior at column 1,
    shifted by seven columns.
-/
import Idealize.ShloMosaic.Lib.Pipeline.FrameBody
import Idealize.ShloMosaic.Lib.Pipeline.Value
import Idealize.ShloMosaic.Lib.WritesUnit
import Idealize.ShloMosaic.Lib.ValueIdx
import Idealize.ShloMosaic.Lib.ValueLayout
import Idealize.ShloMosaic.PureOps.Ideal.Laws
import proofs.«149310_g2000303838873713_pallasbulk_17_2_alg».proof.Proof.Spec

noncomputable section

open scoped BigOperators

namespace Cert.ReferenceIdeal.RefConv

open Idealize.ShloMosaic Idealize.ShloMosaic.ValueIdx

/-! ## Stores read newest first -/

section Canon

variable {s : Shape} {e : EltTy} {Val : EltTy → Type} [∀ e, Nonempty (Val e)]

/-- An index at position `x` of the newest store's rectangle holds that store's payload at `x`. -/
theorem canon_cons_unit_of_mem {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the newest store's rectangle on axis `a` holds what the older stores left. -/
theorem canon_cons_unit_of_not_mem {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ L ?_
  rw [Rect.mem_set_unit]
  intro hall
  have := hall a
  omega

end Canon

/-! ## Loads from a whole buffer held at known contents -/

section Loads

variable {sig : RefSig} {κ : Kind} {sp : Space} {S : Shape} {e : EltTy} {Val : EltTy → Type}

/-- A load through rectangle `r` of a whole buffer whose contents read `X` is `X` at the rectangle's indices. -/
theorem readAt_unread (m : Memref sig κ sp S e) (h : m.IsWhole) (X : S.Idx → Val e) (r : Rect S) :
    View.readAt Val m.view r.toLoadRect (h.unread X) = View.ld X r := by
  rw [View.readAt_eq_ld, h.read_unread]

/-- A load of the whole of a whole buffer whose contents read `X` is `X`. -/
theorem readAt_unread_whole (m : Memref sig κ sp S e) (h : m.IsWhole) (X : S.Idx → Val e) {off : Fin S.rank → ℕ}
    (hz : off = fun _ => 0) (inb : ∀ a, off a + S.size a ≤ S.size a) :
    View.readAt Val m.view (Rect.unit off S.size inb).toLoadRect (h.unread X) = X := by
  rw [View.readAt_eq_ld, h.read_unread]
  exact View.ld_unit_zero hz inb X

end Loads

theorem hz2 : (![0, 0] : Fin 2 → ℕ) = fun _ => 0 := funext fun a => by fin_cases a <;> rfl
theorem hz4 : (![0, 0, 0, 0] : Fin 4 → ℕ) = fun _ => 0 := funext fun a => by fin_cases a <;> rfl

/-- The zero word read at the exact model. -/
theorem scalar_zero : (Scalar.ofBits .f32 0x00000000#32 : Ideal .f32) = 0 := Ideal.ofBits_zero_f32

/-! ## The padded scratch image -/

theorem hz3 : (![0, 0, 0] : Fin 3 → ℕ) = fun _ => 0 := funext fun a => by fin_cases a <;> rfl

/-- The scratch image after the fill `z` and the interior store `w`, read at row `r`, column `cc`, channel `k`. -/
theorem canon_pad {Val : EltTy → Type} [∀ e, Nonempty (Val e)] {e : EltTy} {C : ℕ}
    (inb1 : ∀ a, (![1, 8, 0] : Fin 3 → ℕ) a + (![64, 64, C] : Fin 3 → ℕ) a ≤ (⟨3, ![66, 80, C]⟩ : Shape).size a)
    (inb0 : ∀ a, (![0, 0, 0] : Fin 3 → ℕ) a + (⟨3, ![66, 80, C]⟩ : Shape).size a ≤ (⟨3, ![66, 80, C]⟩ : Shape).size a)
    (w : (⟨3, ![64, 64, C]⟩ : Shape).Idx → Val e) (z : (⟨3, ![66, 80, C]⟩ : Shape).Idx → Val e)
    (r : Fin 66) (cc : Fin 80) (k : Fin C) :
    View.canon [(⟨Rect.unit (s := ⟨3, ![66, 80, C]⟩) ![1, 8, 0] ![64, 64, C] inb1, w⟩ : View.Piece Val ⟨3, ![66, 80, C]⟩ e),
        ⟨Rect.unit (s := ⟨3, ![66, 80, C]⟩) ![0, 0, 0] (⟨3, ![66, 80, C]⟩ : Shape).size inb0, z⟩] (ix3 r cc k)
      = if h : 1 ≤ r.val ∧ r.val ≤ 64 ∧ 8 ≤ cc.val ∧ cc.val ≤ 71 then
          w (ix3 ⟨r.val - 1, by omega⟩ ⟨cc.val - 8, by omega⟩ k)
        else z (ix3 r cc k) := by
  by_cases h : 1 ≤ r.val ∧ r.val ≤ 64 ∧ 8 ≤ cc.val ∧ cc.val ≤ 71
  · rw [dif_pos h]
    exact canon_cons_unit_of_mem inb1 w _ (ix3 r cc k) (ix3 ⟨r.val - 1, by omega⟩ ⟨cc.val - 8, by omega⟩ k) (fun a => by
      match a with
      | ⟨0, _⟩ => show r.val = 1 + (r.val - 1); omega
      | ⟨1, _⟩ => show cc.val = 8 + (cc.val - 8); omega
      | ⟨2, _⟩ => show k.val = 0 + k.val; omega)
  · rw [dif_neg h]
    have hrest : View.canon [(⟨Rect.unit (s := ⟨3, ![66, 80, C]⟩) ![0, 0, 0] (⟨3, ![66, 80, C]⟩ : Shape).size inb0, z⟩ :
        View.Piece Val ⟨3, ![66, 80, C]⟩ e)] (ix3 r cc k) = z (ix3 r cc k) :=
      congrFun (View.canon_unit_zero hz3 inb0 z) (ix3 r cc k)
    by_cases h0 : 1 ≤ r.val ∧ r.val ≤ 64
    · exact (canon_cons_unit_of_not_mem inb1 w _ (ix3 r cc k) (1 : Fin 3) (by
        show cc.val < 8 ∨ 8 + 64 ≤ cc.val
        omega)).trans hrest
    · exact (canon_cons_unit_of_not_mem inb1 w _ (ix3 r cc k) (0 : Fin 3) (by
        show r.val < 1 ∨ 1 + 64 ≤ r.val
        omega)).trans hrest

/-! ## Layout operations read at an index -/

/-- The slice at offsets `(dy, ox, 0)` of a 66 × 80 image, flattened to 4096 rows, read at row `64·y + x`. -/
theorem slice_cast_apply {α : Type} {C : ℕ} (dy ox : ℕ) (V : (⟨3, ![66, 80, C]⟩ : Shape).Idx → α)
    (hs : (⟨3, ![66, 80, C]⟩ : Shape).Slices ![dy, ox, 0] ⟨3, ![64, 64, C]⟩)
    (hc : (⟨3, ![64, 64, C]⟩ : Shape).ShapeCasts ⟨2, ![4096, C]⟩)
    (hdy : dy ≤ 2) (hox : ox ≤ 16) (y x : Fin 64) (k : Fin C) :
    shapeCast ⟨2, ![4096, C]⟩ (extractStridedSlice ⟨3, ![64, 64, C]⟩ ![dy, ox, 0] V hs) hc
        (ix2 ⟨64 * y.val + x.val, by omega⟩ k)
      = V (ix3 ⟨y.val + dy, by omega⟩ ⟨x.val + ox, by omega⟩ k) := by
  refine (shapeCast_apply _ hc (ix2 ⟨64 * y.val + x.val, by omega⟩ k) (ix3 y x k) ?_).trans ?_
  · rw [Shape.rowMajor_val_three, Shape.rowMajor_val_two]
    show (y.val * 64 + x.val) * C + k.val = (64 * y.val + x.val) * C + k.val
    rw [Nat.mul_comm y.val 64]
  · exact extractStridedSlice_apply _ V hs (ix3 y x k) (ix3 ⟨y.val + dy, by omega⟩ ⟨x.val + ox, by omega⟩ k) (fun a => by
      match a with
      | ⟨0, _⟩ => show y.val + dy = dy + y.val; omega
      | ⟨1, _⟩ => show x.val + ox = ox + x.val; omega
      | ⟨2, _⟩ => show k.val = 0 + k.val; omega)

/-- Slab `t` of a stack of matrices, loaded as a stack of one and cast to a matrix, read at an index. -/
theorem slab_cast_apply {Val : EltTy → Type} {e : EltTy} {T K N : ℕ} (t : ℕ) (ht : t < T) (X : (⟨3, ![T, K, N]⟩ : Shape).Idx → Val e)
    (inb : ∀ a, (![t, 0, 0] : Fin 3 → ℕ) a + (![1, K, N] : Fin 3 → ℕ) a ≤ (⟨3, ![T, K, N]⟩ : Shape).size a)
    (hc : (⟨3, ![1, K, N]⟩ : Shape).ShapeCasts ⟨2, ![K, N]⟩) (k : Fin K) (o : Fin N) :
    shapeCast ⟨2, ![K, N]⟩ (View.ld X (Rect.unit (s := ⟨3, ![T, K, N]⟩) ![t, 0, 0] ![1, K, N] inb)) hc (ix2 k o)
      = X (ix3 ⟨t, ht⟩ k o) := by
  refine (shapeCast_apply _ hc (ix2 k o) (ix3 (0 : Fin 1) k o) ?_).trans ?_
  · rw [Shape.rowMajor_val_three, Shape.rowMajor_val_two]
    show (0 * K + k.val) * N + o.val = k.val * N + o.val
    rw [Nat.zero_mul, Nat.zero_add]
  · show X _ = X _
    congr 1
    funext a
    apply Fin.ext
    match a with
    | ⟨0, _⟩ => show t + 1 * 0 = t; omega
    | ⟨1, _⟩ => show 0 + 1 * k.val = k.val; omega
    | ⟨2, _⟩ => show 0 + 1 * o.val = o.val; omega

/-- A row vector cast to itself and broadcast down the rows, read at an index. -/
theorem row_bcast_apply {α : Type} {R N : ℕ} (v : (⟨2, ![1, N]⟩ : Shape).Idx → α)
    (hc : (⟨2, ![1, N]⟩ : Shape).ShapeCasts ⟨2, ![1, N]⟩) (hb : (⟨2, ![1, N]⟩ : Shape).Broadcasts ⟨2, ![R, N]⟩)
    (hN : N ≠ 1) (r : Fin R) (o : Fin N) :
    broadcastTo ⟨2, ![R, N]⟩ (shapeCast ⟨2, ![1, N]⟩ v hc) hb (ix2 r o) = v (ix2 (0 : Fin 1) o) := by
  rw [shapeCast_self]
  exact broadcastTo_apply v hb (ix2 r o) (ix2 (0 : Fin 1) o) (fun a => by
    match a with
    | ⟨0, _⟩ => show (0 : ℕ) = if (1 : ℕ) = 1 then 0 else _; rw [if_pos rfl]
    | ⟨1, _⟩ => show o.val = if N = 1 then 0 else o.val; rw [if_neg hN])

/-- A matrix of 4096 rows cast to a 64 × 64 image and cast to itself, read at pixel `(y, x)`. -/
theorem image_cast_apply {α : Type} {N : ℕ} (Z : (⟨2, ![4096, N]⟩ : Shape).Idx → α)
    (h1 : (⟨2, ![4096, N]⟩ : Shape).ShapeCasts ⟨3, ![64, 64, N]⟩)
    (h2 : (⟨3, ![64, 64, N]⟩ : Shape).ShapeCasts ⟨3, ![64, 64, N]⟩) (y x : Fin 64) (o : Fin N) :
    shapeCast ⟨3, ![64, 64, N]⟩ (shapeCast ⟨3, ![64, 64, N]⟩ Z h1) h2 (ix3 y x o)
      = Z (ix2 ⟨64 * y.val + x.val, by omega⟩ o) := by
  rw [shapeCast_self]
  refine shapeCast_apply Z h1 (ix3 y x o) (ix2 ⟨64 * y.val + x.val, by omega⟩ o) ?_
  rw [Shape.rowMajor_val_three, Shape.rowMajor_val_two]
  show (64 * y.val + x.val) * N + o.val = (y.val * 64 + x.val) * N + o.val
  rw [Nat.mul_comm y.val 64]

/-- A matrix of 4096 rows cast to a 64 × 64 image and then to a batch of one image, read at pixel `(y, x)`. -/
theorem batch_cast_apply {α : Type} {N : ℕ} (Z : (⟨2, ![4096, N]⟩ : Shape).Idx → α)
    (h1 : (⟨2, ![4096, N]⟩ : Shape).ShapeCasts ⟨3, ![64, 64, N]⟩)
    (h2 : (⟨3, ![64, 64, N]⟩ : Shape).ShapeCasts ⟨4, ![1, 64, 64, N]⟩) (y x : Fin 64) (o : Fin N) :
    shapeCast ⟨4, ![1, 64, 64, N]⟩ (shapeCast ⟨3, ![64, 64, N]⟩ Z h1) h2 (ix4 (0 : Fin 1) y x o)
      = Z (ix2 ⟨64 * y.val + x.val, by omega⟩ o) := by
  refine (shapeCast_apply _ h2 (ix4 (0 : Fin 1) y x o) (ix3 y x o) ?_).trans ?_
  · rw [Shape.rowMajor_val_three, Shape.rowMajor_val_four]
    show (y.val * 64 + x.val) * N + o.val = ((0 * 64 + y.val) * 64 + x.val) * N + o.val
    rw [Nat.zero_mul, Nat.zero_add]
  · refine shapeCast_apply Z h1 (ix3 y x o) (ix2 ⟨64 * y.val + x.val, by omega⟩ o) ?_
    rw [Shape.rowMajor_val_three, Shape.rowMajor_val_two]
    show (64 * y.val + x.val) * N + o.val = (y.val * 64 + x.val) * N + o.val
    rw [Nat.mul_comm y.val 64]

/-- A batch of one image cast to the image and to itself, read at a pixel. -/
theorem unbatch_cast_apply {α : Type} {N : ℕ} (X : (⟨4, ![1, 64, 64, N]⟩ : Shape).Idx → α)
    (h1 : (⟨4, ![1, 64, 64, N]⟩ : Shape).ShapeCasts ⟨3, ![64, 64, N]⟩)
    (h2 : (⟨3, ![64, 64, N]⟩ : Shape).ShapeCasts ⟨3, ![64, 64, N]⟩) (y x : Fin 64) (k : Fin N) :
    shapeCast ⟨3, ![64, 64, N]⟩ (shapeCast ⟨3, ![64, 64, N]⟩ X h1) h2 (ix3 y x k) = X (ix4 (0 : Fin 1) y x k) := by
  rw [shapeCast_self]
  refine shapeCast_apply X h1 (ix3 y x k) (ix4 (0 : Fin 1) y x k) ?_
  rw [Shape.rowMajor_val_three, Shape.rowMajor_val_four]
  show ((0 * 64 + y.val) * 64 + x.val) * N + k.val = (y.val * 64 + x.val) * N + k.val
  rw [Nat.zero_mul, Nat.zero_add]

/-! ## A matrix product into a zero accumulator, read at an index -/

/-- The product of an `M × K` and a `K × N` matrix into the zero accumulator: the sum over the contracted coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (A : FVec Ideal ⟨2, ![M, K]⟩ φ₁) (B : FVec Ideal ⟨2, ![K, N]⟩ φ₂) (a : Fin M) (b : Fin N) :
    matmul (⟨[1], [0], [0], [1], [], [], w⟩ : DotDims ⟨2, ![M, K]⟩ ⟨2, ![K, N]⟩ ⟨2, ![M, N]⟩) none A B
        (constant (F := Ideal) ⟨2, ![M, N]⟩ .f32 0x00000000#32) (ix2 a b)
      = ∑ c : Fin K, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The two paddings -/

/-- A 64 × 64 image padded to the scratch layout: rows 1 … 64 and columns 8 … 71 hold the image, the rest zero. -/
def padS {C : ℕ} (f : Fin 64 → Fin 64 → Fin C → EReal) (r cc : ℕ) (c : Fin C) : EReal :=
  if h : 1 ≤ r ∧ r ≤ 64 ∧ 8 ≤ cc ∧ cc ≤ 71 then f ⟨r - 1, by omega⟩ ⟨cc - 8, by omega⟩ c else 0

/-- The scratch layout is the one-pixel padding shifted by seven columns. -/
theorem padS_add_seven {C : ℕ} (f : Fin 64 → Fin 64 → Fin C → EReal) (r cc : ℕ) (c : Fin C) :
    padS f r (cc + 7) c = Cert.Spec.pad f r cc c := by
  unfold padS Cert.Spec.pad
  by_cases h : 1 ≤ r ∧ r ≤ 64 ∧ 1 ≤ cc ∧ cc ≤ 64
  · rw [dif_pos (show 1 ≤ r ∧ r ≤ 64 ∧ 8 ≤ cc + 7 ∧ cc + 7 ≤ 71 by omega), dif_pos h]
    congr 1
  · rw [dif_neg (show ¬(1 ≤ r ∧ r ≤ 64 ∧ 8 ≤ cc + 7 ∧ cc + 7 ≤ 71) by omega), dif_neg h]

end Cert.ReferenceIdeal.RefConv

end
-- ==== Proof.RefConvTap.lean ====
/-
  One tap of a 3×3 convolution as the reference's second kernel writes it: the slice of a padded scratch image at
  offsets `(dy, ox)`, flattened to 4096 rows, times slab `t` of a stack of weight matrices loaded from a whole
  buffer, into a zero accumulator. At output row `64·y + x` and column `o` it is the sum over the channels of the
  scratch image at `(y + dy, x + ox)` times the weight.
-/
import proofs.«149310_g2000303838873713_pallasbulk_17_2_alg».proof.Proof.RefConvLib

noncomputable section

open scoped BigOperators

namespace Cert.ReferenceIdeal.RefConv

open Idealize.ShloMosaic Idealize.ShloMosaic.ValueIdx

theorem tap_apply {sig : RefSig} {κ : Kind} {sp : Space} {C N T : ℕ}
    (w : DotDims.WF ⟨2, ![4096, C]⟩ ⟨2, ![C, N]⟩ ⟨2, ![4096, N]⟩ [1] [0] [0] [1] [] [])
    (dy ox : ℕ) (V : Vec Ideal ⟨3, ![66, 80, C]⟩ .f32)
    (hs : (⟨3, ![66, 80, C]⟩ : Shape).Slices ![dy, ox, 0] ⟨3, ![64, 64, C]⟩)
    (hc : (⟨3, ![64, 64, C]⟩ : Shape).ShapeCasts ⟨2, ![4096, C]⟩) (hdy : dy ≤ 2) (hox : ox ≤ 16)
    (t : ℕ) (ht : t < T) (X : Vec Ideal ⟨3, ![T, C, N]⟩ .f32) (m : Memref sig κ sp ⟨3, ![T, C, N]⟩ .f32) (hm : m.IsWhole)
    (inb : ∀ a, (![t, 0, 0] : Fin 3 → ℕ) a + (![1, C, N] : Fin 3 → ℕ) a ≤ (⟨3, ![T, C, N]⟩ : Shape).size a)
    (hcw : (⟨3, ![1, C, N]⟩ : Shape).ShapeCasts ⟨2, ![C, N]⟩) (y x : Fin 64) (o : Fin N) :
    matmul (⟨[1], [0], [0], [1], [], [], w⟩ : DotDims ⟨2, ![4096, C]⟩ ⟨2, ![C, N]⟩ ⟨2, ![4096, N]⟩) none
        (shapeCast ⟨2, ![4096, C]⟩ (extractStridedSlice ⟨3, ![64, 64, C]⟩ ![dy, ox, 0] V hs) hc : FVec Ideal ⟨2, ![4096, C]⟩ .f32)
        (shapeCast ⟨2, ![C, N]⟩ (View.readAt (Elt Ideal) m.view
          (Rect.unit (s := ⟨3, ![T, C, N]⟩) ![t, 0, 0] ![1, C, N] inb).toLoadRect (hm.unread X)) hcw : FVec Ideal ⟨2, ![C, N]⟩ .f32)
        (constant (F := Ideal) ⟨2, ![4096, N]⟩ .f32 0x00000000#32) (ix2 ⟨64 * y.val + x.val, by omega⟩ o)
      = ∑ k : Fin C, V (ix3 ⟨y.val + dy, by omega⟩ ⟨x.val + ox, by omega⟩ k) * X (ix3 ⟨t, ht⟩ k o) := by
  refine (matmul_zero_apply w _ _ ⟨64 * y.val + x.val, by omega⟩ o).trans ?_
  refine Finset.sum_congr rfl fun k _ => ?_
  rw [slice_cast_apply dy ox V hs hc hdy hox y x k, readAt_unread m hm X, slab_cast_apply t ht X inb hcw k o]

/-- The same tap when the scratch image is a padded image `padS f`. -/
theorem tap_pad {sig : RefSig} {κ : Kind} {sp : Space} {C N T : ℕ}
    (w : DotDims.WF ⟨2, ![4096, C]⟩ ⟨2, ![C, N]⟩ ⟨2, ![4096, N]⟩ [1] [0] [0] [1] [] [])
    (dy ox : ℕ) (V : Vec Ideal ⟨3, ![66, 80, C]⟩ .f32) (f : Fin 64 → Fin 64 → Fin C → EReal)
    (hV : ∀ (r : Fin 66) (cc : Fin 80) (k : Fin C), V (ix3 r cc k) = padS f r.val cc.val k)
    (hs : (⟨3, ![66, 80, C]⟩ : Shape).Slices ![dy, ox, 0] ⟨3, ![64, 64, C]⟩)
    (hc : (⟨3, ![64, 64, C]⟩ : Shape).ShapeCasts ⟨2, ![4096, C]⟩) (hdy : dy ≤ 2) (hox : ox ≤ 16)
    (t : ℕ) (ht : t < T) (X : Vec Ideal ⟨3, ![T, C, N]⟩ .f32) (m : Memref sig κ sp ⟨3, ![T, C, N]⟩ .f32) (hm : m.IsWhole)
    (inb : ∀ a, (![t, 0, 0] : Fin 3 → ℕ) a + (![1, C, N] : Fin 3 → ℕ) a ≤ (⟨3, ![T, C, N]⟩ : Shape).size a)
    (hcw : (⟨3, ![1, C, N]⟩ : Shape).ShapeCasts ⟨2, ![C, N]⟩) (y x : Fin 64) (o : Fin N) :
    matmul (⟨[1], [0], [0], [1], [], [], w⟩ : DotDims ⟨2, ![4096, C]⟩ ⟨2, ![C, N]⟩ ⟨2, ![4096, N]⟩) none
        (shapeCast ⟨2, ![4096, C]⟩ (extractStridedSlice ⟨3, ![64, 64, C]⟩ ![dy, ox, 0] V hs) hc : FVec Ideal ⟨2, ![4096, C]⟩ .f32)
        (shapeCast ⟨2, ![C, N]⟩ (View.readAt (Elt Ideal) m.view
          (Rect.unit (s := ⟨3, ![T, C, N]⟩) ![t, 0, 0] ![1, C, N] inb).toLoadRect (hm.unread X)) hcw : FVec Ideal ⟨2, ![C, N]⟩ .f32)
        (constant (F := Ideal) ⟨2, ![4096, N]⟩ .f32 0x00000000#32) (ix2 ⟨64 * y.val + x.val, by omega⟩ o)
      = ∑ k : Fin C, padS f (y.val + dy) (x.val + ox) k * X (ix3 ⟨t, ht⟩ k o) := by
  refine (tap_apply w dy ox V hs hc hdy hox t ht X m hm inb hcw y x o).trans ?_
  exact Finset.sum_congr rfl fun k _ => by rw [hV]

/-! ## Sums of a few terms, term by term -/

theorem add2_congr {a0 a1 b0 b1 : EReal} (h0 : a0 = b0) (h1 : a1 = b1) : a0 + a1 = b0 + b1 := by rw [h0, h1]

theorem add3_congr {a0 a1 a2 b0 b1 b2 : EReal} (h0 : a0 = b0) (h1 : a1 = b1) (h2 : a2 = b2) :
    a0 + a1 + a2 = b0 + b1 + b2 := by rw [h0, h1, h2]

theorem add7_congr {a0 a1 a2 a3 a4 a5 a6 b0 b1 b2 b3 b4 b5 b6 : EReal} (h0 : a0 = b0) (h1 : a1 = b1) (h2 : a2 = b2)
    (h3 : a3 = b3) (h4 : a4 = b4) (h5 : a5 = b5) (h6 : a6 = b6) :
    a0 + a1 + a2 + a3 + a4 + a5 + a6 = b0 + b1 + b2 + b3 + b4 + b5 + b6 := by rw [h0, h1, h2, h3, h4, h5, h6]

end Cert.ReferenceIdeal.RefConv

end
-- ==== Proof.RefConvScratch.lean ====
/-
  The three scratch images of the reference's second kernel, read at a pixel.

  Each is filled with zeros, then its rows 1 … 64 and columns 8 … 71 are stored, then the whole image is loaded. The
  loaded image at row `r`, column `cc` is therefore the stored interior at `(r - 1, cc - 8)` inside those rows and
  columns and zero outside: the padded image `padS`.
-/
import proofs.«149310_g2000303838873713_pallasbulk_17_2_alg».proof.Proof.Gen.ReferenceIdeal.Frame
import proofs.«149310_g2000303838873713_pallasbulk_17_2_alg».proof.Proof.RefConvLib

set_option maxRecDepth 16384

noncomputable section

open scoped BigOperators

namespace Cert.ReferenceIdeal.RefConv

open Idealize.ShloMosaic Idealize.ShloMosaic.ValueIdx Idealize.ShloMosaic.TcCoe
open Cert.ReferenceIdeal.Gen

/-- The skip connection's scratch image: the skip connection's block, padded. -/
theorem v18_apply (c : Dev nD) (arg1 : Memref sig .tc .vmem S1x64x64x128 .f32) (harg1 : arg1.IsWhole) (arg11 : Memref sig .tc .vmem S66x80x128 .f32) (x0 : Vec Ideal S1x64x64x128 .f32) (r : Fin 66) (cc : Fin 80) (k : Fin 128) :
    kernelRun1_A.sl.v18 (F := Ideal) c arg1 harg1 arg11 x0 (ix3 r cc k)
      = padS (fun a b k' => x0 (ix4 (0 : Fin 1) a b k')) r.val cc.val k := by
  have e : kernelRun1_A.sl.v18 (F := Ideal) c arg1 harg1 arg11 x0
      = View.canon (kernelRun1_A.sl.HS0_2 (F := Ideal) c arg1 harg1 x0) :=
    (View.readCov_eq_canon' _ _ _).trans (View.ld_unit_zero (S := S66x80x128) hz3 _ _)
  refine (congrFun e (ix3 r cc k)).trans ?_
  unfold kernelRun1_A.sl.HS0_2
  refine (canon_pad _ _ _ _ r cc k).trans ?_
  unfold padS
  by_cases h : 1 ≤ r.val ∧ r.val ≤ 64 ∧ 8 ≤ cc.val ∧ cc.val ≤ 71
  · rw [dif_pos h, dif_pos h]
    unfold k1_pay4
    dsimp only
    rw [readAt_unread_whole arg1 harg1 x0 hz4]
    exact unbatch_cast_apply x0 _ _ _ _ k
  · rw [dif_neg h, dif_neg h]
    unfold k1_pay2
    rw [shapeCast_self]
    exact scalar_zero

/-- The up-sampled image's scratch image: the up-sampled image's block, padded. -/
theorem v19_apply (c : Dev nD) (arg2 : Memref sig .tc .vmem S1x64x64x128 .f32) (harg2 : arg2.IsWhole) (arg12 : Memref sig .tc .vmem S66x80x128 .f32) (x1 : Vec Ideal S1x64x64x128 .f32) (r : Fin 66) (cc : Fin 80) (k : Fin 128) :
    kernelRun1_A.sl.v19 (F := Ideal) c arg2 harg2 arg12 x1 (ix3 r cc k)
      = padS (fun a b k' => x1 (ix4 (0 : Fin 1) a b k')) r.val cc.val k := by
  have e : kernelRun1_A.sl.v19 (F := Ideal) c arg2 harg2 arg12 x1
      = View.canon (kernelRun1_A.sl.HS1_2 (F := Ideal) c arg2 harg2 x1) :=
    (View.readCov_eq_canon' _ _ _).trans (View.ld_unit_zero (S := S66x80x128) hz3 _ _)
  refine (congrFun e (ix3 r cc k)).trans ?_
  unfold kernelRun1_A.sl.HS1_2
  refine (canon_pad _ _ _ _ r cc k).trans ?_
  unfold padS
  by_cases h : 1 ≤ r.val ∧ r.val ≤ 64 ∧ 8 ≤ cc.val ∧ cc.val ≤ 71
  · rw [dif_pos h, dif_pos h]
    unfold k1_pay5
    dsimp only
    rw [readAt_unread_whole arg2 harg2 x1 hz4]
    exact unbatch_cast_apply x1 _ _ _ _ k
  · rw [dif_neg h, dif_neg h]
    unfold k1_pay3
    rw [shapeCast_self]
    exact scalar_zero

/-- The third scratch image: whatever image `P` was stored in its interior, padded. -/
theorem v147_apply (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg5 : Memref sig .tc .vmem S1x256 .f32) (harg5 : arg5.IsWhole) (arg6 : Memref sig .tc .vmem S1x256 .f32) (harg6 : arg6.IsWhole) (arg11 : Memref sig .tc .vmem S66x80x128 .f32) (arg12 : Memref sig .tc .vmem S66x80x128 .f32) (arg13 : Memref sig .tc .vmem S66x80x256 .f32) (x0 : Vec Ideal S1x64x64x128 .f32) (x1 : Vec Ideal S1x64x64x128 .f32) (x2 : Vec Ideal S9x128x256 .f32) (x3 : Vec Ideal S9x128x256 .f32) (x4 : Vec Ideal S1x256 .f32) (x5 : Vec Ideal S1x256 .f32) (r : Fin 66) (cc : Fin 80) (k : Fin 256) :
    kernelRun1_A.sl.v147 (F := Ideal) c arg1 harg1 arg2 harg2 arg3 harg3 arg4 harg4 arg5 harg5 arg6 harg6 arg11 arg12 arg13 x0 x1 x2 x3 x4 x5 (ix3 r cc k)
      = padS (fun a b k' => k1_pay18 (F := Ideal)
          (kernelRun1_A.sl.r_8 c arg1 harg1 arg2 harg2 arg3 harg3 arg4 harg4 arg11 arg12 x0 x1 x2 x3)
          (kernelRun1_A.sl.r_9 c arg5 harg5 x4)
          (View.readAt (Elt Ideal) arg6.view (Rect.unit ![0, 0] S1x256.size inb_S1x256_S1x256_0_0).toLoadRect (harg6.unread x5))
          (ix3 a b k')) r.val cc.val k := by
  have e : kernelRun1_A.sl.v147 (F := Ideal) c arg1 harg1 arg2 harg2 arg3 harg3 arg4 harg4 arg5 harg5 arg6 harg6 arg11 arg12 arg13 x0 x1 x2 x3 x4 x5
      = View.canon (kernelRun1_A.sl.HS2_2 (F := Ideal) c arg1 harg1 arg2 harg2 arg3 harg3 arg4 harg4 arg5 harg5 arg6 harg6 arg11 arg12 x0 x1 x2 x3 x4 x5) :=
    (View.readCov_eq_canon' _ _ _).trans (View.ld_unit_zero (S := S66x80x256) hz3 _ _)
  refine (congrFun e (ix3 r cc k)).trans ?_
  unfold kernelRun1_A.sl.HS2_2
  refine (canon_pad _ _ _ _ r cc k).trans ?_
  unfold padS
  by_cases h : 1 ≤ r.val ∧ r.val ≤ 64 ∧ 8 ≤ cc.val ∧ cc.val ≤ 71
  · rw [dif_pos h, dif_pos h]
  · rw [dif_neg h, dif_neg h]
    unfold k1_pay17
    rw [shapeCast_self]
    exact scalar_zero

end Cert.ReferenceIdeal.RefConv

end
-- ==== Proof.RefConvSpec.lean ====
/-
  The second reference kernel's result in the vocabulary of the specification, and the bridge from the sums the
  kernel forms to the specification's taps.

  The kernel keeps the two halves of the first convolution's input channels apart (the skip connection's 128 channels
  and the up-sampled image's 128 channels, each with its own half of the weights) and adds, per tap, first the one
  half's product and then the other's. The specification sums each tap over all 256 channels of the concatenated
  image. A sum over 256 = 128 + 128 channels splits into the two halves, and on the extended reals addition is
  associative and commutative with zero as unit, so the two arrangements agree.
-/
import proofs.«149310_g2000303838873713_pallasbulk_17_2_alg».proof.Proof.RefConvLib

noncomputable section

open scoped BigOperators

namespace Cert.ReferenceIdeal.RefConv

open Idealize.ShloMosaic Idealize.ShloMosaic.ValueIdx

/-- A block of one image, read as an image. -/
abbrev img {C : ℕ} (X : Vec Ideal ⟨4, ![1, 64, 64, C]⟩ .f32) : Fin 64 → Fin 64 → Fin C → EReal :=
  fun a b k => X (ix4 (0 : Fin 1) a b k)

/-- One tap's sum over one half of the channels: the padded image `f` at `(y + dy, x + ox)` (scratch columns)
    times slab `t` of the weights. -/
abbrev half (f : Fin 64 → Fin 64 → Fin 128 → EReal) (X : Vec Ideal ⟨3, ![9, 128, 256]⟩ .f32) (y x : Fin 64) (o : Fin 256)
    (dy ox t : ℕ) (ht : t < 9) : EReal :=
  ∑ k : Fin 128, padS f (y.val + dy) (x.val + ox) k * X (ix3 (⟨t, ht⟩ : Fin 9) k o)

/-- One tap's sum over all the channels of the second convolution's input. -/
abbrev full (f : Fin 64 → Fin 64 → Fin 256 → EReal) (X : Vec Ideal ⟨3, ![9, 256, 256]⟩ .f32) (y x : Fin 64) (o : Fin 256)
    (dy ox t : ℕ) (ht : t < 9) : EReal :=
  ∑ k : Fin 256, padS f (y.val + dy) (x.val + ox) k * X (ix3 (⟨t, ht⟩ : Fin 9) k o)

/-- The concatenation: the skip connection's 128 channels, then the up-sampled image's. -/
def cat (x0 x1 : Vec Ideal ⟨4, ![1, 64, 64, 128]⟩ .f32) : Fin 64 → Fin 64 → Fin 256 → EReal :=
  fun y' x' c => if h : c.val < 128 then x0 (ix4 (0 : Fin 1) y' x' ⟨c.val, h⟩)
    else x1 (ix4 (0 : Fin 1) y' x' ⟨c.val - 128, by omega⟩)

/-- The first convolution's weights by tap, the two channel halves joined. -/
def w1 (x2 x3 : Vec Ideal ⟨3, ![9, 128, 256]⟩ .f32) : Fin 3 → Fin 3 → Fin 256 → Fin 256 → EReal :=
  fun dy dx c o' => if h : c.val < 128 then x2 (ix3 (⟨3 * dy.val + dx.val, by omega⟩ : Fin 9) ⟨c.val, h⟩ o')
    else x3 (ix3 (⟨3 * dy.val + dx.val, by omega⟩ : Fin 9) ⟨c.val - 128, by omega⟩ o')

/-- The second convolution's weights by tap. -/
def w2 (x6 : Vec Ideal ⟨3, ![9, 256, 256]⟩ .f32) : Fin 3 → Fin 3 → Fin 256 → Fin 256 → EReal :=
  fun dy dx c o' => x6 (ix3 (⟨3 * dy.val + dx.val, by omega⟩ : Fin 9) c o')

/-- The image after the first convolution, scale, shift and maximum with zero. -/
def mid (x0 x1 : Vec Ideal ⟨4, ![1, 64, 64, 128]⟩ .f32) (x2 x3 : Vec Ideal ⟨3, ![9, 128, 256]⟩ .f32)
    (x4 x5 : Vec Ideal ⟨2, ![1, 256]⟩ .f32) : Fin 64 → Fin 64 → Fin 256 → EReal :=
  fun y' x' o' => max (Cert.Spec.conv (Cert.Spec.pad (cat x0 x1)) (w1 x2 x3) y'.val x'.val o' * x4 (ix2 (0 : Fin 1) o')
    + x5 (ix2 (0 : Fin 1) o')) 0

/-- The padded concatenation at a channel of the first half is the padded skip connection. -/
theorem pad_cat_left (x0 x1 : Vec Ideal ⟨4, ![1, 64, 64, 128]⟩ .f32) (r cc : ℕ) (k : Fin 128) :
    Cert.Spec.pad (cat x0 x1) r cc (Fin.castAdd 128 k) = Cert.Spec.pad (img x0) r cc k := by
  unfold Cert.Spec.pad
  by_cases h : 1 ≤ r ∧ r ≤ 64 ∧ 1 ≤ cc ∧ cc ≤ 64
  · rw [dif_pos h, dif_pos h]
    unfold cat
    exact dif_pos k.isLt
  · rw [dif_neg h, dif_neg h]

/-- The padded concatenation at a channel of the second half is the padded up-sampled image. -/
theorem pad_cat_right (x0 x1 : Vec Ideal ⟨4, ![1, 64, 64, 128]⟩ .f32) (r cc : ℕ) (k : Fin 128) :
    Cert.Spec.pad (cat x0 x1) r cc (Fin.natAdd 128 k) = Cert.Spec.pad (img x1) r cc k := by
  unfold Cert.Spec.pad
  by_cases h : 1 ≤ r ∧ r ≤ 64 ∧ 1 ≤ cc ∧ cc ≤ 64
  · rw [dif_pos h, dif_pos h]
    unfold cat
    have hk : ¬ (Fin.natAdd 128 k).val < 128 := by
      show ¬ (128 + k.val < 128)
      omega
    refine (dif_neg hk).trans ?_
    have e : (⟨(Fin.natAdd 128 k).val - 128, by show 128 + k.val - 128 < 128; omega⟩ : Fin 128) = k :=
      Fin.ext (by show 128 + k.val - 128 = k.val; omega)
    show x1 (ix4 (0 : Fin 1) _ _ ⟨(Fin.natAdd 128 k).val - 128, _⟩) = x1 (ix4 (0 : Fin 1) _ _ k)
    rw [e]
  · rw [dif_neg h, dif_neg h]

/-- The joined weights at a channel of the first half. -/
theorem w1_left (x2 x3 : Vec Ideal ⟨3, ![9, 128, 256]⟩ .f32) (dy dx : Fin 3) (k : Fin 128) (o : Fin 256) :
    w1 x2 x3 dy dx (Fin.castAdd 128 k) o = x2 (ix3 (⟨3 * dy.val + dx.val, by omega⟩ : Fin 9) k o) := by
  unfold w1
  exact dif_pos k.isLt

/-- The joined weights at a channel of the second half. -/
theorem w1_right (x2 x3 : Vec Ideal ⟨3, ![9, 128, 256]⟩ .f32) (dy dx : Fin 3) (k : Fin 128) (o : Fin 256) :
    w1 x2 x3 dy dx (Fin.natAdd 128 k) o = x3 (ix3 (⟨3 * dy.val + dx.val, by omega⟩ : Fin 9) k o) := by
  unfold w1
  have hk : ¬ (Fin.natAdd 128 k).val < 128 := by
    show ¬ (128 + k.val < 128)
    omega
  refine (dif_neg hk).trans ?_
  have e : (⟨(Fin.natAdd 128 k).val - 128, by show 128 + k.val - 128 < 128; omega⟩ : Fin 128) = k :=
    Fin.ext (by show 128 + k.val - 128 = k.val; omega)
  show x3 (ix3 _ ⟨(Fin.natAdd 128 k).val - 128, _⟩ o) = x3 (ix3 _ k o)
  rw [e]

/-- One tap of the first convolution: the two halves the kernel adds are the specification's sum over all 256
    channels of the concatenated image. -/
theorem tap1_eq (x0 x1 : Vec Ideal ⟨4, ![1, 64, 64, 128]⟩ .f32) (x2 x3 : Vec Ideal ⟨3, ![9, 128, 256]⟩ .f32)
    (y x : Fin 64) (o : Fin 256) (dy dx : Fin 3) (ox t : ℕ) (hox : ox = dx.val + 7) (ht9 : t < 9)
    (ht : t = 3 * dy.val + dx.val) :
    half (img x0) x2 y x o dy.val ox t ht9 + half (img x1) x3 y x o dy.val ox t ht9
      = Cert.Spec.tap (Cert.Spec.pad (cat x0 x1)) (w1 x2 x3) y.val x.val o dy dx := by
  subst hox ht
  unfold Cert.Spec.tap
  refine Eq.trans ?_ (Fin.sum_univ_add (a := 128) (b := 128)
    (fun c : Fin (128 + 128) => Cert.Spec.pad (cat x0 x1) (y.val + dy.val) (x.val + dx.val) c * w1 x2 x3 dy dx c o)).symm
  refine congrArg₂ (· + ·) ?_ ?_
  · refine Finset.sum_congr rfl fun k _ => ?_
    rw [pad_cat_left, w1_left, ← padS_add_seven]
    rfl
  · refine Finset.sum_congr rfl fun k _ => ?_
    rw [pad_cat_right, w1_right, ← padS_add_seven]
    rfl

/-- One tap of the second convolution is the specification's. -/
theorem tap2_eq (f : Fin 64 → Fin 64 → Fin 256 → EReal) (x6 : Vec Ideal ⟨3, ![9, 256, 256]⟩ .f32)
    (y x : Fin 64) (o : Fin 256) (dy dx : Fin 3) (ox t : ℕ) (hox : ox = dx.val + 7) (ht9 : t < 9)
    (ht : t = 3 * dy.val + dx.val) :
    full f x6 y x o dy.val ox t ht9 = Cert.Spec.tap (Cert.Spec.pad f) (w2 x6) y.val x.val o dy dx := by
  subst hox ht
  unfold Cert.Spec.tap
  refine Finset.sum_congr rfl fun k _ => ?_
  rw [← padS_add_seven]
  rfl

/-- The kernel's order of additions for the first convolution (zero, then per tap the two halves) against the
    specification's (per tap the sum of the two halves). -/
theorem regroup18 (a0 b0 a1 b1 a2 b2 a3 b3 a4 b4 a5 b5 a6 b6 a7 b7 a8 b8 : EReal) :
    0 + a0 + b0 + a1 + b1 + a2 + b2 + a3 + b3 + a4 + b4 + a5 + b5 + a6 + b6 + a7 + b7 + a8 + b8
      = (a0 + b0) + (a1 + b1) + (a2 + b2) + (a3 + b3) + (a4 + b4) + (a5 + b5) + (a6 + b6) + (a7 + b7) + (a8 + b8) := by
  simp only [zero_add, add_assoc]

theorem add9_congr {a0 a1 a2 a3 a4 a5 a6 a7 a8 b0 b1 b2 b3 b4 b5 b6 b7 b8 : EReal} (h0 : a0 = b0) (h1 : a1 = b1)
    (h2 : a2 = b2) (h3 : a3 = b3) (h4 : a4 = b4) (h5 : a5 = b5) (h6 : a6 = b6) (h7 : a7 = b7) (h8 : a8 = b8) :
    a0 + a1 + a2 + a3 + a4 + a5 + a6 + a7 + a8 = b0 + b1 + b2 + b3 + b4 + b5 + b6 + b7 + b8 := by
  rw [h0, h1, h2, h3, h4, h5, h6, h7, h8]

/-- The first convolution: the kernel's accumulator is the specification's convolution of the concatenated image. -/
theorem conv1_eq (x0 x1 : Vec Ideal ⟨4, ![1, 64, 64, 128]⟩ .f32) (x2 x3 : Vec Ideal ⟨3, ![9, 128, 256]⟩ .f32)
    (y x : Fin 64) (o : Fin 256) :
    0 + half (img x0) x2 y x o 0 7 0 (by omega) + half (img x1) x3 y x o 0 7 0 (by omega)
        + half (img x0) x2 y x o 0 8 1 (by omega) + half (img x1) x3 y x o 0 8 1 (by omega)
        + half (img x0) x2 y x o 0 9 2 (by omega) + half (img x1) x3 y x o 0 9 2 (by omega)
        + half (img x0) x2 y x o 1 7 3 (by omega) + half (img x1) x3 y x o 1 7 3 (by omega)
        + half (img x0) x2 y x o 1 8 4 (by omega) + half (img x1) x3 y x o 1 8 4 (by omega)
        + half (img x0) x2 y x o 1 9 5 (by omega) + half (img x1) x3 y x o 1 9 5 (by omega)
        + half (img x0) x2 y x o 2 7 6 (by omega) + half (img x1) x3 y x o 2 7 6 (by omega)
        + half (img x0) x2 y x o 2 8 7 (by omega) + half (img x1) x3 y x o 2 8 7 (by omega)
        + half (img x0) x2 y x o 2 9 8 (by omega) + half (img x1) x3 y x o 2 9 8 (by omega)
      = Cert.Spec.conv (Cert.Spec.pad (cat x0 x1)) (w1 x2 x3) y.val x.val o := by
  refine (regroup18 _ _ _ _ _ _ _ _ _ _ _ _ _ _ _ _ _ _).trans ?_
  unfold Cert.Spec.conv
  exact add9_congr
    (tap1_eq x0 x1 x2 x3 y x o 0 0 7 0 rfl (by omega) rfl)
    (tap1_eq x0 x1 x2 x3 y x o 0 1 8 1 rfl (by omega) rfl)
    (tap1_eq x0 x1 x2 x3 y x o 0 2 9 2 rfl (by omega) rfl)
    (tap1_eq x0 x1 x2 x3 y x o 1 0 7 3 rfl (by omega) rfl)
    (tap1_eq x0 x1 x2 x3 y x o 1 1 8 4 rfl (by omega) rfl)
    (tap1_eq x0 x1 x2 x3 y x o 1 2 9 5 rfl (by omega) rfl)
    (tap1_eq x0 x1 x2 x3 y x o 2 0 7 6 rfl (by omega) rfl)
    (tap1_eq x0 x1 x2 x3 y x o 2 1 8 7 rfl (by omega) rfl)
    (tap1_eq x0 x1 x2 x3 y x o 2 2 9 8 rfl (by omega) rfl)

/-- The second convolution: the kernel's accumulator is the specification's convolution of the image `f`. -/
theorem conv2_eq (f : Fin 64 → Fin 64 → Fin 256 → EReal) (x6 : Vec Ideal ⟨3, ![9, 256, 256]⟩ .f32)
    (y x : Fin 64) (o : Fin 256) :
    0 + full f x6 y x o 0 7 0 (by omega) + full f x6 y x o 0 8 1 (by omega) + full f x6 y x o 0 9 2 (by omega)
        + full f x6 y x o 1 7 3 (by omega) + full f x6 y x o 1 8 4 (by omega) + full f x6 y x o 1 9 5 (by omega)
        + full f x6 y x o 2 7 6 (by omega) + full f x6 y x o 2 8 7 (by omega) + full f x6 y x o 2 9 8 (by omega)
      = Cert.Spec.conv (Cert.Spec.pad f) (w2 x6) y.val x.val o := by
  rw [zero_add]
  unfold Cert.Spec.conv
  exact add9_congr
    (tap2_eq f x6 y x o 0 0 7 0 rfl (by omega) rfl)
    (tap2_eq f x6 y x o 0 1 8 1 rfl (by omega) rfl)
    (tap2_eq f x6 y x o 0 2 9 2 rfl (by omega) rfl)
    (tap2_eq f x6 y x o 1 0 7 3 rfl (by omega) rfl)
    (tap2_eq f x6 y x o 1 1 8 4 rfl (by omega) rfl)
    (tap2_eq f x6 y x o 1 2 9 5 rfl (by omega) rfl)
    (tap2_eq f x6 y x o 2 0 7 6 rfl (by omega) rfl)
    (tap2_eq f x6 y x o 2 1 8 7 rfl (by omega) rfl)
    (tap2_eq f x6 y x o 2 2 9 8 rfl (by omega) rfl)

end Cert.ReferenceIdeal.RefConv

end
-- ==== Proof.RefConvAcc1.lean ====
/-
  The first convolution's accumulator of the reference's second kernel, read at output pixel `(y, x)` (row
  `64·y + x` of the flattened image) and output channel `o`.

  The accumulator starts at zero; for each of the nine taps, in row-major order, it receives the product of the
  skip connection's shifted padded image with the first half of the weights and then the product of the
  up-sampled image's shifted padded image with the second half. Each product at `(64·y + x, o)` is a sum over 128
  channels (`half`).
-/
import proofs.«149310_g2000303838873713_pallasbulk_17_2_alg».proof.Proof.Gen.ReferenceIdeal.Frame
import proofs.«149310_g2000303838873713_pallasbulk_17_2_alg».proof.Proof.RefConvTap
import proofs.«149310_g2000303838873713_pallasbulk_17_2_alg».proof.Proof.RefConvScratch
import proofs.«149310_g2000303838873713_pallasbulk_17_2_alg».proof.Proof.RefConvSpec

set_option maxRecDepth 16384

noncomputable section

open scoped BigOperators

namespace Cert.ReferenceIdeal.RefConv

open Idealize.ShloMosaic Idealize.ShloMosaic.ValueIdx Idealize.ShloMosaic.TcCoe
open Cert.ReferenceIdeal.Gen

/-- After the first row of taps. -/
theorem acc1_row0 (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg11 : Memref sig .tc .vmem S66x80x128 .f32) (arg12 : Memref sig .tc .vmem S66x80x128 .f32) (x0 : Vec Ideal S1x64x64x128 .f32) (x1 : Vec Ideal S1x64x64x128 .f32) (x2 : Vec Ideal S9x128x256 .f32) (x3 : Vec Ideal S9x128x256 .f32) (y x : Fin 64) (o : Fin 256) :
    kernelRun1_A.sl.r_2 (F := Ideal) c arg1 harg1 arg2 harg2 arg3 harg3 arg4 harg4 arg11 arg12 x0 x1 x2 x3 (ix2 (⟨64 * y.val + x.val, by omega⟩ : Fin 4096) o)
      = 0 + half (img x0) x2 y x o 0 7 0 (by omega) + half (img x1) x3 y x o 0 7 0 (by omega)
        + half (img x0) x2 y x o 0 8 1 (by omega) + half (img x1) x3 y x o 0 8 1 (by omega)
        + half (img x0) x2 y x o 0 9 2 (by omega) + half (img x1) x3 y x o 0 9 2 (by omega) := by
  unfold kernelRun1_A.sl.r_2 k1_pay9 kernelRun1_A.sl.r kernelRun1_A.sl.r_1 k1_pay6 k1_pay7 k1_pay8
  dsimp only
  rw [addf_apply, addf_apply, addf_apply, addf_apply, addf_apply, addf_apply, broadcast_apply]
  exact add7_congr scalar_zero
    (tap_pad _ 0 7 _ (img x0) (v18_apply c arg1 harg1 arg11 x0) _ _ (by omega) (by omega) 0 (by omega) x2 arg3 harg3 _ _ y x o)
    (tap_pad _ 0 7 _ (img x1) (v19_apply c arg2 harg2 arg12 x1) _ _ (by omega) (by omega) 0 (by omega) x3 arg4 harg4 _ _ y x o)
    (tap_pad _ 0 8 _ (img x0) (v18_apply c arg1 harg1 arg11 x0) _ _ (by omega) (by omega) 1 (by omega) x2 arg3 harg3 _ _ y x o)
    (tap_pad _ 0 8 _ (img x1) (v19_apply c arg2 harg2 arg12 x1) _ _ (by omega) (by omega) 1 (by omega) x3 arg4 harg4 _ _ y x o)
    (tap_pad _ 0 9 _ (img x0) (v18_apply c arg1 harg1 arg11 x0) _ _ (by omega) (by omega) 2 (by omega) x2 arg3 harg3 _ _ y x o)
    (tap_pad _ 0 9 _ (img x1) (v19_apply c arg2 harg2 arg12 x1) _ _ (by omega) (by omega) 2 (by omega) x3 arg4 harg4 _ _ y x o)

/-- After the second row of taps. -/
theorem acc1_row1 (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg11 : Memref sig .tc .vmem S66x80x128 .f32) (arg12 : Memref sig .tc .vmem S66x80x128 .f32) (x0 : Vec Ideal S1x64x64x128 .f32) (x1 : Vec Ideal S1x64x64x128 .f32) (x2 : Vec Ideal S9x128x256 .f32) (x3 : Vec Ideal S9x128x256 .f32) (y x : Fin 64) (o : Fin 256) :
    kernelRun1_A.sl.r_5 (F := Ideal) c arg1 harg1 arg2 harg2 arg3 harg3 arg4 harg4 arg11 arg12 x0 x1 x2 x3 (ix2 (⟨64 * y.val + x.val, by omega⟩ : Fin 4096) o)
      = kernelRun1_A.sl.r_2 (F := Ideal) c arg1 harg1 arg2 harg2 arg3 harg3 arg4 harg4 arg11 arg12 x0 x1 x2 x3 (ix2 (⟨64 * y.val + x.val, by omega⟩ : Fin 4096) o)
        + half (img x0) x2 y x o 1 7 3 (by omega) + half (img x1) x3 y x o 1 7 3 (by omega)
        + half (img x0) x2 y x o 1 8 4 (by omega) + half (img x1) x3 y x o 1 8 4 (by omega)
        + half (img x0) x2 y x o 1 9 5 (by omega) + half (img x1) x3 y x o 1 9 5 (by omega) := by
  unfold kernelRun1_A.sl.r_5 k1_pay12 kernelRun1_A.sl.r_3 kernelRun1_A.sl.r_4 k1_pay10 k1_pay11
  dsimp only
  rw [addf_apply, addf_apply, addf_apply, addf_apply, addf_apply, addf_apply]
  exact add7_congr rfl
    (tap_pad _ 1 7 _ (img x0) (v18_apply c arg1 harg1 arg11 x0) _ _ (by omega) (by omega) 3 (by omega) x2 arg3 harg3 _ _ y x o)
    (tap_pad _ 1 7 _ (img x1) (v19_apply c arg2 harg2 arg12 x1) _ _ (by omega) (by omega) 3 (by omega) x3 arg4 harg4 _ _ y x o)
    (tap_pad _ 1 8 _ (img x0) (v18_apply c arg1 harg1 arg11 x0) _ _ (by omega) (by omega) 4 (by omega) x2 arg3 harg3 _ _ y x o)
    (tap_pad _ 1 8 _ (img x1) (v19_apply c arg2 harg2 arg12 x1) _ _ (by omega) (by omega) 4 (by omega) x3 arg4 harg4 _ _ y x o)
    (tap_pad _ 1 9 _ (img x0) (v18_apply c arg1 harg1 arg11 x0) _ _ (by omega) (by omega) 5 (by omega) x2 arg3 harg3 _ _ y x o)
    (tap_pad _ 1 9 _ (img x1) (v19_apply c arg2 harg2 arg12 x1) _ _ (by omega) (by omega) 5 (by omega) x3 arg4 harg4 _ _ y x o)

/-- After the third row of taps. -/
theorem acc1_row2 (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg11 : Memref sig .tc .vmem S66x80x128 .f32) (arg12 : Memref sig .tc .vmem S66x80x128 .f32) (x0 : Vec Ideal S1x64x64x128 .f32) (x1 : Vec Ideal S1x64x64x128 .f32) (x2 : Vec Ideal S9x128x256 .f32) (x3 : Vec Ideal S9x128x256 .f32) (y x : Fin 64) (o : Fin 256) :
    kernelRun1_A.sl.r_8 (F := Ideal) c arg1 harg1 arg2 harg2 arg3 harg3 arg4 harg4 arg11 arg12 x0 x1 x2 x3 (ix2 (⟨64 * y.val + x.val, by omega⟩ : Fin 4096) o)
      = kernelRun1_A.sl.r_5 (F := Ideal) c arg1 harg1 arg2 harg2 arg3 harg3 arg4 harg4 arg11 arg12 x0 x1 x2 x3 (ix2 (⟨64 * y.val + x.val, by omega⟩ : Fin 4096) o)
        + half (img x0) x2 y x o 2 7 6 (by omega) + half (img x1) x3 y x o 2 7 6 (by omega)
        + half (img x0) x2 y x o 2 8 7 (by omega) + half (img x1) x3 y x o 2 8 7 (by omega)
        + half (img x0) x2 y x o 2 9 8 (by omega) + half (img x1) x3 y x o 2 9 8 (by omega) := by
  unfold kernelRun1_A.sl.r_8 k1_pay15 kernelRun1_A.sl.r_6 kernelRun1_A.sl.r_7 k1_pay13 k1_pay14
  dsimp only
  rw [addf_apply, addf_apply, addf_apply, addf_apply, addf_apply, addf_apply]
  exact add7_congr rfl
    (tap_pad _ 2 7 _ (img x0) (v18_apply c arg1 harg1 arg11 x0) _ _ (by omega) (by omega) 6 (by omega) x2 arg3 harg3 _ _ y x o)
    (tap_pad _ 2 7 _ (img x1) (v19_apply c arg2 harg2 arg12 x1) _ _ (by omega) (by omega) 6 (by omega) x3 arg4 harg4 _ _ y x o)
    (tap_pad _ 2 8 _ (img x0) (v18_apply c arg1 harg1 arg11 x0) _ _ (by omega) (by omega) 7 (by omega) x2 arg3 harg3 _ _ y x o)
    (tap_pad _ 2 8 _ (img x1) (v19_apply c arg2 harg2 arg12 x1) _ _ (by omega) (by omega) 7 (by omega) x3 arg4 harg4 _ _ y x o)
    (tap_pad _ 2 9 _ (img x0) (v18_apply c arg1 harg1 arg11 x0) _ _ (by omega) (by omega) 8 (by omega) x2 arg3 harg3 _ _ y x o)
    (tap_pad _ 2 9 _ (img x1) (v19_apply c arg2 harg2 arg12 x1) _ _ (by omega) (by omega) 8 (by omega) x3 arg4 harg4 _ _ y x o)

/-- The first convolution's accumulator after all nine taps. -/
theorem acc1_apply (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg11 : Memref sig .tc .vmem S66x80x128 .f32) (arg12 : Memref sig .tc .vmem S66x80x128 .f32) (x0 : Vec Ideal S1x64x64x128 .f32) (x1 : Vec Ideal S1x64x64x128 .f32) (x2 : Vec Ideal S9x128x256 .f32) (x3 : Vec Ideal S9x128x256 .f32) (y x : Fin 64) (o : Fin 256) :
    kernelRun1_A.sl.r_8 (F := Ideal) c arg1 harg1 arg2 harg2 arg3 harg3 arg4 harg4 arg11 arg12 x0 x1 x2 x3 (ix2 (⟨64 * y.val + x.val, by omega⟩ : Fin 4096) o)
      = 0 + half (img x0) x2 y x o 0 7 0 (by omega) + half (img x1) x3 y x o 0 7 0 (by omega)
        + half (img x0) x2 y x o 0 8 1 (by omega) + half (img x1) x3 y x o 0 8 1 (by omega)
        + half (img x0) x2 y x o 0 9 2 (by omega) + half (img x1) x3 y x o 0 9 2 (by omega)
        + half (img x0) x2 y x o 1 7 3 (by omega) + half (img x1) x3 y x o 1 7 3 (by omega)
        + half (img x0) x2 y x o 1 8 4 (by omega) + half (img x1) x3 y x o 1 8 4 (by omega)
        + half (img x0) x2 y x o 1 9 5 (by omega) + half (img x1) x3 y x o 1 9 5 (by omega)
        + half (img x0) x2 y x o 2 7 6 (by omega) + half (img x1) x3 y x o 2 7 6 (by omega)
        + half (img x0) x2 y x o 2 8 7 (by omega) + half (img x1) x3 y x o 2 8 7 (by omega)
        + half (img x0) x2 y x o 2 9 8 (by omega) + half (img x1) x3 y x o 2 9 8 (by omega) := by
  rw [acc1_row2, acc1_row1, acc1_row0]

end Cert.ReferenceIdeal.RefConv

end
-- ==== Proof.RefConvMid.lean ====
/-
  The image the reference's second kernel stores in its third scratch image: the first convolution's accumulator
  times the scale plus the shift, maximum with zero, as a 64 × 64 image. It is the specification's `mid`; so the third
  scratch image is `mid`, padded.
-/
import proofs.«149310_g2000303838873713_pallasbulk_17_2_alg».proof.Proof.Gen.ReferenceIdeal.Frame
import proofs.«149310_g2000303838873713_pallasbulk_17_2_alg».proof.Proof.RefConvAcc1

set_option maxRecDepth 16384

noncomputable section

open scoped BigOperators

namespace Cert.ReferenceIdeal.RefConv

open Idealize.ShloMosaic Idealize.ShloMosaic.ValueIdx Idealize.ShloMosaic.TcCoe
open Cert.ReferenceIdeal.Gen

/-- The first scale, broadcast down the rows. -/
theorem scale1_apply (c : Dev nD) (arg5 : Memref sig .tc .vmem S1x256 .f32) (harg5 : arg5.IsWhole) (x4 : Vec Ideal S1x256 .f32) (R : Fin 4096) (o : Fin 256) :
    kernelRun1_A.sl.r_9 (F := Ideal) c arg5 harg5 x4 (ix2 R o) = x4 (ix2 (0 : Fin 1) o) := by
  unfold kernelRun1_A.sl.r_9 k1_pay16
  rw [readAt_unread_whole arg5 harg5 x4 hz2]
  exact row_bcast_apply x4 _ _ (by decide) R o

/-- Scale, shift and maximum with zero, cast to an image, read at a pixel. -/
theorem pay18_apply (v128 v131 : FVec Ideal S4096x256 .f32) (arg6 : Memref sig .tc .vmem S1x256 .f32) (harg6 : arg6.IsWhole) (x5 : Vec Ideal S1x256 .f32) (y x : Fin 64) (o : Fin 256) :
    k1_pay18 (F := Ideal) v128 v131 (View.readAt (Elt Ideal) arg6.view (Rect.unit ![0, 0] S1x256.size inb_S1x256_S1x256_0_0).toLoadRect (harg6.unread x5)) (ix3 y x o)
      = max (v128 (ix2 (⟨64 * y.val + x.val, by omega⟩ : Fin 4096) o) * v131 (ix2 (⟨64 * y.val + x.val, by omega⟩ : Fin 4096) o) + x5 (ix2 (0 : Fin 1) o)) 0 := by
  unfold k1_pay18
  dsimp only
  refine (image_cast_apply _ _ _ y x o).trans ?_
  rw [maximumf_apply, addf_apply, mulf_apply, broadcast_apply, scalar_zero, readAt_unread_whole arg6 harg6 x5 hz2,
    row_bcast_apply x5 _ _ (by decide)]

/-- The stored interior of the third scratch image is the specification's intermediate image. -/
theorem mid_apply (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg5 : Memref sig .tc .vmem S1x256 .f32) (harg5 : arg5.IsWhole) (arg6 : Memref sig .tc .vmem S1x256 .f32) (harg6 : arg6.IsWhole) (arg11 : Memref sig .tc .vmem S66x80x128 .f32) (arg12 : Memref sig .tc .vmem S66x80x128 .f32) (x0 : Vec Ideal S1x64x64x128 .f32) (x1 : Vec Ideal S1x64x64x128 .f32) (x2 : Vec Ideal S9x128x256 .f32) (x3 : Vec Ideal S9x128x256 .f32) (x4 : Vec Ideal S1x256 .f32) (x5 : Vec Ideal S1x256 .f32) (a b : Fin 64) (o' : Fin 256) :
    k1_pay18 (F := Ideal)
        (kernelRun1_A.sl.r_8 c arg1 harg1 arg2 harg2 arg3 harg3 arg4 harg4 arg11 arg12 x0 x1 x2 x3)
        (kernelRun1_A.sl.r_9 c arg5 harg5 x4) (View.readAt (Elt Ideal) arg6.view (Rect.unit ![0, 0] S1x256.size inb_S1x256_S1x256_0_0).toLoadRect (harg6.unread x5)) (ix3 a b o')
      = mid x0 x1 x2 x3 x4 x5 a b o' := by
  rw [pay18_apply, scale1_apply, acc1_apply, conv1_eq]
  rfl

/-- The third scratch image: the intermediate image, padded. -/
theorem v147_mid (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg5 : Memref sig .tc .vmem S1x256 .f32) (harg5 : arg5.IsWhole) (arg6 : Memref sig .tc .vmem S1x256 .f32) (harg6 : arg6.IsWhole) (arg11 : Memref sig .tc .vmem S66x80x128 .f32) (arg12 : Memref sig .tc .vmem S66x80x128 .f32) (arg13 : Memref sig .tc .vmem S66x80x256 .f32) (x0 : Vec Ideal S1x64x64x128 .f32) (x1 : Vec Ideal S1x64x64x128 .f32) (x2 : Vec Ideal S9x128x256 .f32) (x3 : Vec Ideal S9x128x256 .f32) (x4 : Vec Ideal S1x256 .f32) (x5 : Vec Ideal S1x256 .f32) (r : Fin 66) (cc : Fin 80) (k : Fin 256) :
    kernelRun1_A.sl.v147 (F := Ideal) c arg1 harg1 arg2 harg2 arg3 harg3 arg4 harg4 arg5 harg5 arg6 harg6 arg11 arg12 arg13 x0 x1 x2 x3 x4 x5 (ix3 r cc k)
      = padS (mid x0 x1 x2 x3 x4 x5) r.val cc.val k := by
  rw [v147_apply]
  exact congrArg (fun f : Fin 64 → Fin 64 → Fin 256 → EReal => padS f r.val cc.val k)
    (funext fun a => funext fun b => funext fun o' =>
      mid_apply c arg1 harg1 arg2 harg2 arg3 harg3 arg4 harg4 arg5 harg5 arg6 harg6 arg11 arg12 x0 x1 x2 x3 x4 x5 a b o')

end Cert.ReferenceIdeal.RefConv

end
-- ==== Proof.RefConvAcc2.lean ====
/-
  The second convolution's accumulator of the reference's second kernel and the kernel's result, read at output
  pixel `(y, x)` and output channel `o`.

  The accumulator starts at zero and receives, tap by tap in row-major order, the product of the shifted padded
  intermediate image with that tap's weights: at `(64·y + x, o)` a sum over the 256 channels (`full`). The result is
  the accumulator times the second scale plus the second shift, maximum with zero: the specification's final image
  of the block.
-/
import proofs.«149310_g2000303838873713_pallasbulk_17_2_alg».proof.Proof.Gen.ReferenceIdeal.Frame
import proofs.«149310_g2000303838873713_pallasbulk_17_2_alg».proof.Proof.RefConvMid

set_option maxRecDepth 16384

noncomputable section

open scoped BigOperators

namespace Cert.ReferenceIdeal.RefConv

open Idealize.ShloMosaic Idealize.ShloMosaic.ValueIdx Idealize.ShloMosaic.TcCoe
open Cert.ReferenceIdeal.Gen

/-- After the first two taps. -/
theorem acc2_a (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S9x256x256 .f32) (harg7 : arg7.IsWhole) (arg11 : Memref sig .tc .vmem S66x80x128 .f32) (arg12 : Memref sig .tc .vmem S66x80x128 .f32) (arg13 : Memref sig .tc .vmem S66x80x256 .f32) (x0 : Vec Ideal S1x64x64x128 .f32) (x1 : Vec Ideal S1x64x64x128 .f32) (x2 : Vec Ideal S9x128x256 .f32) (x3 : Vec Ideal S9x128x256 .f32) (x4 : Vec Ideal S1x256 .f32) (x5 : Vec Ideal S1x256 .f32) (x6 : Vec Ideal S9x256x256 .f32) (y x : Fin 64) (o : Fin 256) :
    kernelRun1_A.sl.r_10 (F := Ideal) c arg1 harg1 arg2 harg2 arg3 harg3 arg4 harg4 arg5 harg5 arg6 harg6 arg7 harg7 arg11 arg12 arg13 x0 x1 x2 x3 x4 x5 x6 (ix2 (⟨64 * y.val + x.val, by omega⟩ : Fin 4096) o)
      = 0 + full (mid x0 x1 x2 x3 x4 x5) x6 y x o 0 7 0 (by omega) + full (mid x0 x1 x2 x3 x4 x5) x6 y x o 0 8 1 (by omega) := by
  unfold kernelRun1_A.sl.r_10 k1_pay19
  dsimp only
  rw [addf_apply, addf_apply, broadcast_apply]
  exact add3_congr scalar_zero
    (tap_pad _ 0 7 _ (mid x0 x1 x2 x3 x4 x5) (v147_mid c arg1 harg1 arg2 harg2 arg3 harg3 arg4 harg4 arg5 harg5 arg6 harg6 arg11 arg12 arg13 x0 x1 x2 x3 x4 x5) _ _ (by omega) (by omega) 0 (by omega) x6 arg7 harg7 _ _ y x o)
    (tap_pad _ 0 8 _ (mid x0 x1 x2 x3 x4 x5) (v147_mid c arg1 harg1 arg2 harg2 arg3 harg3 arg4 harg4 arg5 harg5 arg6 harg6 arg11 arg12 arg13 x0 x1 x2 x3 x4 x5) _ _ (by omega) (by omega) 1 (by omega) x6 arg7 harg7 _ _ y x o)

/-- After the first eight taps. -/
theorem acc2_b (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S9x256x256 .f32) (harg7 : arg7.IsWhole) (arg11 : Memref sig .tc .vmem S66x80x128 .f32) (arg12 : Memref sig .tc .vmem S66x80x128 .f32) (arg13 : Memref sig .tc .vmem S66x80x256 .f32) (x0 : Vec Ideal S1x64x64x128 .f32) (x1 : Vec Ideal S1x64x64x128 .f32) (x2 : Vec Ideal S9x128x256 .f32) (x3 : Vec Ideal S9x128x256 .f32) (x4 : Vec Ideal S1x256 .f32) (x5 : Vec Ideal S1x256 .f32) (x6 : Vec Ideal S9x256x256 .f32) (y x : Fin 64) (o : Fin 256) :
    kernelRun1_A.sl.r_13 (F := Ideal) c arg1 harg1 arg2 harg2 arg3 harg3 arg4 harg4 arg5 harg5 arg6 harg6 arg7 harg7 arg11 arg12 arg13 x0 x1 x2 x3 x4 x5 x6 (ix2 (⟨64 * y.val + x.val, by omega⟩ : Fin 4096) o)
      = kernelRun1_A.sl.r_10 (F := Ideal) c arg1 harg1 arg2 harg2 arg3 harg3 arg4 harg4 arg5 harg5 arg6 harg6 arg7 harg7 arg11 arg12 arg13 x0 x1 x2 x3 x4 x5 x6 (ix2 (⟨64 * y.val + x.val, by omega⟩ : Fin 4096) o)
        + full (mid x0 x1 x2 x3 x4 x5) x6 y x o 0 9 2 (by omega) + full (mid x0 x1 x2 x3 x4 x5) x6 y x o 1 7 3 (by omega) + full (mid x0 x1 x2 x3 x4 x5) x6 y x o 1 8 4 (by omega)
        + full (mid x0 x1 x2 x3 x4 x5) x6 y x o 1 9 5 (by omega) + full (mid x0 x1 x2 x3 x4 x5) x6 y x o 2 7 6 (by omega) + full (mid x0 x1 x2 x3 x4 x5) x6 y x o 2 8 7 (by omega) := by
  unfold kernelRun1_A.sl.r_13 k1_pay22 kernelRun1_A.sl.r_11 kernelRun1_A.sl.r_12 k1_pay20 k1_pay21
  dsimp only
  rw [addf_apply, addf_apply, addf_apply, addf_apply, addf_apply, addf_apply]
  exact add7_congr rfl
    (tap_pad _ 0 9 _ (mid x0 x1 x2 x3 x4 x5) (v147_mid c arg1 harg1 arg2 harg2 arg3 harg3 arg4 harg4 arg5 harg5 arg6 harg6 arg11 arg12 arg13 x0 x1 x2 x3 x4 x5) _ _ (by omega) (by omega) 2 (by omega) x6 arg7 harg7 _ _ y x o)
    (tap_pad _ 1 7 _ (mid x0 x1 x2 x3 x4 x5) (v147_mid c arg1 harg1 arg2 harg2 arg3 harg3 arg4 harg4 arg5 harg5 arg6 harg6 arg11 arg12 arg13 x0 x1 x2 x3 x4 x5) _ _ (by omega) (by omega) 3 (by omega) x6 arg7 harg7 _ _ y x o)
    (tap_pad _ 1 8 _ (mid x0 x1 x2 x3 x4 x5) (v147_mid c arg1 harg1 arg2 harg2 arg3 harg3 arg4 harg4 arg5 harg5 arg6 harg6 arg11 arg12 arg13 x0 x1 x2 x3 x4 x5) _ _ (by omega) (by omega) 4 (by omega) x6 arg7 harg7 _ _ y x o)
    (tap_pad _ 1 9 _ (mid x0 x1 x2 x3 x4 x5) (v147_mid c arg1 harg1 arg2 harg2 arg3 harg3 arg4 harg4 arg5 harg5 arg6 harg6 arg11 arg12 arg13 x0 x1 x2 x3 x4 x5) _ _ (by omega) (by omega) 5 (by omega) x6 arg7 harg7 _ _ y x o)
    (tap_pad _ 2 7 _ (mid x0 x1 x2 x3 x4 x5) (v147_mid c arg1 harg1 arg2 harg2 arg3 harg3 arg4 harg4 arg5 harg5 arg6 harg6 arg11 arg12 arg13 x0 x1 x2 x3 x4 x5) _ _ (by omega) (by omega) 6 (by omega) x6 arg7 harg7 _ _ y x o)
    (tap_pad _ 2 8 _ (mid x0 x1 x2 x3 x4 x5) (v147_mid c arg1 harg1 arg2 harg2 arg3 harg3 arg4 harg4 arg5 harg5 arg6 harg6 arg11 arg12 arg13 x0 x1 x2 x3 x4 x5) _ _ (by omega) (by omega) 7 (by omega) x6 arg7 harg7 _ _ y x o)

/-- The stored result: the last tap, scale, shift and maximum with zero, as a batch of one image. -/
theorem pay1_apply (c : Dev nD) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S9x256x256 .f32) (harg7 : arg7.IsWhole) (arg8 : Memref sig .tc .vmem S1x256 .f32) (harg8 : arg8.IsWhole) (arg9 : Memref sig .tc .vmem S1x256 .f32) (harg9 : arg9.IsWhole) (arg11 : Memref sig .tc .vmem S66x80x128 .f32) (arg12 : Memref sig .tc .vmem S66x80x128 .f32) (arg13 : Memref sig .tc .vmem S66x80x256 .f32) (x0 : Vec Ideal S1x64x64x128 .f32) (x1 : Vec Ideal S1x64x64x128 .f32) (x2 : Vec Ideal S9x128x256 .f32) (x3 : Vec Ideal S9x128x256 .f32) (x4 : Vec Ideal S1x256 .f32) (x5 : Vec Ideal S1x256 .f32) (x6 : Vec Ideal S9x256x256 .f32) (x7 : Vec Ideal S1x256 .f32) (x8 : Vec Ideal S1x256 .f32) (y x : Fin 64) (o : Fin 256) :
    k1_pay1 (F := Ideal)
        (kernelRun1_A.sl.r_13 c arg1 harg1 arg2 harg2 arg3 harg3 arg4 harg4 arg5 harg5 arg6 harg6 arg7 harg7 arg11 arg12 arg13 x0 x1 x2 x3 x4 x5 x6)
        (kernelRun1_A.sl.r_14 c arg1 harg1 arg2 harg2 arg3 harg3 arg4 harg4 arg5 harg5 arg6 harg6 arg11 arg12 arg13 x0 x1 x2 x3 x4 x5)
        (kernelRun1_A.sl.r_15 c arg7 harg7 x6)
        (View.readAt (Elt Ideal) arg8.view (Rect.unit ![0, 0] S1x256.size inb_S1x256_S1x256_0_0).toLoadRect (harg8.unread x7))
        (View.readAt (Elt Ideal) arg9.view (Rect.unit ![0, 0] S1x256.size inb_S1x256_S1x256_0_0).toLoadRect (harg9.unread x8))
        (ix4 (0 : Fin 1) y x o)
      = max (Cert.Spec.conv (Cert.Spec.pad (mid x0 x1 x2 x3 x4 x5)) (w2 x6) y.val x.val o * x7 (ix2 (0 : Fin 1) o)
          + x8 (ix2 (0 : Fin 1) o)) 0 := by
  unfold k1_pay1 kernelRun1_A.sl.r_14 kernelRun1_A.sl.r_15 k1_pay23 k1_pay24
  dsimp only
  refine (batch_cast_apply _ _ _ y x o).trans ?_
  rw [maximumf_apply, addf_apply, mulf_apply, addf_apply, broadcast_apply, scalar_zero,
    readAt_unread_whole arg8 harg8 x7 hz2, readAt_unread_whole arg9 harg9 x8 hz2,
    row_bcast_apply x7 _ _ (by decide), row_bcast_apply x8 _ _ (by decide)]
  refine congrArg (fun z : EReal => max (z * x7 (ix2 (0 : Fin 1) o) + x8 (ix2 (0 : Fin 1) o)) 0) ?_
  refine (add2_congr (acc2_b c arg1 harg1 arg2 harg2 arg3 harg3 arg4 harg4 arg5 harg5 arg6 harg6 arg7 harg7 arg11 arg12 arg13 x0 x1 x2 x3 x4 x5 x6 y x o)
    (tap_pad _ 2 9 _ (mid x0 x1 x2 x3 x4 x5) (v147_mid c arg1 harg1 arg2 harg2 arg3 harg3 arg4 harg4 arg5 harg5 arg6 harg6 arg11 arg12 arg13 x0 x1 x2 x3 x4 x5) _ _ (by omega) (by omega) 8 (by omega) x6 arg7 harg7 _ _ y x o)).trans ?_
  rw [acc2_a]
  exact conv2_eq (mid x0 x1 x2 x3 x4 x5) x6 y x o

end Cert.ReferenceIdeal.RefConv

end
-- ==== Proof.RefConv.lean ====
/-
  What the reference's second kernel leaves in its output block, index by index, at the exact model.

  For the skip connection's block `x0`, the up-sampled image's block `x1` (both channels-last), the first
  convolution's weights for the two channel halves `x2`, `x3`, its scale `x4` and shift `x5`, the second convolution's
  weights `x6`, scale `x7` and shift `x8`: the output block at pixel `(y, x)`, channel `o` is

    max (conv (pad MID) W2 y x o · x7 o + x8 o) 0,   MID y' x' o' = max (conv (pad CAT) W1 y' x' o' · x4 o' + x5 o') 0,

  `CAT` the concatenation of the two input images along the channels, `W1` the two weight halves joined along the
  input channels, `pad` the padding by one pixel of zeros, `conv` the nine taps added in row-major order.
-/
import proofs.«149310_g2000303838873713_pallasbulk_17_2_alg».proof.Proof.Gen.ReferenceIdeal.Frame
import proofs.«149310_g2000303838873713_pallasbulk_17_2_alg».proof.Proof.RefConvAcc2

set_option maxRecDepth 16384

noncomputable section

open scoped BigOperators

namespace Cert.ReferenceIdeal.RefConv

open Idealize.ShloMosaic Idealize.ShloMosaic.ValueIdx Idealize.ShloMosaic.TcCoe
open Cert.ReferenceIdeal.Gen

/-- The output block of the reference's second kernel, read at an index. -/
theorem out1_A_9_apply (c : Dev nD) (i : grid1.Coords) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S9x256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x64x64x256 .f32) (harg10 : arg10.IsWhole) (arg11 : Memref sig .tc .vmem S66x80x128 .f32) (harg11 : arg11.IsWhole) (arg12 : Memref sig .tc .vmem S66x80x128 .f32) (harg12 : arg12.IsWhole) (arg13 : Memref sig .tc .vmem S66x80x256 .f32) (harg13 : arg13.IsWhole)
    (x0 : Vec Ideal S1x64x64x128 .f32) (x1 : Vec Ideal S1x64x64x128 .f32) (x2 : Vec Ideal S9x128x256 .f32) (x3 : Vec Ideal S9x128x256 .f32) (x4 : Vec Ideal S1x256 .f32) (x5 : Vec Ideal S1x256 .f32) (x6 : Vec Ideal S9x256x256 .f32) (x7 : Vec Ideal S1x256 .f32) (x8 : Vec Ideal S1x256 .f32) (y x : Fin 64) (o : Fin 256) :
    out1_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix4 (0 : Fin 1) y x o)
      = max (Cert.Spec.conv (Cert.Spec.pad (mid x0 x1 x2 x3 x4 x5)) (w2 x6) y.val x.val o * x7 (ix2 (0 : Fin 1) o)
          + x8 (ix2 (0 : Fin 1) o)) 0 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)]
  unfold kernelRun1_A
  dsimp only
  refine (congrFun (View.canon_unit_zero (S := S1x64x64x256) hz4 _ _) _).trans ?_
  exact pay1_apply c arg1 harg1 arg2 harg2 arg3 harg3 arg4 harg4 arg5 harg5 arg6 harg6 arg7 harg7 arg8 harg8 arg9 harg9 arg11 arg12 arg13 x0 x1 x2 x3 x4 x5 x6 x7 x8 y x o

/-- The same with the intermediate image, the concatenation and the weights written out. -/
theorem out1_A_9_spec (c : Dev nD) (i : grid1.Coords) (arg1 : Memref sig .tc .vmem S1x64x64x128 .f32) (harg1 : arg1.IsWhole) (arg2 : Memref sig .tc .vmem S1x64x64x128 .f32) (harg2 : arg2.IsWhole) (arg3 : Memref sig .tc .vmem S9x128x256 .f32) (harg3 : arg3.IsWhole) (arg4 : Memref sig .tc .vmem S9x128x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S9x256x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x64x64x256 .f32) (harg10 : arg10.IsWhole) (arg11 : Memref sig .tc .vmem S66x80x128 .f32) (harg11 : arg11.IsWhole) (arg12 : Memref sig .tc .vmem S66x80x128 .f32) (harg12 : arg12.IsWhole) (arg13 : Memref sig .tc .vmem S66x80x256 .f32) (harg13 : arg13.IsWhole)
    (x0 : Vec Ideal S1x64x64x128 .f32) (x1 : Vec Ideal S1x64x64x128 .f32) (x2 : Vec Ideal S9x128x256 .f32) (x3 : Vec Ideal S9x128x256 .f32) (x4 : Vec Ideal S1x256 .f32) (x5 : Vec Ideal S1x256 .f32) (x6 : Vec Ideal S9x256x256 .f32) (x7 : Vec Ideal S1x256 .f32) (x8 : Vec Ideal S1x256 .f32) (y x : Fin 64) (o : Fin 256) :
    out1_A_9 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix4 (0 : Fin 1) y x o)
      = max (Cert.Spec.conv
            (Cert.Spec.pad (fun (y' x' : Fin 64) (o' : Fin 256) =>
              max (Cert.Spec.conv
                    (Cert.Spec.pad (fun (y'' x'' : Fin 64) (c' : Fin 256) =>
                      if h : c'.val < 128 then x0 (ix4 (0 : Fin 1) y'' x'' ⟨c'.val, h⟩)
                      else x1 (ix4 (0 : Fin 1) y'' x'' ⟨c'.val - 128, by omega⟩)))
                    (fun (dy dx : Fin 3) (c' o'' : Fin 256) =>
                      if h : c'.val < 128 then x2 (ix3 (⟨3 * dy.val + dx.val, by omega⟩ : Fin 9) ⟨c'.val, h⟩ o'')
                      else x3 (ix3 (⟨3 * dy.val + dx.val, by omega⟩ : Fin 9) ⟨c'.val - 128, by omega⟩ o''))
                    y'.val x'.val o' * x4 (ix2 (0 : Fin 1) o') + x5 (ix2 (0 : Fin 1) o')) 0))
            (fun (dy dx : Fin 3) (c' o' : Fin 256) => x6 (ix3 (⟨3 * dy.val + dx.val, by omega⟩ : Fin 9) c' o'))
            y.val x.val o * x7 (ix2 (0 : Fin 1) o) + x8 (ix2 (0 : Fin 1) o)) 0 :=
  out1_A_9_apply c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 y x o

end Cert.ReferenceIdeal.RefConv

end
-- ==== Proof.RefBridge.lean ====
import proofs.«149310_g2000303838873713_pallasbulk_17_2_alg».proof.Proof.RefConv
import proofs.«149310_g2000303838873713_pallasbulk_17_2_alg».proof.Proof.Spec
set_option maxRecDepth 16384
noncomputable section
namespace Cert.ReferenceIdeal.RefBridge
open Cert.ReferenceIdeal.RefConv
open Idealize.ShloMosaic Idealize.ShloMosaic.ValueIdx

/-!
  From the second kernel's blocks to the arguments.

  For batch element `n` the second kernel's nine input blocks are: the skip connection and the up-sampled image,
  channels last; the first convolution's weights cut into the two channel halves, taps numbered `3·dy + dx`; the
  second convolution's weights likewise uncut; the folded scales and shifts. Substituting them into the block-level
  result gives the specification's result at image `n`.
-/

variable (upw : (⟨4, ![256, 2, 2, 128]⟩ : Shape).Idx → EReal) (upb : (⟨1, ![128]⟩ : Shape).Idx → EReal)
  (a2 : (⟨4, ![3, 3, 256, 256]⟩ : Shape).Idx → EReal) (b1 g1 bt1 mu1 var1 : (⟨1, ![256]⟩ : Shape).Idx → EReal)
  (a8 : (⟨4, ![3, 3, 256, 256]⟩ : Shape).Idx → EReal) (b2 g2 bt2 mu2 var2 : (⟨1, ![256]⟩ : Shape).Idx → EReal)
  (a14 : (⟨4, ![8, 256, 32, 32]⟩ : Shape).Idx → EReal) (a15 : (⟨4, ![8, 128, 64, 64]⟩ : Shape).Idx → EReal)

theorem ix4_congr {n0 n1 n2 n3 : Nat} {a a' : Fin n0} {b b' : Fin n1} {c c' : Fin n2} {d d' : Fin n3}
    (ha : a = a') (hb : b = b') (hc : c = c') (hd : d = d') : ix4 a b c d = ix4 a' b' c' d' := by
  subst ha hb hc hd; rfl

theorem refFin_eq (n : Fin 8)
    (x0 x1 : Vec Ideal ⟨4, ![1, 64, 64, 128]⟩ .f32) (x2 x3 : Vec Ideal ⟨3, ![9, 128, 256]⟩ .f32)
    (x4 x5 : Vec Ideal ⟨2, ![1, 256]⟩ .f32) (x6 : Vec Ideal ⟨3, ![9, 256, 256]⟩ .f32) (x7 x8 : Vec Ideal ⟨2, ![1, 256]⟩ .f32)
    (hx0 : ∀ (y x : Fin 64) (ch : Fin 128), x0 (ix4 (0 : Fin 1) y x ch) = a15 (ix4 n ch y x))
    (hx1 : ∀ (y x : Fin 64) (oc : Fin 128), x1 (ix4 (0 : Fin 1) y x oc) = Cert.Spec.up upw upb a14 n y x oc)
    (hx2 : ∀ (t : Fin 9) (ci : Fin 128) (o : Fin 256), x2 (ix3 t ci o)
      = a2 (ix4 (⟨t.val / 3, by omega⟩ : Fin 3) (⟨t.val % 3, by omega⟩ : Fin 3) (⟨ci.val, by omega⟩ : Fin 256) o))
    (hx3 : ∀ (t : Fin 9) (ci : Fin 128) (o : Fin 256), x3 (ix3 t ci o)
      = a2 (ix4 (⟨t.val / 3, by omega⟩ : Fin 3) (⟨t.val % 3, by omega⟩ : Fin 3) (⟨ci.val + 128, by omega⟩ : Fin 256) o))
    (hx4 : ∀ o : Fin 256, x4 (ix2 (0 : Fin 1) o) = Cert.Spec.scale g1 var1 o)
    (hx5 : ∀ o : Fin 256, x5 (ix2 (0 : Fin 1) o) = Cert.Spec.shift b1 g1 bt1 mu1 var1 o)
    (hx6 : ∀ (t : Fin 9) (ci o : Fin 256), x6 (ix3 t ci o)
      = a8 (ix4 (⟨t.val / 3, by omega⟩ : Fin 3) (⟨t.val % 3, by omega⟩ : Fin 3) ci o))
    (hx7 : ∀ o : Fin 256, x7 (ix2 (0 : Fin 1) o) = Cert.Spec.scale g2 var2 o)
    (hx8 : ∀ o : Fin 256, x8 (ix2 (0 : Fin 1) o) = Cert.Spec.shift b2 g2 bt2 mu2 var2 o)
    (y x : Fin 64) (o : Fin 256) :
    max (Cert.Spec.conv (Cert.Spec.pad (mid x0 x1 x2 x3 x4 x5)) (w2 x6) y.val x.val o * x7 (ix2 (0 : Fin 1) o)
        + x8 (ix2 (0 : Fin 1) o)) 0
      = Cert.Spec.fin upw upb a2 b1 g1 bt1 mu1 var1 a8 b2 g2 bt2 mu2 var2 a14 a15 n y x o := by
  have hcat : cat x0 x1 = Cert.Spec.cat upw upb a14 a15 n := by
    funext y' x' c
    unfold cat Cert.Spec.cat
    by_cases hc : c.val < 128
    · rw [dif_pos hc, dif_pos hc, hx0]
    · rw [dif_neg hc, dif_neg hc, hx1]
  have hw1 : w1 x2 x3 = Cert.Spec.wt a2 := by
    funext dy dx c o'
    have hdy := dy.isLt
    have hdx := dx.isLt
    have hcl := c.isLt
    unfold w1 Cert.Spec.wt
    by_cases hc : c.val < 128
    · rw [dif_pos hc, hx2]
      exact congrArg a2 (ix4_congr (Fin.ext (by show (3 * dy.val + dx.val) / 3 = dy.val; omega))
        (Fin.ext (by show (3 * dy.val + dx.val) % 3 = dx.val; omega)) rfl rfl)
    · rw [dif_neg hc, hx3]
      exact congrArg a2 (ix4_congr (Fin.ext (by show (3 * dy.val + dx.val) / 3 = dy.val; omega))
        (Fin.ext (by show (3 * dy.val + dx.val) % 3 = dx.val; omega)) (Fin.ext (by show c.val - 128 + 128 = c.val; omega)) rfl)
  have hw2 : w2 x6 = Cert.Spec.wt a8 := by
    funext dy dx c o'
    have hdy := dy.isLt
    have hdx := dx.isLt
    unfold w2 Cert.Spec.wt
    rw [hx6]
    exact congrArg a8 (ix4_congr (Fin.ext (by show (3 * dy.val + dx.val) / 3 = dy.val; omega))
      (Fin.ext (by show (3 * dy.val + dx.val) % 3 = dx.val; omega)) rfl rfl)
  have hmid : mid x0 x1 x2 x3 x4 x5 = Cert.Spec.mid upw upb a2 b1 g1 bt1 mu1 var1 a14 a15 n := by
    funext y' x' o'
    unfold mid Cert.Spec.mid
    rw [hcat, hw1, hx4, hx5]
  unfold Cert.Spec.fin
  rw [hmid, hw2, hx7, hx8]

end Cert.ReferenceIdeal.RefBridge
end
-- ==== Proof.RefResult.lean ====
import proofs.«149310_g2000303838873713_pallasbulk_17_2_alg».proof.Proof.RefUpBlocks
import proofs.«149310_g2000303838873713_pallasbulk_17_2_alg».proof.Proof.RefUpEntry
import proofs.«149310_g2000303838873713_pallasbulk_17_2_alg».proof.Proof.RefUpUp
import proofs.«149310_g2000303838873713_pallasbulk_17_2_alg».proof.Proof.RefConv
import proofs.«149310_g2000303838873713_pallasbulk_17_2_alg».proof.Proof.RefBridge
set_option maxRecDepth 16384
noncomputable section
namespace Cert.ReferenceIdeal.RefResult
open Cert.ReferenceIdeal Cert.ReferenceIdeal.Gen Cert.ReferenceIdeal.RefUp Cert.ReferenceIdeal.RefConv
open Idealize.ShloMosaic Idealize.ShloMosaic.TcCoe Idealize.ShloMosaic.ValueIdx

/-!
  The reference's result is the specification's.

  The returned array is the second kernel's result array transposed to channel-major layout; image `n` of that array
  is what the second kernel leaves at its grid point `n`; there its nine input blocks are image `n` of the skip
  connection and of the first kernel's up-sampled image, the weight halves, the second weight stack and the folded
  scales and shifts — so the block-level result is the specification's result at image `n`.
-/

variable (m : (ℓ : Loc nD τ sig) → Buf (Elt Ideal) ℓ) (ρ : Dev nD → PrngReg)

theorem ref_result (c : Dev nD) :
    (W5 m ρ c (Proc.devRef .tc main_v33) : S8x256x64x64.Idx → EReal)
      = Cert.Spec.result (A0 m c) (A1 m c) (A2 m c) (A3 m c) (A4 m c) (A5 m c) (A6 m c) (A7 m c) (A8 m c) (A9 m c) (A10 m c) (A11 m c) (A12 m c) (A13 m c) (A14 m c) (A15 m c) := by
  funext j
  obtain ⟨n, o, y, x, rfl⟩ : ∃ (n : Fin 8) (o : Fin 256) (y x : Fin 64), j = ix4 n o y x := ⟨j 0, j 1, j 2, j 3, eq_ix4 j⟩
  rw [tail_apply, out1_apply]
  unfold outsAt1
  rw [out1_A_9_apply]
  exact Cert.ReferenceIdeal.RefBridge.refFin_eq (A0 m c) (A1 m c) (A2 m c) (A3 m c) (A4 m c) (A5 m c) (A6 m c) (A7 m c) (A8 m c) (A9 m c) (A10 m c) (A11 m c) (A12 m c) (A13 m c) (A14 m c) (A15 m c) n _ _ _ _ _ _ _ _ _
    (fun y x ch => (iblk1_0_apply (V3 m ρ) c n y x ch).trans (v1_apply m ρ c n y x ch))
    (fun y x oc => (iblk1_1_apply (V3 m ρ) c n y x oc).trans (up_eq m ρ c n y x oc))
    (fun t ci o => (congrFun (iblk1_2_eq (V3 m ρ) c (pt1 n)) _).trans (v24_apply m ρ c t ci o))
    (fun t ci o => (congrFun (iblk1_3_eq (V3 m ρ) c (pt1 n)) _).trans (v26_apply m ρ c t ci o))
    (fun o => (congrFun (iblk1_4_eq (V3 m ρ) c (pt1 n)) _).trans (v28_apply m ρ c o))
    (fun o => (congrFun (iblk1_5_eq (V3 m ρ) c (pt1 n)) _).trans (v29_apply m ρ c o))
    (fun t ci o => (congrFun (iblk1_6_eq (V3 m ρ) c (pt1 n)) _).trans (v27_apply m ρ c t ci o))
    (fun o => (congrFun (iblk1_7_eq (V3 m ρ) c (pt1 n)) _).trans (v30_apply m ρ c o))
    (fun o => (congrFun (iblk1_8_eq (V3 m ρ) c (pt1 n)) _).trans (v31_apply m ρ c o))
    y x o

end Cert.ReferenceIdeal.RefResult
end
-- ==== Proof.Algebraic.lean ====
import proofs.«149310_g2000303838873713_pallasbulk_17_2_alg».proof.Defs
import proofs.«149310_g2000303838873713_pallasbulk_17_2_alg».proof.Proof.KRun
import proofs.«149310_g2000303838873713_pallasbulk_17_2_alg».proof.Proof.KResult
import proofs.«149310_g2000303838873713_pallasbulk_17_2_alg».proof.Proof.RefRun
import proofs.«149310_g2000303838873713_pallasbulk_17_2_alg».proof.Proof.RefResult
import proofs.«149310_g2000303838873713_pallasbulk_17_2_alg».proof.Proof.Gen.Pre_finite_inputs
set_option maxRecDepth 16384
noncomputable section
namespace Cert.Proof

open Idealize.ShloMosaic Idealize.ShloMosaic.TcCoe Idealize.SL.Sem

/-- At the exact level the fused kernel and the reference, run from memories that agree on the sixteen arguments,
    both terminate without a fault, leave the arguments unchanged, and return the same array: each returns the
    specification's result of the arguments — the kernel by its body's value at every grid point written back and
    transposed, the reference by its two kernels' values composed through its host operations. No property of the
    inputs is used: the two programs differ only in the order and grouping of additions. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.result (Cert.KernelIdeal.KHost.A0 m c) (Cert.KernelIdeal.KHost.A1 m c) (Cert.KernelIdeal.KHost.A2 m c) (Cert.KernelIdeal.KHost.A3 m c) (Cert.KernelIdeal.KHost.A4 m c) (Cert.KernelIdeal.KHost.A5 m c) (Cert.KernelIdeal.KHost.A6 m c) (Cert.KernelIdeal.KHost.A7 m c) (Cert.KernelIdeal.KHost.A8 m c) (Cert.KernelIdeal.KHost.A9 m c) (Cert.KernelIdeal.KHost.A10 m c) (Cert.KernelIdeal.KHost.A11 m c) (Cert.KernelIdeal.KHost.A12 m c) (Cert.KernelIdeal.KHost.A13 m c) (Cert.KernelIdeal.KHost.A14 m c) (Cert.KernelIdeal.KHost.A15 m c), ?_, ?_⟩
  · exact (θ_run Cert.KernelIdeal.defs _ _).mono
      (fun _ h c => ⟨((h c).1).trans (Cert.KernelIdeal.KResult.kernel_result m c), (h c).2⟩)
      (Cert.KernelIdeal.KRun.run_result m ρ)
  · refine (θ_run Cert.ReferenceIdeal.defs _ _).mono (fun _ h c => ⟨((h c).1).trans ?_, (h c).2⟩)
      (Cert.ReferenceIdeal.RefRun.run_result (F := Ideal) m' ρ')
    refine (Cert.ReferenceIdeal.RefResult.ref_result m' ρ' c).trans ?_
    obtain ⟨e0, e1, e2, e3, e4, e5, e6, e7, e8, e9, e10, e11, e12, e13, e14, e15⟩ := hagree c
    show Cert.Spec.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      = Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
    rw [e0, e1, e2, e3, e4, e5, e6, e7, e8, e9, e10, e11, e12, e13, e14, e15]

end Cert.Proof
end
-- ==== Proof.lean ====
/-
  The fused up-sampling block against its two-kernel reference.

  Both programs compute, for each of eight images, a transposed convolution of stride two (one matrix product
  with the tiled bias added), its channel-wise concatenation with a skip connection, and two zero-padded
  3×3 convolutions, each followed by a per-channel scale and shift folded from batch-norm statistics and a
  maximum with zero. The fused kernel does all of it in one body per image, over two scratch arrays; the
  reference uses one kernel for the transposed convolution and one for the two convolutions.

  The three frames: each program terminates without a fault from every memory in which the inputs are
  finite, and leaves its sixteen argument arrays unchanged. For the fused kernel, at the word level and at
  the exact level alike, this is the run of its body at a symbolic grid point followed by the pipeline's
  launch; for the reference it is the generated frame of its two regions. The idealization rewrote nothing,
  so its conjunct is trivial.

  The value claim: at the exact level both programs return, for every image, output channel and pixel, the
  same extended real — the specification's result of the sixteen arguments. On the kernel's side the two
  scratch arrays are read back as zero-padded images (the concatenated input, then the intermediate image),
  every tap of a 3×3 convolution over the flattened padded image is a row shift of one matrix, and the
  stored block is the second convolution's result; on the reference's side the first kernel's blocks assemble
  the up-sampled image and the second kernel adds, tap by tap, the products over the two channel halves.
  The two sides differ in how the sums are grouped and ordered, which the extended reals do not see.
-/
import proofs.«149310_g2000303838873713_pallasbulk_17_2_alg».proof.Defs
import proofs.«149310_g2000303838873713_pallasbulk_17_2_alg».proof.Proof.Gen.Kernel
import proofs.«149310_g2000303838873713_pallasbulk_17_2_alg».proof.Proof.Gen.KernelIdeal
import proofs.«149310_g2000303838873713_pallasbulk_17_2_alg».proof.Proof.Gen.ReferenceIdeal
import proofs.«149310_g2000303838873713_pallasbulk_17_2_alg».proof.Proof.Gen.ReferenceIdeal.Frame
import proofs.«149310_g2000303838873713_pallasbulk_17_2_alg».proof.Proof.Gen.Pre_finite_inputs
import proofs.«149310_g2000303838873713_pallasbulk_17_2_alg».proof.Proof.KernelBody
import proofs.«149310_g2000303838873713_pallasbulk_17_2_alg».proof.Proof.KernelIdealBody
import proofs.«149310_g2000303838873713_pallasbulk_17_2_alg».proof.Proof.RefRun
import proofs.«149310_g2000303838873713_pallasbulk_17_2_alg».proof.Proof.Algebraic
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts := fun m ρ _ =>
  Cert.Kernel.Gen.frame_of m ρ (Cert.Kernel.Body.dats m) (Cert.Kernel.Body.A_eq m) (Cert.Kernel.Body.run_main (F := Bits) m ρ)

theorem frame_ki : @Cert.frame_KernelIdeal Cert.KernelIdeal.Gen.facts Cert.Pre_finite_inputs.Gen.facts := fun m ρ _ =>
  Cert.KernelIdeal.Gen.frame_of m ρ (Cert.KernelIdeal.Body.dats m) (Cert.KernelIdeal.Body.A_eq m) (Cert.KernelIdeal.Body.run_main (F := Ideal) m ρ)

theorem frame_ri : @Cert.frame_ReferenceIdeal Cert.ReferenceIdeal.Gen.facts Cert.Pre_finite_inputs.Gen.facts := fun m ρ _ =>
  Cert.ReferenceIdeal.Gen.frame m ρ

theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
